-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v62)) (v1 : (c : Dev Cert.KernelIdeal.nD) → Buf (Elt Ideal) ((c.tc : Thread Cert.KernelIdeal.nD Cert.KernelIdeal.τ).loc Cert.KernelIdeal.main_v70)) (v2 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_v70) = v1 c
          ∧ r.2.mem ((c.tc : Thread Cert.KernelIdeal.nD Cert.KernelIdeal.τ).loc Cert.KernelIdeal.main_v71) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_v127) = v1 c
          ∧ r.2.mem ((c.tc : Thread Cert.ReferenceIdeal.nD Cert.ReferenceIdeal.τ).loc Cert.ReferenceIdeal.main_v128) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x64 : Shape := ⟨2, ![800000, 64]⟩
abbrev S800000 : Shape := ⟨1, ![800000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part6 {F : FTy → Type} [FloatOps F] (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  main_v103

def fn_part5 {F : FTy → Type} [FloatOps F] (main_arg20 : FVec F S64 .f32) (main_arg21 : FVec F S64 .f32) (main_arg22 : FVec F S64 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64 .f32 := Host.absf main_arg20
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64 .f32 := Host.absf main_arg21
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64 .f32 := Host.absf main_arg22
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_v98 main_v101 main_c_39

def fn_part4 {F : FTy → Type} [FloatOps F] (main_arg16 : FVec F S64 .f32) (main_arg17 : FVec F S64x64 .f32) (main_arg18 : FVec F S64 .f32) (main_arg19 : FVec F S64 .f32) (main_arg20 : FVec F S64 .f32) (main_arg21 : FVec F S64 .f32) (main_arg22 : FVec F S64 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x64 .f32 := Host.absf main_arg17
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64 .f32 := Host.absf main_arg19
  let main_cst_32 : FVec F S_ .f32 := constant S_ .f32 0x7F800000#32
  fn_part5 (F := F) main_arg20 main_arg21 main_arg22 main_v83 main_v84 main_cst_32

def fn_part3 {F : FTy → Type} [FloatOps F] (main_arg13 : FVec F S64x64 .f32) (main_arg14 : FVec F S64 .f32) (main_arg15 : FVec F S64x64 .f32) (main_arg16 : FVec F S64 .f32) (main_arg17 : FVec F S64x64 .f32) (main_arg18 : FVec F S64 .f32) (main_arg19 : FVec F S64 .f32) (main_arg20 : FVec F S64 .f32) (main_arg21 : FVec F S64 .f32) (main_arg22 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg13
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg15
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg16 main_arg17 main_arg18 main_arg19 main_arg20 main_arg21 main_arg22 main_v63 main_v67

def fn_part2 {F : FTy → Type} [FloatOps F] (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S64x64 .f32) (main_arg16 : FVec F S64 .f32) (main_arg17 : FVec F S64x64 .f32) (main_arg18 : FVec F S64 .f32) (main_arg19 : FVec F S64 .f32) (main_arg20 : FVec F S64 .f32) (main_arg21 : FVec F S64 .f32) (main_arg22 : FVec F S64 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_arg19 main_arg20 main_arg21 main_arg22 main_v48 main_v49 main_v50

def fn_part1 {F : FTy → Type} [FloatOps F] (main_arg6 : FVec F S64 .f32) (main_arg7 : FVec F S128x64 .f32) (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S64x64 .f32) (main_arg16 : FVec F S64 .f32) (main_arg17 : FVec F S64x64 .f32) (main_arg18 : FVec F S64 .f32) (main_arg19 : FVec F S64 .f32) (main_arg20 : FVec F S64 .f32) (main_arg21 : FVec F S64 .f32) (main_arg22 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_v33

def fn {F : FTy → Type} [FloatOps F] (main_arg0 : FVec F S50000x64 .f32) (main_arg1 : FVec F S800000x64 .f32) (main_arg2 : FVec F S50000x64 .f32) (main_arg3 : IVec S800000 32) (main_arg4 : IVec S800000 32) (main_arg5 : FVec F S128x64 .f32) (main_arg6 : FVec F S64 .f32) (main_arg7 : FVec F S128x64 .f32) (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S64x64 .f32) (main_arg16 : FVec F S64 .f32) (main_arg17 : FVec F S64x64 .f32) (main_arg18 : FVec F S64 .f32) (main_arg19 : FVec F S64 .f32) (main_arg20 : FVec F S64 .f32) (main_arg21 : FVec F S64 .f32) (main_arg22 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S50000x64 .f32 := Host.absf main_arg2
  let main_cst_2 : FVec F S_ .f32 := constant S_ .f32 0x7F800000#32
  let main_v10 : FVec F S50000x64 .f32 := broadcastInDim S50000x64 ![] bcast_S_S50000x64 main_cst_2
  let main_v11 : IVec S50000x64 1 := cmpf .olt main_v9 main_v10
  let main_c_3 : IVec S_ 1 := constantI S_ 1 1#1
  let main_v12 : IVec S_ 1 := (fun x v => Host.reduce IntOp.andi x v reducesTo_S50000x64_S_d0_1 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S50000x64 : Shape := ⟨2, ![50000, 64]⟩
abbrev S800000x64 : Shape := ⟨2, ![800000, 64]⟩
abbrev S800000 : Shape := ⟨1, ![800000]⟩
abbrev S128x64 : Shape := ⟨2, ![128, 64]⟩
abbrev S64 : Shape := ⟨1, ![64]⟩
abbrev S64x64 : Shape := ⟨2, ![64, 64]⟩
abbrev S50000x128 : Shape := ⟨2, ![50000, 128]⟩
abbrev S10000x128 : Shape := ⟨2, ![10000, 128]⟩
abbrev S10000x64 : Shape := ⟨2, ![10000, 64]⟩
abbrev S1x64 : Shape := ⟨2, ![1, 64]⟩
abbrev S_ : Shape := ⟨0, ![]⟩
abbrev S800000x1 : Shape := ⟨2, ![800000, 1]⟩
abbrev S5000x64 : Shape := ⟨2, ![5000, 64]⟩

abbrev nBuf : Space → Nat
  | .hbm => 116
  | .vmem => 88
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S50000x64, .f32⟩
  | .hbm, ⟨3, _⟩ => ⟨S800000, .i32⟩
  | .hbm, ⟨4, _⟩ => ⟨S800000, .i32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S64x64, .f32⟩
  | .hbm, ⟨16, _⟩ => ⟨S64, .f32⟩
  | .hbm, ⟨17, _⟩ => ⟨S64x64, .f32⟩
  | .hbm, ⟨18, _⟩ => ⟨S64, .f32⟩
  | .hbm, ⟨19, _⟩ => ⟨S64, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S50000x128, .f32⟩
  | .hbm, ⟨24, _⟩ => ⟨S50000x64, .f32⟩
  | .hbm, ⟨25, _⟩ => ⟨S50000x64, .f32⟩
  | .hbm, ⟨26, _⟩ => ⟨S50000x64, .f32⟩
  | .hbm, ⟨27, _⟩ => ⟨S50000x64, .f32⟩
  | .hbm, ⟨28, _⟩ => ⟨S50000x64, .f32⟩
  | .hbm, ⟨29, _⟩ => ⟨S50000x64, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x64, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x64, .f32⟩
  | .hbm, ⟨48, _⟩ => ⟨S800000x64, .f32⟩
  | .hbm, ⟨49, _⟩ => ⟨S800000x64, .f32⟩
  | .hbm, ⟨50, _⟩ => ⟨S_, .f32⟩
  | .hbm, ⟨51, _⟩ => ⟨S50000x64, .f32⟩
  | .hbm, ⟨52, _⟩ => ⟨S800000x1, .i32⟩
  | .hbm, ⟨53, _⟩ => ⟨S50000x64, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x64, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x64, .f32⟩
  | .hbm, ⟨72, _⟩ => ⟨S_, .i32⟩
  | .hbm, ⟨73, _⟩ => ⟨S800000, .i32⟩
  | .hbm, ⟨74, _⟩ => ⟨S800000, .i1⟩
  | .hbm, ⟨75, _⟩ => ⟨S_, .i32⟩
  | .hbm, ⟨76, _⟩ => ⟨S800000, .i32⟩
  | .hbm, ⟨77, _⟩ => ⟨S800000, .i32⟩
  | .hbm, ⟨78, _⟩ => ⟨S800000, .i32⟩
  | .hbm, ⟨79, _⟩ => ⟨S800000x1, .i32⟩
  | .hbm, ⟨80, _⟩ => ⟨S800000x64, .f32⟩
  | .hbm, ⟨81, _⟩ => ⟨S800000x64, .f32⟩
  | .hbm, ⟨82, _⟩ => ⟨S800000x64, .f32⟩
  | .hbm, ⟨83, _⟩ => ⟨S_, .f32⟩
  | .hbm, ⟨84, _⟩ => ⟨S50000x64, .f32⟩
  | .hbm, ⟨85, _⟩ => ⟨S800000x1, .i32⟩
  | .hbm, ⟨86, _⟩ => ⟨S50000x64, .f32⟩
  | .hbm, ⟨87, _⟩ => ⟨S_, .f32⟩
  | .hbm, ⟨88, _⟩ => ⟨S50000x64, .f32⟩
  | .hbm, ⟨89, _⟩ => ⟨S800000x1, .i32⟩
  | .hbm, ⟨90, _⟩ => ⟨S50000x64, .f32⟩
  | .hbm, ⟨91, _⟩ => ⟨S50000x64, .f32⟩
  | .hbm, ⟨92, _⟩ => ⟨S50000x64, .f32⟩
  | .hbm, ⟨93, _⟩ => ⟨S1x64, .f32⟩
  | .hbm, ⟨94, _⟩ => ⟨S1x64, .f32⟩
  | .hbm, ⟨95, _⟩ => ⟨S_, .f32⟩
  | .hbm, ⟨96, _⟩ => ⟨S1x64, .f32⟩
  | .hbm, ⟨97, _⟩ => ⟨S1x64, .f32⟩
  | .hbm, ⟨98, _⟩ => ⟨S_, .f32⟩
  | .hbm, ⟨99, _⟩ => ⟨S1x64, .f32⟩
  | .hbm, ⟨100, _⟩ => ⟨S1x64, .f32⟩
  | .hbm, ⟨101, _⟩ => ⟨S1x64, .f32⟩
  | .hbm, ⟨102, _⟩ => ⟨S1x64, .f32⟩
  | .hbm, ⟨103, _⟩ => ⟨S50000x64, .f32⟩
  | .hbm, ⟨104, _⟩ => ⟨S1x64, .f32⟩
  | .hbm, ⟨105, _⟩ => ⟨S1x64, .f32⟩
  | .hbm, ⟨106, _⟩ => ⟨S_, .f32⟩
  | .hbm, ⟨107, _⟩ => ⟨S1x64, .f32⟩
  | .hbm, ⟨108, _⟩ => ⟨S1x64, .f32⟩
  | .hbm, ⟨109, _⟩ => ⟨S_, .f32⟩
  | .hbm, ⟨110, _⟩ => ⟨S1x64, .f32⟩
  | .hbm, ⟨111, _⟩ => ⟨S1x64, .f32⟩
  | .hbm, ⟨112, _⟩ => ⟨S1x64, .f32⟩
  | .hbm, ⟨113, _⟩ => ⟨S1x64, .f32⟩
  | .hbm, ⟨114, _⟩ => ⟨S800000x64, .f32⟩
  | .hbm, ⟨115, _⟩ => ⟨S50000x64, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S64, .f32⟩
  | .local _ .vmem, ⟨4, _⟩ => ⟨S10000x64, .f32⟩
  | .local _ .vmem, ⟨5, _⟩ => ⟨S10000x64, .f32⟩
  | .local _ .vmem, ⟨6, _⟩ => ⟨S10000x128, .f32⟩
  | .local _ .vmem, ⟨7, _⟩ => ⟨S10000x128, .f32⟩
  | .local _ .vmem, ⟨8, _⟩ => ⟨S128x64, .f32⟩
  | .local _ .vmem, ⟨9, _⟩ => ⟨S64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S64x64, .f32⟩
  | .local _ .vmem, ⟨15, _⟩ => ⟨S64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S64x64, .f32⟩
  | .local _ .vmem, ⟨21, _⟩ => ⟨S64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S64x64, .f32⟩
  | .local _ .vmem, ⟨27, _⟩ => ⟨S64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S10000x64, .f32⟩
  | .local _ .vmem, ⟨32, _⟩ => ⟨S64x64, .f32⟩
  | .local _ .vmem, ⟨33, _⟩ => ⟨S64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S10000x64, .f32⟩
  | .local _ .vmem, ⟨38, _⟩ => ⟨S10000x64, .f32⟩
  | .local _ .vmem, ⟨39, _⟩ => ⟨S10000x64, .f32⟩
  | .local _ .vmem, ⟨40, _⟩ => ⟨S10000x64, .f32⟩
  | .local _ .vmem, ⟨41, _⟩ => ⟨S10000x64, .f32⟩
  | .local _ .vmem, ⟨42, _⟩ => ⟨S64x64, .f32⟩
  | .local _ .vmem, ⟨43, _⟩ => ⟨S64, .f32⟩
  | .local _ .vmem, ⟨44, _⟩ => ⟨S10000x64, .f32⟩
  | .local _ .vmem, ⟨45, _⟩ => ⟨S10000x64, .f32⟩
  | .local _ .vmem, ⟨46, _⟩ => ⟨S10000x64, .f32⟩
  | .local _ .vmem, ⟨47, _⟩ => ⟨S10000x64, .f32⟩
  | .local _ .vmem, ⟨48, _⟩ => ⟨S5000x64, .f32⟩
  | .local _ .vmem, ⟨49, _⟩ => ⟨S5000x64, .f32⟩
  | .local _ .vmem, ⟨50, _⟩ => ⟨S5000x64, .f32⟩
  | .local _ .vmem, ⟨51, _⟩ => ⟨S5000x64, .f32⟩
  | .local _ .vmem, ⟨52, _⟩ => ⟨S5000x64, .f32⟩
  | .local _ .vmem, ⟨53, _⟩ => ⟨S5000x64, .f32⟩
  | .local _ .vmem, ⟨54, _⟩ => ⟨S5000x64, .f32⟩
  | .local _ .vmem, ⟨55, _⟩ => ⟨S5000x64, .f32⟩
  | .local _ .vmem, ⟨56, _⟩ => ⟨S5000x64, .f32⟩
  | .local _ .vmem, ⟨57, _⟩ => ⟨S5000x64, .f32⟩
  | .local _ .vmem, ⟨58, _⟩ => ⟨S5000x64, .f32⟩
  | .local _ .vmem, ⟨59, _⟩ => ⟨S5000x64, .f32⟩
  | .local _ .vmem, ⟨60, _⟩ => ⟨S10000x64, .f32⟩
  | .local _ .vmem, ⟨61, _⟩ => ⟨S10000x64, .f32⟩
  | .local _ .vmem, ⟨62, _⟩ => ⟨S1x64, .f32⟩
  | .local _ .vmem, ⟨63, _⟩ => ⟨S1x64, .f32⟩
  | .local _ .vmem, ⟨64, _⟩ => ⟨S10000x64, .f32⟩
  | .local _ .vmem, ⟨65, _⟩ => ⟨S10000x64, .f32⟩
  | .local _ .vmem, ⟨66, _⟩ => ⟨S1x64, .f32⟩
  | .local _ .vmem, ⟨67, _⟩ => ⟨S1x64, .f32⟩
  | .local _ .vmem, ⟨68, _⟩ => ⟨S64, .f32⟩
  | .local _ .vmem, ⟨69, _⟩ => ⟨S64, .f32⟩
  | .local _ .vmem, ⟨70, _⟩ => ⟨S10000x64, .f32⟩
  | .local _ .vmem, ⟨71, _⟩ => ⟨S10000x64, .f32⟩
  | .local _ .vmem, ⟨72, _⟩ => ⟨S10000x64, .f32⟩
  | .local _ .vmem, ⟨73, _⟩ => ⟨S10000x64, .f32⟩
  | .local _ .vmem, ⟨74, _⟩ => ⟨S1x64, .f32⟩
  | .local _ .vmem, ⟨75, _⟩ => ⟨S1x64, .f32⟩
  | .local _ .vmem, ⟨76, _⟩ => ⟨S10000x64, .f32⟩
  | .local _ .vmem, ⟨77, _⟩ => ⟨S10000x64, .f32⟩
  | .local _ .vmem, ⟨78, _⟩ => ⟨S1x64, .f32⟩
  | .local _ .vmem, ⟨79, _⟩ => ⟨S1x64, .f32⟩
  | .local _ .vmem, ⟨80, _⟩ => ⟨S64, .f32⟩
  | .local _ .vmem, ⟨81, _⟩ => ⟨S64, .f32⟩
  | .local _ .vmem, ⟨82, _⟩ => ⟨S10000x64, .f32⟩
  | .local _ .vmem, ⟨83, _⟩ => ⟨S10000x64, .f32⟩
  | .local _ .vmem, ⟨84, _⟩ => ⟨S10000x64, .f32⟩
  | .local _ .vmem, ⟨85, _⟩ => ⟨S10000x64, .f32⟩
  | .local _ .vmem, ⟨86, _⟩ => ⟨S10000x64, .f32⟩
  | .local _ .vmem, ⟨87, _⟩ => ⟨S10000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | _, _ => false

abbrev semScoped : Fin 0 → Bool
  | ⟨_, h⟩ => absurd h (Nat.not_lt_zero _)

abbrev dmaSemScoped : Fin 88 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | _ => false

abbrev sig : RefSig :=
  ofTc nBuf bufTy 0 88 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_c : Ref sig .tc := ⟨.hbm, 30, rfl⟩
abbrev main_v7 : Ref sig .tc := ⟨.hbm, 31, rfl⟩
abbrev main_v8 : Ref sig .tc := ⟨.hbm, 32, rfl⟩
abbrev main_c_0 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_c_1 : Ref sig .tc := ⟨.hbm, 39, rfl⟩
abbrev main_v14 : Ref sig .tc := ⟨.hbm, 40, rfl⟩
abbrev main_v15 : Ref sig .tc := ⟨.hbm, 41, rfl⟩
abbrev main_c_2 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21_0 : Ref sig .tc := ⟨.hbm, 48, rfl⟩
abbrev main_v21_1 : Ref sig .tc := ⟨.hbm, 49, rfl⟩
abbrev main_cst : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_c_3 : Ref sig .tc := ⟨.hbm, 54, rfl⟩
abbrev main_v25 : Ref sig .tc := ⟨.hbm, 55, rfl⟩
abbrev main_v26 : Ref sig .tc := ⟨.hbm, 56, rfl⟩
abbrev main_c_4 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_c_5 : Ref sig .tc := ⟨.hbm, 63, rfl⟩
abbrev main_v32 : Ref sig .tc := ⟨.hbm, 64, rfl⟩
abbrev main_v33 : Ref sig .tc := ⟨.hbm, 65, rfl⟩
abbrev main_c_6 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_c_7 : Ref sig .tc := ⟨.hbm, 72, rfl⟩
abbrev main_v39 : Ref sig .tc := ⟨.hbm, 73, rfl⟩
abbrev main_v40 : Ref sig .tc := ⟨.hbm, 74, rfl⟩
abbrev main_c_8 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46_0 : Ref sig .tc := ⟨.hbm, 81, rfl⟩
abbrev main_v46_1 : Ref sig .tc := ⟨.hbm, 82, rfl⟩
abbrev main_cst_9 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_cst_10 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55_0 : Ref sig .tc := ⟨.hbm, 93, rfl⟩
abbrev main_v55_1 : Ref sig .tc := ⟨.hbm, 94, rfl⟩
abbrev main_cst_11 : Ref sig .tc := ⟨.hbm, 95, rfl⟩
abbrev main_v56 : Ref sig .tc := ⟨.hbm, 96, rfl⟩
abbrev main_v57 : Ref sig .tc := ⟨.hbm, 97, rfl⟩
abbrev main_cst_12 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63_0 : Ref sig .tc := ⟨.hbm, 104, rfl⟩
abbrev main_v63_1 : Ref sig .tc := ⟨.hbm, 105, rfl⟩
abbrev main_cst_13 : Ref sig .tc := ⟨.hbm, 106, rfl⟩
abbrev main_v64 : Ref sig .tc := ⟨.hbm, 107, rfl⟩
abbrev main_v65 : Ref sig .tc := ⟨.hbm, 108, rfl⟩
abbrev main_cst_14 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg1_1 : Ref sig .tc := ⟨.vmem, 39, rfl⟩
abbrev cc6_stg2_0 : Ref sig .tc := ⟨.vmem, 40, rfl⟩
abbrev cc6_stg2_1 : Ref sig .tc := ⟨.vmem, 41, rfl⟩
abbrev cc6_stg3_0 : Ref sig .tc := ⟨.vmem, 42, rfl⟩
abbrev cc6_stg4_0 : Ref sig .tc := ⟨.vmem, 43, rfl⟩
abbrev cc6_stg5_0 : Ref sig .tc := ⟨.vmem, 44, rfl⟩
abbrev cc6_stg5_1 : Ref sig .tc := ⟨.vmem, 45, rfl⟩
abbrev cc6_stg6_0 : Ref sig .tc := ⟨.vmem, 46, rfl⟩
abbrev cc6_stg6_1 : Ref sig .tc := ⟨.vmem, 47, rfl⟩
abbrev cc7_stg0_0 : Ref sig .tc := ⟨.vmem, 48, rfl⟩
abbrev cc7_stg0_1 : Ref sig .tc := ⟨.vmem, 49, rfl⟩
abbrev cc7_stg1_0 : Ref sig .tc := ⟨.vmem, 50, rfl⟩
abbrev cc7_stg1_1 : Ref sig .tc := ⟨.vmem, 51, rfl⟩
abbrev cc7_stg2_0 : Ref sig .tc := ⟨.vmem, 52, rfl⟩
abbrev cc7_stg2_1 : Ref sig .tc := ⟨.vmem, 53, rfl⟩
abbrev cc7_stg3_0 : Ref sig .tc := ⟨.vmem, 54, rfl⟩
abbrev cc7_stg3_1 : Ref sig .tc := ⟨.vmem, 55, rfl⟩
abbrev cc7_stg4_0 : Ref sig .tc := ⟨.vmem, 56, rfl⟩
abbrev cc7_stg4_1 : Ref sig .tc := ⟨.vmem, 57, rfl⟩
abbrev cc7_stg5_0 : Ref sig .tc := ⟨.vmem, 58, rfl⟩
abbrev cc7_stg5_1 : Ref sig .tc := ⟨.vmem, 59, rfl⟩
abbrev cc8_stg0_0 : Ref sig .tc := ⟨.vmem, 60, rfl⟩
abbrev cc8_stg0_1 : Ref sig .tc := ⟨.vmem, 61, rfl⟩
abbrev cc8_stg1_0 : Ref sig .tc := ⟨.vmem, 62, rfl⟩
abbrev cc8_stg2_0 : Ref sig .tc := ⟨.vmem, 63, rfl⟩
abbrev cc9_stg0_0 : Ref sig .tc := ⟨.vmem, 64, rfl⟩
abbrev cc9_stg0_1 : Ref sig .tc := ⟨.vmem, 65, rfl⟩
abbrev cc9_stg1_0 : Ref sig .tc := ⟨.vmem, 66, rfl⟩
abbrev cc9_stg2_0 : Ref sig .tc := ⟨.vmem, 67, rfl⟩
abbrev cc9_stg3_0 : Ref sig .tc := ⟨.vmem, 68, rfl⟩
abbrev cc9_stg4_0 : Ref sig .tc := ⟨.vmem, 69, rfl⟩
abbrev cc9_stg5_0 : Ref sig .tc := ⟨.vmem, 70, rfl⟩
abbrev cc9_stg5_1 : Ref sig .tc := ⟨.vmem, 71, rfl⟩
abbrev cc10_stg0_0 : Ref sig .tc := ⟨.vmem, 72, rfl⟩
abbrev cc10_stg0_1 : Ref sig .tc := ⟨.vmem, 73, rfl⟩
abbrev cc10_stg1_0 : Ref sig .tc := ⟨.vmem, 74, rfl⟩
abbrev cc10_stg2_0 : Ref sig .tc := ⟨.vmem, 75, rfl⟩
abbrev cc11_stg0_0 : Ref sig .tc := ⟨.vmem, 76, rfl⟩
abbrev cc11_stg0_1 : Ref sig .tc := ⟨.vmem, 77, rfl⟩
abbrev cc11_stg1_0 : Ref sig .tc := ⟨.vmem, 78, rfl⟩
abbrev cc11_stg2_0 : Ref sig .tc := ⟨.vmem, 79, rfl⟩
abbrev cc11_stg3_0 : Ref sig .tc := ⟨.vmem, 80, rfl⟩
abbrev cc11_stg4_0 : Ref sig .tc := ⟨.vmem, 81, rfl⟩
abbrev cc11_stg5_0 : Ref sig .tc := ⟨.vmem, 82, rfl⟩
abbrev cc11_stg5_1 : Ref sig .tc := ⟨.vmem, 83, rfl⟩
abbrev cc12_stg0_0 : Ref sig .tc := ⟨.vmem, 84, rfl⟩
abbrev cc12_stg0_1 : Ref sig .tc := ⟨.vmem, 85, rfl⟩
abbrev cc12_stg1_0 : Ref sig .tc := ⟨.vmem, 86, rfl⟩
abbrev cc12_stg1_1 : Ref sig .tc := ⟨.vmem, 87, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem1_1 : DmaSem sig := 39
abbrev cc6_sem2_0 : DmaSem sig := 40
abbrev cc6_sem2_1 : DmaSem sig := 41
abbrev cc6_sem3_0 : DmaSem sig := 42
abbrev cc6_sem4_0 : DmaSem sig := 43
abbrev cc6_sem5_0 : DmaSem sig := 44
abbrev cc6_sem5_1 : DmaSem sig := 45
abbrev cc6_sem6_0 : DmaSem sig := 46
abbrev cc6_sem6_1 : DmaSem sig := 47
abbrev cc7_sem0_0 : DmaSem sig := 48
abbrev cc7_sem0_1 : DmaSem sig := 49
abbrev cc7_sem1_0 : DmaSem sig := 50
abbrev cc7_sem1_1 : DmaSem sig := 51
abbrev cc7_sem2_0 : DmaSem sig := 52
abbrev cc7_sem2_1 : DmaSem sig := 53
abbrev cc7_sem3_0 : DmaSem sig := 54
abbrev cc7_sem3_1 : DmaSem sig := 55
abbrev cc7_sem4_0 : DmaSem sig := 56
abbrev cc7_sem4_1 : DmaSem sig := 57
abbrev cc7_sem5_0 : DmaSem sig := 58
abbrev cc7_sem5_1 : DmaSem sig := 59
abbrev cc8_sem0_0 : DmaSem sig := 60
abbrev cc8_sem0_1 : DmaSem sig := 61
abbrev cc8_sem1_0 : DmaSem sig := 62
abbrev cc8_sem2_0 : DmaSem sig := 63
abbrev cc9_sem0_0 : DmaSem sig := 64
abbrev cc9_sem0_1 : DmaSem sig := 65
abbrev cc9_sem1_0 : DmaSem sig := 66
abbrev cc9_sem2_0 : DmaSem sig := 67
abbrev cc9_sem3_0 : DmaSem sig := 68
abbrev cc9_sem4_0 : DmaSem sig := 69
abbrev cc9_sem5_0 : DmaSem sig := 70
abbrev cc9_sem5_1 : DmaSem sig := 71
abbrev cc10_sem0_0 : DmaSem sig := 72
abbrev cc10_sem0_1 : DmaSem sig := 73
abbrev cc10_sem1_0 : DmaSem sig := 74
abbrev cc10_sem2_0 : DmaSem sig := 75
abbrev cc11_sem0_0 : DmaSem sig := 76
abbrev cc11_sem0_1 : DmaSem sig := 77
abbrev cc11_sem1_0 : DmaSem sig := 78
abbrev cc11_sem2_0 : DmaSem sig := 79
abbrev cc11_sem3_0 : DmaSem sig := 80
abbrev cc11_sem4_0 : DmaSem sig := 81
abbrev cc11_sem5_0 : DmaSem sig := 82
abbrev cc11_sem5_1 : DmaSem sig := 83
abbrev cc12_sem0_0 : DmaSem sig := 84
abbrev cc12_sem0_1 : DmaSem sig := 85
abbrev cc12_sem1_0 : DmaSem sig := 86
abbrev cc12_sem1_1 : DmaSem sig := 87

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S10000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![80], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S10000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S64x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S10000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S10000x64 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![160], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S5000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S5000x64 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 2 → Memref sig .tc .vmem S5000x64 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![5], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S10000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev grid9 : Pipeline.Grid := ⟨1, ![5], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_4 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S64 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S10000x64 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![80], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S10000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x64 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x64 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev grid11 : Pipeline.Grid := ⟨1, ![80], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_4 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S10000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x64 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x64 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S64 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S64 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S10000x64 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev grid12 : Pipeline.Grid := ⟨1, ![5], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S10000x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S10000x64 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

class Facts₀ : Prop where
  concatenates_S50000x64_S50000x64_S50000x128_d1 : Shape.Concatenates [S50000x64, S50000x64] S50000x128 1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  inb_S64x64_S64x64_0_0 : ∀ a, (![0, 0] : Fin 2 → Nat) a + S64x64.size a ≤ S64x64.size a
  h_S64x64 : 0 < S64x64.numel
  bcast_S_S800000 : S_.BroadcastsInDim S800000 (![] : Fin 0 → Fin S800000.rank)
  bcast_S800000_S800000x1_0 : S800000.BroadcastsInDim S800000x1 (![0] : Fin 1 → Fin S800000x1.rank)
  shapeCasts_S10000x64_S10000x64 : S10000x64.ShapeCasts S10000x64
  bcast_S_S50000x64 : S_.BroadcastsInDim S50000x64 (![] : Fin 0 → Fin S50000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  reduces_S10000x64_S64 : S10000x64.Reduces [0] S64
  bcast_S_S1x64 : S_.BroadcastsInDim S1x64 (![] : Fin 0 → Fin S1x64.rank)
  dot_S10000x128_S128x64_S10000x64_1_0_0_1_n_n_wf : DotDims.WF S10000x128 S128x64 S10000x64 [1] [0] [0] [1] [] []
  dot_S10000x64_S64x64_S10000x64_1_0_0_1_n_n_wf : DotDims.WF S10000x64 S64x64 S10000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S50000x64.size a
  hwx0_3 : ∀ i : grid0.Coords, EltTy.bits .f32 = 32 ∨ (Rect.block (s := S50000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S50000x64.size a
  hwx1_3 : ∀ i : grid1.Coords, EltTy.bits .f32 = 32 ∨ (Rect.block (s := S50000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S50000x64.size a
  hwx2_0 : ∀ i : grid2.Coords, EltTy.bits .f32 = 32 ∨ (Rect.block (s := S50000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S50000x64.size a
  hwx2_3 : ∀ i : grid2.Coords, EltTy.bits .f32 = 32 ∨ (Rect.block (s := S50000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S50000x64.size a
  hwx3_0 : ∀ i : grid3.Coords, EltTy.bits .f32 = 32 ∨ (Rect.block (s := S50000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64.size a ≤ S64.size a
  hwx3_2 : ∀ i : grid3.Coords, EltTy.bits .f32 = 32 ∨ (Rect.block (s := S64) S64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S50000x64.size a
  hwx3_3 : ∀ i : grid3.Coords, EltTy.bits .f32 = 32 ∨ (Rect.block (s := S50000x64) S10000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S50000x64.size a
  hwx4_0 : ∀ i : grid4.Coords, EltTy.bits .f32 = 32 ∨ (Rect.block (s := S50000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64.size a ≤ S64.size a
  hwx4_2 : ∀ i : grid4.Coords, EltTy.bits .f32 = 32 ∨ (Rect.block (s := S64) S64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x64.size a ≤ S50000x64.size a
  hwx4_3 : ∀ i : grid4.Coords, EltTy.bits .f32 = 32 ∨ (Rect.block (s := S50000x64) S10000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S50000x64.size a
  hwx5_0 : ∀ i : grid5.Coords, EltTy.bits .f32 = 32 ∨ (Rect.block (s := S50000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64.size a ≤ S64.size a
  hwx5_2 : ∀ i : grid5.Coords, EltTy.bits .f32 = 32 ∨ (Rect.block (s := S64) S64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x64.size a ≤ S50000x64.size a
  hwx5_3 : ∀ i : grid5.Coords, EltTy.bits .f32 = 32 ∨ (Rect.block (s := S50000x64) S10000x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S800000x64.size a
  hwx6_0 : ∀ i : grid6.Coords, EltTy.bits .f32 = 32 ∨ (Rect.block (s := S800000x64) S10000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x64.size a ≤ S800000x64.size a
  hwx6_1 : ∀ i : grid6.Coords, EltTy.bits .f32 = 32 ∨ (Rect.block (s := S800000x64) S10000x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x64.size a ≤ S800000x64.size a
  hwx6_2 : ∀ i : grid6.Coords, EltTy.bits .f32 = 32 ∨ (Rect.block (s := S800000x64) S10000x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x64.size a ≤ S64x64.size a
  hwx6_3 : ∀ i : grid6.Coords, EltTy.bits .f32 = 32 ∨ (Rect.block (s := S64x64) S64x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S64.size a ≤ S64.size a
  hwx6_4 : ∀ i : grid6.Coords, EltTy.bits .f32 = 32 ∨ (Rect.block (s := S64) S64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S10000x64.size a ≤ S800000x64.size a
  hwx6_5 : ∀ i : grid6.Coords, EltTy.bits .f32 = 32 ∨ (Rect.block (s := S800000x64) S10000x64.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S10000x64.size a ≤ S800000x64.size a
  hwx6_6 : ∀ i : grid6.Coords, EltTy.bits .f32 = 32 ∨ (Rect.block (s := S800000x64) S10000x64.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S800000x64.size a
  hwx7_0 : ∀ i : grid7.Coords, EltTy.bits .f32 = 32 ∨ (Rect.block (s := S800000x64) S5000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x64.size a ≤ S800000x64.size a
  hwx7_1 : ∀ i : grid7.Coords, EltTy.bits .f32 = 32 ∨ (Rect.block (s := S800000x64) S5000x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x64.size a ≤ S800000x64.size a
  hwx7_2 : ∀ i : grid7.Coords, EltTy.bits .f32 = 32 ∨ (Rect.block (s := S800000x64) S5000x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x64.size a ≤ S800000x64.size a
  hwx7_3 : ∀ i : grid7.Coords, EltTy.bits .f32 = 32 ∨ (Rect.block (s := S800000x64) S5000x64.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x64.size a ≤ S800000x64.size a
  hwx7_4 : ∀ i : grid7.Coords, EltTy.bits .f32 = 32 ∨ (Rect.block (s := S800000x64) S5000x64.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x64.size a ≤ S800000x64.size a
  hwx7_5 : ∀ i : grid7.Coords, EltTy.bits .f32 = 32 ∨ (Rect.block (s := S800000x64) S5000x64.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x64.size a ≤ S50000x64.size a
  hwx8_0 : ∀ i : grid8.Coords, EltTy.bits .f32 = 32 ∨ (Rect.block (s := S50000x64) S10000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x64.size a ≤ S1x64.size a
  hwx8_1 : ∀ i : grid8.Coords, EltTy.bits .f32 = 32 ∨ (Rect.block (s := S1x64) S1x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x64.size a ≤ S50000x64.size a
  hwx9_0 : ∀ i : grid9.Coords, EltTy.bits .f32 = 32 ∨ (Rect.block (s := S50000x64) S10000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x64.size a ≤ S1x64.size a
  hwx9_1 : ∀ i : grid9.Coords, EltTy.bits .f32 = 32 ∨ (Rect.block (s := S1x64) S1x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x64.size a ≤ S1x64.size a
  hwx9_2 : ∀ i : grid9.Coords, EltTy.bits .f32 = 32 ∨ (Rect.block (s := S1x64) S1x64.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S64.size a ≤ S64.size a
  hwx9_3 : ∀ i : grid9.Coords, EltTy.bits .f32 = 32 ∨ (Rect.block (s := S64) S64.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S64.size a ≤ S64.size a
  hwx9_4 : ∀ i : grid9.Coords, EltTy.bits .f32 = 32 ∨ (Rect.block (s := S64) S64.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S10000x64.size a ≤ S50000x64.size a
  hwx9_5 : ∀ i : grid9.Coords, EltTy.bits .f32 = 32 ∨ (Rect.block (s := S50000x64) S10000x64.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S10000x64.size a ≤ S800000x64.size a
  hwx10_0 : ∀ i : grid10.Coords, EltTy.bits .f32 = 32 ∨ (Rect.block (s := S800000x64) S10000x64.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x64.size a ≤ S1x64.size a
  hwx10_1 : ∀ i : grid10.Coords, EltTy.bits .f32 = 32 ∨ (Rect.block (s := S1x64) S1x64.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x64.size a ≤ S1x64.size a
  hwx10_2 : ∀ i : grid10.Coords, EltTy.bits .f32 = 32 ∨ (Rect.block (s := S1x64) S1x64.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S10000x64.size a ≤ S800000x64.size a
  hwx11_0 : ∀ i : grid11.Coords, EltTy.bits .f32 = 32 ∨ (Rect.block (s := S800000x64) S10000x64.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x64.size a ≤ S1x64.size a
  hwx11_1 : ∀ i : grid11.Coords, EltTy.bits .f32 = 32 ∨ (Rect.block (s := S1x64) S1x64.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x64.size a ≤ S1x64.size a
  hwx11_2 : ∀ i : grid11.Coords, EltTy.bits .f32 = 32 ∨ (Rect.block (s := S1x64) S1x64.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S64.size a ≤ S64.size a
  hwx11_3 : ∀ i : grid11.Coords, EltTy.bits .f32 = 32 ∨ (Rect.block (s := S64) S64.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S64.size a ≤ S64.size a
  hwx11_4 : ∀ i : grid11.Coords, EltTy.bits .f32 = 32 ∨ (Rect.block (s := S64) S64.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S10000x64.size a ≤ S800000x64.size a
  hwx11_5 : ∀ i : grid11.Coords, EltTy.bits .f32 = 32 ∨ (Rect.block (s := S800000x64) S10000x64.size (cc11_transform_5 i) (hinb11_5 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S10000x64.size a ≤ S50000x64.size a
  hwx12_0 : ∀ i : grid12.Coords, EltTy.bits .f32 = 32 ∨ (Rect.block (s := S50000x64) S10000x64.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S10000x64.size a ≤ S50000x64.size a
  hwx12_1 : ∀ i : grid12.Coords, EltTy.bits .f32 = 32 ∨ (Rect.block (s := S50000x64) S10000x64.size (cc12_transform_1 i) (hinb12_1 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_v0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v3) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg0) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg11) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg12) S64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v4) S10000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_arg2) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg15) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg16) S64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v5) S10000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_arg2) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg17) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg18) S64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v6) S10000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_arg1) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v13) S10000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v20) S10000x64.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_arg13) S64x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg14) S64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v21_0) S10000x64.size cc6_transform_5 reads6_5 true false 2 stage6_5 sem6_5
    hrank6 hreads6_5 hinb6_5 nbuf6_5 (Memref.isWhole_whole _) hwx6_5 hstage6_5

abbrev win6_6 : Pipeline.Window sig grid6 :=
  Pipeline.Window.ofSpec (Memref.whole main_v21_1) S10000x64.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v21_1) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v31) S5000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v38) S5000x64.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v45) S5000x64.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_v46_0) S5000x64.size cc7_transform_4 reads7_4 true false 2 stage7_4 sem7_4
    hrank7 hreads7_4 hinb7_4 nbuf7_4 (Memref.isWhole_whole _) hwx7_4 hstage7_4

abbrev win7_5 : Pipeline.Window sig grid7 :=
  Pipeline.Window.ofSpec (Memref.whole main_v46_1) S5000x64.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v53) S10000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v55_0) S1x64.size cc8_transform_1 reads8_1 true true 1 stage8_1 sem8_1
    hrank8 hreads8_1 hinb8_1 nbuf8_1 (Memref.isWhole_whole _) hwx8_1 hstage8_1

abbrev win8_2 : Pipeline.Window sig grid8 :=
  Pipeline.Window.ofSpec (Memref.whole main_v55_1) S1x64.size cc8_transform_2 reads8_2 true true 1 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v53) S10000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v57) S1x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v61) S1x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_arg19) S64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_arg20) S64.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v62) S10000x64.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v21_0) S10000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v63_0) S1x64.size cc10_transform_1 reads10_1 true true 1 stage10_1 sem10_1
    hrank10 hreads10_1 hinb10_1 nbuf10_1 (Memref.isWhole_whole _) hwx10_1 hstage10_1

abbrev win10_2 : Pipeline.Window sig grid10 :=
  Pipeline.Window.ofSpec (Memref.whole main_v63_1) S1x64.size cc10_transform_2 reads10_2 true true 1 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v21_0) S10000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v65) S1x64.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v69) S1x64.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_arg21) S64.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_arg22) S64.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v70) S10000x64.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v54) S10000x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v71) S10000x64.size cc12_transform_1 reads12_1 true false 2 stage12_1 sem12_1
    hrank12 hreads12_1 hinb12_1 nbuf12_1 (Memref.isWhole_whole _) hwx12_1 hstage12_1

abbrev win12 : Fin 2 → Pipeline.Window sig grid12 := fun | 0 => win12_0 | 1 => win12_1 | ⟨_ + 2, h⟩ => absurd h (Nat.not_lt.2 (Nat.le_add_left _ _))
abbrev spec12 : Fin 2 → Pipeline.WinSpec sig grid12.rank := fun w => (win12 w).toWinSpec

class Facts : Prop extends Facts₀ where

variable [Facts]
-- ==== ReferenceIdeal.lean ====
abbrev S50000x64 : Shape := ⟨2, ![50000, 64]⟩
abbrev S800000x64 : Shape := ⟨2, ![800000, 64]⟩
abbrev S800000 : Shape := ⟨1, ![800000]⟩
abbrev S128x64 : Shape := ⟨2, ![128, 64]⟩
abbrev S64 : Shape := ⟨1, ![64]⟩
abbrev S64x64 : Shape := ⟨2, ![64, 64]⟩
abbrev S50000x128 : Shape := ⟨2, ![50000, 128]⟩
abbrev S1x64 : Shape := ⟨2, ![1, 64]⟩
abbrev S_ : Shape := ⟨0, ![]⟩
abbrev S800000x1 : Shape := ⟨2, ![800000, 1]⟩

abbrev nBuf : Space → Nat
  | .hbm => 222
  | .vmem => 0
  | .smem => 0
  | _ => 0

abbrev hbmTy0_0 (i : Nat) : BufTy := match i % 128 with
  | 0 => ⟨S50000x64, .f32⟩
  | 1 => ⟨S800000x64, .f32⟩
  | 2 => ⟨S50000x64, .f32⟩
  | 3 => ⟨S800000, .i32⟩
  | 4 => ⟨S800000, .i32⟩
  | 5 => ⟨S128x64, .f32⟩
  | 6 => ⟨S64, .f32⟩
  | 7 => ⟨S128x64, .f32⟩
  | 8 => ⟨S64, .f32⟩
  | 9 => ⟨S64x64, .f32⟩
  | 10 => ⟨S64, .f32⟩
  | 11 => ⟨S64x64, .f32⟩
  | 12 => ⟨S64, .f32⟩
  | 13 => ⟨S64x64, .f32⟩
  | 14 => ⟨S64, .f32⟩
  | 15 => ⟨S64x64, .f32⟩
  | 16 => ⟨S64, .f32⟩
  | 17 => ⟨S64x64, .f32⟩
  | 18 => ⟨S64, .f32⟩
  | 19 => ⟨S64, .f32⟩
  | 20 => ⟨S64, .f32⟩
  | 21 => ⟨S64, .f32⟩
  | 22 => ⟨S64, .f32⟩
  | 23 => ⟨S50000x128, .f32⟩
  | 24 => ⟨S50000x64, .f32⟩
  | 25 => ⟨S1x64, .f32⟩
  | 26 => ⟨S50000x64, .f32⟩
  | 27 => ⟨S50000x64, .f32⟩
  | 28 => ⟨S50000x64, .f32⟩
  | 29 => ⟨S1x64, .f32⟩
  | 30 => ⟨S50000x64, .f32⟩
  | 31 => ⟨S50000x64, .f32⟩
  | 32 => ⟨S50000x64, .f32⟩
  | 33 => ⟨S1x64, .f32⟩
  | 34 => ⟨S50000x64, .f32⟩
  | 35 => ⟨S50000x64, .f32⟩
  | 36 => ⟨S50000x64, .f32⟩
  | 37 => ⟨S1x64, .f32⟩
  | 38 => ⟨S50000x64, .f32⟩
  | 39 => ⟨S50000x64, .f32⟩
  | 40 => ⟨S50000x64, .f32⟩
  | 41 => ⟨S1x64, .f32⟩
  | 42 => ⟨S50000x64, .f32⟩
  | 43 => ⟨S50000x64, .f32⟩
  | 44 => ⟨S50000x64, .f32⟩
  | 45 => ⟨S1x64, .f32⟩
  | 46 => ⟨S50000x64, .f32⟩
  | 47 => ⟨S50000x64, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x64, .f32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S800000x64, .f32⟩
  | 66 => ⟨S800000x64, .f32⟩
  | 67 => ⟨S800000x64, .f32⟩
  | 68 => ⟨S1x64, .f32⟩
  | 69 => ⟨S800000x64, .f32⟩
  | 70 => ⟨S800000x64, .f32⟩
  | 71 => ⟨S800000x64, .f32⟩
  | 72 => ⟨S800000x64, .f32⟩
  | 73 => ⟨S800000x64, .f32⟩
  | 74 => ⟨S_, .f32⟩
  | 75 => ⟨S800000x64, .f32⟩
  | 76 => ⟨S800000x64, .f32⟩
  | 77 => ⟨S_, .f32⟩
  | 78 => ⟨S800000x64, .f32⟩
  | 79 => ⟨S800000x64, .f32⟩
  | 80 => ⟨S_, .f32⟩
  | 81 => ⟨S50000x64, .f32⟩
  | 82 => ⟨S800000x1, .i32⟩
  | 83 => ⟨S50000x64, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000x64, .f32⟩
  | 93 => ⟨S_, .f32⟩
  | 94 => ⟨S800000x64, .f32⟩
  | 95 => ⟨S800000x64, .f32⟩
  | 96 => ⟨S800000x64, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000x64, .f32⟩
  | 106 => ⟨S800000x64, .f32⟩
  | 107 => ⟨S_, .f32⟩
  | 108 => ⟨S50000x64, .f32⟩
  | 109 => ⟨S800000x1, .i32⟩
  | 110 => ⟨S50000x64, .f32⟩
  | 111 => ⟨S50000x64, .f32⟩
  | 112 => ⟨S_, .i32⟩
  | 113 => ⟨S800000, .i32⟩
  | 114 => ⟨S800000, .i1⟩
  | 115 => ⟨S_, .i32⟩
  | 116 => ⟨S800000, .i32⟩
  | 117 => ⟨S800000, .i32⟩
  | 118 => ⟨S800000, .i32⟩
  | 119 => ⟨S800000x1, .i32⟩
  | 120 => ⟨S800000x64, .f32⟩
  | 121 => ⟨S800000x64, .f32⟩
  | 122 => ⟨S_, .f32⟩
  | 123 => ⟨S50000x64, .f32⟩
  | 124 => ⟨S800000x1, .i32⟩
  | 125 => ⟨S50000x64, .f32⟩
  | 126 => ⟨S50000x64, .f32⟩
  | 127 => ⟨S_, .f32⟩
  | _ => ⟨S50000x64, .f32⟩

abbrev hbmTy0_1 (i : Nat) : BufTy := match i % 128 with
  | 0 => ⟨S64, .f32⟩
  | 1 => ⟨S_, .f32⟩
  | 2 => ⟨S64, .f32⟩
  | 3 => ⟨S64, .f32⟩
  | 4 => ⟨S_, .i32⟩
  | 5 => ⟨S_, .f32⟩
  | 6 => ⟨S64, .f32⟩
  | 7 => ⟨S1x64, .f32⟩
  | 8 => ⟨S_, .f32⟩
  | 9 => ⟨S1x64, .f32⟩
  | 10 => ⟨S1x64, .f32⟩
  | 11 => ⟨S50000x64, .f32⟩
  | 12 => ⟨S50000x64, .f32⟩
  | 13 => ⟨S50000x64, .f32⟩
  | 14 => ⟨S_, .f32⟩
  | 15 => ⟨S_, .f32⟩
  | 16 => ⟨S_, .f32⟩
  | 17 => ⟨S_, .f32⟩
  | 18 => ⟨S64, .f32⟩
  | 19 => ⟨S64, .f32⟩
  | 20 => ⟨S64, .f32⟩
  | 21 => ⟨S_, .f32⟩
  | 22 => ⟨S_, .i1⟩
  | 23 => ⟨S_, .f32⟩
  | 24 => ⟨S_, .f32⟩
  | 25 => ⟨S64, .f32⟩
  | 26 => ⟨S64, .f32⟩
  | 27 => ⟨S1x64, .f32⟩
  | 28 => ⟨S50000x64, .f32⟩
  | 29 => ⟨S50000x64, .f32⟩
  | 30 => ⟨S1x64, .f32⟩
  | 31 => ⟨S50000x64, .f32⟩
  | 32 => ⟨S50000x64, .f32⟩
  | 33 => ⟨S_, .f32⟩
  | 34 => ⟨S64, .f32⟩
  | 35 => ⟨S64, .f32⟩
  | 36 => ⟨S64, .f32⟩
  | 37 => ⟨S1x64, .f32⟩
  | 38 => ⟨S50000x64, .f32⟩
  | 39 => ⟨S50000x64, .f32⟩
  | 40 => ⟨S1x64, .f32⟩
  | 41 => ⟨S50000x64, .f32⟩
  | 42 => ⟨S50000x64, .f32⟩
  | 43 => ⟨S_, .f32⟩
  | 44 => ⟨S50000x64, .f32⟩
  | 45 => ⟨S50000x64, .f32⟩
  | 46 => ⟨S_, .f32⟩
  | 47 => ⟨S64, .f32⟩
  | 48 => ⟨S_, .f32⟩
  | 49 => ⟨S64, .f32⟩
  | 50 => ⟨S64, .f32⟩
  | 51 => ⟨S_, .i32⟩
  | 52 => ⟨S_, .f32⟩
  | 53 => ⟨S64, .f32⟩
  | 54 => ⟨S1x64, .f32⟩
  | 55 => ⟨S_, .f32⟩
  | 56 => ⟨S1x64, .f32⟩
  | 57 => ⟨S1x64, .f32⟩
  | 58 => ⟨S800000x64, .f32⟩
  | 59 => ⟨S800000x64, .f32⟩
  | 60 => ⟨S800000x64, .f32⟩
  | 61 => ⟨S_, .f32⟩
  | 62 => ⟨S_, .f32⟩
  | 63 => ⟨S_, .f32⟩
  | 64 => ⟨S_, .f32⟩
  | 65 => ⟨S64, .f32⟩
  | 66 => ⟨S64, .f32⟩
  | 67 => ⟨S64, .f32⟩
  | 68 => ⟨S_, .f32⟩
  | 69 => ⟨S_, .i1⟩
  | 70 => ⟨S_, .f32⟩
  | 71 => ⟨S_, .f32⟩
  | 72 => ⟨S64, .f32⟩
  | 73 => ⟨S64, .f32⟩
  | 74 => ⟨S1x64, .f32⟩
  | 75 => ⟨S800000x64, .f32⟩
  | 76 => ⟨S800000x64, .f32⟩
  | 77 => ⟨S1x64, .f32⟩
  | 78 => ⟨S800000x64, .f32⟩
  | 79 => ⟨S800000x64, .f32⟩
  | 80 => ⟨S_, .f32⟩
  | 81 => ⟨S64, .f32⟩
  | 82 => ⟨S64, .f32⟩
  | 83 => ⟨S64, .f32⟩
  | 84 => ⟨S1x64, .f32⟩
  | 85 => ⟨S800000x64, .f32⟩
  | 86 => ⟨S800000x64, .f32⟩
  | 87 => ⟨S1x64, .f32⟩
  | 88 => ⟨S800000x64, .f32⟩
  | 89 => ⟨S800000x64, .f32⟩
  | 90 => ⟨S_, .f32⟩
  | 91 => ⟨S800000x64, .f32⟩
  | 92 => ⟨S800000x64, .f32⟩
  | 93 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_c : Ref sig .tc := ⟨.hbm, 48, rfl⟩
abbrev main_v25 : Ref sig .tc := ⟨.hbm, 49, rfl⟩
abbrev main_v26 : Ref sig .tc := ⟨.hbm, 50, rfl⟩
abbrev main_c_0 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c_1 : Ref sig .tc := ⟨.hbm, 57, rfl⟩
abbrev main_v32 : Ref sig .tc := ⟨.hbm, 58, rfl⟩
abbrev main_v33 : Ref sig .tc := ⟨.hbm, 59, rfl⟩
abbrev main_c_2 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst : Ref sig .tc := ⟨.hbm, 74, rfl⟩
abbrev main_v47 : Ref sig .tc := ⟨.hbm, 75, rfl⟩
abbrev main_v48 : Ref sig .tc := ⟨.hbm, 76, rfl⟩
abbrev main_cst_3 : Ref sig .tc := ⟨.hbm, 77, rfl⟩
abbrev main_v49 : Ref sig .tc := ⟨.hbm, 78, rfl⟩
abbrev main_v50 : Ref sig .tc := ⟨.hbm, 79, rfl⟩
abbrev main_cst_4 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_c_5 : Ref sig .tc := ⟨.hbm, 84, rfl⟩
abbrev main_v54 : Ref sig .tc := ⟨.hbm, 85, rfl⟩
abbrev main_v55 : Ref sig .tc := ⟨.hbm, 86, rfl⟩
abbrev main_c_6 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_7 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_c_8 : Ref sig .tc := ⟨.hbm, 97, rfl⟩
abbrev main_v64 : Ref sig .tc := ⟨.hbm, 98, rfl⟩
abbrev main_v65 : Ref sig .tc := ⟨.hbm, 99, rfl⟩
abbrev main_c_9 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_10 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_c_11 : Ref sig .tc := ⟨.hbm, 112, rfl⟩
abbrev main_v76 : Ref sig .tc := ⟨.hbm, 113, rfl⟩
abbrev main_v77 : Ref sig .tc := ⟨.hbm, 114, rfl⟩
abbrev main_c_12 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_cst_13 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_cst_14 : Ref sig .tc := ⟨.hbm, 127, rfl⟩
abbrev main_v88 : Ref sig .tc := ⟨.hbm, 128, rfl⟩
abbrev main_cst_15 : Ref sig .tc := ⟨.hbm, 129, rfl⟩
abbrev main_v89 : Ref sig .tc := ⟨.hbm, 130, rfl⟩
abbrev main_v90 : Ref sig .tc := ⟨.hbm, 131, rfl⟩
abbrev main_c_16 : Ref sig .tc := ⟨.hbm, 132, rfl⟩
abbrev main_call0_cst : Ref sig .tc := ⟨.hbm, 133, rfl⟩
abbrev main_call0_v0 : Ref sig .tc := ⟨.hbm, 134, rfl⟩
abbrev main_call0_v1 : Ref sig .tc := ⟨.hbm, 135, rfl⟩
abbrev main_call0_cst_0 : Ref sig .tc := ⟨.hbm, 136, rfl⟩
abbrev main_call0_v2 : Ref sig .tc := ⟨.hbm, 137, rfl⟩
abbrev main_call0_v3 : Ref sig .tc := ⟨.hbm, 138, rfl⟩
abbrev main_call0_v4 : Ref sig .tc := ⟨.hbm, 139, rfl⟩
abbrev main_call0_v5 : Ref sig .tc := ⟨.hbm, 140, rfl⟩
abbrev main_call0_v6 : Ref sig .tc := ⟨.hbm, 141, rfl⟩
abbrev main_call0_v7 : Ref sig .tc := ⟨.hbm, 142, rfl⟩
abbrev main_call0_cst_1 : Ref sig .tc := ⟨.hbm, 143, rfl⟩
abbrev main_call0_v8 : Ref sig .tc := ⟨.hbm, 144, rfl⟩
abbrev main_call0_cst_2 : Ref sig .tc := ⟨.hbm, 145, rfl⟩
abbrev main_call0_v9 : Ref sig .tc := ⟨.hbm, 146, rfl⟩
abbrev main_call0_v10 : Ref sig .tc := ⟨.hbm, 147, rfl⟩
abbrev main_call0_v11 : Ref sig .tc := ⟨.hbm, 148, rfl⟩
abbrev main_call0_cst_3 : Ref sig .tc := ⟨.hbm, 149, rfl⟩
abbrev main_call0_v12 : Ref sig .tc := ⟨.hbm, 150, rfl⟩
abbrev main_call0_cst_4 : Ref sig .tc := ⟨.hbm, 151, rfl⟩
abbrev main_call0_call0_v0 : Ref sig .tc := ⟨.hbm, 152, rfl⟩
abbrev main_call0_call0_v1 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_cst_17 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_call1_cst : Ref sig .tc := ⟨.hbm, 171, rfl⟩
abbrev main_call1_v0 : Ref sig .tc := ⟨.hbm, 172, rfl⟩
abbrev main_v107 : Ref sig .tc := ⟨.hbm, 173, rfl⟩
abbrev main_cst_18 : Ref sig .tc := ⟨.hbm, 174, rfl⟩
abbrev main_v108 : Ref sig .tc := ⟨.hbm, 175, rfl⟩
abbrev main_cst_19 : Ref sig .tc := ⟨.hbm, 176, rfl⟩
abbrev main_v109 : Ref sig .tc := ⟨.hbm, 177, rfl⟩
abbrev main_v110 : Ref sig .tc := ⟨.hbm, 178, rfl⟩
abbrev main_c_20 : Ref sig .tc := ⟨.hbm, 179, rfl⟩
abbrev main_call2_cst : Ref sig .tc := ⟨.hbm, 180, rfl⟩
abbrev main_call2_v0 : Ref sig .tc := ⟨.hbm, 181, rfl⟩
abbrev main_call2_v1 : Ref sig .tc := ⟨.hbm, 182, rfl⟩
abbrev main_call2_cst_0 : Ref sig .tc := ⟨.hbm, 183, rfl⟩
abbrev main_call2_v2 : Ref sig .tc := ⟨.hbm, 184, rfl⟩
abbrev main_call2_v3 : Ref sig .tc := ⟨.hbm, 185, rfl⟩
abbrev main_call2_v4 : Ref sig .tc := ⟨.hbm, 186, rfl⟩
abbrev main_call2_v5 : Ref sig .tc := ⟨.hbm, 187, rfl⟩
abbrev main_call2_v6 : Ref sig .tc := ⟨.hbm, 188, rfl⟩
abbrev main_call2_v7 : Ref sig .tc := ⟨.hbm, 189, rfl⟩
abbrev main_call2_cst_1 : Ref sig .tc := ⟨.hbm, 190, rfl⟩
abbrev main_call2_v8 : Ref sig .tc := ⟨.hbm, 191, rfl⟩
abbrev main_call2_cst_2 : Ref sig .tc := ⟨.hbm, 192, rfl⟩
abbrev main_call2_v9 : Ref sig .tc := ⟨.hbm, 193, rfl⟩
abbrev main_call2_v10 : Ref sig .tc := ⟨.hbm, 194, rfl⟩
abbrev main_call2_v11 : Ref sig .tc := ⟨.hbm, 195, rfl⟩
abbrev main_call2_cst_3 : Ref sig .tc := ⟨.hbm, 196, rfl⟩
abbrev main_call2_v12 : Ref sig .tc := ⟨.hbm, 197, rfl⟩
abbrev main_call2_cst_4 : Ref sig .tc := ⟨.hbm, 198, rfl⟩
abbrev main_call2_call0_v0 : Ref sig .tc := ⟨.hbm, 199, rfl⟩
abbrev main_call2_call0_v1 : Ref sig .tc := ⟨.hbm, 200, rfl⟩
abbrev main_v111 : Ref sig .tc := ⟨.hbm, 201, rfl⟩
abbrev main_v112 : Ref sig .tc := ⟨.hbm, 202, rfl⟩
abbrev main_v113 : Ref sig .tc := ⟨.hbm, 203, rfl⟩
abbrev main_v114 : Ref sig .tc := ⟨.hbm, 204, rfl⟩
abbrev main_v115 : Ref sig .tc := ⟨.hbm, 205, rfl⟩
abbrev main_v116 : Ref sig .tc := ⟨.hbm, 206, rfl⟩
abbrev main_v117 : Ref sig .tc := ⟨.hbm, 207, rfl⟩
abbrev main_cst_21 : Ref sig .tc := ⟨.hbm, 208, rfl⟩
abbrev main_v118 : Ref sig .tc := ⟨.hbm, 209, rfl⟩
abbrev main_v119 : Ref sig .tc := ⟨.hbm, 210, rfl⟩
abbrev main_v120 : Ref sig .tc := ⟨.hbm, 211, rfl⟩
abbrev main_v121 : Ref sig .tc := ⟨.hbm, 212, rfl⟩
abbrev main_v122 : Ref sig .tc := ⟨.hbm, 213, rfl⟩
abbrev main_v123 : Ref sig .tc := ⟨.hbm, 214, rfl⟩
abbrev main_v124 : Ref sig .tc := ⟨.hbm, 215, rfl⟩
abbrev main_v125 : Ref sig .tc := ⟨.hbm, 216, rfl⟩
abbrev main_v126 : Ref sig .tc := ⟨.hbm, 217, rfl⟩
abbrev main_call3_cst : Ref sig .tc := ⟨.hbm, 218, rfl⟩
abbrev main_call3_v0 : Ref sig .tc := ⟨.hbm, 219, rfl⟩
abbrev main_v127 : Ref sig .tc := ⟨.hbm, 220, rfl⟩
abbrev main_v128 : Ref sig .tc := ⟨.hbm, 221, rfl⟩

abbrev nD : Nat := 1
abbrev τ : Topo := Topo.v7x

variable {F : FTy → Type} [FloatOps F]

class Facts₀ : Prop where
  concatenates_S50000x64_S50000x64_S50000x128_d1 : Shape.Concatenates [S50000x64, S50000x64] S50000x128 1
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S800000 : S_.BroadcastsInDim S800000 (![] : Fin 0 → Fin S800000.rank)
  bcast_S800000_S800000x1_0 : S800000.BroadcastsInDim S800000x1 (![0] : Fin 1 → Fin S800000x1.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  reducesTo_S50000x64_S64_d0 : S50000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  reducesTo_S800000x64_S64_d0 : S800000x64.ReducesTo [0] S64
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  dot_S800000x64_S64x64_S800000x64_1_0_0_1_n_n_wf : DotDims.WF S800000x64 S64x64 S800000x64 [1] [0] [0] [1] [] []
  scatter_S50000x64_S800000x1_S800000x64_1_0_0_1_wf : ScatterDims.WF S50000x64 S800000x1 S800000x64 [1] [0] [0] 1

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.KRun.lean ====
/-
  The idealized kernel's run with its three result arrays named: every weakly fair execution ends with each result
  buffer at the last boundary's contents (the fold of the host stretches and the regions' write-backs from the
  launch memory) and the arguments as launched.
-/
import proofs.«146130_j46961172414535_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, results named: the launch over the segments, the last thread state read against the final state. -/
theorem run : θ_run defs (onTc (τ := τ) (main (F := F))) ⟨m, fun _ => 0, ρ⟩ (fun r => ∀ c : Dev nD,
      r.2.mem ((c.tc : Thread nD τ).loc main_v62) = W19 m ρ c (Proc.devRef .tc main_v62)
      ∧ r.2.mem ((c.tc : Thread nD τ).loc main_v70) = W19 m ρ c (Proc.devRef .tc main_v70)
      ∧ r.2.mem ((c.tc : Thread nD τ).loc main_v71) = W19 m ρ c (Proc.devRef .tc main_v71)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c =>
      ⟨h c _ (mem_uc main_v62 (by decide)),
       h c _ (mem_uc main_v70 (by decide)),
       h c _ (mem_uc main_v71 (by decide)),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c),
       (h c _ (mem_uc main_arg3 (by decide))).trans (W19_main_arg3 m ρ c),
       (h c _ (mem_uc main_arg4 (by decide))).trans (W19_main_arg4 m ρ c),
       (h c _ (mem_uc main_arg5 (by decide))).trans (W19_main_arg5 m ρ c),
       (h c _ (mem_uc main_arg6 (by decide))).trans (W19_main_arg6 m ρ c),
       (h c _ (mem_uc main_arg7 (by decide))).trans (W19_main_arg7 m ρ c),
       (h c _ (mem_uc main_arg8 (by decide))).trans (W19_main_arg8 m ρ c),
       (h c _ (mem_uc main_arg9 (by decide))).trans (W19_main_arg9 m ρ c),
       (h c _ (mem_uc main_arg10 (by decide))).trans (W19_main_arg10 m ρ c),
       (h c _ (mem_uc main_arg11 (by decide))).trans (W19_main_arg11 m ρ c),
       (h c _ (mem_uc main_arg12 (by decide))).trans (W19_main_arg12 m ρ c),
       (h c _ (mem_uc main_arg13 (by decide))).trans (W19_main_arg13 m ρ c),
       (h c _ (mem_uc main_arg14 (by decide))).trans (W19_main_arg14 m ρ c),
       (h c _ (mem_uc main_arg15 (by decide))).trans (W19_main_arg15 m ρ c),
       (h c _ (mem_uc main_arg16 (by decide))).trans (W19_main_arg16 m ρ c),
       (h c _ (mem_uc main_arg17 (by decide))).trans (W19_main_arg17 m ρ c),
       (h c _ (mem_uc main_arg18 (by decide))).trans (W19_main_arg18 m ρ c),
       (h c _ (mem_uc main_arg19 (by decide))).trans (W19_main_arg19 m ρ c),
       (h c _ (mem_uc main_arg20 (by decide))).trans (W19_main_arg20 m ρ c),
       (h c _ (mem_uc main_arg21 (by decide))).trans (W19_main_arg21 m ρ c),
       (h c _ (mem_uc main_arg22 (by decide))).trans (W19_main_arg22 m ρ c)⟩)

end Cert.KernelIdeal.KRun

end
-- ==== Proof.RefSpec.lean ====
/-
  The reference's values, one definition per host operation: each intermediate array as its operation applied to the
  earlier ones, all as functions of the twenty-three argument arrays; and the reference's run read at its three results
  and at its arguments.
-/
import proofs.«146130_j46961172414535_2_alg».proof.Proof.Gen.ReferenceIdeal
import Idealize.ShloMosaic.Lib.StableHlo.Run

noncomputable section

namespace Cert.ReferenceIdeal.RefSpec

open Cert.ReferenceIdeal Cert.ReferenceIdeal.Gen Idealize.ShloMosaic Idealize.ShloMosaic.TcCoe Idealize.SL.Sem Idealize.ShloMosaic.StableHlo

variable {F : FTy → Type} [FloatOps F]

/-- The argument arrays: node features, edge features, positional features, the two endpoint tables, the seven
    weight matrices with their biases, the two scale and shift vectors. -/
structure Args (F : FTy → Type) where
  a0 : (⟨S50000x64, .f32⟩ : BufTy).Contents (Elt F)
  a1 : (⟨S800000x64, .f32⟩ : BufTy).Contents (Elt F)
  a2 : (⟨S50000x64, .f32⟩ : BufTy).Contents (Elt F)
  a3 : (⟨S800000, .i32⟩ : BufTy).Contents (Elt F)
  a4 : (⟨S800000, .i32⟩ : BufTy).Contents (Elt F)
  a5 : (⟨S128x64, .f32⟩ : BufTy).Contents (Elt F)
  a6 : (⟨S64, .f32⟩ : BufTy).Contents (Elt F)
  a7 : (⟨S128x64, .f32⟩ : BufTy).Contents (Elt F)
  a8 : (⟨S64, .f32⟩ : BufTy).Contents (Elt F)
  a9 : (⟨S64x64, .f32⟩ : BufTy).Contents (Elt F)
  a10 : (⟨S64, .f32⟩ : BufTy).Contents (Elt F)
  a11 : (⟨S64x64, .f32⟩ : BufTy).Contents (Elt F)
  a12 : (⟨S64, .f32⟩ : BufTy).Contents (Elt F)
  a13 : (⟨S64x64, .f32⟩ : BufTy).Contents (Elt F)
  a14 : (⟨S64, .f32⟩ : BufTy).Contents (Elt F)
  a15 : (⟨S64x64, .f32⟩ : BufTy).Contents (Elt F)
  a16 : (⟨S64, .f32⟩ : BufTy).Contents (Elt F)
  a17 : (⟨S64x64, .f32⟩ : BufTy).Contents (Elt F)
  a18 : (⟨S64, .f32⟩ : BufTy).Contents (Elt F)
  a19 : (⟨S64, .f32⟩ : BufTy).Contents (Elt F)
  a20 : (⟨S64, .f32⟩ : BufTy).Contents (Elt F)
  a21 : (⟨S64, .f32⟩ : BufTy).Contents (Elt F)
  a22 : (⟨S64, .f32⟩ : BufTy).Contents (Elt F)

def r_main_v0 (A : Args F) : (⟨S50000x128, .f32⟩ : BufTy).Contents (Elt F) :=
  (fun a b => concatenate S50000x128 1 [⟨S50000x64, a⟩, ⟨S50000x64, b⟩] concatenates_S50000x64_S50000x64_S50000x128_d1) A.a0 A.a2
def r_main_v1 (A : Args F) : (⟨S50000x64, .f32⟩ : BufTy).Contents (Elt F) :=
  (fun l r => Host.dotGeneral dot_S50000x128_S128x64_S50000x64_1_0_0_1_n_n none l r) (r_main_v0 A) A.a5
def r_main_v2 (A : Args F) : (⟨S1x64, .f32⟩ : BufTy).Contents (Elt F) :=
  (broadcastInDim S1x64 ![1] bcast_S64_S1x64_1) A.a6
def r_main_v3 (A : Args F) : (⟨S50000x64, .f32⟩ : BufTy).Contents (Elt F) :=
  (broadcastInDim S50000x64 ![0, 1] bcast_S1x64_S50000x64_0_1) (r_main_v2 A)
def r_main_v4 (A : Args F) : (⟨S50000x64, .f32⟩ : BufTy).Contents (Elt F) :=
  addf (r_main_v1 A) (r_main_v3 A)
def r_main_v5 (A : Args F) : (⟨S50000x64, .f32⟩ : BufTy).Contents (Elt F) :=
  (fun l r => Host.dotGeneral dot_S50000x128_S128x64_S50000x64_1_0_0_1_n_n none l r) (r_main_v0 A) A.a7
def r_main_v6 (A : Args F) : (⟨S1x64, .f32⟩ : BufTy).Contents (Elt F) :=
  (broadcastInDim S1x64 ![1] bcast_S64_S1x64_1) A.a8
def r_main_v7 (A : Args F) : (⟨S50000x64, .f32⟩ : BufTy).Contents (Elt F) :=
  (broadcastInDim S50000x64 ![0, 1] bcast_S1x64_S50000x64_0_1) (r_main_v6 A)
def r_main_v8 (A : Args F) : (⟨S50000x64, .f32⟩ : BufTy).Contents (Elt F) :=
  addf (r_main_v5 A) (r_main_v7 A)
def r_main_v9 (A : Args F) : (⟨S50000x64, .f32⟩ : BufTy).Contents (Elt F) :=
  (fun l r => Host.dotGeneral dot_S50000x64_S64x64_S50000x64_1_0_0_1_n_n none l r) A.a0 A.a9
def r_main_v10 (A : Args F) : (⟨S1x64, .f32⟩ : BufTy).Contents (Elt F) :=
  (broadcastInDim S1x64 ![1] bcast_S64_S1x64_1) A.a10
def r_main_v11 (A : Args F) : (⟨S50000x64, .f32⟩ : BufTy).Contents (Elt F) :=
  (broadcastInDim S50000x64 ![0, 1] bcast_S1x64_S50000x64_0_1) (r_main_v10 A)
def r_main_v12 (A : Args F) : (⟨S50000x64, .f32⟩ : BufTy).Contents (Elt F) :=
  addf (r_main_v9 A) (r_main_v11 A)
def r_main_v13 (A : Args F) : (⟨S50000x64, .f32⟩ : BufTy).Contents (Elt F) :=
  (fun l r => Host.dotGeneral dot_S50000x64_S64x64_S50000x64_1_0_0_1_n_n none l r) A.a0 A.a11
def r_main_v14 (A : Args F) : (⟨S1x64, .f32⟩ : BufTy).Contents (Elt F) :=
  (broadcastInDim S1x64 ![1] bcast_S64_S1x64_1) A.a12
def r_main_v15 (A : Args F) : (⟨S50000x64, .f32⟩ : BufTy).Contents (Elt F) :=
  (broadcastInDim S50000x64 ![0, 1] bcast_S1x64_S50000x64_0_1) (r_main_v14 A)
def r_main_v16 (A : Args F) : (⟨S50000x64, .f32⟩ : BufTy).Contents (Elt F) :=
  addf (r_main_v13 A) (r_main_v15 A)
def r_main_v17 (A : Args F) : (⟨S50000x64, .f32⟩ : BufTy).Contents (Elt F) :=
  (fun l r => Host.dotGeneral dot_S50000x64_S64x64_S50000x64_1_0_0_1_n_n none l r) A.a2 A.a15
def r_main_v18 (A : Args F) : (⟨S1x64, .f32⟩ : BufTy).Contents (Elt F) :=
  (broadcastInDim S1x64 ![1] bcast_S64_S1x64_1) A.a16
def r_main_v19 (A : Args F) : (⟨S50000x64, .f32⟩ : BufTy).Contents (Elt F) :=
  (broadcastInDim S50000x64 ![0, 1] bcast_S1x64_S50000x64_0_1) (r_main_v18 A)
def r_main_v20 (A : Args F) : (⟨S50000x64, .f32⟩ : BufTy).Contents (Elt F) :=
  addf (r_main_v17 A) (r_main_v19 A)
def r_main_v21 (A : Args F) : (⟨S50000x64, .f32⟩ : BufTy).Contents (Elt F) :=
  (fun l r => Host.dotGeneral dot_S50000x64_S64x64_S50000x64_1_0_0_1_n_n none l r) A.a2 A.a17
def r_main_v22 (A : Args F) : (⟨S1x64, .f32⟩ : BufTy).Contents (Elt F) :=
  (broadcastInDim S1x64 ![1] bcast_S64_S1x64_1) A.a18
def r_main_v23 (A : Args F) : (⟨S50000x64, .f32⟩ : BufTy).Contents (Elt F) :=
  (broadcastInDim S50000x64 ![0, 1] bcast_S1x64_S50000x64_0_1) (r_main_v22 A)
def r_main_v24 (A : Args F) : (⟨S50000x64, .f32⟩ : BufTy).Contents (Elt F) :=
  addf (r_main_v21 A) (r_main_v23 A)
def r_main_c (A : Args F) : (⟨S_, .i32⟩ : BufTy).Contents (Elt F) :=
  (constantI S_ 32 0#32)
def r_main_v25 (A : Args F) : (⟨S800000, .i32⟩ : BufTy).Contents (Elt F) :=
  (broadcastInDim S800000 ![] bcast_S_S800000) (r_main_c A)
def r_main_v26 (A : Args F) : (⟨S800000, .i1⟩ : BufTy).Contents (Elt F) :=
  (cmpi .slt) A.a3 (r_main_v25 A)
def r_main_c_0 (A : Args F) : (⟨S_, .i32⟩ : BufTy).Contents (Elt F) :=
  (constantI S_ 32 50000#32)
def r_main_v27 (A : Args F) : (⟨S800000, .i32⟩ : BufTy).Contents (Elt F) :=
  (broadcastInDim S800000 ![] bcast_S_S800000) (r_main_c_0 A)
def r_main_v28 (A : Args F) : (⟨S800000, .i32⟩ : BufTy).Contents (Elt F) :=
  addi A.a3 (r_main_v27 A)
def r_main_v29 (A : Args F) : (⟨S800000, .i32⟩ : BufTy).Contents (Elt F) :=
  select (r_main_v26 A) (r_main_v28 A) A.a3
def r_main_v30 (A : Args F) : (⟨S800000x1, .i32⟩ : BufTy).Contents (Elt F) :=
  (broadcastInDim S800000x1 ![0] bcast_S800000_S800000x1_0) (r_main_v29 A)
def r_main_v31 (A : Args F) : (⟨S800000x64, .f32⟩ : BufTy).Contents (Elt F) :=
  (fun x i => Host.gather gather_S50000x64_S800000x1_S800000x64_1_0_n_n_0_1_164 x i) (r_main_v12 A) (r_main_v30 A)
def r_main_c_1 (A : Args F) : (⟨S_, .i32⟩ : BufTy).Contents (Elt F) :=
  (constantI S_ 32 0#32)
def r_main_v32 (A : Args F) : (⟨S800000, .i32⟩ : BufTy).Contents (Elt F) :=
  (broadcastInDim S800000 ![] bcast_S_S800000) (r_main_c_1 A)
def r_main_v33 (A : Args F) : (⟨S800000, .i1⟩ : BufTy).Contents (Elt F) :=
  (cmpi .slt) A.a4 (r_main_v32 A)
def r_main_c_2 (A : Args F) : (⟨S_, .i32⟩ : BufTy).Contents (Elt F) :=
  (constantI S_ 32 50000#32)
def r_main_v34 (A : Args F) : (⟨S800000, .i32⟩ : BufTy).Contents (Elt F) :=
  (broadcastInDim S800000 ![] bcast_S_S800000) (r_main_c_2 A)
def r_main_v35 (A : Args F) : (⟨S800000, .i32⟩ : BufTy).Contents (Elt F) :=
  addi A.a4 (r_main_v34 A)
def r_main_v36 (A : Args F) : (⟨S800000, .i32⟩ : BufTy).Contents (Elt F) :=
  select (r_main_v33 A) (r_main_v35 A) A.a4
def r_main_v37 (A : Args F) : (⟨S800000x1, .i32⟩ : BufTy).Contents (Elt F) :=
  (broadcastInDim S800000x1 ![0] bcast_S800000_S800000x1_0) (r_main_v36 A)
def r_main_v38 (A : Args F) : (⟨S800000x64, .f32⟩ : BufTy).Contents (Elt F) :=
  (fun x i => Host.gather gather_S50000x64_S800000x1_S800000x64_1_0_n_n_0_1_164 x i) (r_main_v16 A) (r_main_v37 A)
def r_main_v39 (A : Args F) : (⟨S800000x64, .f32⟩ : BufTy).Contents (Elt F) :=
  addf (r_main_v31 A) (r_main_v38 A)
def r_main_v40 (A : Args F) : (⟨S800000x64, .f32⟩ : BufTy).Contents (Elt F) :=
  (fun l r => Host.dotGeneral dot_S800000x64_S64x64_S800000x64_1_0_0_1_n_n none l r) A.a1 A.a13
def r_main_v41 (A : Args F) : (⟨S1x64, .f32⟩ : BufTy).Contents (Elt F) :=
  (broadcastInDim S1x64 ![1] bcast_S64_S1x64_1) A.a14
def r_main_v42 (A : Args F) : (⟨S800000x64, .f32⟩ : BufTy).Contents (Elt F) :=
  (broadcastInDim S800000x64 ![0, 1] bcast_S1x64_S800000x64_0_1) (r_main_v41 A)
def r_main_v43 (A : Args F) : (⟨S800000x64, .f32⟩ : BufTy).Contents (Elt F) :=
  addf (r_main_v40 A) (r_main_v42 A)
def r_main_v44 (A : Args F) : (⟨S800000x64, .f32⟩ : BufTy).Contents (Elt F) :=
  addf (r_main_v39 A) (r_main_v43 A)
def r_main_v45 (A : Args F) : (⟨S800000x64, .f32⟩ : BufTy).Contents (Elt F) :=
  (Host.negf) (r_main_v44 A)
def r_main_v46 (A : Args F) : (⟨S800000x64, .f32⟩ : BufTy).Contents (Elt F) :=
  (Host.exp) (r_main_v45 A)
def r_main_cst (A : Args F) : (⟨S_, .f32⟩ : BufTy).Contents (Elt F) :=
  (constant S_ .f32 0x3F800000#32)
def r_main_v47 (A : Args F) : (⟨S800000x64, .f32⟩ : BufTy).Contents (Elt F) :=
  (broadcastInDim S800000x64 ![] bcast_S_S800000x64) (r_main_cst A)
def r_main_v48 (A : Args F) : (⟨S800000x64, .f32⟩ : BufTy).Contents (Elt F) :=
  addf (r_main_v47 A) (r_main_v46 A)
def r_main_cst_3 (A : Args F) : (⟨S_, .f32⟩ : BufTy).Contents (Elt F) :=
  (constant S_ .f32 0x3F800000#32)
def r_main_v49 (A : Args F) : (⟨S800000x64, .f32⟩ : BufTy).Contents (Elt F) :=
  (broadcastInDim S800000x64 ![] bcast_S_S800000x64) (r_main_cst_3 A)
def r_main_v50 (A : Args F) : (⟨S800000x64, .f32⟩ : BufTy).Contents (Elt F) :=
  (Host.divf) (r_main_v49 A) (r_main_v48 A)
def r_main_cst_4 (A : Args F) : (⟨S_, .f32⟩ : BufTy).Contents (Elt F) :=
  (constant S_ .f32 0x00000000#32)
def r_main_v51 (A : Args F) : (⟨S50000x64, .f32⟩ : BufTy).Contents (Elt F) :=
  (broadcastInDim S50000x64 ![] bcast_S_S50000x64) (r_main_cst_4 A)
def r_main_v52 (A : Args F) : (⟨S800000x1, .i32⟩ : BufTy).Contents (Elt F) :=
  (broadcastInDim S800000x1 ![0] bcast_S800000_S800000x1_0) A.a4
def r_main_v53 (A : Args F) : (⟨S50000x64, .f32⟩ : BufTy).Contents (Elt F) :=
  (fun x i u => Host.scatterAdd scatter_S50000x64_S800000x1_S800000x64_1_0_0_1 x i u) (r_main_v51 A) (r_main_v52 A) (r_main_v50 A)
def r_main_c_5 (A : Args F) : (⟨S_, .i32⟩ : BufTy).Contents (Elt F) :=
  (constantI S_ 32 0#32)
def r_main_v54 (A : Args F) : (⟨S800000, .i32⟩ : BufTy).Contents (Elt F) :=
  (broadcastInDim S800000 ![] bcast_S_S800000) (r_main_c_5 A)
def r_main_v55 (A : Args F) : (⟨S800000, .i1⟩ : BufTy).Contents (Elt F) :=
  (cmpi .slt) A.a4 (r_main_v54 A)
def r_main_c_6 (A : Args F) : (⟨S_, .i32⟩ : BufTy).Contents (Elt F) :=
  (constantI S_ 32 50000#32)
def r_main_v56 (A : Args F) : (⟨S800000, .i32⟩ : BufTy).Contents (Elt F) :=
  (broadcastInDim S800000 ![] bcast_S_S800000) (r_main_c_6 A)
def r_main_v57 (A : Args F) : (⟨S800000, .i32⟩ : BufTy).Contents (Elt F) :=
  addi A.a4 (r_main_v56 A)
def r_main_v58 (A : Args F) : (⟨S800000, .i32⟩ : BufTy).Contents (Elt F) :=
  select (r_main_v55 A) (r_main_v57 A) A.a4
def r_main_v59 (A : Args F) : (⟨S800000x1, .i32⟩ : BufTy).Contents (Elt F) :=
  (broadcastInDim S800000x1 ![0] bcast_S800000_S800000x1_0) (r_main_v58 A)
def r_main_v60 (A : Args F) : (⟨S800000x64, .f32⟩ : BufTy).Contents (Elt F) :=
  (fun x i => Host.gather gather_S50000x64_S800000x1_S800000x64_1_0_n_n_0_1_164 x i) (r_main_v53 A) (r_main_v59 A)
def r_main_cst_7 (A : Args F) : (⟨S_, .f32⟩ : BufTy).Contents (Elt F) :=
  (constant S_ .f32 0x358637BD#32)
def r_main_v61 (A : Args F) : (⟨S800000x64, .f32⟩ : BufTy).Contents (Elt F) :=
  (broadcastInDim S800000x64 ![] bcast_S_S800000x64) (r_main_cst_7 A)
def r_main_v62 (A : Args F) : (⟨S800000x64, .f32⟩ : BufTy).Contents (Elt F) :=
  addf (r_main_v60 A) (r_main_v61 A)
def r_main_v63 (A : Args F) : (⟨S800000x64, .f32⟩ : BufTy).Contents (Elt F) :=
  (Host.divf) (r_main_v50 A) (r_main_v62 A)
def r_main_c_8 (A : Args F) : (⟨S_, .i32⟩ : BufTy).Contents (Elt F) :=
  (constantI S_ 32 0#32)
def r_main_v64 (A : Args F) : (⟨S800000, .i32⟩ : BufTy).Contents (Elt F) :=
  (broadcastInDim S800000 ![] bcast_S_S800000) (r_main_c_8 A)
def r_main_v65 (A : Args F) : (⟨S800000, .i1⟩ : BufTy).Contents (Elt F) :=
  (cmpi .slt) A.a3 (r_main_v64 A)
def r_main_c_9 (A : Args F) : (⟨S_, .i32⟩ : BufTy).Contents (Elt F) :=
  (constantI S_ 32 50000#32)
def r_main_v66 (A : Args F) : (⟨S800000, .i32⟩ : BufTy).Contents (Elt F) :=
  (broadcastInDim S800000 ![] bcast_S_S800000) (r_main_c_9 A)
def r_main_v67 (A : Args F) : (⟨S800000, .i32⟩ : BufTy).Contents (Elt F) :=
  addi A.a3 (r_main_v66 A)
def r_main_v68 (A : Args F) : (⟨S800000, .i32⟩ : BufTy).Contents (Elt F) :=
  select (r_main_v65 A) (r_main_v67 A) A.a3
def r_main_v69 (A : Args F) : (⟨S800000x1, .i32⟩ : BufTy).Contents (Elt F) :=
  (broadcastInDim S800000x1 ![0] bcast_S800000_S800000x1_0) (r_main_v68 A)
def r_main_v70 (A : Args F) : (⟨S800000x64, .f32⟩ : BufTy).Contents (Elt F) :=
  (fun x i => Host.gather gather_S50000x64_S800000x1_S800000x64_1_0_n_n_0_1_164 x i) (r_main_v8 A) (r_main_v69 A)
def r_main_v71 (A : Args F) : (⟨S800000x64, .f32⟩ : BufTy).Contents (Elt F) :=
  mulf (r_main_v63 A) (r_main_v70 A)
def r_main_cst_10 (A : Args F) : (⟨S_, .f32⟩ : BufTy).Contents (Elt F) :=
  (constant S_ .f32 0x00000000#32)
def r_main_v72 (A : Args F) : (⟨S50000x64, .f32⟩ : BufTy).Contents (Elt F) :=
  (broadcastInDim S50000x64 ![] bcast_S_S50000x64) (r_main_cst_10 A)
def r_main_v73 (A : Args F) : (⟨S800000x1, .i32⟩ : BufTy).Contents (Elt F) :=
  (broadcastInDim S800000x1 ![0] bcast_S800000_S800000x1_0) A.a4
def r_main_v74 (A : Args F) : (⟨S50000x64, .f32⟩ : BufTy).Contents (Elt F) :=
  (fun x i u => Host.scatterAdd scatter_S50000x64_S800000x1_S800000x64_1_0_0_1 x i u) (r_main_v72 A) (r_main_v73 A) (r_main_v71 A)
def r_main_v75 (A : Args F) : (⟨S50000x64, .f32⟩ : BufTy).Contents (Elt F) :=
  addf (r_main_v4 A) (r_main_v74 A)
def r_main_c_11 (A : Args F) : (⟨S_, .i32⟩ : BufTy).Contents (Elt F) :=
  (constantI S_ 32 0#32)
def r_main_v76 (A : Args F) : (⟨S800000, .i32⟩ : BufTy).Contents (Elt F) :=
  (broadcastInDim S800000 ![] bcast_S_S800000) (r_main_c_11 A)
def r_main_v77 (A : Args F) : (⟨S800000, .i1⟩ : BufTy).Contents (Elt F) :=
  (cmpi .slt) A.a3 (r_main_v76 A)
def r_main_c_12 (A : Args F) : (⟨S_, .i32⟩ : BufTy).Contents (Elt F) :=
  (constantI S_ 32 50000#32)
def r_main_v78 (A : Args F) : (⟨S800000, .i32⟩ : BufTy).Contents (Elt F) :=
  (broadcastInDim S800000 ![] bcast_S_S800000) (r_main_c_12 A)
def r_main_v79 (A : Args F) : (⟨S800000, .i32⟩ : BufTy).Contents (Elt F) :=
  addi A.a3 (r_main_v78 A)
def r_main_v80 (A : Args F) : (⟨S800000, .i32⟩ : BufTy).Contents (Elt F) :=
  select (r_main_v77 A) (r_main_v79 A) A.a3
def r_main_v81 (A : Args F) : (⟨S800000x1, .i32⟩ : BufTy).Contents (Elt F) :=
  (broadcastInDim S800000x1 ![0] bcast_S800000_S800000x1_0) (r_main_v80 A)
def r_main_v82 (A : Args F) : (⟨S800000x64, .f32⟩ : BufTy).Contents (Elt F) :=
  (fun x i => Host.gather gather_S50000x64_S800000x1_S800000x64_1_0_n_n_0_1_164 x i) (r_main_v24 A) (r_main_v81 A)
def r_main_v83 (A : Args F) : (⟨S800000x64, .f32⟩ : BufTy).Contents (Elt F) :=
  mulf (r_main_v63 A) (r_main_v82 A)
def r_main_cst_13 (A : Args F) : (⟨S_, .f32⟩ : BufTy).Contents (Elt F) :=
  (constant S_ .f32 0x00000000#32)
def r_main_v84 (A : Args F) : (⟨S50000x64, .f32⟩ : BufTy).Contents (Elt F) :=
  (broadcastInDim S50000x64 ![] bcast_S_S50000x64) (r_main_cst_13 A)
def r_main_v85 (A : Args F) : (⟨S800000x1, .i32⟩ : BufTy).Contents (Elt F) :=
  (broadcastInDim S800000x1 ![0] bcast_S800000_S800000x1_0) A.a4
def r_main_v86 (A : Args F) : (⟨S50000x64, .f32⟩ : BufTy).Contents (Elt F) :=
  (fun x i u => Host.scatterAdd scatter_S50000x64_S800000x1_S800000x64_1_0_0_1 x i u) (r_main_v84 A) (r_main_v85 A) (r_main_v83 A)
def r_main_v87 (A : Args F) : (⟨S50000x64, .f32⟩ : BufTy).Contents (Elt F) :=
  addf (r_main_v20 A) (r_main_v86 A)
def r_main_cst_14 (A : Args F) : (⟨S_, .f32⟩ : BufTy).Contents (Elt F) :=
  (constant S_ .f32 0x00000000#32)
def r_main_v88 (A : Args F) : (⟨S64, .f32⟩ : BufTy).Contents (Elt F) :=
  (fun x v => Host.reduceAdd x v reducesTo_S50000x64_S64_d0 h_S_) (r_main_v75 A) (r_main_cst_14 A)
def r_main_cst_15 (A : Args F) : (⟨S_, .f32⟩ : BufTy).Contents (Elt F) :=
  (constant S_ .f32 0x47435000#32)
def r_main_v89 (A : Args F) : (⟨S64, .f32⟩ : BufTy).Contents (Elt F) :=
  (broadcastInDim S64 ![] bcast_S_S64) (r_main_cst_15 A)
def r_main_v90 (A : Args F) : (⟨S64, .f32⟩ : BufTy).Contents (Elt F) :=
  (Host.divf) (r_main_v88 A) (r_main_v89 A)
def r_main_c_16 (A : Args F) : (⟨S_, .i32⟩ : BufTy).Contents (Elt F) :=
  (constantI S_ 32 0#32)
def r_main_call0_cst (A : Args F) : (⟨S_, .f32⟩ : BufTy).Contents (Elt F) :=
  (constant S_ .f32 0x00000000#32)
def r_main_call0_v0 (A : Args F) : (⟨S64, .f32⟩ : BufTy).Contents (Elt F) :=
  (fun x v => Host.reduceAdd x v reducesTo_S50000x64_S64_d0 h_S_) (r_main_v75 A) (r_main_call0_cst A)
def r_main_call0_v1 (A : Args F) : (⟨S1x64, .f32⟩ : BufTy).Contents (Elt F) :=
  (broadcastInDim S1x64 ![1] bcast_S64_S1x64_1) (r_main_call0_v0 A)
def r_main_call0_cst_0 (A : Args F) : (⟨S_, .f32⟩ : BufTy).Contents (Elt F) :=
  (constant S_ .f32 0x47435000#32)
def r_main_call0_v2 (A : Args F) : (⟨S1x64, .f32⟩ : BufTy).Contents (Elt F) :=
  (broadcastInDim S1x64 ![] bcast_S_S1x64) (r_main_call0_cst_0 A)
def r_main_call0_v3 (A : Args F) : (⟨S1x64, .f32⟩ : BufTy).Contents (Elt F) :=
  (Host.divf) (r_main_call0_v1 A) (r_main_call0_v2 A)
def r_main_call0_v4 (A : Args F) : (⟨S50000x64, .f32⟩ : BufTy).Contents (Elt F) :=
  (broadcastInDim S50000x64 ![0, 1] bcast_S1x64_S50000x64_0_1) (r_main_call0_v3 A)
def r_main_call0_v5 (A : Args F) : (⟨S50000x64, .f32⟩ : BufTy).Contents (Elt F) :=
  subf (r_main_v75 A) (r_main_call0_v4 A)
def r_main_call0_v6 (A : Args F) : (⟨S50000x64, .f32⟩ : BufTy).Contents (Elt F) :=
  mulf (r_main_call0_v5 A) (r_main_call0_v5 A)
def r_main_call0_v7 (A : Args F) : (⟨S_, .f32⟩ : BufTy).Contents (Elt F) :=
  (sitofp .f32) (r_main_c_16 A)
def r_main_call0_cst_1 (A : Args F) : (⟨S_, .f32⟩ : BufTy).Contents (Elt F) :=
  (constant S_ .f32 0x47435000#32)
def r_main_call0_v8 (A : Args F) : (⟨S_, .f32⟩ : BufTy).Contents (Elt F) :=
  subf (r_main_call0_cst_1 A) (r_main_call0_v7 A)
def r_main_call0_cst_2 (A : Args F) : (⟨S_, .f32⟩ : BufTy).Contents (Elt F) :=
  (constant S_ .f32 0x00000000#32)
def r_main_call0_v9 (A : Args F) : (⟨S64, .f32⟩ : BufTy).Contents (Elt F) :=
  (fun x v => Host.reduceAdd x v reducesTo_S50000x64_S64_d0 h_S_) (r_main_call0_v6 A) (r_main_call0_cst_2 A)
def r_main_call0_v10 (A : Args F) : (⟨S64, .f32⟩ : BufTy).Contents (Elt F) :=
  (broadcastInDim S64 ![] bcast_S_S64) (r_main_call0_v8 A)
def r_main_call0_v11 (A : Args F) : (⟨S64, .f32⟩ : BufTy).Contents (Elt F) :=
  (Host.divf) (r_main_call0_v9 A) (r_main_call0_v10 A)
def r_main_call0_cst_3 (A : Args F) : (⟨S_, .f32⟩ : BufTy).Contents (Elt F) :=
  (constant S_ .f32 0x00000000#32)
def r_main_call0_v12 (A : Args F) : (⟨S_, .i1⟩ : BufTy).Contents (Elt F) :=
  (cmpf .ogt) (r_main_call0_v8 A) (r_main_call0_cst_3 A)
def r_main_call0_cst_4 (A : Args F) : (⟨S_, .f32⟩ : BufTy).Contents (Elt F) :=
  (constant S_ .f32 0x7FC00000#32)
def r_main_call0_call0_v0 (A : Args F) : (⟨S_, .f32⟩ : BufTy).Contents (Elt F) :=
  id (r_main_call0_cst_4 A)
def r_main_call0_call0_v1 (A : Args F) : (⟨S64, .f32⟩ : BufTy).Contents (Elt F) :=
  (broadcastInDim S64 ![] bcast_S_S64) (r_main_call0_call0_v0 A)
def r_main_v91 (A : Args F) : (⟨S64, .f32⟩ : BufTy).Contents (Elt F) :=
  (fun p a b => select (broadcastInDim S64 ![] bcast_S_S64 p) a b) (r_main_call0_v12 A) (r_main_call0_v11 A) (r_main_call0_call0_v1 A)
def r_main_v92 (A : Args F) : (⟨S1x64, .f32⟩ : BufTy).Contents (Elt F) :=
  (broadcastInDim S1x64 ![1] bcast_S64_S1x64_1) (r_main_v90 A)
def r_main_v93 (A : Args F) : (⟨S50000x64, .f32⟩ : BufTy).Contents (Elt F) :=
  (broadcastInDim S50000x64 ![0, 1] bcast_S1x64_S50000x64_0_1) (r_main_v92 A)
def r_main_v94 (A : Args F) : (⟨S50000x64, .f32⟩ : BufTy).Contents (Elt F) :=
  subf (r_main_v75 A) (r_main_v93 A)
def r_main_v95 (A : Args F) : (⟨S1x64, .f32⟩ : BufTy).Contents (Elt F) :=
  (broadcastInDim S1x64 ![1] bcast_S64_S1x64_1) A.a19
def r_main_v96 (A : Args F) : (⟨S50000x64, .f32⟩ : BufTy).Contents (Elt F) :=
  (broadcastInDim S50000x64 ![0, 1] bcast_S1x64_S50000x64_0_1) (r_main_v95 A)
def r_main_v97 (A : Args F) : (⟨S50000x64, .f32⟩ : BufTy).Contents (Elt F) :=
  mulf (r_main_v96 A) (r_main_v94 A)
def r_main_cst_17 (A : Args F) : (⟨S_, .f32⟩ : BufTy).Contents (Elt F) :=
  (constant S_ .f32 0x3727C5AC#32)
def r_main_v98 (A : Args F) : (⟨S64, .f32⟩ : BufTy).Contents (Elt F) :=
  (broadcastInDim S64 ![] bcast_S_S64) (r_main_cst_17 A)
def r_main_v99 (A : Args F) : (⟨S64, .f32⟩ : BufTy).Contents (Elt F) :=
  addf (r_main_v91 A) (r_main_v98 A)
def r_main_v100 (A : Args F) : (⟨S64, .f32⟩ : BufTy).Contents (Elt F) :=
  (Host.rsqrt) (r_main_v99 A)
def r_main_v101 (A : Args F) : (⟨S1x64, .f32⟩ : BufTy).Contents (Elt F) :=
  (broadcastInDim S1x64 ![1] bcast_S64_S1x64_1) (r_main_v100 A)
def r_main_v102 (A : Args F) : (⟨S50000x64, .f32⟩ : BufTy).Contents (Elt F) :=
  (broadcastInDim S50000x64 ![0, 1] bcast_S1x64_S50000x64_0_1) (r_main_v101 A)
def r_main_v103 (A : Args F) : (⟨S50000x64, .f32⟩ : BufTy).Contents (Elt F) :=
  mulf (r_main_v97 A) (r_main_v102 A)
def r_main_v104 (A : Args F) : (⟨S1x64, .f32⟩ : BufTy).Contents (Elt F) :=
  (broadcastInDim S1x64 ![1] bcast_S64_S1x64_1) A.a20
def r_main_v105 (A : Args F) : (⟨S50000x64, .f32⟩ : BufTy).Contents (Elt F) :=
  (broadcastInDim S50000x64 ![0, 1] bcast_S1x64_S50000x64_0_1) (r_main_v104 A)
def r_main_v106 (A : Args F) : (⟨S50000x64, .f32⟩ : BufTy).Contents (Elt F) :=
  addf (r_main_v103 A) (r_main_v105 A)
def r_main_call1_cst (A : Args F) : (⟨S_, .f32⟩ : BufTy).Contents (Elt F) :=
  (constant S_ .f32 0x00000000#32)
def r_main_call1_v0 (A : Args F) : (⟨S50000x64, .f32⟩ : BufTy).Contents (Elt F) :=
  (broadcastInDim S50000x64 ![] bcast_S_S50000x64) (r_main_call1_cst A)
def r_main_v107 (A : Args F) : (⟨S50000x64, .f32⟩ : BufTy).Contents (Elt F) :=
  maximumf (r_main_v106 A) (r_main_call1_v0 A)
def r_main_cst_18 (A : Args F) : (⟨S_, .f32⟩ : BufTy).Contents (Elt F) :=
  (constant S_ .f32 0x00000000#32)
def r_main_v108 (A : Args F) : (⟨S64, .f32⟩ : BufTy).Contents (Elt F) :=
  (fun x v => Host.reduceAdd x v reducesTo_S800000x64_S64_d0 h_S_) (r_main_v44 A) (r_main_cst_18 A)
def r_main_cst_19 (A : Args F) : (⟨S_, .f32⟩ : BufTy).Contents (Elt F) :=
  (constant S_ .f32 0x49435000#32)
def r_main_v109 (A : Args F) : (⟨S64, .f32⟩ : BufTy).Contents (Elt F) :=
  (broadcastInDim S64 ![] bcast_S_S64) (r_main_cst_19 A)
def r_main_v110 (A : Args F) : (⟨S64, .f32⟩ : BufTy).Contents (Elt F) :=
  (Host.divf) (r_main_v108 A) (r_main_v109 A)
def r_main_c_20 (A : Args F) : (⟨S_, .i32⟩ : BufTy).Contents (Elt F) :=
  (constantI S_ 32 0#32)
def r_main_call2_cst (A : Args F) : (⟨S_, .f32⟩ : BufTy).Contents (Elt F) :=
  (constant S_ .f32 0x00000000#32)
def r_main_call2_v0 (A : Args F) : (⟨S64, .f32⟩ : BufTy).Contents (Elt F) :=
  (fun x v => Host.reduceAdd x v reducesTo_S800000x64_S64_d0 h_S_) (r_main_v44 A) (r_main_call2_cst A)
def r_main_call2_v1 (A : Args F) : (⟨S1x64, .f32⟩ : BufTy).Contents (Elt F) :=
  (broadcastInDim S1x64 ![1] bcast_S64_S1x64_1) (r_main_call2_v0 A)
def r_main_call2_cst_0 (A : Args F) : (⟨S_, .f32⟩ : BufTy).Contents (Elt F) :=
  (constant S_ .f32 0x49435000#32)
def r_main_call2_v2 (A : Args F) : (⟨S1x64, .f32⟩ : BufTy).Contents (Elt F) :=
  (broadcastInDim S1x64 ![] bcast_S_S1x64) (r_main_call2_cst_0 A)
def r_main_call2_v3 (A : Args F) : (⟨S1x64, .f32⟩ : BufTy).Contents (Elt F) :=
  (Host.divf) (r_main_call2_v1 A) (r_main_call2_v2 A)
def r_main_call2_v4 (A : Args F) : (⟨S800000x64, .f32⟩ : BufTy).Contents (Elt F) :=
  (broadcastInDim S800000x64 ![0, 1] bcast_S1x64_S800000x64_0_1) (r_main_call2_v3 A)
def r_main_call2_v5 (A : Args F) : (⟨S800000x64, .f32⟩ : BufTy).Contents (Elt F) :=
  subf (r_main_v44 A) (r_main_call2_v4 A)
def r_main_call2_v6 (A : Args F) : (⟨S800000x64, .f32⟩ : BufTy).Contents (Elt F) :=
  mulf (r_main_call2_v5 A) (r_main_call2_v5 A)
def r_main_call2_v7 (A : Args F) : (⟨S_, .f32⟩ : BufTy).Contents (Elt F) :=
  (sitofp .f32) (r_main_c_20 A)
def r_main_call2_cst_1 (A : Args F) : (⟨S_, .f32⟩ : BufTy).Contents (Elt F) :=
  (constant S_ .f32 0x49435000#32)
def r_main_call2_v8 (A : Args F) : (⟨S_, .f32⟩ : BufTy).Contents (Elt F) :=
  subf (r_main_call2_cst_1 A) (r_main_call2_v7 A)
def r_main_call2_cst_2 (A : Args F) : (⟨S_, .f32⟩ : BufTy).Contents (Elt F) :=
  (constant S_ .f32 0x00000000#32)
def r_main_call2_v9 (A : Args F) : (⟨S64, .f32⟩ : BufTy).Contents (Elt F) :=
  (fun x v => Host.reduceAdd x v reducesTo_S800000x64_S64_d0 h_S_) (r_main_call2_v6 A) (r_main_call2_cst_2 A)
def r_main_call2_v10 (A : Args F) : (⟨S64, .f32⟩ : BufTy).Contents (Elt F) :=
  (broadcastInDim S64 ![] bcast_S_S64) (r_main_call2_v8 A)
def r_main_call2_v11 (A : Args F) : (⟨S64, .f32⟩ : BufTy).Contents (Elt F) :=
  (Host.divf) (r_main_call2_v9 A) (r_main_call2_v10 A)
def r_main_call2_cst_3 (A : Args F) : (⟨S_, .f32⟩ : BufTy).Contents (Elt F) :=
  (constant S_ .f32 0x00000000#32)
def r_main_call2_v12 (A : Args F) : (⟨S_, .i1⟩ : BufTy).Contents (Elt F) :=
  (cmpf .ogt) (r_main_call2_v8 A) (r_main_call2_cst_3 A)
def r_main_call2_cst_4 (A : Args F) : (⟨S_, .f32⟩ : BufTy).Contents (Elt F) :=
  (constant S_ .f32 0x7FC00000#32)
def r_main_call2_call0_v0 (A : Args F) : (⟨S_, .f32⟩ : BufTy).Contents (Elt F) :=
  id (r_main_call2_cst_4 A)
def r_main_call2_call0_v1 (A : Args F) : (⟨S64, .f32⟩ : BufTy).Contents (Elt F) :=
  (broadcastInDim S64 ![] bcast_S_S64) (r_main_call2_call0_v0 A)
def r_main_v111 (A : Args F) : (⟨S64, .f32⟩ : BufTy).Contents (Elt F) :=
  (fun p a b => select (broadcastInDim S64 ![] bcast_S_S64 p) a b) (r_main_call2_v12 A) (r_main_call2_v11 A) (r_main_call2_call0_v1 A)
def r_main_v112 (A : Args F) : (⟨S1x64, .f32⟩ : BufTy).Contents (Elt F) :=
  (broadcastInDim S1x64 ![1] bcast_S64_S1x64_1) (r_main_v110 A)
def r_main_v113 (A : Args F) : (⟨S800000x64, .f32⟩ : BufTy).Contents (Elt F) :=
  (broadcastInDim S800000x64 ![0, 1] bcast_S1x64_S800000x64_0_1) (r_main_v112 A)
def r_main_v114 (A : Args F) : (⟨S800000x64, .f32⟩ : BufTy).Contents (Elt F) :=
  subf (r_main_v44 A) (r_main_v113 A)
def r_main_v115 (A : Args F) : (⟨S1x64, .f32⟩ : BufTy).Contents (Elt F) :=
  (broadcastInDim S1x64 ![1] bcast_S64_S1x64_1) A.a21
def r_main_v116 (A : Args F) : (⟨S800000x64, .f32⟩ : BufTy).Contents (Elt F) :=
  (broadcastInDim S800000x64 ![0, 1] bcast_S1x64_S800000x64_0_1) (r_main_v115 A)
def r_main_v117 (A : Args F) : (⟨S800000x64, .f32⟩ : BufTy).Contents (Elt F) :=
  mulf (r_main_v116 A) (r_main_v114 A)
def r_main_cst_21 (A : Args F) : (⟨S_, .f32⟩ : BufTy).Contents (Elt F) :=
  (constant S_ .f32 0x3727C5AC#32)
def r_main_v118 (A : Args F) : (⟨S64, .f32⟩ : BufTy).Contents (Elt F) :=
  (broadcastInDim S64 ![] bcast_S_S64) (r_main_cst_21 A)
def r_main_v119 (A : Args F) : (⟨S64, .f32⟩ : BufTy).Contents (Elt F) :=
  addf (r_main_v111 A) (r_main_v118 A)
def r_main_v120 (A : Args F) : (⟨S64, .f32⟩ : BufTy).Contents (Elt F) :=
  (Host.rsqrt) (r_main_v119 A)
def r_main_v121 (A : Args F) : (⟨S1x64, .f32⟩ : BufTy).Contents (Elt F) :=
  (broadcastInDim S1x64 ![1] bcast_S64_S1x64_1) (r_main_v120 A)
def r_main_v122 (A : Args F) : (⟨S800000x64, .f32⟩ : BufTy).Contents (Elt F) :=
  (broadcastInDim S800000x64 ![0, 1] bcast_S1x64_S800000x64_0_1) (r_main_v121 A)
def r_main_v123 (A : Args F) : (⟨S800000x64, .f32⟩ : BufTy).Contents (Elt F) :=
  mulf (r_main_v117 A) (r_main_v122 A)
def r_main_v124 (A : Args F) : (⟨S1x64, .f32⟩ : BufTy).Contents (Elt F) :=
  (broadcastInDim S1x64 ![1] bcast_S64_S1x64_1) A.a22
def r_main_v125 (A : Args F) : (⟨S800000x64, .f32⟩ : BufTy).Contents (Elt F) :=
  (broadcastInDim S800000x64 ![0, 1] bcast_S1x64_S800000x64_0_1) (r_main_v124 A)
def r_main_v126 (A : Args F) : (⟨S800000x64, .f32⟩ : BufTy).Contents (Elt F) :=
  addf (r_main_v123 A) (r_main_v125 A)
def r_main_call3_cst (A : Args F) : (⟨S_, .f32⟩ : BufTy).Contents (Elt F) :=
  (constant S_ .f32 0x00000000#32)
def r_main_call3_v0 (A : Args F) : (⟨S800000x64, .f32⟩ : BufTy).Contents (Elt F) :=
  (broadcastInDim S800000x64 ![] bcast_S_S800000x64) (r_main_call3_cst A)
def r_main_v127 (A : Args F) : (⟨S800000x64, .f32⟩ : BufTy).Contents (Elt F) :=
  maximumf (r_main_v126 A) (r_main_call3_v0 A)
def r_main_v128 (A : Args F) : (⟨S50000x64, .f32⟩ : BufTy).Contents (Elt F) :=
  (Host.tanh) (r_main_v87 A)

/-- The arguments as a memory holds them. -/
def argsOf (V : Valuation τ sig (Elt F)) : Args F :=
  ⟨V (main_arg0 : DevRef τ sig), V (main_arg1 : DevRef τ sig), V (main_arg2 : DevRef τ sig), V (main_arg3 : DevRef τ sig), V (main_arg4 : DevRef τ sig), V (main_arg5 : DevRef τ sig), V (main_arg6 : DevRef τ sig), V (main_arg7 : DevRef τ sig), V (main_arg8 : DevRef τ sig), V (main_arg9 : DevRef τ sig), V (main_arg10 : DevRef τ sig), V (main_arg11 : DevRef τ sig), V (main_arg12 : DevRef τ sig), V (main_arg13 : DevRef τ sig), V (main_arg14 : DevRef τ sig), V (main_arg15 : DevRef τ sig), V (main_arg16 : DevRef τ sig), V (main_arg17 : DevRef τ sig), V (main_arg18 : DevRef τ sig), V (main_arg19 : DevRef τ sig), V (main_arg20 : DevRef τ sig), V (main_arg21 : DevRef τ sig), V (main_arg22 : DevRef τ sig)⟩

end Cert.ReferenceIdeal.RefSpec

end
-- ==== Proof.RefFinite.lean ====
/-
  The reference's intermediate arrays are real-valued when its float arguments are.

  A float at the ideal instance is an extended real. Sums and products of reals are reals, a gathered, broadcast or
  concatenated entry is an entry of an operand, the exponential of a real is a positive real, and a quotient of reals
  by a real that is not zero is a real. Down the reference's chain of operations: the linear layers, the gathered
  rows and hence the edge logits are real; the gate 1/(1+exp(-x)) is a positive real, so each segment sum of gates is
  a real that is not negative, the normalizer (segment sum plus a positive constant) is a positive real, the
  normalized gate is real, and the aggregated node update is real.
-/
import proofs.«146130_j46961172414535_2_alg».proof.Proof.RefSpec
import proofs.«146130_j46961172414535_2_alg».proof.Proof.Gen.Pre_finite_inputs
import Idealize.ShloMosaic.Lib.IdealHost
import Idealize.ShloMosaic.Lib.ReduceAll

noncomputable section

namespace Cert.ReferenceIdeal.RefFinite

open Cert.ReferenceIdeal Cert.ReferenceIdeal.Gen Cert.ReferenceIdeal.RefSpec
open Idealize.ShloMosaic Idealize.ShloMosaic.TcCoe Idealize.ShloMosaic.ValueIdx Idealize.SL.Sem Idealize.ShloMosaic.StableHlo
open scoped BigOperators

/-! ## Extended reals that are reals -/

/-- An array of extended reals all of whose entries are reals. -/
def RealArr {s : Shape} (x : s.Idx → EReal) : Prop := ∀ i, ∃ r : ℝ, x i = (r : EReal)

/-- An array all of whose entries are reals that are not negative. -/
def NonnegArr {s : Shape} (x : s.Idx → EReal) : Prop := ∀ i, ∃ r : ℝ, 0 ≤ r ∧ x i = (r : EReal)

/-- An array all of whose entries are positive reals. -/
def PosArr {s : Shape} (x : s.Idx → EReal) : Prop := ∀ i, ∃ r : ℝ, 0 < r ∧ x i = (r : EReal)

theorem PosArr.nonneg {s : Shape} {x : s.Idx → EReal} (h : PosArr x) : NonnegArr x :=
  fun i => let ⟨r, hr, e⟩ := h i; ⟨r, hr.le, e⟩

theorem NonnegArr.real {s : Shape} {x : s.Idx → EReal} (h : NonnegArr x) : RealArr x :=
  fun i => let ⟨r, _, e⟩ := h i; ⟨r, e⟩

theorem PosArr.real {s : Shape} {x : s.Idx → EReal} (h : PosArr x) : RealArr x := h.nonneg.real

theorem isR_add {x y : EReal} (hx : ∃ a : ℝ, x = (a : EReal)) (hy : ∃ b : ℝ, y = (b : EReal)) :
    ∃ c : ℝ, x + y = (c : EReal) := by
  obtain ⟨a, rfl⟩ := hx; obtain ⟨b, rfl⟩ := hy; exact ⟨a + b, (EReal.coe_add a b).symm⟩

theorem isR_mul {x y : EReal} (hx : ∃ a : ℝ, x = (a : EReal)) (hy : ∃ b : ℝ, y = (b : EReal)) :
    ∃ c : ℝ, x * y = (c : EReal) := by
  obtain ⟨a, rfl⟩ := hx; obtain ⟨b, rfl⟩ := hy; exact ⟨a * b, (EReal.coe_mul a b).symm⟩

theorem isR_sum {ι : Type} (S : Finset ι) (f : ι → EReal) (hf : ∀ i ∈ S, ∃ r : ℝ, f i = (r : EReal)) :
    ∃ r : ℝ, ∑ i ∈ S, f i = (r : EReal) :=
  Finset.sum_induction f (fun y => ∃ r : ℝ, y = (r : EReal)) (fun a b => isR_add) ⟨0, EReal.coe_zero.symm⟩ hf

theorem isNonneg_add {x y : EReal} (hx : ∃ a : ℝ, 0 ≤ a ∧ x = (a : EReal)) (hy : ∃ b : ℝ, 0 ≤ b ∧ y = (b : EReal)) :
    ∃ c : ℝ, 0 ≤ c ∧ x + y = (c : EReal) := by
  obtain ⟨a, ha, rfl⟩ := hx; obtain ⟨b, hb, rfl⟩ := hy; exact ⟨a + b, add_nonneg ha hb, (EReal.coe_add a b).symm⟩

theorem isNonneg_sum {ι : Type} (S : Finset ι) (f : ι → EReal) (hf : ∀ i ∈ S, ∃ r : ℝ, 0 ≤ r ∧ f i = (r : EReal)) :
    ∃ r : ℝ, 0 ≤ r ∧ ∑ i ∈ S, f i = (r : EReal) :=
  Finset.sum_induction f (fun y => ∃ r : ℝ, 0 ≤ r ∧ y = (r : EReal)) (fun a b => isNonneg_add)
    ⟨0, le_rfl, EReal.coe_zero.symm⟩ hf

/-- A quotient of a real by a real that is not zero is their real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-! ## The host operations keep arrays real -/

section ops

variable {s t : Shape} {φ : FTy}

theorem real_addf (x y : FVec Ideal s φ) (hx : RealArr x) (hy : RealArr y) : RealArr (addf x y) :=
  fun i => isR_add (hx i) (hy i)

theorem real_mulf (x y : FVec Ideal s φ) (hx : RealArr x) (hy : RealArr y) : RealArr (mulf x y) :=
  fun i => isR_mul (hx i) (hy i)

/-- A gathered entry is an entry of the operand. -/
theorem real_gather {si : Shape} {w : Nat} (d : GatherDims s si t) (x : s.Idx → EReal) (idx : IVec si w)
    (hx : RealArr x) : RealArr (Host.gather d x idx) :=
  fun j => hx _

theorem nonneg_gather {si : Shape} {w : Nat} (d : GatherDims s si t) (x : s.Idx → EReal) (idx : IVec si w)
    (hx : NonnegArr x) : NonnegArr (Host.gather d x idx) :=
  fun j => hx _

/-- A broadcast entry is an entry of the operand. -/
theorem real_broadcastInDim (dims : Fin s.rank → Fin t.rank) (h : s.BroadcastsInDim t dims) (x : s.Idx → EReal)
    (hx : RealArr x) : RealArr (broadcastInDim t dims h x) :=
  fun j => hx _

theorem pos_broadcastInDim (dims : Fin s.rank → Fin t.rank) (h : s.BroadcastsInDim t dims) (x : s.Idx → EReal)
    (hx : PosArr x) : PosArr (broadcastInDim t dims h x) :=
  fun j => hx _

/-- A concatenated entry is an entry of one of the pieces. -/
theorem real_concatenate (a : Fin t.rank) (xs : List ((s : Shape) × (s.Idx → EReal)))
    (h : Shape.Concatenates (xs.map (·.1)) t a) (hxs : ∀ p ∈ xs, RealArr p.2) : RealArr (concatenate t a xs h) := by
  intro j
  unfold concatenate
  exact hxs _ (List.getElem_mem _) _

/-- An entry of a product of matrices is a finite sum of products of entries. -/
theorem real_dotGeneral {sl sr so : Shape} {φ₁ φ₂ : FTy} (d : DotDims sl sr so) (prec : Option ContractPrecision)
    (l : FVec Ideal sl φ₁) (r : FVec Ideal sr φ₂) (hl : RealArr l) (hr : RealArr r) :
    RealArr (Host.dotGeneral d prec l r) := by
  intro j
  show ∃ c : ℝ, FloatOps.dotGeneral d prec .single l r j = (c : EReal)
  rw [Ideal.dotGeneral_apply]
  exact isR_sum _ _ fun k _ => isR_mul (hl _) (hr _)

/-- An entry of an accumulating scatter is the operand's entry plus a finite sum of update entries. -/
theorem real_scatterAdd {si u : Shape} {w : Nat} (d : ScatterDims s si u) (x : FVec Ideal s φ) (idx : IVec si w)
    (upd : FVec Ideal u φ) (hx : RealArr x) (hu : RealArr upd) : RealArr (Host.scatterAdd d x idx upd) := by
  intro i
  show ∃ c : ℝ, Ideal.hostScatterAdd d x idx upd i = (c : EReal)
  unfold Ideal.hostScatterAdd
  exact isR_add (hx i) (isR_sum _ _ fun j _ => hu j)

theorem nonneg_scatterAdd {si u : Shape} {w : Nat} (d : ScatterDims s si u) (x : FVec Ideal s φ) (idx : IVec si w)
    (upd : FVec Ideal u φ) (hx : NonnegArr x) (hu : NonnegArr upd) : NonnegArr (Host.scatterAdd d x idx upd) := by
  intro i
  show ∃ c : ℝ, 0 ≤ c ∧ Ideal.hostScatterAdd d x idx upd i = (c : EReal)
  unfold Ideal.hostScatterAdd
  exact isNonneg_add (hx i) (isNonneg_sum _ _ fun j _ => hu j)

/-- The gate `1 / (1 + exp (-x))` of a real is a positive real. -/
theorem pos_gate (one₁ one₂ x : FVec Ideal s φ) (h₁ : ∀ i, one₁ i = 1) (h₂ : ∀ i, one₂ i = 1) (hx : RealArr x) :
    PosArr (Host.divf one₂ (addf one₁ (Host.exp (Host.negf x)))) := by
  intro i
  obtain ⟨r, hr⟩ := hx i
  have hpos : 0 < 1 + Real.exp (-r) := by positivity
  refine ⟨1 / (1 + Real.exp (-r)), by positivity, ?_⟩
  show Ideal.div (one₂ i) (one₁ i + Ideal.exp (-(x i))) = _
  rw [h₁, h₂, hr, ← EReal.coe_neg, Ideal.exp_coe, ← EReal.coe_one, ← EReal.coe_add]
  exact div_coe_coe 1 hpos.ne'

/-- A quotient of a real array by a positive real array is real. -/
theorem real_divf (x y : FVec Ideal s φ) (hx : RealArr x) (hy : PosArr y) : RealArr (Host.divf x y) := by
  intro i
  obtain ⟨a, ha⟩ := hx i
  obtain ⟨b, hb, eb⟩ := hy i
  refine ⟨a / b, ?_⟩
  show Ideal.div (x i) (y i) = _
  rw [ha, eb]
  exact div_coe_coe a hb.ne'

/-- A real array that is not negative plus a positive real array is a positive real array. -/
theorem pos_addf (x y : FVec Ideal s φ) (hx : NonnegArr x) (hy : PosArr y) : PosArr (addf x y) := by
  intro i
  obtain ⟨a, ha, ea⟩ := hx i
  obtain ⟨b, hb, eb⟩ := hy i
  refine ⟨a + b, by positivity, ?_⟩
  show x i + y i = _
  rw [ea, eb]; exact (EReal.coe_add a b).symm

end ops

/-! ## The literals -/

/-- The pattern of the normalizer's constant denotes the positive real `8796093 / 2 ^ 43` (about one millionth). -/
theorem eps_eq : Ideal.ofBits .f32 0x358637BD#32 = (((8796093 : ℝ) * (2 : ℝ) ^ (-43 : ℤ) : ℝ) : EReal) := by
  simp [Ideal.ofBits, Ideal.ieee, -EReal.coe_mul]

theorem eps_pos : (0 : ℝ) < (8796093 : ℝ) * (2 : ℝ) ^ (-43 : ℤ) := by positivity

/-! ## The arguments -/

/-- Every entry of the twenty-one float arguments is a real. The two endpoint tables (integers) are unconstrained. -/
structure Args.Real (A : RefSpec.Args Ideal) : Prop where
  a0 : ∀ i : S50000x64.Idx, ∃ x : ℝ, A.a0 i = (x : EReal)
  a1 : ∀ i : S800000x64.Idx, ∃ x : ℝ, A.a1 i = (x : EReal)
  a2 : ∀ i : S50000x64.Idx, ∃ x : ℝ, A.a2 i = (x : EReal)
  a5 : ∀ i : S128x64.Idx, ∃ x : ℝ, A.a5 i = (x : EReal)
  a6 : ∀ i : S64.Idx, ∃ x : ℝ, A.a6 i = (x : EReal)
  a7 : ∀ i : S128x64.Idx, ∃ x : ℝ, A.a7 i = (x : EReal)
  a8 : ∀ i : S64.Idx, ∃ x : ℝ, A.a8 i = (x : EReal)
  a9 : ∀ i : S64x64.Idx, ∃ x : ℝ, A.a9 i = (x : EReal)
  a10 : ∀ i : S64.Idx, ∃ x : ℝ, A.a10 i = (x : EReal)
  a11 : ∀ i : S64x64.Idx, ∃ x : ℝ, A.a11 i = (x : EReal)
  a12 : ∀ i : S64.Idx, ∃ x : ℝ, A.a12 i = (x : EReal)
  a13 : ∀ i : S64x64.Idx, ∃ x : ℝ, A.a13 i = (x : EReal)
  a14 : ∀ i : S64.Idx, ∃ x : ℝ, A.a14 i = (x : EReal)
  a15 : ∀ i : S64x64.Idx, ∃ x : ℝ, A.a15 i = (x : EReal)
  a16 : ∀ i : S64.Idx, ∃ x : ℝ, A.a16 i = (x : EReal)
  a17 : ∀ i : S64x64.Idx, ∃ x : ℝ, A.a17 i = (x : EReal)
  a18 : ∀ i : S64.Idx, ∃ x : ℝ, A.a18 i = (x : EReal)
  a19 : ∀ i : S64.Idx, ∃ x : ℝ, A.a19 i = (x : EReal)
  a20 : ∀ i : S64.Idx, ∃ x : ℝ, A.a20 i = (x : EReal)
  a21 : ∀ i : S64.Idx, ∃ x : ℝ, A.a21 i = (x : EReal)
  a22 : ∀ i : S64.Idx, ∃ x : ℝ, A.a22 i = (x : EReal)

/-! ## Down the reference's chain -/

section lin

/-- A linear layer (a matrix product plus a bias row broadcast over the rows) of real arrays is real. -/
theorem real_lin {sl sr so sb sb1 : Shape} (d : DotDims sl sr so) (l : FVec Ideal sl .f32) (r : FVec Ideal sr .f32)
    (b : FVec Ideal sb .f32) (dims1 : Fin sb.rank → Fin sb1.rank) (h1 : sb.BroadcastsInDim sb1 dims1)
    (dims2 : Fin sb1.rank → Fin so.rank) (h2 : sb1.BroadcastsInDim so dims2)
    (hl : RealArr l) (hr : RealArr r) (hb : RealArr b) :
    RealArr (addf (Host.dotGeneral d none l r) (broadcastInDim so dims2 h2 (broadcastInDim sb1 dims1 h1 b))) :=
  real_addf _ _ (real_dotGeneral d none l r hl hr)
    (real_broadcastInDim dims2 h2 _ (real_broadcastInDim dims1 h1 b hb))

end lin

section chain

variable (A : RefSpec.Args Ideal) (hA : Args.Real A)
include hA

/-- The node and positional features side by side. -/
theorem real_v0 : RealArr (r_main_v0 A) := by
  unfold r_main_v0
  refine real_concatenate _ _ _ fun p hp => ?_
  rcases List.mem_cons.1 hp with rfl | hp
  · exact hA.a0
  rcases List.mem_cons.1 hp with rfl | hp
  · exact hA.a2
  cases hp

theorem real_v4 : RealArr (r_main_v4 A) := by
  unfold r_main_v4 r_main_v1 r_main_v3 r_main_v2
  exact real_lin _ _ _ _ _ _ _ _ (real_v0 A hA) hA.a5 hA.a6

theorem real_v8 : RealArr (r_main_v8 A) := by
  unfold r_main_v8 r_main_v5 r_main_v7 r_main_v6
  exact real_lin _ _ _ _ _ _ _ _ (real_v0 A hA) hA.a7 hA.a8

theorem real_v12 : RealArr (r_main_v12 A) := by
  unfold r_main_v12 r_main_v9 r_main_v11 r_main_v10
  exact real_lin _ _ _ _ _ _ _ _ hA.a0 hA.a9 hA.a10

theorem real_v16 : RealArr (r_main_v16 A) := by
  unfold r_main_v16 r_main_v13 r_main_v15 r_main_v14
  exact real_lin _ _ _ _ _ _ _ _ hA.a0 hA.a11 hA.a12

theorem real_v43 : RealArr (r_main_v43 A) := by
  unfold r_main_v43 r_main_v40 r_main_v42 r_main_v41
  exact real_lin _ _ _ _ _ _ _ _ hA.a1 hA.a13 hA.a14

theorem real_v31 : RealArr (r_main_v31 A) := by
  unfold r_main_v31
  exact real_gather _ _ _ (real_v12 A hA)

theorem real_v38 : RealArr (r_main_v38 A) := by
  unfold r_main_v38
  exact real_gather _ _ _ (real_v16 A hA)

/-- The edge logits are real. -/
theorem real_v44 : RealArr (r_main_v44 A) := by
  unfold r_main_v44 r_main_v39
  exact real_addf _ _ (real_addf _ _ (real_v31 A hA) (real_v38 A hA)) (real_v43 A hA)

omit hA in
theorem one_v47 (i : S800000x64.Idx) : r_main_v47 A i = 1 := by
  show Ideal.ofBits .f32 0x3F800000#32 = 1
  exact Ideal.ofBits_one_f32

omit hA in
theorem one_v49 (i : S800000x64.Idx) : r_main_v49 A i = 1 := by
  show Ideal.ofBits .f32 0x3F800000#32 = 1
  exact Ideal.ofBits_one_f32

/-- The gates are positive reals. -/
theorem pos_v50 : PosArr (r_main_v50 A) := by
  unfold r_main_v50 r_main_v48 r_main_v46 r_main_v45
  exact pos_gate (r_main_v47 A) (r_main_v49 A) (r_main_v44 A) (one_v47 A) (one_v49 A) (real_v44 A hA)

omit hA in
theorem nonneg_zero_v51 : NonnegArr (r_main_v51 A) := fun i =>
  ⟨0, le_rfl, show Ideal.ofBits .f32 0x00000000#32 = _ from Ideal.ofBits_zero_f32.trans EReal.coe_zero.symm⟩

omit hA in
theorem nonneg_zero_v72 : NonnegArr (r_main_v72 A) := fun i =>
  ⟨0, le_rfl, show Ideal.ofBits .f32 0x00000000#32 = _ from Ideal.ofBits_zero_f32.trans EReal.coe_zero.symm⟩

/-- Each node's sum of incoming gates is a real that is not negative. -/
theorem nonneg_v53 : NonnegArr (r_main_v53 A) := by
  unfold r_main_v53
  exact nonneg_scatterAdd _ _ _ _ (nonneg_zero_v51 A) (pos_v50 A hA).nonneg

theorem nonneg_v60 : NonnegArr (r_main_v60 A) := by
  unfold r_main_v60
  exact nonneg_gather _ _ _ (nonneg_v53 A hA)

omit hA in
theorem pos_v61 : PosArr (r_main_v61 A) := fun i =>
  ⟨_, eps_pos, show Ideal.ofBits .f32 0x358637BD#32 = _ from eps_eq⟩

/-- The normalizer is a positive real. -/
theorem pos_v62 : PosArr (r_main_v62 A) := by
  unfold r_main_v62
  exact pos_addf _ _ (nonneg_v60 A hA) (pos_v61 A)

/-- The normalized gates are real. -/
theorem real_v63 : RealArr (r_main_v63 A) := by
  unfold r_main_v63
  exact real_divf _ _ (pos_v50 A hA).real (pos_v62 A hA)

theorem real_v70 : RealArr (r_main_v70 A) := by
  unfold r_main_v70
  exact real_gather _ _ _ (real_v8 A hA)

theorem real_v71 : RealArr (r_main_v71 A) := by
  unfold r_main_v71
  exact real_mulf _ _ (real_v63 A hA) (real_v70 A hA)

theorem real_v74 : RealArr (r_main_v74 A) := by
  unfold r_main_v74
  exact real_scatterAdd _ _ _ _ (nonneg_zero_v72 A).real (real_v71 A hA)

theorem real_v75 : RealArr (r_main_v75 A) := by
  unfold r_main_v75
  exact real_addf _ _ (real_v4 A hA) (real_v74 A hA)

end chain

/-- THE EDGE LOGITS ARE REAL: every entry of the sum of the two gathered node projections and the edge projection. -/
theorem hatEta_real (A : RefSpec.Args Ideal) (hA : Args.Real A) : ∀ i, ∃ x : ℝ, r_main_v44 A i = (x : EReal) :=
  real_v44 A hA

/-- THE NODE UPDATE IS REAL: every entry of the node projection plus the aggregated normalized messages. -/
theorem hNew_real (A : RefSpec.Args Ideal) (hA : Args.Real A) : ∀ i, ∃ x : ℝ, r_main_v75 A i = (x : EReal) :=
  real_v75 A hA

/-! ## From the precondition to real arguments -/

/-- The pattern of positive infinity denotes the top element. -/
theorem inf_eq : Ideal.ofBits .f32 0x7F800000#32 = ⊤ := by
  simp [Ideal.ofBits, Ideal.ieee]

/-- An extended real whose absolute value is below positive infinity is a real. -/
theorem real_of_abs_lt_inf (x : EReal) (h : Ideal.cmp .olt (max x (-x)) ⊤ = 1#1) : ∃ r : ℝ, x = (r : EReal) := by
  have h' : max x (-x) < ⊤ := by
    by_contra hn
    simp [Ideal.cmp, hn] at h
  induction x using EReal.rec with
  | bot => simp at h'
  | coe r => exact ⟨r, rfl⟩
  | top => simp at h'

instance subsingleton_scalarIdx : Subsingleton (⟨0, ![]⟩ : Shape).Idx := ⟨fun a b => funext fun d => d.elim0⟩

/-- An array every entry of which compares, in absolute value, below an array of infinities is real: the conjunction
    over all entries came out true, so each comparison did. -/
theorem real_of_all {s t u sc : Shape} [Subsingleton t.Idx] {axes : List (Fin s.rank)} (x : FVec Ideal s .f32)
    (c : FVec Ideal sc .f32) (hc : ∀ k, c k = ⊤) (dims : Fin sc.rank → Fin s.rank) (hb : sc.BroadcastsInDim s dims)
    (init : u.Idx → BitVec 1) (hr : s.ReducesTo axes t) (hu : 0 < u.numel) (j : t.Idx)
    (e : Host.reduce IntOp.andi (cmpf .olt (Host.absf x) (broadcastInDim s dims hb c)) init hr hu j = 1#1) :
    RealArr x := by
  intro i
  have hi := Host.reduce_andi_all _ init hr hu j e i
  refine real_of_abs_lt_inf (x i) ?_
  rw [← hc _]
  exact hi

/-- THE PRECONDITION MAKES THE ARGUMENTS REAL: if the conjunction "every float argument is finite" is true, every
    entry of every float argument is a real. -/
theorem real_of_pre (A : RefSpec.Args Ideal)
    (h : Cert.Pre_finite_inputs.fn (F := Ideal) A.a0 A.a1 A.a2 A.a3 A.a4 A.a5 A.a6 A.a7 A.a8 A.a9 A.a10 A.a11 A.a12 A.a13 A.a14 A.a15 A.a16 A.a17 A.a18 A.a19 A.a20 A.a21 A.a22 = fun _ => 1#1) : Args.Real A := by
  have h0 := congrFun h ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6, Idealize.ShloMosaic.andi] at h0
  simp only [IntOp.andi_eq_one] at h0
  obtain ⟨⟨⟨⟨⟨⟨⟨⟨⟨⟨⟨⟨⟨⟨⟨⟨⟨⟨⟨⟨h0, h1⟩, h2⟩, h5⟩, h6⟩, h7⟩, h8⟩, h9⟩, h10⟩, h11⟩, h12⟩, h13⟩, h14⟩, h15⟩, h16⟩, h17⟩, h18⟩, h19⟩, h20⟩, h21⟩, h22⟩ := h0
  exact ⟨real_of_all _ _ (fun _ => inf_eq) _ _ _ _ _ _ h0,
    real_of_all _ _ (fun _ => inf_eq) _ _ _ _ _ _ h1,
    real_of_all _ _ (fun _ => inf_eq) _ _ _ _ _ _ h2,
    real_of_all _ _ (fun _ => inf_eq) _ _ _ _ _ _ h5,
    real_of_all _ _ (fun _ => inf_eq) _ _ _ _ _ _ h6,
    real_of_all _ _ (fun _ => inf_eq) _ _ _ _ _ _ h7,
    real_of_all _ _ (fun _ => inf_eq) _ _ _ _ _ _ h8,
    real_of_all _ _ (fun _ => inf_eq) _ _ _ _ _ _ h9,
    real_of_all _ _ (fun _ => inf_eq) _ _ _ _ _ _ h10,
    real_of_all _ _ (fun _ => inf_eq) _ _ _ _ _ _ h11,
    real_of_all _ _ (fun _ => inf_eq) _ _ _ _ _ _ h12,
    real_of_all _ _ (fun _ => inf_eq) _ _ _ _ _ _ h13,
    real_of_all _ _ (fun _ => inf_eq) _ _ _ _ _ _ h14,
    real_of_all _ _ (fun _ => inf_eq) _ _ _ _ _ _ h15,
    real_of_all _ _ (fun _ => inf_eq) _ _ _ _ _ _ h16,
    real_of_all _ _ (fun _ => inf_eq) _ _ _ _ _ _ h17,
    real_of_all _ _ (fun _ => inf_eq) _ _ _ _ _ _ h18,
    real_of_all _ _ (fun _ => inf_eq) _ _ _ _ _ _ h19,
    real_of_all _ _ (fun _ => inf_eq) _ _ _ _ _ _ h20,
    real_of_all _ _ (fun _ => inf_eq) _ _ _ _ _ _ h21,
    real_of_all _ _ (fun _ => inf_eq) _ _ _ _ _ _ h22⟩

end Cert.ReferenceIdeal.RefFinite

end
-- ==== Proof.KKeep.lean ====
/-
  Which buffers each stretch of host operations writes: a buffer outside that list holds after the stretch what it
  held before it.
-/
import proofs.«146130_j46961172414535_2_alg».proof.Proof.Gen.KernelIdeal.Frame
import Idealize.ShloMosaic.Lib.StableHlo.Run

set_option maxRecDepth 16384

noncomputable section

namespace Cert.KernelIdeal.KB

open Cert.KernelIdeal Cert.KernelIdeal.Gen
open Idealize.ShloMosaic Idealize.ShloMosaic.TcCoe Idealize.SL.Sem Idealize.ShloMosaic.StableHlo

/-- The buffers host stretch 0 writes. -/
def wr0 : List (Ref sig .tc) := [main_v0]

theorem hW0 {F : FTy → Type} [FloatOps F] : (hostOps0 : List (HloOp τ sig (Elt F))).Forall fun op => op.writes ⊆ ((wr0).map (Proc.devRef (τ := τ) .tc)).toFinset := by
  simp only [hostOps0, List.Forall, StableHlo.nullary_writes, StableHlo.unary_writes, StableHlo.binary_writes, StableHlo.ternary_writes, Finset.singleton_subset_iff]
  repeat' apply And.intro
  all_goals exact List.mem_toFinset.mpr (List.mem_map.mpr ⟨_, by decide, rfl⟩)

/-- A buffer host stretch 0 does not write keeps its contents across it. -/
theorem keep0 {F : FTy → Type} [FloatOps F] (V : Valuation τ sig (Elt F)) (r : Ref sig .tc) (hr : r ∉ wr0) :
    after hostOps0 V (Proc.devRef .tc r) = V (Proc.devRef .tc r) :=
  after_of_writes_sub hostOps0 V hW0 hr

/-- The buffers host stretch 6 writes. -/
def wr6 : List (Ref sig .tc) := [main_c, main_v7, main_v8, main_c_0, main_v9, main_v10, main_v11, main_v12, main_v13, main_c_1, main_v14, main_v15, main_c_2, main_v16, main_v17, main_v18, main_v19, main_v20]

theorem hW6 {F : FTy → Type} [FloatOps F] : (hostOps6 : List (HloOp τ sig (Elt F))).Forall fun op => op.writes ⊆ ((wr6).map (Proc.devRef (τ := τ) .tc)).toFinset := by
  simp only [hostOps6, List.Forall, StableHlo.nullary_writes, StableHlo.unary_writes, StableHlo.binary_writes, StableHlo.ternary_writes, Finset.singleton_subset_iff]
  repeat' apply And.intro
  all_goals exact List.mem_toFinset.mpr (List.mem_map.mpr ⟨_, by decide, rfl⟩)

/-- A buffer host stretch 6 does not write keeps its contents across it. -/
theorem keep6 {F : FTy → Type} [FloatOps F] (V : Valuation τ sig (Elt F)) (r : Ref sig .tc) (hr : r ∉ wr6) :
    after hostOps6 V (Proc.devRef .tc r) = V (Proc.devRef .tc r) :=
  after_of_writes_sub hostOps6 V hW6 hr

/-- The buffers host stretch 7 writes. -/
def wr7 : List (Ref sig .tc) := [main_cst, main_v22, main_v23, main_v24, main_c_3, main_v25, main_v26, main_c_4, main_v27, main_v28, main_v29, main_v30, main_v31, main_c_5, main_v32, main_v33, main_c_6, main_v34, main_v35, main_v36, main_v37, main_v38, main_c_7, main_v39, main_v40, main_c_8, main_v41, main_v42, main_v43, main_v44, main_v45]

theorem hW7 {F : FTy → Type} [FloatOps F] : (hostOps7 : List (HloOp τ sig (Elt F))).Forall fun op => op.writes ⊆ ((wr7).map (Proc.devRef (τ := τ) .tc)).toFinset := by
  simp only [hostOps7, List.Forall, StableHlo.nullary_writes, StableHlo.unary_writes, StableHlo.binary_writes, StableHlo.ternary_writes, Finset.singleton_subset_iff]
  repeat' apply And.intro
  all_goals exact List.mem_toFinset.mpr (List.mem_map.mpr ⟨_, by decide, rfl⟩)

/-- A buffer host stretch 7 does not write keeps its contents across it. -/
theorem keep7 {F : FTy → Type} [FloatOps F] (V : Valuation τ sig (Elt F)) (r : Ref sig .tc) (hr : r ∉ wr7) :
    after hostOps7 V (Proc.devRef .tc r) = V (Proc.devRef .tc r) :=
  after_of_writes_sub hostOps7 V hW7 hr

/-- The buffers host stretch 8 writes. -/
def wr8 : List (Ref sig .tc) := [main_cst_9, main_v47, main_v48, main_v49, main_cst_10, main_v50, main_v51, main_v52, main_v53, main_v54]

theorem hW8 {F : FTy → Type} [FloatOps F] : (hostOps8 : List (HloOp τ sig (Elt F))).Forall fun op => op.writes ⊆ ((wr8).map (Proc.devRef (τ := τ) .tc)).toFinset := by
  simp only [hostOps8, List.Forall, StableHlo.nullary_writes, StableHlo.unary_writes, StableHlo.binary_writes, StableHlo.ternary_writes, Finset.singleton_subset_iff]
  repeat' apply And.intro
  all_goals exact List.mem_toFinset.mpr (List.mem_map.mpr ⟨_, by decide, rfl⟩)

/-- A buffer host stretch 8 does not write keeps its contents across it. -/
theorem keep8 {F : FTy → Type} [FloatOps F] (V : Valuation τ sig (Elt F)) (r : Ref sig .tc) (hr : r ∉ wr8) :
    after hostOps8 V (Proc.devRef .tc r) = V (Proc.devRef .tc r) :=
  after_of_writes_sub hostOps8 V hW8 hr

/-- The buffers host stretch 9 writes. -/
def wr9 : List (Ref sig .tc) := [main_cst_11, main_v56, main_v57, main_cst_12, main_v58, main_v59, main_v60, main_v61]

theorem hW9 {F : FTy → Type} [FloatOps F] : (hostOps9 : List (HloOp τ sig (Elt F))).Forall fun op => op.writes ⊆ ((wr9).map (Proc.devRef (τ := τ) .tc)).toFinset := by
  simp only [hostOps9, List.Forall, StableHlo.nullary_writes, StableHlo.unary_writes, StableHlo.binary_writes, StableHlo.ternary_writes, Finset.singleton_subset_iff]
  repeat' apply And.intro
  all_goals exact List.mem_toFinset.mpr (List.mem_map.mpr ⟨_, by decide, rfl⟩)

/-- A buffer host stretch 9 does not write keeps its contents across it. -/
theorem keep9 {F : FTy → Type} [FloatOps F] (V : Valuation τ sig (Elt F)) (r : Ref sig .tc) (hr : r ∉ wr9) :
    after hostOps9 V (Proc.devRef .tc r) = V (Proc.devRef .tc r) :=
  after_of_writes_sub hostOps9 V hW9 hr

/-- The buffers host stretch 11 writes. -/
def wr11 : List (Ref sig .tc) := [main_cst_13, main_v64, main_v65, main_cst_14, main_v66, main_v67, main_v68, main_v69]

theorem hW11 {F : FTy → Type} [FloatOps F] : (hostOps11 : List (HloOp τ sig (Elt F))).Forall fun op => op.writes ⊆ ((wr11).map (Proc.devRef (τ := τ) .tc)).toFinset := by
  simp only [hostOps11, List.Forall, StableHlo.nullary_writes, StableHlo.unary_writes, StableHlo.binary_writes, StableHlo.ternary_writes, Finset.singleton_subset_iff]
  repeat' apply And.intro
  all_goals exact List.mem_toFinset.mpr (List.mem_map.mpr ⟨_, by decide, rfl⟩)

/-- A buffer host stretch 11 does not write keeps its contents across it. -/
theorem keep11 {F : FTy → Type} [FloatOps F] (V : Valuation τ sig (Elt F)) (r : Ref sig .tc) (hr : r ∉ wr11) :
    after hostOps11 V (Proc.devRef .tc r) = V (Proc.devRef .tc r) :=
  after_of_writes_sub hostOps11 V hW11 hr

end Cert.KernelIdeal.KB

end
-- ==== Proof.LibPlainDot.lean ====
/-
  A plain matrix product read at an index.

  For the dimension numbers of an `M x K` by `K x N` product (contract the left operand's columns with the right
  operand's rows, no batch axis) the contraction index is one coordinate `k < K`, the left operand is read at
  `(row, k)` and the right at `(k, column)`. So at the ideal instance both the matrix unit's product into a zero
  accumulator and the host's `dot_general` are, at output index `(r, c)`, the sum over `k` of `l (r, k) * r (k, c)`.
-/
import Idealize.ShloMosaic.PureOps.Ideal.Laws
import Idealize.ShloMosaic.Lib.ValueIdx

noncomputable section

namespace Cert.Lib.PlainDot

open Idealize.ShloMosaic Idealize.ShloMosaic.ValueIdx

variable (M K N : ℕ)

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product, over the contracted coordinate. -/
theorem sum_plain {α : Type*} [AddCommMonoid α] (f : (⟨2, ![M, K]⟩ : Shape).Idx → (⟨2, ![K, N]⟩ : Shape).Idx → α)
    (i : (⟨2, ![M, N]⟩ : Shape).Idx) :
    ∑ q : (DotDims.plain M K N).contr.Idx, f ((DotDims.plain M K N).lhsIdx i q) ((DotDims.plain M K N).rhsIdx i q)
      = ∑ k : Fin K, f (ix2 (i 0) k) (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs0 M K N _ _
      | ⟨1, _⟩ => exact ((DotDims.plain M K N).lhsIdx_val_of_single (cl := 1) rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single (cr := 0) rfl i _).trans hk
      | ⟨1, _⟩ => exact rhs1 M K N _ _)
  rw [el, er]
  rfl

/-- The matrix unit's product into a zero accumulator, at an index. -/
theorem matmul_zero_apply {φ₁ φ₂ : FTy} (prec : Option ContractPrecision)
    (l : FVec Ideal ⟨2, ![M, K]⟩ φ₁) (r : FVec Ideal ⟨2, ![K, N]⟩ φ₂) (i : (⟨2, ![M, N]⟩ : Shape).Idx) :
    FloatOps.matmul (DotDims.plain M K N) prec l r (constant ⟨2, ![M, N]⟩ .f32 0x00000000#32) i
      = ∑ k : Fin K, l (ix2 (i 0) k) * r (ix2 k (i 1)) := by
  rw [Ideal.matmul_constant_zero_apply]
  exact sum_plain M K N (fun a b => l a * r b) i

/-- The host's `dot_general`, at an index. -/
theorem dotGeneral_apply {φ₁ φ₂ : FTy} (prec : Option ContractPrecision) (sched : HostSchedule)
    (l : FVec Ideal ⟨2, ![M, K]⟩ φ₁) (r : FVec Ideal ⟨2, ![K, N]⟩ φ₂) (i : (⟨2, ![M, N]⟩ : Shape).Idx) :
    FloatOps.dotGeneral (DotDims.plain M K N) prec sched l r i
      = ∑ k : Fin K, l (ix2 (i 0) k) * r (ix2 k (i 1)) := by
  rw [Ideal.dotGeneral_apply]
  exact sum_plain M K N (fun a b => l a * r b) i

end Cert.Lib.PlainDot

end
-- ==== Proof.KPay.lean ====
/-
  The kernels' arithmetic read at an element, over the extended reals: a linear layer's block is, at row p and column q,
  the sum over k of x(p,k)·w(k,q) plus the bias at q (the narrowing to sixteen bits is the identity on extended reals);
  the gate is the two gathered rows plus the projected edge feature, and its logistic; the normalized gate times a gathered
  row; a block's column sums of the entries and of their squares added to the running totals; the normalization
  gamma·(x − mean)·rsqrt(var + eps) + beta cut at zero; the hyperbolic tangent.
-/
import proofs.«146130_j46961172414535_2_alg».proof.Proof.Gen.KernelIdeal.Skeleton
import proofs.«146130_j46961172414535_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KPay

open Cert.KernelIdeal Cert.KernelIdeal.Gen Idealize.ShloMosaic Idealize.ShloMosaic.ValueIdx

/-- One row of bias spread over the rows of a block. -/
theorem biasRow_apply {a b : ℕ} (v : (⟨1, ![b]⟩ : Shape).Idx → EReal) (h1 : (⟨1, ![b]⟩ : Shape).ShapeCasts ⟨2, ![1, b]⟩)
    (h2 : (⟨2, ![1, b]⟩ : Shape).Broadcasts ⟨2, ![a, b]⟩) (p : Fin a) (q : Fin b) :
    broadcastTo ⟨2, ![a, b]⟩ (shapeCast ⟨2, ![1, b]⟩ v h1) h2 (ix2 p q) = v (ix1 q) := by
  rw [broadcastTo_1b_ab_apply, shapeCast_a_1a_apply]

/-- The 128-column linear layer's block at (p, q). -/
theorem lin128_apply (x0 : Vec Ideal S10000x128 .f32) (x1 : Vec Ideal S128x64 .f32) (x2 : Vec Ideal S64 .f32)
    (p : Fin 10000) (q : Fin 64) :
    k0_pay1 (F := Ideal) x0 x1 x2 (ix2 p q) = (∑ k : Fin 128, x0 (ix2 p k) * x1 (ix2 k q)) + x2 (ix1 q) := by
  unfold k0_pay1
  refine (addf_apply _ _ _).trans ?_
  refine congrArg₂ (· + ·) ?_ ?_
  · refine (Cert.Lib.PlainDot.matmul_zero_apply 10000 128 64 none _ _ (ix2 p q)).trans ?_
    refine Finset.sum_congr rfl fun k _ => ?_
    show (shapeCast S10000x128 x0 _) (ix2 p k) * x1 (ix2 k q) = _
    rw [shapeCast_self]
  · exact biasRow_apply x2 _ _ p q

/-- The 64-column linear layer's block at (p, q). -/
theorem lin64_apply (x0 : Vec Ideal S10000x64 .f32) (x1 : Vec Ideal S64x64 .f32) (x2 : Vec Ideal S64 .f32)
    (p : Fin 10000) (q : Fin 64) :
    k2_pay1 (F := Ideal) x0 x1 x2 (ix2 p q) = (∑ k : Fin 64, x0 (ix2 p k) * x1 (ix2 k q)) + x2 (ix1 q) := by
  unfold k2_pay1
  refine (addf_apply _ _ _).trans ?_
  refine congrArg₂ (· + ·) ?_ ?_
  · refine (Cert.Lib.PlainDot.matmul_zero_apply 10000 64 64 none _ _ (ix2 p q)).trans ?_
    rfl
  · exact biasRow_apply x2 _ _ p q

/-! ## The pointwise bodies -/

theorem tanh_apply (x0 : Vec Ideal S10000x64 .f32) (j : S10000x64.Idx) :
    k12_pay1 (F := Ideal) x0 j = Ideal.tanh (x0 j) := by
  unfold k12_pay1
  simp only [shapeCast_self]
  rfl

theorem eta2_apply (x0 x1 x2 : Vec Ideal S5000x64 .f32) (j : S5000x64.Idx) :
    k7_pay2 (F := Ideal) x0 x1 x2 j = Ideal.div (x0 j) (x1 j + Ideal.ofBits .f32 0x358637BD#32) * x2 j := by
  unfold k7_pay2 k7_pay1
  simp only [shapeCast_self]
  rfl

theorem eta3_apply (x0 x1 x3 : Vec Ideal S5000x64 .f32) (j : S5000x64.Idx) :
    k7_pay3 (F := Ideal) x0 x1 x3 j = Ideal.div (x0 j) (x1 j + Ideal.ofBits .f32 0x358637BD#32) * x3 j := by
  unfold k7_pay3 k7_pay1
  simp only [shapeCast_self]
  rfl

theorem gate1_apply (x0 : Vec Ideal S10000x64 .f32) (x3 : Vec Ideal S64x64 .f32) (x4 : Vec Ideal S64 .f32)
    (x1 x2 : Vec Ideal S10000x64 .f32) (p : Fin 10000) (q : Fin 64) :
    k6_pay1 (F := Ideal) x0 x3 x4 x1 x2 (ix2 p q)
      = (x1 (ix2 p q) + x2 (ix2 p q)) + ((∑ k : Fin 64, x0 (ix2 p k) * x3 (ix2 k q)) + x4 (ix1 q)) := by
  unfold k6_pay1
  simp only [shapeCast_self]
  refine (addf_apply _ _ _).trans ?_
  refine congrArg₂ (· + ·) rfl ?_
  refine (addf_apply _ _ _).trans ?_
  refine congrArg₂ (· + ·) ?_ ?_
  · refine (Cert.Lib.PlainDot.matmul_zero_apply 10000 64 64 none _ _ (ix2 p q)).trans ?_
    rfl
  · exact biasRow_apply x4 _ _ p q

theorem gate2_apply (x0 : Vec Ideal S10000x64 .f32) (x3 : Vec Ideal S64x64 .f32) (x4 : Vec Ideal S64 .f32)
    (x1 x2 : Vec Ideal S10000x64 .f32) (j : S10000x64.Idx) :
    k6_pay2 (F := Ideal) x0 x3 x4 x1 x2 j = Ideal.logistic (k6_pay1 (F := Ideal) x0 x3 x4 x1 x2 j) := by
  unfold k6_pay2
  rfl

theorem norm_apply (x0 : Vec Ideal S10000x64 .f32) (g : Vec Ideal S64 .f32) (mu var : Vec Ideal S1x64 .f32) (be : Vec Ideal S64 .f32)
    (p : Fin 10000) (q : Fin 64) :
    k9_pay1 (F := Ideal) x0 g mu var be (ix2 p q)
      = max ((g (ix1 q) * (x0 (ix2 p q) - mu (ix2 (0 : Fin 1) q))) * Ideal.rsqrt (var (ix2 (0 : Fin 1) q) + Ideal.ofBits .f32 0x3727C5AC#32) + be (ix1 q))
          (Ideal.ofBits .f32 0x00000000#32) := by
  unfold k9_pay1
  simp only [shapeCast_self]
  refine (maximumf_apply _ _ _).trans (congrArg₂ max ?_ rfl)
  refine (addf_apply _ _ _).trans (congrArg₂ (· + ·) ?_ (biasRow_apply be _ _ p q))
  refine (mulf_apply _ _ _).trans (congrArg₂ (· * ·) ?_ ?_)
  · refine (mulf_apply _ _ _).trans (congrArg₂ (· * ·) (biasRow_apply g _ _ p q) ?_)
    exact (subf_apply _ _ _).trans (congrArg₂ (· - ·) rfl (broadcastTo_1b_ab_apply mu _ p q))
  · exact (broadcastTo_1b_ab_apply _ _ p q).trans rfl

theorem norm11_apply (x0 : Vec Ideal S10000x64 .f32) (g : Vec Ideal S64 .f32) (mu var : Vec Ideal S1x64 .f32) (be : Vec Ideal S64 .f32)
    (p : Fin 10000) (q : Fin 64) :
    k11_pay1 (F := Ideal) x0 g mu var be (ix2 p q)
      = max ((g (ix1 q) * (x0 (ix2 p q) - mu (ix2 (0 : Fin 1) q))) * Ideal.rsqrt (var (ix2 (0 : Fin 1) q) + Ideal.ofBits .f32 0x3727C5AC#32) + be (ix1 q))
          (Ideal.ofBits .f32 0x00000000#32) := by
  unfold k11_pay1
  simp only [shapeCast_self]
  refine (maximumf_apply _ _ _).trans (congrArg₂ max ?_ rfl)
  refine (addf_apply _ _ _).trans (congrArg₂ (· + ·) ?_ (biasRow_apply be _ _ p q))
  refine (mulf_apply _ _ _).trans (congrArg₂ (· * ·) ?_ ?_)
  · refine (mulf_apply _ _ _).trans (congrArg₂ (· * ·) (biasRow_apply g _ _ p q) ?_)
    exact (subf_apply _ _ _).trans (congrArg₂ (· - ·) rfl (broadcastTo_1b_ab_apply mu _ p q))
  · exact (broadcastTo_1b_ab_apply _ _ p q).trans rfl

end Cert.KernelIdeal.KPay

end
-- ==== Proof.KLin.lean ====
/-
  The six linear-layer regions of the idealized kernel. Each runs over five blocks of 10000 rows; at a point the body
  multiplies the block of rows by the whole weight matrix and adds the bias row, and the block is written back over rows
  10000·t … 10000·t + 9999 of the output. So after the region the output array is, element by element,
  (x · w)(i, j) + b(j): row i of the input against column j of the weights plus the bias at j.
-/
import proofs.«146130_j46961172414535_2_alg».proof.Proof.Gen.KernelIdeal.Frame
import proofs.«146130_j46961172414535_2_alg».proof.Proof.KPay

set_option maxRecDepth 16384

noncomputable section

namespace Cert.KernelIdeal.KReg

open Cert.KernelIdeal Cert.KernelIdeal.Gen Cert.KernelIdeal.KPay
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- A linear layer, element by element: row i of x against column j of w, plus the bias at j. -/
def linI {M K N : ℕ} (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun i => (∑ k : Fin K, x (ix2 (i 0) k) * w (ix2 k (i 1))) + b (ix1 (i 1))

theorem hz2 : (![0, 0] : Fin 2 → Nat) = fun _ => 0 := funext fun a => by fin_cases a <;> rfl
theorem hz1 : (![0] : Fin 1 → Nat) = fun _ => 0 := funext fun a => by fin_cases a; rfl

/-! ## Region 0: a linear layer of main_v0 -/

theorem pay0_apply (x0 : Vec Ideal S10000x128 .f32) (x1 : Vec Ideal S128x64 .f32) (x2 : Vec Ideal S64 .f32)
    (p : Fin 10000) (q : Fin 64) :
    k0_pay1 (F := Ideal) x0 x1 x2 (ix2 p q) = (∑ k : Fin 128, x0 (ix2 p k) * x1 (ix2 k q)) + x2 (ix1 q) := by
  unfold k0_pay1
  refine (addf_apply _ _ _).trans ?_
  refine congrArg₂ (· + ·) ?_ ?_
  · refine (Cert.Lib.PlainDot.matmul_zero_apply 10000 128 64 none _ _ (ix2 p q)).trans ?_
    refine Finset.sum_congr rfl fun k _ => ?_
    show (shapeCast S10000x128 x0 _) (ix2 p k) * x1 (ix2 k q) = _
    rw [shapeCast_self]
  · exact biasRow_apply x2 _ _ p q

theorem idx_facts0 : ∀ t : Fin cfg0.N, win0_0.index t (0 : Fin 2) = win0_3.index t (0 : Fin 2)
    ∧ win0_0.index t (1 : Fin 2) = 0 ∧ win0_1.index t (0 : Fin 2) = 0 ∧ win0_1.index t (1 : Fin 2) = 0
    ∧ win0_2.index t (0 : Fin 1) = 0 ∧ win0_3.index t (1 : Fin 2) = 0 ∧ win0_3.index t (0 : Fin 2) ≤ 4 :=
  (by decide +kernel : ∀ t : Fin grid0.N, _)

/-- What point t writes back is block t of the linear layer of the region's three input arrays. -/
theorem flushed0 (c : Dev nD) (t : Fin cfg0.N) :
    (dat0 V c).flushed 3 t = ((cfg0.win 3).blk t).view.read (Elt Ideal) (linI (V c main_v0) (V c main_arg5) (V c main_arg6)) := by
  show (cfg0.win 3).cut (grid0.coords t) ((dat0 V c).after 3 t) = _
  rw [after0_3]
  unfold out0_3
  rw [View.canon_unit_zero hz2]
  simp only [View.ld_unit_zero (S := S10000x128) hz2, View.ld_unit_zero (S := S128x64) hz2, View.ld_unit_zero (S := S64) hz1]
  funext j
  obtain ⟨p, q, rfl⟩ : ∃ (p : Fin 10000) (q : Fin 64), j = ix2 p q := ⟨j 0, j 1, eq_ix2 j⟩
  show k0_pay1 (iblk0 V c 0 t) (iblk0 V c 1 t) (iblk0 V c 2 t) (ix2 p q)
      = linI (V c main_v0) (V c main_arg5) (V c main_arg6) (((cfg0.win 3).blk t).view.emb (ix2 p q))
  refine (pay0_apply _ _ _ p q).trans ?_
  obtain ⟨e0, e1, e2, e3, e4, e5, e6⟩ := idx_facts0 t
  unfold linI
  refine congrArg₂ (· + ·) (Finset.sum_congr rfl fun k _ => congrArg₂ (· * ·) ?_ ?_) ?_
  · show V c main_v0 (((cfg0.win 0).blk t).view.emb (ix2 p k))
        = V c main_v0 (ix2 ((((cfg0.win 3).blk t).view.emb (ix2 p q)) 0) k)
    refine congrArg (V c main_v0) (funext fun a => Fin.ext ?_)
    match a with
    | ⟨0, _⟩ => show win0_0.index t (0 : Fin 2) * 10000 + 1 * p.val = win0_3.index t (0 : Fin 2) * 10000 + 1 * p.val; omega
    | ⟨1, _⟩ => show win0_0.index t (1 : Fin 2) * 128 + 1 * k.val = k.val; omega
  · show V c main_arg5 (((cfg0.win 1).blk t).view.emb (ix2 k q))
        = V c main_arg5 (ix2 k ((((cfg0.win 3).blk t).view.emb (ix2 p q)) 1))
    refine congrArg (V c main_arg5) (funext fun a => Fin.ext ?_)
    match a with
    | ⟨0, _⟩ => show win0_1.index t (0 : Fin 2) * 128 + 1 * k.val = k.val; omega
    | ⟨1, _⟩ => show win0_1.index t (1 : Fin 2) * 64 + 1 * q.val = win0_3.index t (1 : Fin 2) * 64 + 1 * q.val; omega
  · show V c main_arg6 (((cfg0.win 2).blk t).view.emb (ix1 q))
        = V c main_arg6 (ix1 ((((cfg0.win 3).blk t).view.emb (ix2 p q)) 1))
    refine congrArg (V c main_arg6) (funext fun a => Fin.ext ?_)
    match a with
    | ⟨0, _⟩ => show win0_2.index t (0 : Fin 1) * 64 + 1 * q.val = win0_3.index t (1 : Fin 2) * 64 + 1 * q.val; omega

theorem mem_blk0 (t : Fin cfg0.N) (i : S50000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v1).slice (win0_3.rect t)).set ↔ _
  rw [View.set_slice_whole, Rect.mem_set_unit]
  exact Iff.rfl

theorem idx_onto0 : ∀ (q0 : Fin 5), ∃ t : Fin cfg0.N, win0_3.index t = ![q0.val, 0] :=
  (by decide +kernel : ∀ (q0 : Fin 5), ∃ t : Fin grid0.N, win0_3.index t = ![q0.val, 0])

theorem cover0 (i : S50000x64.Idx) : ∃ t : Fin cfg0.N, (cfg0.win 3).flush t = true ∧ i ∈ ((cfg0.win 3).blk t).view.set := by
  have hi0 : (i 0).val < 50000 := (i 0).isLt
  have hi1 : (i 1).val < 64 := (i 1).isLt
  obtain ⟨t, ht⟩ := idx_onto0 ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 64 ≤ (i 1).val ∧ (i 1).val < win0_3.index t (1 : Fin 2) * 64 + 64; omega

/-- Region 0's output array is the linear layer of its three input arrays as the region finds them. -/
theorem final0 (c : Dev nD) : (dat0 V c).arrAt 3 cfg0.N = linI (V c main_v0) (V c main_arg5) (V c main_arg6) :=
  (dat0 V c).arrAt_eq_of_cover 3 _ (fun t _ => flushed0 V c t) cover0

/-! ## Region 1: a linear layer of main_v0 -/

theorem pay1_apply (x0 : Vec Ideal S10000x128 .f32) (x1 : Vec Ideal S128x64 .f32) (x2 : Vec Ideal S64 .f32)
    (p : Fin 10000) (q : Fin 64) :
    k1_pay1 (F := Ideal) x0 x1 x2 (ix2 p q) = (∑ k : Fin 128, x0 (ix2 p k) * x1 (ix2 k q)) + x2 (ix1 q) := by
  unfold k1_pay1
  refine (addf_apply _ _ _).trans ?_
  refine congrArg₂ (· + ·) ?_ ?_
  · refine (Cert.Lib.PlainDot.matmul_zero_apply 10000 128 64 none _ _ (ix2 p q)).trans ?_
    refine Finset.sum_congr rfl fun k _ => ?_
    show (shapeCast S10000x128 x0 _) (ix2 p k) * x1 (ix2 k q) = _
    rw [shapeCast_self]
  · exact biasRow_apply x2 _ _ p q

theorem idx_facts1 : ∀ t : Fin cfg1.N, win1_0.index t (0 : Fin 2) = win1_3.index t (0 : Fin 2)
    ∧ win1_0.index t (1 : Fin 2) = 0 ∧ win1_1.index t (0 : Fin 2) = 0 ∧ win1_1.index t (1 : Fin 2) = 0
    ∧ win1_2.index t (0 : Fin 1) = 0 ∧ win1_3.index t (1 : Fin 2) = 0 ∧ win1_3.index t (0 : Fin 2) ≤ 4 :=
  (by decide +kernel : ∀ t : Fin grid1.N, _)

/-- What point t writes back is block t of the linear layer of the region's three input arrays. -/
theorem flushed1 (c : Dev nD) (t : Fin cfg1.N) :
    (dat1 V c).flushed 3 t = ((cfg1.win 3).blk t).view.read (Elt Ideal) (linI (V c main_v0) (V c main_arg7) (V c main_arg8)) := by
  show (cfg1.win 3).cut (grid1.coords t) ((dat1 V c).after 3 t) = _
  rw [after1_3]
  unfold out1_3
  rw [View.canon_unit_zero hz2]
  simp only [View.ld_unit_zero (S := S10000x128) hz2, View.ld_unit_zero (S := S128x64) hz2, View.ld_unit_zero (S := S64) hz1]
  funext j
  obtain ⟨p, q, rfl⟩ : ∃ (p : Fin 10000) (q : Fin 64), j = ix2 p q := ⟨j 0, j 1, eq_ix2 j⟩
  show k1_pay1 (iblk1 V c 0 t) (iblk1 V c 1 t) (iblk1 V c 2 t) (ix2 p q)
      = linI (V c main_v0) (V c main_arg7) (V c main_arg8) (((cfg1.win 3).blk t).view.emb (ix2 p q))
  refine (pay1_apply _ _ _ p q).trans ?_
  obtain ⟨e0, e1, e2, e3, e4, e5, e6⟩ := idx_facts1 t
  unfold linI
  refine congrArg₂ (· + ·) (Finset.sum_congr rfl fun k _ => congrArg₂ (· * ·) ?_ ?_) ?_
  · show V c main_v0 (((cfg1.win 0).blk t).view.emb (ix2 p k))
        = V c main_v0 (ix2 ((((cfg1.win 3).blk t).view.emb (ix2 p q)) 0) k)
    refine congrArg (V c main_v0) (funext fun a => Fin.ext ?_)
    match a with
    | ⟨0, _⟩ => show win1_0.index t (0 : Fin 2) * 10000 + 1 * p.val = win1_3.index t (0 : Fin 2) * 10000 + 1 * p.val; omega
    | ⟨1, _⟩ => show win1_0.index t (1 : Fin 2) * 128 + 1 * k.val = k.val; omega
  · show V c main_arg7 (((cfg1.win 1).blk t).view.emb (ix2 k q))
        = V c main_arg7 (ix2 k ((((cfg1.win 3).blk t).view.emb (ix2 p q)) 1))
    refine congrArg (V c main_arg7) (funext fun a => Fin.ext ?_)
    match a with
    | ⟨0, _⟩ => show win1_1.index t (0 : Fin 2) * 128 + 1 * k.val = k.val; omega
    | ⟨1, _⟩ => show win1_1.index t (1 : Fin 2) * 64 + 1 * q.val = win1_3.index t (1 : Fin 2) * 64 + 1 * q.val; omega
  · show V c main_arg8 (((cfg1.win 2).blk t).view.emb (ix1 q))
        = V c main_arg8 (ix1 ((((cfg1.win 3).blk t).view.emb (ix2 p q)) 1))
    refine congrArg (V c main_arg8) (funext fun a => Fin.ext ?_)
    match a with
    | ⟨0, _⟩ => show win1_2.index t (0 : Fin 1) * 64 + 1 * q.val = win1_3.index t (1 : Fin 2) * 64 + 1 * q.val; omega

theorem mem_blk1 (t : Fin cfg1.N) (i : S50000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v2).slice (win1_3.rect t)).set ↔ _
  rw [View.set_slice_whole, Rect.mem_set_unit]
  exact Iff.rfl

theorem idx_onto1 : ∀ (q0 : Fin 5), ∃ t : Fin cfg1.N, win1_3.index t = ![q0.val, 0] :=
  (by decide +kernel : ∀ (q0 : Fin 5), ∃ t : Fin grid1.N, win1_3.index t = ![q0.val, 0])

theorem cover1 (i : S50000x64.Idx) : ∃ t : Fin cfg1.N, (cfg1.win 3).flush t = true ∧ i ∈ ((cfg1.win 3).blk t).view.set := by
  have hi0 : (i 0).val < 50000 := (i 0).isLt
  have hi1 : (i 1).val < 64 := (i 1).isLt
  obtain ⟨t, ht⟩ := idx_onto1 ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

/-- Region 1's output array is the linear layer of its three input arrays as the region finds them. -/
theorem final1 (c : Dev nD) : (dat1 V c).arrAt 3 cfg1.N = linI (V c main_v0) (V c main_arg7) (V c main_arg8) :=
  (dat1 V c).arrAt_eq_of_cover 3 _ (fun t _ => flushed1 V c t) cover1

/-! ## Region 2: a linear layer of main_arg0 -/

theorem pay2_apply (x0 : Vec Ideal S10000x64 .f32) (x1 : Vec Ideal S64x64 .f32) (x2 : Vec Ideal S64 .f32)
    (p : Fin 10000) (q : Fin 64) :
    k2_pay1 (F := Ideal) x0 x1 x2 (ix2 p q) = (∑ k : Fin 64, x0 (ix2 p k) * x1 (ix2 k q)) + x2 (ix1 q) := by
  unfold k2_pay1
  refine (addf_apply _ _ _).trans ?_
  refine congrArg₂ (· + ·) ?_ ?_
  · refine (Cert.Lib.PlainDot.matmul_zero_apply 10000 64 64 none _ _ (ix2 p q)).trans ?_
    refine Finset.sum_congr rfl fun k _ => ?_
    rfl
  · exact biasRow_apply x2 _ _ p q

theorem idx_facts2 : ∀ t : Fin cfg2.N, win2_0.index t (0 : Fin 2) = win2_3.index t (0 : Fin 2)
    ∧ win2_0.index t (1 : Fin 2) = 0 ∧ win2_1.index t (0 : Fin 2) = 0 ∧ win2_1.index t (1 : Fin 2) = 0
    ∧ win2_2.index t (0 : Fin 1) = 0 ∧ win2_3.index t (1 : Fin 2) = 0 ∧ win2_3.index t (0 : Fin 2) ≤ 4 :=
  (by decide +kernel : ∀ t : Fin grid2.N, _)

/-- What point t writes back is block t of the linear layer of the region's three input arrays. -/
theorem flushed2 (c : Dev nD) (t : Fin cfg2.N) :
    (dat2 V c).flushed 3 t = ((cfg2.win 3).blk t).view.read (Elt Ideal) (linI (V c main_arg0) (V c main_arg9) (V c main_arg10)) := by
  show (cfg2.win 3).cut (grid2.coords t) ((dat2 V c).after 3 t) = _
  rw [after2_3]
  unfold out2_3
  rw [View.canon_unit_zero hz2]
  simp only [View.ld_unit_zero (S := S10000x64) hz2, View.ld_unit_zero (S := S64x64) hz2, View.ld_unit_zero (S := S64) hz1]
  funext j
  obtain ⟨p, q, rfl⟩ : ∃ (p : Fin 10000) (q : Fin 64), j = ix2 p q := ⟨j 0, j 1, eq_ix2 j⟩
  show k2_pay1 (iblk2 V c 0 t) (iblk2 V c 1 t) (iblk2 V c 2 t) (ix2 p q)
      = linI (V c main_arg0) (V c main_arg9) (V c main_arg10) (((cfg2.win 3).blk t).view.emb (ix2 p q))
  refine (pay2_apply _ _ _ p q).trans ?_
  obtain ⟨e0, e1, e2, e3, e4, e5, e6⟩ := idx_facts2 t
  unfold linI
  refine congrArg₂ (· + ·) (Finset.sum_congr rfl fun k _ => congrArg₂ (· * ·) ?_ ?_) ?_
  · show V c main_arg0 (((cfg2.win 0).blk t).view.emb (ix2 p k))
        = V c main_arg0 (ix2 ((((cfg2.win 3).blk t).view.emb (ix2 p q)) 0) k)
    refine congrArg (V c main_arg0) (funext fun a => Fin.ext ?_)
    match a with
    | ⟨0, _⟩ => show win2_0.index t (0 : Fin 2) * 10000 + 1 * p.val = win2_3.index t (0 : Fin 2) * 10000 + 1 * p.val; omega
    | ⟨1, _⟩ => show win2_0.index t (1 : Fin 2) * 64 + 1 * k.val = k.val; omega
  · show V c main_arg9 (((cfg2.win 1).blk t).view.emb (ix2 k q))
        = V c main_arg9 (ix2 k ((((cfg2.win 3).blk t).view.emb (ix2 p q)) 1))
    refine congrArg (V c main_arg9) (funext fun a => Fin.ext ?_)
    match a with
    | ⟨0, _⟩ => show win2_1.index t (0 : Fin 2) * 64 + 1 * k.val = k.val; omega
    | ⟨1, _⟩ => show win2_1.index t (1 : Fin 2) * 64 + 1 * q.val = win2_3.index t (1 : Fin 2) * 64 + 1 * q.val; omega
  · show V c main_arg10 (((cfg2.win 2).blk t).view.emb (ix1 q))
        = V c main_arg10 (ix1 ((((cfg2.win 3).blk t).view.emb (ix2 p q)) 1))
    refine congrArg (V c main_arg10) (funext fun a => Fin.ext ?_)
    match a with
    | ⟨0, _⟩ => show win2_2.index t (0 : Fin 1) * 64 + 1 * q.val = win2_3.index t (1 : Fin 2) * 64 + 1 * q.val; omega

theorem mem_blk2 (t : Fin cfg2.N) (i : S50000x64.Idx) :
    i ∈ ((cfg2.win 3).blk t).view.set ↔ ∀ a : Fin 2, win2_3.index t a * S10000x64.size a ≤ (i a).val ∧ (i a).val < win2_3.index t a * S10000x64.size a + S10000x64.size a := by
  show i ∈ ((View.whole main_v3).slice (win2_3.rect t)).set ↔ _
  rw [View.set_slice_whole, Rect.mem_set_unit]
  exact Iff.rfl

theorem idx_onto2 : ∀ (q0 : Fin 5), ∃ t : Fin cfg2.N, win2_3.index t = ![q0.val, 0] :=
  (by decide +kernel : ∀ (q0 : Fin 5), ∃ t : Fin grid2.N, win2_3.index t = ![q0.val, 0])

theorem cover2 (i : S50000x64.Idx) : ∃ t : Fin cfg2.N, (cfg2.win 3).flush t = true ∧ i ∈ ((cfg2.win 3).blk t).view.set := by
  have hi0 : (i 0).val < 50000 := (i 0).isLt
  have hi1 : (i 1).val < 64 := (i 1).isLt
  obtain ⟨t, ht⟩ := idx_onto2 ⟨(i 0).val / 10000, by omega⟩
  have q0 : win2_3.index t (0 : Fin 2) = (i 0).val / 10000 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 64 ≤ (i 1).val ∧ (i 1).val < win2_3.index t (1 : Fin 2) * 64 + 64; omega

/-- Region 2's output array is the linear layer of its three input arrays as the region finds them. -/
theorem final2 (c : Dev nD) : (dat2 V c).arrAt 3 cfg2.N = linI (V c main_arg0) (V c main_arg9) (V c main_arg10) :=
  (dat2 V c).arrAt_eq_of_cover 3 _ (fun t _ => flushed2 V c t) cover2

/-! ## Region 3: a linear layer of main_arg0 -/

theorem pay3_apply (x0 : Vec Ideal S10000x64 .f32) (x1 : Vec Ideal S64x64 .f32) (x2 : Vec Ideal S64 .f32)
    (p : Fin 10000) (q : Fin 64) :
    k3_pay1 (F := Ideal) x0 x1 x2 (ix2 p q) = (∑ k : Fin 64, x0 (ix2 p k) * x1 (ix2 k q)) + x2 (ix1 q) := by
  unfold k3_pay1
  refine (addf_apply _ _ _).trans ?_
  refine congrArg₂ (· + ·) ?_ ?_
  · refine (Cert.Lib.PlainDot.matmul_zero_apply 10000 64 64 none _ _ (ix2 p q)).trans ?_
    refine Finset.sum_congr rfl fun k _ => ?_
    rfl
  · exact biasRow_apply x2 _ _ p q

theorem idx_facts3 : ∀ t : Fin cfg3.N, win3_0.index t (0 : Fin 2) = win3_3.index t (0 : Fin 2)
    ∧ win3_0.index t (1 : Fin 2) = 0 ∧ win3_1.index t (0 : Fin 2) = 0 ∧ win3_1.index t (1 : Fin 2) = 0
    ∧ win3_2.index t (0 : Fin 1) = 0 ∧ win3_3.index t (1 : Fin 2) = 0 ∧ win3_3.index t (0 : Fin 2) ≤ 4 :=
  (by decide +kernel : ∀ t : Fin grid3.N, _)

/-- What point t writes back is block t of the linear layer of the region's three input arrays. -/
theorem flushed3 (c : Dev nD) (t : Fin cfg3.N) :
    (dat3 V c).flushed 3 t = ((cfg3.win 3).blk t).view.read (Elt Ideal) (linI (V c main_arg0) (V c main_arg11) (V c main_arg12)) := by
  show (cfg3.win 3).cut (grid3.coords t) ((dat3 V c).after 3 t) = _
  rw [after3_3]
  unfold out3_3
  rw [View.canon_unit_zero hz2]
  simp only [View.ld_unit_zero (S := S10000x64) hz2, View.ld_unit_zero (S := S64x64) hz2, View.ld_unit_zero (S := S64) hz1]
  funext j
  obtain ⟨p, q, rfl⟩ : ∃ (p : Fin 10000) (q : Fin 64), j = ix2 p q := ⟨j 0, j 1, eq_ix2 j⟩
  show k3_pay1 (iblk3 V c 0 t) (iblk3 V c 1 t) (iblk3 V c 2 t) (ix2 p q)
      = linI (V c main_arg0) (V c main_arg11) (V c main_arg12) (((cfg3.win 3).blk t).view.emb (ix2 p q))
  refine (pay3_apply _ _ _ p q).trans ?_
  obtain ⟨e0, e1, e2, e3, e4, e5, e6⟩ := idx_facts3 t
  unfold linI
  refine congrArg₂ (· + ·) (Finset.sum_congr rfl fun k _ => congrArg₂ (· * ·) ?_ ?_) ?_
  · show V c main_arg0 (((cfg3.win 0).blk t).view.emb (ix2 p k))
        = V c main_arg0 (ix2 ((((cfg3.win 3).blk t).view.emb (ix2 p q)) 0) k)
    refine congrArg (V c main_arg0) (funext fun a => Fin.ext ?_)
    match a with
    | ⟨0, _⟩ => show win3_0.index t (0 : Fin 2) * 10000 + 1 * p.val = win3_3.index t (0 : Fin 2) * 10000 + 1 * p.val; omega
    | ⟨1, _⟩ => show win3_0.index t (1 : Fin 2) * 64 + 1 * k.val = k.val; omega
  · show V c main_arg11 (((cfg3.win 1).blk t).view.emb (ix2 k q))
        = V c main_arg11 (ix2 k ((((cfg3.win 3).blk t).view.emb (ix2 p q)) 1))
    refine congrArg (V c main_arg11) (funext fun a => Fin.ext ?_)
    match a with
    | ⟨0, _⟩ => show win3_1.index t (0 : Fin 2) * 64 + 1 * k.val = k.val; omega
    | ⟨1, _⟩ => show win3_1.index t (1 : Fin 2) * 64 + 1 * q.val = win3_3.index t (1 : Fin 2) * 64 + 1 * q.val; omega
  · show V c main_arg12 (((cfg3.win 2).blk t).view.emb (ix1 q))
        = V c main_arg12 (ix1 ((((cfg3.win 3).blk t).view.emb (ix2 p q)) 1))
    refine congrArg (V c main_arg12) (funext fun a => Fin.ext ?_)
    match a with
    | ⟨0, _⟩ => show win3_2.index t (0 : Fin 1) * 64 + 1 * q.val = win3_3.index t (1 : Fin 2) * 64 + 1 * q.val; omega

theorem mem_blk3 (t : Fin cfg3.N) (i : S50000x64.Idx) :
    i ∈ ((cfg3.win 3).blk t).view.set ↔ ∀ a : Fin 2, win3_3.index t a * S10000x64.size a ≤ (i a).val ∧ (i a).val < win3_3.index t a * S10000x64.size a + S10000x64.size a := by
  show i ∈ ((View.whole main_v4).slice (win3_3.rect t)).set ↔ _
  rw [View.set_slice_whole, Rect.mem_set_unit]
  exact Iff.rfl

theorem idx_onto3 : ∀ (q0 : Fin 5), ∃ t : Fin cfg3.N, win3_3.index t = ![q0.val, 0] :=
  (by decide +kernel : ∀ (q0 : Fin 5), ∃ t : Fin grid3.N, win3_3.index t = ![q0.val, 0])

theorem cover3 (i : S50000x64.Idx) : ∃ t : Fin cfg3.N, (cfg3.win 3).flush t = true ∧ i ∈ ((cfg3.win 3).blk t).view.set := by
  have hi0 : (i 0).val < 50000 := (i 0).isLt
  have hi1 : (i 1).val < 64 := (i 1).isLt
  obtain ⟨t, ht⟩ := idx_onto3 ⟨(i 0).val / 10000, by omega⟩
  have q0 : win3_3.index t (0 : Fin 2) = (i 0).val / 10000 := congrFun ht 0
  have q1 : win3_3.index t (1 : Fin 2) = 0 := congrFun ht 1
  refine ⟨t, flush3_3 t, ?_⟩
  rw [mem_blk3]
  intro a
  match a with
  | ⟨0, _⟩ => show win3_3.index t (0 : Fin 2) * 10000 ≤ (i 0).val ∧ (i 0).val < win3_3.index t (0 : Fin 2) * 10000 + 10000; omega
  | ⟨1, _⟩ => show win3_3.index t (1 : Fin 2) * 64 ≤ (i 1).val ∧ (i 1).val < win3_3.index t (1 : Fin 2) * 64 + 64; omega

/-- Region 3's output array is the linear layer of its three input arrays as the region finds them. -/
theorem final3 (c : Dev nD) : (dat3 V c).arrAt 3 cfg3.N = linI (V c main_arg0) (V c main_arg11) (V c main_arg12) :=
  (dat3 V c).arrAt_eq_of_cover 3 _ (fun t _ => flushed3 V c t) cover3

/-! ## Region 4: a linear layer of main_arg2 -/

theorem pay4_apply (x0 : Vec Ideal S10000x64 .f32) (x1 : Vec Ideal S64x64 .f32) (x2 : Vec Ideal S64 .f32)
    (p : Fin 10000) (q : Fin 64) :
    k4_pay1 (F := Ideal) x0 x1 x2 (ix2 p q) = (∑ k : Fin 64, x0 (ix2 p k) * x1 (ix2 k q)) + x2 (ix1 q) := by
  unfold k4_pay1
  refine (addf_apply _ _ _).trans ?_
  refine congrArg₂ (· + ·) ?_ ?_
  · refine (Cert.Lib.PlainDot.matmul_zero_apply 10000 64 64 none _ _ (ix2 p q)).trans ?_
    refine Finset.sum_congr rfl fun k _ => ?_
    rfl
  · exact biasRow_apply x2 _ _ p q

theorem idx_facts4 : ∀ t : Fin cfg4.N, win4_0.index t (0 : Fin 2) = win4_3.index t (0 : Fin 2)
    ∧ win4_0.index t (1 : Fin 2) = 0 ∧ win4_1.index t (0 : Fin 2) = 0 ∧ win4_1.index t (1 : Fin 2) = 0
    ∧ win4_2.index t (0 : Fin 1) = 0 ∧ win4_3.index t (1 : Fin 2) = 0 ∧ win4_3.index t (0 : Fin 2) ≤ 4 :=
  (by decide +kernel : ∀ t : Fin grid4.N, _)

/-- What point t writes back is block t of the linear layer of the region's three input arrays. -/
theorem flushed4 (c : Dev nD) (t : Fin cfg4.N) :
    (dat4 V c).flushed 3 t = ((cfg4.win 3).blk t).view.read (Elt Ideal) (linI (V c main_arg2) (V c main_arg15) (V c main_arg16)) := by
  show (cfg4.win 3).cut (grid4.coords t) ((dat4 V c).after 3 t) = _
  rw [after4_3]
  unfold out4_3
  rw [View.canon_unit_zero hz2]
  simp only [View.ld_unit_zero (S := S10000x64) hz2, View.ld_unit_zero (S := S64x64) hz2, View.ld_unit_zero (S := S64) hz1]
  funext j
  obtain ⟨p, q, rfl⟩ : ∃ (p : Fin 10000) (q : Fin 64), j = ix2 p q := ⟨j 0, j 1, eq_ix2 j⟩
  show k4_pay1 (iblk4 V c 0 t) (iblk4 V c 1 t) (iblk4 V c 2 t) (ix2 p q)
      = linI (V c main_arg2) (V c main_arg15) (V c main_arg16) (((cfg4.win 3).blk t).view.emb (ix2 p q))
  refine (pay4_apply _ _ _ p q).trans ?_
  obtain ⟨e0, e1, e2, e3, e4, e5, e6⟩ := idx_facts4 t
  unfold linI
  refine congrArg₂ (· + ·) (Finset.sum_congr rfl fun k _ => congrArg₂ (· * ·) ?_ ?_) ?_
  · show V c main_arg2 (((cfg4.win 0).blk t).view.emb (ix2 p k))
        = V c main_arg2 (ix2 ((((cfg4.win 3).blk t).view.emb (ix2 p q)) 0) k)
    refine congrArg (V c main_arg2) (funext fun a => Fin.ext ?_)
    match a with
    | ⟨0, _⟩ => show win4_0.index t (0 : Fin 2) * 10000 + 1 * p.val = win4_3.index t (0 : Fin 2) * 10000 + 1 * p.val; omega
    | ⟨1, _⟩ => show win4_0.index t (1 : Fin 2) * 64 + 1 * k.val = k.val; omega
  · show V c main_arg15 (((cfg4.win 1).blk t).view.emb (ix2 k q))
        = V c main_arg15 (ix2 k ((((cfg4.win 3).blk t).view.emb (ix2 p q)) 1))
    refine congrArg (V c main_arg15) (funext fun a => Fin.ext ?_)
    match a with
    | ⟨0, _⟩ => show win4_1.index t (0 : Fin 2) * 64 + 1 * k.val = k.val; omega
    | ⟨1, _⟩ => show win4_1.index t (1 : Fin 2) * 64 + 1 * q.val = win4_3.index t (1 : Fin 2) * 64 + 1 * q.val; omega
  · show V c main_arg16 (((cfg4.win 2).blk t).view.emb (ix1 q))
        = V c main_arg16 (ix1 ((((cfg4.win 3).blk t).view.emb (ix2 p q)) 1))
    refine congrArg (V c main_arg16) (funext fun a => Fin.ext ?_)
    match a with
    | ⟨0, _⟩ => show win4_2.index t (0 : Fin 1) * 64 + 1 * q.val = win4_3.index t (1 : Fin 2) * 64 + 1 * q.val; omega

theorem mem_blk4 (t : Fin cfg4.N) (i : S50000x64.Idx) :
    i ∈ ((cfg4.win 3).blk t).view.set ↔ ∀ a : Fin 2, win4_3.index t a * S10000x64.size a ≤ (i a).val ∧ (i a).val < win4_3.index t a * S10000x64.size a + S10000x64.size a := by
  show i ∈ ((View.whole main_v5).slice (win4_3.rect t)).set ↔ _
  rw [View.set_slice_whole, Rect.mem_set_unit]
  exact Iff.rfl

theorem idx_onto4 : ∀ (q0 : Fin 5), ∃ t : Fin cfg4.N, win4_3.index t = ![q0.val, 0] :=
  (by decide +kernel : ∀ (q0 : Fin 5), ∃ t : Fin grid4.N, win4_3.index t = ![q0.val, 0])

theorem cover4 (i : S50000x64.Idx) : ∃ t : Fin cfg4.N, (cfg4.win 3).flush t = true ∧ i ∈ ((cfg4.win 3).blk t).view.set := by
  have hi0 : (i 0).val < 50000 := (i 0).isLt
  have hi1 : (i 1).val < 64 := (i 1).isLt
  obtain ⟨t, ht⟩ := idx_onto4 ⟨(i 0).val / 10000, by omega⟩
  have q0 : win4_3.index t (0 : Fin 2) = (i 0).val / 10000 := congrFun ht 0
  have q1 : win4_3.index t (1 : Fin 2) = 0 := congrFun ht 1
  refine ⟨t, flush4_3 t, ?_⟩
  rw [mem_blk4]
  intro a
  match a with
  | ⟨0, _⟩ => show win4_3.index t (0 : Fin 2) * 10000 ≤ (i 0).val ∧ (i 0).val < win4_3.index t (0 : Fin 2) * 10000 + 10000; omega
  | ⟨1, _⟩ => show win4_3.index t (1 : Fin 2) * 64 ≤ (i 1).val ∧ (i 1).val < win4_3.index t (1 : Fin 2) * 64 + 64; omega

/-- Region 4's output array is the linear layer of its three input arrays as the region finds them. -/
theorem final4 (c : Dev nD) : (dat4 V c).arrAt 3 cfg4.N = linI (V c main_arg2) (V c main_arg15) (V c main_arg16) :=
  (dat4 V c).arrAt_eq_of_cover 3 _ (fun t _ => flushed4 V c t) cover4

/-! ## Region 5: a linear layer of main_arg2 -/

theorem pay5_apply (x0 : Vec Ideal S10000x64 .f32) (x1 : Vec Ideal S64x64 .f32) (x2 : Vec Ideal S64 .f32)
    (p : Fin 10000) (q : Fin 64) :
    k5_pay1 (F := Ideal) x0 x1 x2 (ix2 p q) = (∑ k : Fin 64, x0 (ix2 p k) * x1 (ix2 k q)) + x2 (ix1 q) := by
  unfold k5_pay1
  refine (addf_apply _ _ _).trans ?_
  refine congrArg₂ (· + ·) ?_ ?_
  · refine (Cert.Lib.PlainDot.matmul_zero_apply 10000 64 64 none _ _ (ix2 p q)).trans ?_
    refine Finset.sum_congr rfl fun k _ => ?_
    rfl
  · exact biasRow_apply x2 _ _ p q

theorem idx_facts5 : ∀ t : Fin cfg5.N, win5_0.index t (0 : Fin 2) = win5_3.index t (0 : Fin 2)
    ∧ win5_0.index t (1 : Fin 2) = 0 ∧ win5_1.index t (0 : Fin 2) = 0 ∧ win5_1.index t (1 : Fin 2) = 0
    ∧ win5_2.index t (0 : Fin 1) = 0 ∧ win5_3.index t (1 : Fin 2) = 0 ∧ win5_3.index t (0 : Fin 2) ≤ 4 :=
  (by decide +kernel : ∀ t : Fin grid5.N, _)

/-- What point t writes back is block t of the linear layer of the region's three input arrays. -/
theorem flushed5 (c : Dev nD) (t : Fin cfg5.N) :
    (dat5 V c).flushed 3 t = ((cfg5.win 3).blk t).view.read (Elt Ideal) (linI (V c main_arg2) (V c main_arg17) (V c main_arg18)) := by
  show (cfg5.win 3).cut (grid5.coords t) ((dat5 V c).after 3 t) = _
  rw [after5_3]
  unfold out5_3
  rw [View.canon_unit_zero hz2]
  simp only [View.ld_unit_zero (S := S10000x64) hz2, View.ld_unit_zero (S := S64x64) hz2, View.ld_unit_zero (S := S64) hz1]
  funext j
  obtain ⟨p, q, rfl⟩ : ∃ (p : Fin 10000) (q : Fin 64), j = ix2 p q := ⟨j 0, j 1, eq_ix2 j⟩
  show k5_pay1 (iblk5 V c 0 t) (iblk5 V c 1 t) (iblk5 V c 2 t) (ix2 p q)
      = linI (V c main_arg2) (V c main_arg17) (V c main_arg18) (((cfg5.win 3).blk t).view.emb (ix2 p q))
  refine (pay5_apply _ _ _ p q).trans ?_
  obtain ⟨e0, e1, e2, e3, e4, e5, e6⟩ := idx_facts5 t
  unfold linI
  refine congrArg₂ (· + ·) (Finset.sum_congr rfl fun k _ => congrArg₂ (· * ·) ?_ ?_) ?_
  · show V c main_arg2 (((cfg5.win 0).blk t).view.emb (ix2 p k))
        = V c main_arg2 (ix2 ((((cfg5.win 3).blk t).view.emb (ix2 p q)) 0) k)
    refine congrArg (V c main_arg2) (funext fun a => Fin.ext ?_)
    match a with
    | ⟨0, _⟩ => show win5_0.index t (0 : Fin 2) * 10000 + 1 * p.val = win5_3.index t (0 : Fin 2) * 10000 + 1 * p.val; omega
    | ⟨1, _⟩ => show win5_0.index t (1 : Fin 2) * 64 + 1 * k.val = k.val; omega
  · show V c main_arg17 (((cfg5.win 1).blk t).view.emb (ix2 k q))
        = V c main_arg17 (ix2 k ((((cfg5.win 3).blk t).view.emb (ix2 p q)) 1))
    refine congrArg (V c main_arg17) (funext fun a => Fin.ext ?_)
    match a with
    | ⟨0, _⟩ => show win5_1.index t (0 : Fin 2) * 64 + 1 * k.val = k.val; omega
    | ⟨1, _⟩ => show win5_1.index t (1 : Fin 2) * 64 + 1 * q.val = win5_3.index t (1 : Fin 2) * 64 + 1 * q.val; omega
  · show V c main_arg18 (((cfg5.win 2).blk t).view.emb (ix1 q))
        = V c main_arg18 (ix1 ((((cfg5.win 3).blk t).view.emb (ix2 p q)) 1))
    refine congrArg (V c main_arg18) (funext fun a => Fin.ext ?_)
    match a with
    | ⟨0, _⟩ => show win5_2.index t (0 : Fin 1) * 64 + 1 * q.val = win5_3.index t (1 : Fin 2) * 64 + 1 * q.val; omega

theorem mem_blk5 (t : Fin cfg5.N) (i : S50000x64.Idx) :
    i ∈ ((cfg5.win 3).blk t).view.set ↔ ∀ a : Fin 2, win5_3.index t a * S10000x64.size a ≤ (i a).val ∧ (i a).val < win5_3.index t a * S10000x64.size a + S10000x64.size a := by
  show i ∈ ((View.whole main_v6).slice (win5_3.rect t)).set ↔ _
  rw [View.set_slice_whole, Rect.mem_set_unit]
  exact Iff.rfl

theorem idx_onto5 : ∀ (q0 : Fin 5), ∃ t : Fin cfg5.N, win5_3.index t = ![q0.val, 0] :=
  (by decide +kernel : ∀ (q0 : Fin 5), ∃ t : Fin grid5.N, win5_3.index t = ![q0.val, 0])

theorem cover5 (i : S50000x64.Idx) : ∃ t : Fin cfg5.N, (cfg5.win 3).flush t = true ∧ i ∈ ((cfg5.win 3).blk t).view.set := by
  have hi0 : (i 0).val < 50000 := (i 0).isLt
  have hi1 : (i 1).val < 64 := (i 1).isLt
  obtain ⟨t, ht⟩ := idx_onto5 ⟨(i 0).val / 10000, by omega⟩
  have q0 : win5_3.index t (0 : Fin 2) = (i 0).val / 10000 := congrFun ht 0
  have q1 : win5_3.index t (1 : Fin 2) = 0 := congrFun ht 1
  refine ⟨t, flush5_3 t, ?_⟩
  rw [mem_blk5]
  intro a
  match a with
  | ⟨0, _⟩ => show win5_3.index t (0 : Fin 2) * 10000 ≤ (i 0).val ∧ (i 0).val < win5_3.index t (0 : Fin 2) * 10000 + 10000; omega
  | ⟨1, _⟩ => show win5_3.index t (1 : Fin 2) * 64 ≤ (i 1).val ∧ (i 1).val < win5_3.index t (1 : Fin 2) * 64 + 64; omega

/-- Region 5's output array is the linear layer of its three input arrays as the region finds them. -/
theorem final5 (c : Dev nD) : (dat5 V c).arrAt 3 cfg5.N = linI (V c main_arg2) (V c main_arg17) (V c main_arg18) :=
  (dat5 V c).arrAt_eq_of_cover 3 _ (fun t _ => flushed5 V c t) cover5

end Cert.KernelIdeal.KReg

end
-- ==== Proof.KDefs.lean ====
/-
  The pointwise stages as element-by-element functions of their input arrays, over any number of rows: the hyperbolic
  tangent; gate / (gate sum + 1e-6) times a gathered row; the edge gate (two gathered rows plus a linear layer) and its
  logistic; the normalization scale·(x − mean)·rsqrt(var + 1e-5) + shift cut at zero.
-/
import proofs.«146130_j46961172414535_2_alg».proof.Proof.KLin

noncomputable section

namespace Cert.KernelIdeal.KElem

open Idealize.ShloMosaic Idealize.ShloMosaic.ValueIdx

variable {R : ℕ}

/-- The hyperbolic tangent, element by element. -/
def tanhI (x : (⟨2, ![R, 64]⟩ : Shape).Idx → EReal) : (⟨2, ![R, 64]⟩ : Shape).Idx → EReal := fun i => Ideal.tanh (x i)

/-- gate / (gate sum + 1e-6) times a gathered row, element by element. -/
def etaMulI (s d a : (⟨2, ![R, 64]⟩ : Shape).Idx → EReal) : (⟨2, ![R, 64]⟩ : Shape).Idx → EReal :=
  fun i => Ideal.div (s i) (d i + Ideal.ofBits .f32 0x358637BD#32) * a i

/-- The two gathered rows plus the projected edge feature. -/
def gateI (e g1 g2 : (⟨2, ![R, 64]⟩ : Shape).Idx → EReal) (w : (⟨2, ![64, 64]⟩ : Shape).Idx → EReal)
    (b : (⟨1, ![64]⟩ : Shape).Idx → EReal) : (⟨2, ![R, 64]⟩ : Shape).Idx → EReal :=
  fun i => (g1 i + g2 i) + KReg.linI e w b i

/-- Its logistic. -/
def gateSigI (e g1 g2 : (⟨2, ![R, 64]⟩ : Shape).Idx → EReal) (w : (⟨2, ![64, 64]⟩ : Shape).Idx → EReal)
    (b : (⟨1, ![64]⟩ : Shape).Idx → EReal) : (⟨2, ![R, 64]⟩ : Shape).Idx → EReal :=
  fun i => Ideal.logistic (gateI e g1 g2 w b i)

/-- The normalization cut at zero: scale(j)·(x(i,j) − mean(j))·rsqrt(var(j) + 1e-5) + shift(j), then the maximum with zero. -/
def normI (x : (⟨2, ![R, 64]⟩ : Shape).Idx → EReal) (mu va : (⟨2, ![1, 64]⟩ : Shape).Idx → EReal)
    (g b : (⟨1, ![64]⟩ : Shape).Idx → EReal) : (⟨2, ![R, 64]⟩ : Shape).Idx → EReal :=
  fun i => max ((g (ix1 (i 1)) * (x i - mu (ix2 (0 : Fin 1) (i 1)))) * Ideal.rsqrt (va (ix2 (0 : Fin 1) (i 1)) + Ideal.ofBits .f32 0x3727C5AC#32) + b (ix1 (i 1)))
    (Ideal.ofBits .f32 0x00000000#32)

end Cert.KernelIdeal.KElem

end
-- ==== Proof.KElem.lean ====
/-
  The pointwise regions of the idealized kernel, each output array as one element-by-element function of the region's input
  arrays: the edge gate (two gathered rows plus the projected edge feature) and its logistic; the normalized gate times a
  gathered row; the batch normalization given the mean and variance rows, cut at zero; the hyperbolic tangent. Every output
  block covers rows BR·t … BR·t + BR − 1 of its array and is the same function of the inputs' blocks at the same rows.
-/
import proofs.«146130_j46961172414535_2_alg».proof.Proof.Gen.KernelIdeal.Frame
import proofs.«146130_j46961172414535_2_alg».proof.Proof.KPay
import proofs.«146130_j46961172414535_2_alg».proof.Proof.KLin
import proofs.«146130_j46961172414535_2_alg».proof.Proof.KDefs

set_option maxRecDepth 16384

noncomputable section

namespace Cert.KernelIdeal.KElem

open Cert.KernelIdeal Cert.KernelIdeal.Gen Cert.KernelIdeal.KPay Cert.KernelIdeal.KReg
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem gate2full_apply (x0 : Vec Ideal S10000x64 .f32) (x3 : Vec Ideal S64x64 .f32) (x4 : Vec Ideal S64 .f32)
    (x1 x2 : Vec Ideal S10000x64 .f32) (p : Fin 10000) (q : Fin 64) :
    k6_pay2 (F := Ideal) x0 x3 x4 x1 x2 (ix2 p q)
      = Ideal.logistic ((x1 (ix2 p q) + x2 (ix2 p q)) + ((∑ k : Fin 64, x0 (ix2 p k) * x3 (ix2 k q)) + x4 (ix1 q))) :=
  (gate2_apply x0 x3 x4 x1 x2 (ix2 p q)).trans (congrArg Ideal.logistic (gate1_apply x0 x3 x4 x1 x2 p q))

/-! ## Region 12: the hyperbolic tangent -/

theorem idx_facts12_1 : ∀ t : Fin cfg12.N, win12_0.index t (0 : Fin 2) = win12_1.index t (0 : Fin 2)
    ∧ win12_0.index t (1 : Fin 2) = 0
    ∧ win12_1.index t (1 : Fin 2) = 0
    ∧ win12_1.index t (0 : Fin 2) ≤ 4 :=
  (by decide +kernel : ∀ t : Fin grid12.N, _)

set_option maxHeartbeats 4000000 in
/-- What point t writes back through window 1 is block t of the region's function of its input arrays. -/
theorem flushed12_1 (c : Dev nD) (t : Fin cfg12.N) :
    (dat12 V c).flushed 1 t = ((cfg12.win 1).blk t).view.read (Elt Ideal) (tanhI (V c main_v54)) := by
  show (cfg12.win 1).cut (grid12.coords t) ((dat12 V c).after 1 t) = _
  rw [after12_1]
  unfold out12_1
  rw [View.canon_unit_zero hz2]
  simp only [View.ld_unit_zero (S := S10000x64) hz2]
  funext j
  obtain ⟨p, q, rfl⟩ : ∃ (p : Fin 10000) (q : Fin 64), j = ix2 p q := ⟨j 0, j 1, eq_ix2 j⟩
  show k12_pay1 (iblk12 V c 0 t) (ix2 p q)
      = tanhI (V c main_v54) (((cfg12.win 1).blk t).view.emb (ix2 p q))
  refine (tanh_apply _ (ix2 p q)).trans ?_
  obtain ⟨e0, e1, e2, e3⟩ := idx_facts12_1 t
  have h0 : iblk12 V c 0 t (ix2 p q) = V c main_v54 ((((cfg12.win 1).blk t).view.emb (ix2 p q))) := by
    show V c main_v54 (((cfg12.win 0).blk t).view.emb (ix2 p q)) = V c main_v54 ((((cfg12.win 1).blk t).view.emb (ix2 p q)))
    refine congrArg (V c main_v54) (funext fun a => Fin.ext ?_)
    match a with
    | ⟨0, _⟩ => show win12_0.index t (0 : Fin 2) * 10000 + 1 * p.val = win12_1.index t (0 : Fin 2) * 10000 + 1 * p.val; omega
    | ⟨1, _⟩ => show win12_0.index t (1 : Fin 2) * 64 + 1 * q.val = win12_1.index t (1 : Fin 2) * 64 + 1 * q.val; omega
  rw [h0]
  rfl

theorem mem_blk12_1 (t : Fin cfg12.N) (i : S50000x64.Idx) :
    i ∈ ((cfg12.win 1).blk t).view.set ↔ ∀ a : Fin 2, win12_1.index t a * S10000x64.size a ≤ (i a).val ∧ (i a).val < win12_1.index t a * S10000x64.size a + S10000x64.size a := by
  show i ∈ ((View.whole main_v71).slice (win12_1.rect t)).set ↔ _
  rw [View.set_slice_whole, Rect.mem_set_unit]
  exact Iff.rfl

theorem idx_onto12_1 : ∀ (q0 : Fin 5), ∃ t : Fin cfg12.N, win12_1.index t = ![q0.val, 0] :=
  (by decide +kernel : ∀ (q0 : Fin 5), ∃ t : Fin grid12.N, win12_1.index t = ![q0.val, 0])

theorem cover12_1 (i : S50000x64.Idx) : ∃ t : Fin cfg12.N, (cfg12.win 1).flush t = true ∧ i ∈ ((cfg12.win 1).blk t).view.set := by
  have hi0 : (i 0).val < 50000 := (i 0).isLt
  have hi1 : (i 1).val < 64 := (i 1).isLt
  obtain ⟨t, ht⟩ := idx_onto12_1 ⟨(i 0).val / 10000, by omega⟩
  have q0 : win12_1.index t (0 : Fin 2) = (i 0).val / 10000 := congrFun ht 0
  have q1 : win12_1.index t (1 : Fin 2) = 0 := congrFun ht 1
  refine ⟨t, flush12_1 t, ?_⟩
  rw [mem_blk12_1]
  intro a
  match a with
  | ⟨0, _⟩ => show win12_1.index t (0 : Fin 2) * 10000 ≤ (i 0).val ∧ (i 0).val < win12_1.index t (0 : Fin 2) * 10000 + 10000; omega
  | ⟨1, _⟩ => show win12_1.index t (1 : Fin 2) * 64 ≤ (i 1).val ∧ (i 1).val < win12_1.index t (1 : Fin 2) * 64 + 64; omega

/-- Region 12's output array is the hyperbolic tangent of its input array, element by element. -/
theorem final12_1 (c : Dev nD) : (dat12 V c).arrAt 1 cfg12.N = tanhI (V c main_v54) :=
  (dat12 V c).arrAt_eq_of_cover 1 _ (fun t _ => flushed12_1 V c t) cover12_1

/-! ## Region 7: the normalized gate times a gathered row, twice -/

theorem idx_facts7_4 : ∀ t : Fin cfg7.N, win7_0.index t (0 : Fin 2) = win7_4.index t (0 : Fin 2)
    ∧ win7_0.index t (1 : Fin 2) = 0
    ∧ win7_1.index t (0 : Fin 2) = win7_4.index t (0 : Fin 2)
    ∧ win7_1.index t (1 : Fin 2) = 0
    ∧ win7_2.index t (0 : Fin 2) = win7_4.index t (0 : Fin 2)
    ∧ win7_2.index t (1 : Fin 2) = 0
    ∧ win7_4.index t (1 : Fin 2) = 0
    ∧ win7_4.index t (0 : Fin 2) ≤ 159 :=
  (by decide +kernel : ∀ t : Fin grid7.N, _)

set_option maxHeartbeats 4000000 in
/-- What point t writes back through window 4 is block t of the region's function of its input arrays. -/
theorem flushed7_4 (c : Dev nD) (t : Fin cfg7.N) :
    (dat7 V c).flushed 4 t = ((cfg7.win 4).blk t).view.read (Elt Ideal) (etaMulI (V c main_v21_1) (V c main_v31) (V c main_v38)) := by
  show (cfg7.win 4).cut (grid7.coords t) ((dat7 V c).after 4 t) = _
  rw [after7_4]
  unfold out7_4
  rw [View.canon_unit_zero hz2]
  simp only [View.ld_unit_zero (S := S5000x64) hz2]
  funext j
  obtain ⟨p, q, rfl⟩ : ∃ (p : Fin 5000) (q : Fin 64), j = ix2 p q := ⟨j 0, j 1, eq_ix2 j⟩
  show k7_pay2 (iblk7 V c 0 t) (iblk7 V c 1 t) (iblk7 V c 2 t) (ix2 p q)
      = etaMulI (V c main_v21_1) (V c main_v31) (V c main_v38) (((cfg7.win 4).blk t).view.emb (ix2 p q))
  refine (eta2_apply _ _ _ (ix2 p q)).trans ?_
  obtain ⟨e0, e1, e2, e3, e4, e5, e6, e7⟩ := idx_facts7_4 t
  have h0 : iblk7 V c 0 t (ix2 p q) = V c main_v21_1 ((((cfg7.win 4).blk t).view.emb (ix2 p q))) := by
    show V c main_v21_1 (((cfg7.win 0).blk t).view.emb (ix2 p q)) = V c main_v21_1 ((((cfg7.win 4).blk t).view.emb (ix2 p q)))
    refine congrArg (V c main_v21_1) (funext fun a => Fin.ext ?_)
    match a with
    | ⟨0, _⟩ => show win7_0.index t (0 : Fin 2) * 5000 + 1 * p.val = win7_4.index t (0 : Fin 2) * 5000 + 1 * p.val; omega
    | ⟨1, _⟩ => show win7_0.index t (1 : Fin 2) * 64 + 1 * q.val = win7_4.index t (1 : Fin 2) * 64 + 1 * q.val; omega
  have h1 : iblk7 V c 1 t (ix2 p q) = V c main_v31 ((((cfg7.win 4).blk t).view.emb (ix2 p q))) := by
    show V c main_v31 (((cfg7.win 1).blk t).view.emb (ix2 p q)) = V c main_v31 ((((cfg7.win 4).blk t).view.emb (ix2 p q)))
    refine congrArg (V c main_v31) (funext fun a => Fin.ext ?_)
    match a with
    | ⟨0, _⟩ => show win7_1.index t (0 : Fin 2) * 5000 + 1 * p.val = win7_4.index t (0 : Fin 2) * 5000 + 1 * p.val; omega
    | ⟨1, _⟩ => show win7_1.index t (1 : Fin 2) * 64 + 1 * q.val = win7_4.index t (1 : Fin 2) * 64 + 1 * q.val; omega
  have h2 : iblk7 V c 2 t (ix2 p q) = V c main_v38 ((((cfg7.win 4).blk t).view.emb (ix2 p q))) := by
    show V c main_v38 (((cfg7.win 2).blk t).view.emb (ix2 p q)) = V c main_v38 ((((cfg7.win 4).blk t).view.emb (ix2 p q)))
    refine congrArg (V c main_v38) (funext fun a => Fin.ext ?_)
    match a with
    | ⟨0, _⟩ => show win7_2.index t (0 : Fin 2) * 5000 + 1 * p.val = win7_4.index t (0 : Fin 2) * 5000 + 1 * p.val; omega
    | ⟨1, _⟩ => show win7_2.index t (1 : Fin 2) * 64 + 1 * q.val = win7_4.index t (1 : Fin 2) * 64 + 1 * q.val; omega
  rw [h0, h1, h2]
  rfl

theorem mem_blk7_4 (t : Fin cfg7.N) (i : S800000x64.Idx) :
    i ∈ ((cfg7.win 4).blk t).view.set ↔ ∀ a : Fin 2, win7_4.index t a * S5000x64.size a ≤ (i a).val ∧ (i a).val < win7_4.index t a * S5000x64.size a + S5000x64.size a := by
  show i ∈ ((View.whole main_v46_0).slice (win7_4.rect t)).set ↔ _
  rw [View.set_slice_whole, Rect.mem_set_unit]
  exact Iff.rfl

theorem idx_onto7_4 : ∀ (q0 : Fin 160), ∃ t : Fin cfg7.N, win7_4.index t = ![q0.val, 0] :=
  (by decide +kernel : ∀ (q0 : Fin 160), ∃ t : Fin grid7.N, win7_4.index t = ![q0.val, 0])

theorem cover7_4 (i : S800000x64.Idx) : ∃ t : Fin cfg7.N, (cfg7.win 4).flush t = true ∧ i ∈ ((cfg7.win 4).blk t).view.set := by
  have hi0 : (i 0).val < 800000 := (i 0).isLt
  have hi1 : (i 1).val < 64 := (i 1).isLt
  obtain ⟨t, ht⟩ := idx_onto7_4 ⟨(i 0).val / 5000, by omega⟩
  have q0 : win7_4.index t (0 : Fin 2) = (i 0).val / 5000 := congrFun ht 0
  have q1 : win7_4.index t (1 : Fin 2) = 0 := congrFun ht 1
  refine ⟨t, flush7_4 t, ?_⟩
  rw [mem_blk7_4]
  intro a
  match a with
  | ⟨0, _⟩ => show win7_4.index t (0 : Fin 2) * 5000 ≤ (i 0).val ∧ (i 0).val < win7_4.index t (0 : Fin 2) * 5000 + 5000; omega
  | ⟨1, _⟩ => show win7_4.index t (1 : Fin 2) * 64 ≤ (i 1).val ∧ (i 1).val < win7_4.index t (1 : Fin 2) * 64 + 64; omega

/-- Region 7's first output: gate / (gathered gate sum + 1e-6) times the first gathered array. -/
theorem final7_4 (c : Dev nD) : (dat7 V c).arrAt 4 cfg7.N = etaMulI (V c main_v21_1) (V c main_v31) (V c main_v38) :=
  (dat7 V c).arrAt_eq_of_cover 4 _ (fun t _ => flushed7_4 V c t) cover7_4

theorem idx_facts7_5 : ∀ t : Fin cfg7.N, win7_0.index t (0 : Fin 2) = win7_5.index t (0 : Fin 2)
    ∧ win7_0.index t (1 : Fin 2) = 0
    ∧ win7_1.index t (0 : Fin 2) = win7_5.index t (0 : Fin 2)
    ∧ win7_1.index t (1 : Fin 2) = 0
    ∧ win7_3.index t (0 : Fin 2) = win7_5.index t (0 : Fin 2)
    ∧ win7_3.index t (1 : Fin 2) = 0
    ∧ win7_5.index t (1 : Fin 2) = 0
    ∧ win7_5.index t (0 : Fin 2) ≤ 159 :=
  (by decide +kernel : ∀ t : Fin grid7.N, _)

set_option maxHeartbeats 4000000 in
/-- What point t writes back through window 5 is block t of the region's function of its input arrays. -/
theorem flushed7_5 (c : Dev nD) (t : Fin cfg7.N) :
    (dat7 V c).flushed 5 t = ((cfg7.win 5).blk t).view.read (Elt Ideal) (etaMulI (V c main_v21_1) (V c main_v31) (V c main_v45)) := by
  show (cfg7.win 5).cut (grid7.coords t) ((dat7 V c).after 5 t) = _
  rw [after7_5]
  unfold out7_5
  rw [View.canon_unit_zero hz2]
  simp only [View.ld_unit_zero (S := S5000x64) hz2]
  funext j
  obtain ⟨p, q, rfl⟩ : ∃ (p : Fin 5000) (q : Fin 64), j = ix2 p q := ⟨j 0, j 1, eq_ix2 j⟩
  show k7_pay3 (iblk7 V c 0 t) (iblk7 V c 1 t) (iblk7 V c 3 t) (ix2 p q)
      = etaMulI (V c main_v21_1) (V c main_v31) (V c main_v45) (((cfg7.win 5).blk t).view.emb (ix2 p q))
  refine (eta3_apply _ _ _ (ix2 p q)).trans ?_
  obtain ⟨e0, e1, e2, e3, e4, e5, e6, e7⟩ := idx_facts7_5 t
  have h0 : iblk7 V c 0 t (ix2 p q) = V c main_v21_1 ((((cfg7.win 5).blk t).view.emb (ix2 p q))) := by
    show V c main_v21_1 (((cfg7.win 0).blk t).view.emb (ix2 p q)) = V c main_v21_1 ((((cfg7.win 5).blk t).view.emb (ix2 p q)))
    refine congrArg (V c main_v21_1) (funext fun a => Fin.ext ?_)
    match a with
    | ⟨0, _⟩ => show win7_0.index t (0 : Fin 2) * 5000 + 1 * p.val = win7_5.index t (0 : Fin 2) * 5000 + 1 * p.val; omega
    | ⟨1, _⟩ => show win7_0.index t (1 : Fin 2) * 64 + 1 * q.val = win7_5.index t (1 : Fin 2) * 64 + 1 * q.val; omega
  have h1 : iblk7 V c 1 t (ix2 p q) = V c main_v31 ((((cfg7.win 5).blk t).view.emb (ix2 p q))) := by
    show V c main_v31 (((cfg7.win 1).blk t).view.emb (ix2 p q)) = V c main_v31 ((((cfg7.win 5).blk t).view.emb (ix2 p q)))
    refine congrArg (V c main_v31) (funext fun a => Fin.ext ?_)
    match a with
    | ⟨0, _⟩ => show win7_1.index t (0 : Fin 2) * 5000 + 1 * p.val = win7_5.index t (0 : Fin 2) * 5000 + 1 * p.val; omega
    | ⟨1, _⟩ => show win7_1.index t (1 : Fin 2) * 64 + 1 * q.val = win7_5.index t (1 : Fin 2) * 64 + 1 * q.val; omega
  have h3 : iblk7 V c 3 t (ix2 p q) = V c main_v45 ((((cfg7.win 5).blk t).view.emb (ix2 p q))) := by
    show V c main_v45 (((cfg7.win 3).blk t).view.emb (ix2 p q)) = V c main_v45 ((((cfg7.win 5).blk t).view.emb (ix2 p q)))
    refine congrArg (V c main_v45) (funext fun a => Fin.ext ?_)
    match a with
    | ⟨0, _⟩ => show win7_3.index t (0 : Fin 2) * 5000 + 1 * p.val = win7_5.index t (0 : Fin 2) * 5000 + 1 * p.val; omega
    | ⟨1, _⟩ => show win7_3.index t (1 : Fin 2) * 64 + 1 * q.val = win7_5.index t (1 : Fin 2) * 64 + 1 * q.val; omega
  rw [h0, h1, h3]
  rfl

theorem mem_blk7_5 (t : Fin cfg7.N) (i : S800000x64.Idx) :
    i ∈ ((cfg7.win 5).blk t).view.set ↔ ∀ a : Fin 2, win7_5.index t a * S5000x64.size a ≤ (i a).val ∧ (i a).val < win7_5.index t a * S5000x64.size a + S5000x64.size a := by
  show i ∈ ((View.whole main_v46_1).slice (win7_5.rect t)).set ↔ _
  rw [View.set_slice_whole, Rect.mem_set_unit]
  exact Iff.rfl

theorem idx_onto7_5 : ∀ (q0 : Fin 160), ∃ t : Fin cfg7.N, win7_5.index t = ![q0.val, 0] :=
  (by decide +kernel : ∀ (q0 : Fin 160), ∃ t : Fin grid7.N, win7_5.index t = ![q0.val, 0])

theorem cover7_5 (i : S800000x64.Idx) : ∃ t : Fin cfg7.N, (cfg7.win 5).flush t = true ∧ i ∈ ((cfg7.win 5).blk t).view.set := by
  have hi0 : (i 0).val < 800000 := (i 0).isLt
  have hi1 : (i 1).val < 64 := (i 1).isLt
  obtain ⟨t, ht⟩ := idx_onto7_5 ⟨(i 0).val / 5000, by omega⟩
  have q0 : win7_5.index t (0 : Fin 2) = (i 0).val / 5000 := congrFun ht 0
  have q1 : win7_5.index t (1 : Fin 2) = 0 := congrFun ht 1
  refine ⟨t, flush7_5 t, ?_⟩
  rw [mem_blk7_5]
  intro a
  match a with
  | ⟨0, _⟩ => show win7_5.index t (0 : Fin 2) * 5000 ≤ (i 0).val ∧ (i 0).val < win7_5.index t (0 : Fin 2) * 5000 + 5000; omega
  | ⟨1, _⟩ => show win7_5.index t (1 : Fin 2) * 64 ≤ (i 1).val ∧ (i 1).val < win7_5.index t (1 : Fin 2) * 64 + 64; omega

/-- Region 7's second output: the same gate times the second gathered array. -/
theorem final7_5 (c : Dev nD) : (dat7 V c).arrAt 5 cfg7.N = etaMulI (V c main_v21_1) (V c main_v31) (V c main_v45) :=
  (dat7 V c).arrAt_eq_of_cover 5 _ (fun t _ => flushed7_5 V c t) cover7_5

/-! ## Region 6: the edge gate and its logistic -/

theorem idx_facts6_5 : ∀ t : Fin cfg6.N, win6_0.index t (0 : Fin 2) = win6_5.index t (0 : Fin 2)
    ∧ win6_0.index t (1 : Fin 2) = 0
    ∧ win6_1.index t (0 : Fin 2) = win6_5.index t (0 : Fin 2)
    ∧ win6_1.index t (1 : Fin 2) = 0
    ∧ win6_2.index t (0 : Fin 2) = win6_5.index t (0 : Fin 2)
    ∧ win6_2.index t (1 : Fin 2) = 0
    ∧ win6_3.index t (0 : Fin 2) = 0
    ∧ win6_3.index t (1 : Fin 2) = 0
    ∧ win6_4.index t (0 : Fin 1) = 0
    ∧ win6_5.index t (1 : Fin 2) = 0
    ∧ win6_5.index t (0 : Fin 2) ≤ 79 :=
  (by decide +kernel : ∀ t : Fin grid6.N, _)

set_option maxHeartbeats 4000000 in
/-- What point t writes back through window 5 is block t of the region's function of its input arrays. -/
theorem flushed6_5 (c : Dev nD) (t : Fin cfg6.N) :
    (dat6 V c).flushed 5 t = ((cfg6.win 5).blk t).view.read (Elt Ideal) (gateI (V c main_arg1) (V c main_v13) (V c main_v20) (V c main_arg13) (V c main_arg14)) := by
  show (cfg6.win 5).cut (grid6.coords t) ((dat6 V c).after 5 t) = _
  rw [after6_5]
  unfold out6_5
  rw [View.canon_unit_zero hz2]
  simp only [View.ld_unit_zero (S := S10000x64) hz2, View.ld_unit_zero (S := S64x64) hz2, View.ld_unit_zero (S := S64) hz1]
  funext j
  obtain ⟨p, q, rfl⟩ : ∃ (p : Fin 10000) (q : Fin 64), j = ix2 p q := ⟨j 0, j 1, eq_ix2 j⟩
  show k6_pay1 (iblk6 V c 0 t) (iblk6 V c 3 t) (iblk6 V c 4 t) (iblk6 V c 1 t) (iblk6 V c 2 t) (ix2 p q)
      = gateI (V c main_arg1) (V c main_v13) (V c main_v20) (V c main_arg13) (V c main_arg14) (((cfg6.win 5).blk t).view.emb (ix2 p q))
  refine (gate1_apply _ _ _ _ _ p q).trans ?_
  obtain ⟨e0, e1, e2, e3, e4, e5, e6, e7, e8, e9, e10⟩ := idx_facts6_5 t
  have h0 : iblk6 V c 0 t (ix2 p q) = V c main_arg1 ((((cfg6.win 5).blk t).view.emb (ix2 p q))) := by
    show V c main_arg1 (((cfg6.win 0).blk t).view.emb (ix2 p q)) = V c main_arg1 ((((cfg6.win 5).blk t).view.emb (ix2 p q)))
    refine congrArg (V c main_arg1) (funext fun a => Fin.ext ?_)
    match a with
    | ⟨0, _⟩ => show win6_0.index t (0 : Fin 2) * 10000 + 1 * p.val = win6_5.index t (0 : Fin 2) * 10000 + 1 * p.val; omega
    | ⟨1, _⟩ => show win6_0.index t (1 : Fin 2) * 64 + 1 * q.val = win6_5.index t (1 : Fin 2) * 64 + 1 * q.val; omega
  have h1 : iblk6 V c 1 t (ix2 p q) = V c main_v13 ((((cfg6.win 5).blk t).view.emb (ix2 p q))) := by
    show V c main_v13 (((cfg6.win 1).blk t).view.emb (ix2 p q)) = V c main_v13 ((((cfg6.win 5).blk t).view.emb (ix2 p q)))
    refine congrArg (V c main_v13) (funext fun a => Fin.ext ?_)
    match a with
    | ⟨0, _⟩ => show win6_1.index t (0 : Fin 2) * 10000 + 1 * p.val = win6_5.index t (0 : Fin 2) * 10000 + 1 * p.val; omega
    | ⟨1, _⟩ => show win6_1.index t (1 : Fin 2) * 64 + 1 * q.val = win6_5.index t (1 : Fin 2) * 64 + 1 * q.val; omega
  have h2 : iblk6 V c 2 t (ix2 p q) = V c main_v20 ((((cfg6.win 5).blk t).view.emb (ix2 p q))) := by
    show V c main_v20 (((cfg6.win 2).blk t).view.emb (ix2 p q)) = V c main_v20 ((((cfg6.win 5).blk t).view.emb (ix2 p q)))
    refine congrArg (V c main_v20) (funext fun a => Fin.ext ?_)
    match a with
    | ⟨0, _⟩ => show win6_2.index t (0 : Fin 2) * 10000 + 1 * p.val = win6_5.index t (0 : Fin 2) * 10000 + 1 * p.val; omega
    | ⟨1, _⟩ => show win6_2.index t (1 : Fin 2) * 64 + 1 * q.val = win6_5.index t (1 : Fin 2) * 64 + 1 * q.val; omega
  have h4 : iblk6 V c 4 t (ix1 q) = V c main_arg14 (ix1 ((((cfg6.win 5).blk t).view.emb (ix2 p q)) 1)) := by
    show V c main_arg14 (((cfg6.win 4).blk t).view.emb (ix1 q)) = V c main_arg14 (ix1 ((((cfg6.win 5).blk t).view.emb (ix2 p q)) 1))
    refine congrArg (V c main_arg14) (funext fun a => Fin.ext ?_)
    match a with
    | ⟨0, _⟩ => show win6_4.index t (0 : Fin 1) * 64 + 1 * q.val = win6_5.index t (1 : Fin 2) * 64 + 1 * q.val; omega
  unfold gateI KReg.linI
  refine (congrArg₂ (· + ·) (congrArg₂ (· + ·) h1 h2) (congrArg₂ (· + ·) (Finset.sum_congr rfl fun k _ => congrArg₂ (· * ·) ?_ ?_) h4))
  · show V c main_arg1 (((cfg6.win 0).blk t).view.emb (ix2 p k))
        = V c main_arg1 (ix2 ((((cfg6.win 5).blk t).view.emb (ix2 p q)) 0) k)
    refine congrArg (V c main_arg1) (funext fun a => Fin.ext ?_)
    match a with
    | ⟨0, _⟩ => show win6_0.index t (0 : Fin 2) * 10000 + 1 * p.val = win6_5.index t (0 : Fin 2) * 10000 + 1 * p.val; omega
    | ⟨1, _⟩ => show win6_0.index t (1 : Fin 2) * 64 + 1 * k.val = k.val; omega
  · show V c main_arg13 (((cfg6.win 3).blk t).view.emb (ix2 k q))
        = V c main_arg13 (ix2 k ((((cfg6.win 5).blk t).view.emb (ix2 p q)) 1))
    refine congrArg (V c main_arg13) (funext fun a => Fin.ext ?_)
    match a with
    | ⟨0, _⟩ => show win6_3.index t (0 : Fin 2) * 64 + 1 * k.val = k.val; omega
    | ⟨1, _⟩ => show win6_3.index t (1 : Fin 2) * 64 + 1 * q.val = win6_5.index t (1 : Fin 2) * 64 + 1 * q.val; omega

theorem mem_blk6_5 (t : Fin cfg6.N) (i : S800000x64.Idx) :
    i ∈ ((cfg6.win 5).blk t).view.set ↔ ∀ a : Fin 2, win6_5.index t a * S10000x64.size a ≤ (i a).val ∧ (i a).val < win6_5.index t a * S10000x64.size a + S10000x64.size a := by
  show i ∈ ((View.whole main_v21_0).slice (win6_5.rect t)).set ↔ _
  rw [View.set_slice_whole, Rect.mem_set_unit]
  exact Iff.rfl

theorem idx_onto6_5 : ∀ (q0 : Fin 80), ∃ t : Fin cfg6.N, win6_5.index t = ![q0.val, 0] :=
  (by decide +kernel : ∀ (q0 : Fin 80), ∃ t : Fin grid6.N, win6_5.index t = ![q0.val, 0])

theorem cover6_5 (i : S800000x64.Idx) : ∃ t : Fin cfg6.N, (cfg6.win 5).flush t = true ∧ i ∈ ((cfg6.win 5).blk t).view.set := by
  have hi0 : (i 0).val < 800000 := (i 0).isLt
  have hi1 : (i 1).val < 64 := (i 1).isLt
  obtain ⟨t, ht⟩ := idx_onto6_5 ⟨(i 0).val / 10000, by omega⟩
  have q0 : win6_5.index t (0 : Fin 2) = (i 0).val / 10000 := congrFun ht 0
  have q1 : win6_5.index t (1 : Fin 2) = 0 := congrFun ht 1
  refine ⟨t, flush6_5 t, ?_⟩
  rw [mem_blk6_5]
  intro a
  match a with
  | ⟨0, _⟩ => show win6_5.index t (0 : Fin 2) * 10000 ≤ (i 0).val ∧ (i 0).val < win6_5.index t (0 : Fin 2) * 10000 + 10000; omega
  | ⟨1, _⟩ => show win6_5.index t (1 : Fin 2) * 64 ≤ (i 1).val ∧ (i 1).val < win6_5.index t (1 : Fin 2) * 64 + 64; omega

/-- Region 6's first output: the two gathered rows plus the projected edge feature. -/
theorem final6_5 (c : Dev nD) : (dat6 V c).arrAt 5 cfg6.N = gateI (V c main_arg1) (V c main_v13) (V c main_v20) (V c main_arg13) (V c main_arg14) :=
  (dat6 V c).arrAt_eq_of_cover 5 _ (fun t _ => flushed6_5 V c t) cover6_5

theorem idx_facts6_6 : ∀ t : Fin cfg6.N, win6_0.index t (0 : Fin 2) = win6_6.index t (0 : Fin 2)
    ∧ win6_0.index t (1 : Fin 2) = 0
    ∧ win6_1.index t (0 : Fin 2) = win6_6.index t (0 : Fin 2)
    ∧ win6_1.index t (1 : Fin 2) = 0
    ∧ win6_2.index t (0 : Fin 2) = win6_6.index t (0 : Fin 2)
    ∧ win6_2.index t (1 : Fin 2) = 0
    ∧ win6_3.index t (0 : Fin 2) = 0
    ∧ win6_3.index t (1 : Fin 2) = 0
    ∧ win6_4.index t (0 : Fin 1) = 0
    ∧ win6_6.index t (1 : Fin 2) = 0
    ∧ win6_6.index t (0 : Fin 2) ≤ 79 :=
  (by decide +kernel : ∀ t : Fin grid6.N, _)

set_option maxHeartbeats 4000000 in
/-- What point t writes back through window 6 is block t of the region's function of its input arrays. -/
theorem flushed6_6 (c : Dev nD) (t : Fin cfg6.N) :
    (dat6 V c).flushed 6 t = ((cfg6.win 6).blk t).view.read (Elt Ideal) (gateSigI (V c main_arg1) (V c main_v13) (V c main_v20) (V c main_arg13) (V c main_arg14)) := by
  show (cfg6.win 6).cut (grid6.coords t) ((dat6 V c).after 6 t) = _
  rw [after6_6]
  unfold out6_6
  rw [View.canon_unit_zero hz2]
  simp only [View.ld_unit_zero (S := S10000x64) hz2, View.ld_unit_zero (S := S64x64) hz2, View.ld_unit_zero (S := S64) hz1]
  funext j
  obtain ⟨p, q, rfl⟩ : ∃ (p : Fin 10000) (q : Fin 64), j = ix2 p q := ⟨j 0, j 1, eq_ix2 j⟩
  show k6_pay2 (iblk6 V c 0 t) (iblk6 V c 3 t) (iblk6 V c 4 t) (iblk6 V c 1 t) (iblk6 V c 2 t) (ix2 p q)
      = gateSigI (V c main_arg1) (V c main_v13) (V c main_v20) (V c main_arg13) (V c main_arg14) (((cfg6.win 6).blk t).view.emb (ix2 p q))
  refine (gate2full_apply _ _ _ _ _ p q).trans ?_
  obtain ⟨e0, e1, e2, e3, e4, e5, e6, e7, e8, e9, e10⟩ := idx_facts6_6 t
  have h0 : iblk6 V c 0 t (ix2 p q) = V c main_arg1 ((((cfg6.win 6).blk t).view.emb (ix2 p q))) := by
    show V c main_arg1 (((cfg6.win 0).blk t).view.emb (ix2 p q)) = V c main_arg1 ((((cfg6.win 6).blk t).view.emb (ix2 p q)))
    refine congrArg (V c main_arg1) (funext fun a => Fin.ext ?_)
    match a with
    | ⟨0, _⟩ => show win6_0.index t (0 : Fin 2) * 10000 + 1 * p.val = win6_6.index t (0 : Fin 2) * 10000 + 1 * p.val; omega
    | ⟨1, _⟩ => show win6_0.index t (1 : Fin 2) * 64 + 1 * q.val = win6_6.index t (1 : Fin 2) * 64 + 1 * q.val; omega
  have h1 : iblk6 V c 1 t (ix2 p q) = V c main_v13 ((((cfg6.win 6).blk t).view.emb (ix2 p q))) := by
    show V c main_v13 (((cfg6.win 1).blk t).view.emb (ix2 p q)) = V c main_v13 ((((cfg6.win 6).blk t).view.emb (ix2 p q)))
    refine congrArg (V c main_v13) (funext fun a => Fin.ext ?_)
    match a with
    | ⟨0, _⟩ => show win6_1.index t (0 : Fin 2) * 10000 + 1 * p.val = win6_6.index t (0 : Fin 2) * 10000 + 1 * p.val; omega
    | ⟨1, _⟩ => show win6_1.index t (1 : Fin 2) * 64 + 1 * q.val = win6_6.index t (1 : Fin 2) * 64 + 1 * q.val; omega
  have h2 : iblk6 V c 2 t (ix2 p q) = V c main_v20 ((((cfg6.win 6).blk t).view.emb (ix2 p q))) := by
    show V c main_v20 (((cfg6.win 2).blk t).view.emb (ix2 p q)) = V c main_v20 ((((cfg6.win 6).blk t).view.emb (ix2 p q)))
    refine congrArg (V c main_v20) (funext fun a => Fin.ext ?_)
    match a with
    | ⟨0, _⟩ => show win6_2.index t (0 : Fin 2) * 10000 + 1 * p.val = win6_6.index t (0 : Fin 2) * 10000 + 1 * p.val; omega
    | ⟨1, _⟩ => show win6_2.index t (1 : Fin 2) * 64 + 1 * q.val = win6_6.index t (1 : Fin 2) * 64 + 1 * q.val; omega
  have h4 : iblk6 V c 4 t (ix1 q) = V c main_arg14 (ix1 ((((cfg6.win 6).blk t).view.emb (ix2 p q)) 1)) := by
    show V c main_arg14 (((cfg6.win 4).blk t).view.emb (ix1 q)) = V c main_arg14 (ix1 ((((cfg6.win 6).blk t).view.emb (ix2 p q)) 1))
    refine congrArg (V c main_arg14) (funext fun a => Fin.ext ?_)
    match a with
    | ⟨0, _⟩ => show win6_4.index t (0 : Fin 1) * 64 + 1 * q.val = win6_6.index t (1 : Fin 2) * 64 + 1 * q.val; omega
  unfold gateSigI gateI KReg.linI
  refine congrArg Ideal.logistic (congrArg₂ (· + ·) (congrArg₂ (· + ·) h1 h2) (congrArg₂ (· + ·) (Finset.sum_congr rfl fun k _ => congrArg₂ (· * ·) ?_ ?_) h4))
  · show V c main_arg1 (((cfg6.win 0).blk t).view.emb (ix2 p k))
        = V c main_arg1 (ix2 ((((cfg6.win 6).blk t).view.emb (ix2 p q)) 0) k)
    refine congrArg (V c main_arg1) (funext fun a => Fin.ext ?_)
    match a with
    | ⟨0, _⟩ => show win6_0.index t (0 : Fin 2) * 10000 + 1 * p.val = win6_6.index t (0 : Fin 2) * 10000 + 1 * p.val; omega
    | ⟨1, _⟩ => show win6_0.index t (1 : Fin 2) * 64 + 1 * k.val = k.val; omega
  · show V c main_arg13 (((cfg6.win 3).blk t).view.emb (ix2 k q))
        = V c main_arg13 (ix2 k ((((cfg6.win 6).blk t).view.emb (ix2 p q)) 1))
    refine congrArg (V c main_arg13) (funext fun a => Fin.ext ?_)
    match a with
    | ⟨0, _⟩ => show win6_3.index t (0 : Fin 2) * 64 + 1 * k.val = k.val; omega
    | ⟨1, _⟩ => show win6_3.index t (1 : Fin 2) * 64 + 1 * q.val = win6_6.index t (1 : Fin 2) * 64 + 1 * q.val; omega

theorem mem_blk6_6 (t : Fin cfg6.N) (i : S800000x64.Idx) :
    i ∈ ((cfg6.win 6).blk t).view.set ↔ ∀ a : Fin 2, win6_6.index t a * S10000x64.size a ≤ (i a).val ∧ (i a).val < win6_6.index t a * S10000x64.size a + S10000x64.size a := by
  show i ∈ ((View.whole main_v21_1).slice (win6_6.rect t)).set ↔ _
  rw [View.set_slice_whole, Rect.mem_set_unit]
  exact Iff.rfl

theorem idx_onto6_6 : ∀ (q0 : Fin 80), ∃ t : Fin cfg6.N, win6_6.index t = ![q0.val, 0] :=
  (by decide +kernel : ∀ (q0 : Fin 80), ∃ t : Fin grid6.N, win6_6.index t = ![q0.val, 0])

theorem cover6_6 (i : S800000x64.Idx) : ∃ t : Fin cfg6.N, (cfg6.win 6).flush t = true ∧ i ∈ ((cfg6.win 6).blk t).view.set := by
  have hi0 : (i 0).val < 800000 := (i 0).isLt
  have hi1 : (i 1).val < 64 := (i 1).isLt
  obtain ⟨t, ht⟩ := idx_onto6_6 ⟨(i 0).val / 10000, by omega⟩
  have q0 : win6_6.index t (0 : Fin 2) = (i 0).val / 10000 := congrFun ht 0
  have q1 : win6_6.index t (1 : Fin 2) = 0 := congrFun ht 1
  refine ⟨t, flush6_6 t, ?_⟩
  rw [mem_blk6_6]
  intro a
  match a with
  | ⟨0, _⟩ => show win6_6.index t (0 : Fin 2) * 10000 ≤ (i 0).val ∧ (i 0).val < win6_6.index t (0 : Fin 2) * 10000 + 10000; omega
  | ⟨1, _⟩ => show win6_6.index t (1 : Fin 2) * 64 ≤ (i 1).val ∧ (i 1).val < win6_6.index t (1 : Fin 2) * 64 + 64; omega

/-- Region 6's second output: the logistic of the first. -/
theorem final6_6 (c : Dev nD) : (dat6 V c).arrAt 6 cfg6.N = gateSigI (V c main_arg1) (V c main_v13) (V c main_v20) (V c main_arg13) (V c main_arg14) :=
  (dat6 V c).arrAt_eq_of_cover 6 _ (fun t _ => flushed6_6 V c t) cover6_6

/-! ## Regions 9 and 11: the normalization cut at zero -/

theorem idx_facts9_5 : ∀ t : Fin cfg9.N, win9_0.index t (0 : Fin 2) = win9_5.index t (0 : Fin 2)
    ∧ win9_0.index t (1 : Fin 2) = 0
    ∧ win9_1.index t (0 : Fin 2) = 0
    ∧ win9_1.index t (1 : Fin 2) = 0
    ∧ win9_2.index t (0 : Fin 2) = 0
    ∧ win9_2.index t (1 : Fin 2) = 0
    ∧ win9_3.index t (0 : Fin 1) = 0
    ∧ win9_4.index t (0 : Fin 1) = 0
    ∧ win9_5.index t (1 : Fin 2) = 0
    ∧ win9_5.index t (0 : Fin 2) ≤ 4 :=
  (by decide +kernel : ∀ t : Fin grid9.N, _)

set_option maxHeartbeats 4000000 in
/-- What point t writes back through window 5 is block t of the region's function of its input arrays. -/
theorem flushed9_5 (c : Dev nD) (t : Fin cfg9.N) :
    (dat9 V c).flushed 5 t = ((cfg9.win 5).blk t).view.read (Elt Ideal) (normI (V c main_v53) (V c main_v57) (V c main_v61) (V c main_arg19) (V c main_arg20)) := by
  show (cfg9.win 5).cut (grid9.coords t) ((dat9 V c).after 5 t) = _
  rw [after9_5]
  unfold out9_5
  rw [View.canon_unit_zero hz2]
  simp only [View.ld_unit_zero (S := S10000x64) hz2, View.ld_unit_zero (S := S1x64) hz2, View.ld_unit_zero (S := S64) hz1]
  funext j
  obtain ⟨p, q, rfl⟩ : ∃ (p : Fin 10000) (q : Fin 64), j = ix2 p q := ⟨j 0, j 1, eq_ix2 j⟩
  show k9_pay1 (iblk9 V c 0 t) (iblk9 V c 3 t) (iblk9 V c 1 t) (iblk9 V c 2 t) (iblk9 V c 4 t) (ix2 p q)
      = normI (V c main_v53) (V c main_v57) (V c main_v61) (V c main_arg19) (V c main_arg20) (((cfg9.win 5).blk t).view.emb (ix2 p q))
  refine (norm_apply _ _ _ _ _ p q).trans ?_
  obtain ⟨e0, e1, e2, e3, e4, e5, e6, e7, e8, e9⟩ := idx_facts9_5 t
  have h0 : iblk9 V c 0 t (ix2 p q) = V c main_v53 ((((cfg9.win 5).blk t).view.emb (ix2 p q))) := by
    show V c main_v53 (((cfg9.win 0).blk t).view.emb (ix2 p q)) = V c main_v53 ((((cfg9.win 5).blk t).view.emb (ix2 p q)))
    refine congrArg (V c main_v53) (funext fun a => Fin.ext ?_)
    match a with
    | ⟨0, _⟩ => show win9_0.index t (0 : Fin 2) * 10000 + 1 * p.val = win9_5.index t (0 : Fin 2) * 10000 + 1 * p.val; omega
    | ⟨1, _⟩ => show win9_0.index t (1 : Fin 2) * 64 + 1 * q.val = win9_5.index t (1 : Fin 2) * 64 + 1 * q.val; omega
  have h1 : iblk9 V c 1 t (ix2 (0 : Fin 1) q) = V c main_v57 (ix2 (0 : Fin 1) ((((cfg9.win 5).blk t).view.emb (ix2 p q)) 1)) := by
    show V c main_v57 (((cfg9.win 1).blk t).view.emb (ix2 (0 : Fin 1) q)) = V c main_v57 (ix2 (0 : Fin 1) ((((cfg9.win 5).blk t).view.emb (ix2 p q)) 1))
    refine congrArg (V c main_v57) (funext fun a => Fin.ext ?_)
    match a with
    | ⟨0, _⟩ => show win9_1.index t (0 : Fin 2) * 1 + 1 * 0 = 0; omega
    | ⟨1, _⟩ => show win9_1.index t (1 : Fin 2) * 64 + 1 * q.val = win9_5.index t (1 : Fin 2) * 64 + 1 * q.val; omega
  have h2 : iblk9 V c 2 t (ix2 (0 : Fin 1) q) = V c main_v61 (ix2 (0 : Fin 1) ((((cfg9.win 5).blk t).view.emb (ix2 p q)) 1)) := by
    show V c main_v61 (((cfg9.win 2).blk t).view.emb (ix2 (0 : Fin 1) q)) = V c main_v61 (ix2 (0 : Fin 1) ((((cfg9.win 5).blk t).view.emb (ix2 p q)) 1))
    refine congrArg (V c main_v61) (funext fun a => Fin.ext ?_)
    match a with
    | ⟨0, _⟩ => show win9_2.index t (0 : Fin 2) * 1 + 1 * 0 = 0; omega
    | ⟨1, _⟩ => show win9_2.index t (1 : Fin 2) * 64 + 1 * q.val = win9_5.index t (1 : Fin 2) * 64 + 1 * q.val; omega
  have h3 : iblk9 V c 3 t (ix1 q) = V c main_arg19 (ix1 ((((cfg9.win 5).blk t).view.emb (ix2 p q)) 1)) := by
    show V c main_arg19 (((cfg9.win 3).blk t).view.emb (ix1 q)) = V c main_arg19 (ix1 ((((cfg9.win 5).blk t).view.emb (ix2 p q)) 1))
    refine congrArg (V c main_arg19) (funext fun a => Fin.ext ?_)
    match a with
    | ⟨0, _⟩ => show win9_3.index t (0 : Fin 1) * 64 + 1 * q.val = win9_5.index t (1 : Fin 2) * 64 + 1 * q.val; omega
  have h4 : iblk9 V c 4 t (ix1 q) = V c main_arg20 (ix1 ((((cfg9.win 5).blk t).view.emb (ix2 p q)) 1)) := by
    show V c main_arg20 (((cfg9.win 4).blk t).view.emb (ix1 q)) = V c main_arg20 (ix1 ((((cfg9.win 5).blk t).view.emb (ix2 p q)) 1))
    refine congrArg (V c main_arg20) (funext fun a => Fin.ext ?_)
    match a with
    | ⟨0, _⟩ => show win9_4.index t (0 : Fin 1) * 64 + 1 * q.val = win9_5.index t (1 : Fin 2) * 64 + 1 * q.val; omega
  rw [h0, h1, h2, h3, h4]
  rfl

theorem mem_blk9_5 (t : Fin cfg9.N) (i : S50000x64.Idx) :
    i ∈ ((cfg9.win 5).blk t).view.set ↔ ∀ a : Fin 2, win9_5.index t a * S10000x64.size a ≤ (i a).val ∧ (i a).val < win9_5.index t a * S10000x64.size a + S10000x64.size a := by
  show i ∈ ((View.whole main_v62).slice (win9_5.rect t)).set ↔ _
  rw [View.set_slice_whole, Rect.mem_set_unit]
  exact Iff.rfl

theorem idx_onto9_5 : ∀ (q0 : Fin 5), ∃ t : Fin cfg9.N, win9_5.index t = ![q0.val, 0] :=
  (by decide +kernel : ∀ (q0 : Fin 5), ∃ t : Fin grid9.N, win9_5.index t = ![q0.val, 0])

theorem cover9_5 (i : S50000x64.Idx) : ∃ t : Fin cfg9.N, (cfg9.win 5).flush t = true ∧ i ∈ ((cfg9.win 5).blk t).view.set := by
  have hi0 : (i 0).val < 50000 := (i 0).isLt
  have hi1 : (i 1).val < 64 := (i 1).isLt
  obtain ⟨t, ht⟩ := idx_onto9_5 ⟨(i 0).val / 10000, by omega⟩
  have q0 : win9_5.index t (0 : Fin 2) = (i 0).val / 10000 := congrFun ht 0
  have q1 : win9_5.index t (1 : Fin 2) = 0 := congrFun ht 1
  refine ⟨t, flush9_5 t, ?_⟩
  rw [mem_blk9_5]
  intro a
  match a with
  | ⟨0, _⟩ => show win9_5.index t (0 : Fin 2) * 10000 ≤ (i 0).val ∧ (i 0).val < win9_5.index t (0 : Fin 2) * 10000 + 10000; omega
  | ⟨1, _⟩ => show win9_5.index t (1 : Fin 2) * 64 ≤ (i 1).val ∧ (i 1).val < win9_5.index t (1 : Fin 2) * 64 + 64; omega

/-- Region 9's output: scale·(x − mean)·rsqrt(var + 1e-5) + shift, cut at zero, the mean and variance read off their one row. -/
theorem final9_5 (c : Dev nD) : (dat9 V c).arrAt 5 cfg9.N = normI (V c main_v53) (V c main_v57) (V c main_v61) (V c main_arg19) (V c main_arg20) :=
  (dat9 V c).arrAt_eq_of_cover 5 _ (fun t _ => flushed9_5 V c t) cover9_5

theorem idx_facts11_5 : ∀ t : Fin cfg11.N, win11_0.index t (0 : Fin 2) = win11_5.index t (0 : Fin 2)
    ∧ win11_0.index t (1 : Fin 2) = 0
    ∧ win11_1.index t (0 : Fin 2) = 0
    ∧ win11_1.index t (1 : Fin 2) = 0
    ∧ win11_2.index t (0 : Fin 2) = 0
    ∧ win11_2.index t (1 : Fin 2) = 0
    ∧ win11_3.index t (0 : Fin 1) = 0
    ∧ win11_4.index t (0 : Fin 1) = 0
    ∧ win11_5.index t (1 : Fin 2) = 0
    ∧ win11_5.index t (0 : Fin 2) ≤ 79 :=
  (by decide +kernel : ∀ t : Fin grid11.N, _)

set_option maxHeartbeats 4000000 in
/-- What point t writes back through window 5 is block t of the region's function of its input arrays. -/
theorem flushed11_5 (c : Dev nD) (t : Fin cfg11.N) :
    (dat11 V c).flushed 5 t = ((cfg11.win 5).blk t).view.read (Elt Ideal) (normI (V c main_v21_0) (V c main_v65) (V c main_v69) (V c main_arg21) (V c main_arg22)) := by
  show (cfg11.win 5).cut (grid11.coords t) ((dat11 V c).after 5 t) = _
  rw [after11_5]
  unfold out11_5
  rw [View.canon_unit_zero hz2]
  simp only [View.ld_unit_zero (S := S10000x64) hz2, View.ld_unit_zero (S := S1x64) hz2, View.ld_unit_zero (S := S64) hz1]
  funext j
  obtain ⟨p, q, rfl⟩ : ∃ (p : Fin 10000) (q : Fin 64), j = ix2 p q := ⟨j 0, j 1, eq_ix2 j⟩
  show k11_pay1 (iblk11 V c 0 t) (iblk11 V c 3 t) (iblk11 V c 1 t) (iblk11 V c 2 t) (iblk11 V c 4 t) (ix2 p q)
      = normI (V c main_v21_0) (V c main_v65) (V c main_v69) (V c main_arg21) (V c main_arg22) (((cfg11.win 5).blk t).view.emb (ix2 p q))
  refine (norm11_apply _ _ _ _ _ p q).trans ?_
  obtain ⟨e0, e1, e2, e3, e4, e5, e6, e7, e8, e9⟩ := idx_facts11_5 t
  have h0 : iblk11 V c 0 t (ix2 p q) = V c main_v21_0 ((((cfg11.win 5).blk t).view.emb (ix2 p q))) := by
    show V c main_v21_0 (((cfg11.win 0).blk t).view.emb (ix2 p q)) = V c main_v21_0 ((((cfg11.win 5).blk t).view.emb (ix2 p q)))
    refine congrArg (V c main_v21_0) (funext fun a => Fin.ext ?_)
    match a with
    | ⟨0, _⟩ => show win11_0.index t (0 : Fin 2) * 10000 + 1 * p.val = win11_5.index t (0 : Fin 2) * 10000 + 1 * p.val; omega
    | ⟨1, _⟩ => show win11_0.index t (1 : Fin 2) * 64 + 1 * q.val = win11_5.index t (1 : Fin 2) * 64 + 1 * q.val; omega
  have h1 : iblk11 V c 1 t (ix2 (0 : Fin 1) q) = V c main_v65 (ix2 (0 : Fin 1) ((((cfg11.win 5).blk t).view.emb (ix2 p q)) 1)) := by
    show V c main_v65 (((cfg11.win 1).blk t).view.emb (ix2 (0 : Fin 1) q)) = V c main_v65 (ix2 (0 : Fin 1) ((((cfg11.win 5).blk t).view.emb (ix2 p q)) 1))
    refine congrArg (V c main_v65) (funext fun a => Fin.ext ?_)
    match a with
    | ⟨0, _⟩ => show win11_1.index t (0 : Fin 2) * 1 + 1 * 0 = 0; omega
    | ⟨1, _⟩ => show win11_1.index t (1 : Fin 2) * 64 + 1 * q.val = win11_5.index t (1 : Fin 2) * 64 + 1 * q.val; omega
  have h2 : iblk11 V c 2 t (ix2 (0 : Fin 1) q) = V c main_v69 (ix2 (0 : Fin 1) ((((cfg11.win 5).blk t).view.emb (ix2 p q)) 1)) := by
    show V c main_v69 (((cfg11.win 2).blk t).view.emb (ix2 (0 : Fin 1) q)) = V c main_v69 (ix2 (0 : Fin 1) ((((cfg11.win 5).blk t).view.emb (ix2 p q)) 1))
    refine congrArg (V c main_v69) (funext fun a => Fin.ext ?_)
    match a with
    | ⟨0, _⟩ => show win11_2.index t (0 : Fin 2) * 1 + 1 * 0 = 0; omega
    | ⟨1, _⟩ => show win11_2.index t (1 : Fin 2) * 64 + 1 * q.val = win11_5.index t (1 : Fin 2) * 64 + 1 * q.val; omega
  have h3 : iblk11 V c 3 t (ix1 q) = V c main_arg21 (ix1 ((((cfg11.win 5).blk t).view.emb (ix2 p q)) 1)) := by
    show V c main_arg21 (((cfg11.win 3).blk t).view.emb (ix1 q)) = V c main_arg21 (ix1 ((((cfg11.win 5).blk t).view.emb (ix2 p q)) 1))
    refine congrArg (V c main_arg21) (funext fun a => Fin.ext ?_)
    match a with
    | ⟨0, _⟩ => show win11_3.index t (0 : Fin 1) * 64 + 1 * q.val = win11_5.index t (1 : Fin 2) * 64 + 1 * q.val; omega
  have h4 : iblk11 V c 4 t (ix1 q) = V c main_arg22 (ix1 ((((cfg11.win 5).blk t).view.emb (ix2 p q)) 1)) := by
    show V c main_arg22 (((cfg11.win 4).blk t).view.emb (ix1 q)) = V c main_arg22 (ix1 ((((cfg11.win 5).blk t).view.emb (ix2 p q)) 1))
    refine congrArg (V c main_arg22) (funext fun a => Fin.ext ?_)
    match a with
    | ⟨0, _⟩ => show win11_4.index t (0 : Fin 1) * 64 + 1 * q.val = win11_5.index t (1 : Fin 2) * 64 + 1 * q.val; omega
  rw [h0, h1, h2, h3, h4]
  rfl

theorem mem_blk11_5 (t : Fin cfg11.N) (i : S800000x64.Idx) :
    i ∈ ((cfg11.win 5).blk t).view.set ↔ ∀ a : Fin 2, win11_5.index t a * S10000x64.size a ≤ (i a).val ∧ (i a).val < win11_5.index t a * S10000x64.size a + S10000x64.size a := by
  show i ∈ ((View.whole main_v70).slice (win11_5.rect t)).set ↔ _
  rw [View.set_slice_whole, Rect.mem_set_unit]
  exact Iff.rfl

theorem idx_onto11_5 : ∀ (q0 : Fin 80), ∃ t : Fin cfg11.N, win11_5.index t = ![q0.val, 0] :=
  (by decide +kernel : ∀ (q0 : Fin 80), ∃ t : Fin grid11.N, win11_5.index t = ![q0.val, 0])

theorem cover11_5 (i : S800000x64.Idx) : ∃ t : Fin cfg11.N, (cfg11.win 5).flush t = true ∧ i ∈ ((cfg11.win 5).blk t).view.set := by
  have hi0 : (i 0).val < 800000 := (i 0).isLt
  have hi1 : (i 1).val < 64 := (i 1).isLt
  obtain ⟨t, ht⟩ := idx_onto11_5 ⟨(i 0).val / 10000, by omega⟩
  have q0 : win11_5.index t (0 : Fin 2) = (i 0).val / 10000 := congrFun ht 0
  have q1 : win11_5.index t (1 : Fin 2) = 0 := congrFun ht 1
  refine ⟨t, flush11_5 t, ?_⟩
  rw [mem_blk11_5]
  intro a
  match a with
  | ⟨0, _⟩ => show win11_5.index t (0 : Fin 2) * 10000 ≤ (i 0).val ∧ (i 0).val < win11_5.index t (0 : Fin 2) * 10000 + 10000; omega
  | ⟨1, _⟩ => show win11_5.index t (1 : Fin 2) * 64 ≤ (i 1).val ∧ (i 1).val < win11_5.index t (1 : Fin 2) * 64 + 64; omega

/-- Region 11's output: the same normalization of the edge gates. -/
theorem final11_5 (c : Dev nD) : (dat11 V c).arrAt 5 cfg11.N = normI (V c main_v21_0) (V c main_v65) (V c main_v69) (V c main_arg21) (V c main_arg22) :=
  (dat11 V c).arrAt_eq_of_cover 5 _ (fun t _ => flushed11_5 V c t) cover11_5

end Cert.KernelIdeal.KElem

end
-- ==== Proof.LibVarLaw.lean ====
/-
  The variance law over the extended reals.

  For finitely many REAL numbers x_i and n their count, the mean of the squared deviations from the mean,
  (∑ (x_i − (∑ x)/n)²)/n, is the mean of the squares minus the square of the mean, (∑ x_i²)/n − ((∑ x)/n)². Over the extended
  reals, with the ideal quotient, the same holds when every entry is a real number and the divisor is a real that is not
  zero (at an infinite entry the two sides differ: one is +∞, the other −∞). This is the step between a batch
  normalization that takes its variance textbook-wise and one that accumulates sums and sums of squares.
-/
import Idealize.ShloMosaic.PureOps.Ideal

noncomputable section

namespace Cert.Lib.VarLaw

open Idealize.ShloMosaic
open scoped BigOperators

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- In the reals: with `n` the number of terms, the mean of the squared deviations from the mean is the mean of the
    squares minus the square of the mean. -/
theorem var_real {ι : Type*} [Fintype ι] (f : ι → ℝ) (n : ℝ) (hn : n ≠ 0) (hcard : (Fintype.card ι : ℝ) = n) :
    (∑ i, (f i - (∑ k, f k) * (1 / n)) * (f i - (∑ k, f k) * (1 / n))) * (1 / n)
      = (∑ i, f i * f i) * (1 / n) - (∑ i, f i) * (1 / n) * ((∑ i, f i) * (1 / n)) := by
  have key : ∀ m : ℝ, ∑ i, (f i - m) * (f i - m)
      = (∑ i, f i * f i) - 2 * m * (∑ i, f i) + (Fintype.card ι : ℝ) * (m * m) := by
    intro m
    have e : ∀ i, (f i - m) * (f i - m) = f i * f i - 2 * m * f i + m * m := fun i => by ring
    simp only [e, Finset.sum_add_distrib, Finset.sum_sub_distrib, ← Finset.mul_sum, Finset.sum_const, Finset.card_univ,
      nsmul_eq_mul]
    ring
  rw [key, hcard]
  field_simp
  ring

/-- The same over the extended reals, for real entries and a real divisor that is not zero, with the ideal quotient. -/
theorem var_law {ι : Type*} [Fintype ι] (x : ι → EReal) (hx : ∀ i, ∃ r : ℝ, x i = (r : EReal)) (n : ℝ) (hn : n ≠ 0)
    (hcard : (Fintype.card ι : ℝ) = n) :
    Ideal.div (∑ i, (x i - Ideal.div (∑ k, x k) (n : EReal)) * (x i - Ideal.div (∑ k, x k) (n : EReal))) (n : EReal)
      = Ideal.div (∑ i, x i * x i) (n : EReal) - Ideal.div (∑ i, x i) (n : EReal) * Ideal.div (∑ i, x i) (n : EReal) := by
  choose f hf using hx
  obtain rfl : x = fun i => (f i : EReal) := funext hf
  simp only [Ideal.div_coe hn, ← coe_sum, ← EReal.coe_mul, ← EReal.coe_sub]
  exact congrArg _ (var_real f n hn hcard)

end Cert.Lib.VarLaw

end
-- ==== Proof.RefVar.lean ====
/-
  The reference's two batch normalizations, their mean and variance arrays read column by column: the mean of a column is
  its sum divided by the row count, and the variance, which the reference takes as the mean of the squared deviations
  from the mean, is the mean of the squares minus the square of the mean whenever every entry is a real number.
-/
import proofs.«146130_j46961172414535_2_alg».proof.Proof.RefSpec
import proofs.«146130_j46961172414535_2_alg».proof.Proof.LibVarLaw
import Idealize.ShloMosaic.Lib.IdealHost
import Idealize.ShloMosaic.Lib.Pipeline.Value
import Idealize.ShloMosaic.Lib.ValueIdx

noncomputable section

namespace Cert.ReferenceIdeal.RefVar

open Cert.ReferenceIdeal Cert.ReferenceIdeal.Gen Cert.ReferenceIdeal.RefSpec
open Idealize.ShloMosaic Idealize.ShloMosaic.TcCoe Idealize.ShloMosaic.ValueIdx
open scoped BigOperators
open Cert.Lib.VarLaw

/-! ## The two row counts' float literals -/

/-- The pattern `0x47435000` denotes the real 50000. -/
theorem ofBits_50000 : Ideal.ofBits .f32 0x47435000#32 = ((50000 : ℝ) : EReal) := by
  simp [Ideal.ofBits, Ideal.ieee, -EReal.coe_mul]; norm_num

/-- The pattern `0x49435000` denotes the real 800000. -/
theorem ofBits_800000 : Ideal.ofBits .f32 0x49435000#32 = ((800000 : ℝ) : EReal) := by
  simp [Ideal.ofBits, Ideal.ieee, -EReal.coe_mul]; norm_num

/-! ## The host operations of a column normalization read at an index, over any extents -/

section Reading
variable {N C : ℕ}

/-- A column reduction of an `[N, C]` array reads, at column `j`, the initial value plus the sum down that column. -/
theorem colsum_apply (x : (⟨2, ![N, C]⟩ : Shape).Idx → EReal) (h' : (⟨2, ![N, C]⟩ : Shape).ReducesTo [0] ⟨1, ![C]⟩)
    (init : EReal) (j : (⟨1, ![C]⟩ : Shape).Idx) :
    Ideal.hostReduceAdd h' x init j = init + ∑ r : Fin N, x (ix2 r (j 0)) := by
  have h : (⟨2, ![N, C]⟩ : Shape).Reduces [0] ⟨1, ![C]⟩ := ⟨h'.1, Nat.one_pos, h'.2⟩
  rw [Ideal.hostReduceAdd_single h' h]
  refine congrArg (init + ·) (Finset.sum_congr rfl fun r _ => congrArg x ?_)
  funext a
  apply Fin.ext
  match a with
  | ⟨0, _⟩ => rfl
  | ⟨1, _⟩ => rfl

/-- A `[C]` array placed as the one row of a `[1, C]` array reads, at `(0, c)`, the operand at `c`. -/
theorem row_apply {α : Type} (v : (⟨1, ![C]⟩ : Shape).Idx → α)
    (h : (⟨1, ![C]⟩ : Shape).BroadcastsInDim ⟨2, ![1, C]⟩ ![1]) (z : Fin 1) (c : Fin C) :
    broadcastInDim ⟨2, ![1, C]⟩ ![1] h v (ix2 z c) = v (ix1 c) := by
  refine broadcastInDim_apply ![1] h v (ix2 z c) (ix1 c) fun ax => ?_
  match ax with
  | ⟨0, _⟩ =>
    show c.val = if C = 1 then 0 else c.val
    split
    · have := c.isLt; omega
    · rfl

/-- A `[1, C]` array repeated down `N` rows reads, at `(r, c)`, the operand at `(0, c)`. -/
theorem rows_apply {α : Type} (v : (⟨2, ![1, C]⟩ : Shape).Idx → α)
    (h : (⟨2, ![1, C]⟩ : Shape).BroadcastsInDim ⟨2, ![N, C]⟩ ![0, 1]) (r : Fin N) (c : Fin C) :
    broadcastInDim ⟨2, ![N, C]⟩ ![0, 1] h v (ix2 r c) = v (ix2 (0 : Fin 1) c) := by
  refine broadcastInDim_apply ![0, 1] h v (ix2 r c) (ix2 (0 : Fin 1) c) fun ax => ?_
  match ax with
  | ⟨0, _⟩ => rfl
  | ⟨1, _⟩ =>
    show c.val = if C = 1 then 0 else c.val
    split
    · have := c.isLt; omega
    · rfl

end Reading

/-! ## The first normalization: of the `[50000, 64]` array `r_main_v75` -/

/-- The row count less the correction (an integer zero, converted) is the real 50000. -/
theorem denom1 (A : Args Ideal) : r_main_call0_v8 A ix0 = ((50000 : ℝ) : EReal) := by
  unfold r_main_call0_v8
  refine (subf_apply _ _ ix0).trans ?_
  unfold r_main_call0_cst_1 r_main_call0_v7 r_main_c_16
  show Ideal.ofBits .f32 0x47435000#32 - (((0#32 : BitVec 32).toInt : ℝ) : EReal) = _
  rw [ofBits_50000]
  simp

/-- The guard of the variance's quotient, "the row count less the correction is positive", holds. -/
theorem guard1 (A : Args Ideal) : r_main_call0_v12 A ix0 = 1#1 := by
  unfold r_main_call0_v12
  refine (cmpf_apply _ _ _ ix0).trans ?_
  unfold r_main_call0_cst_3
  show Ideal.cmp .ogt (r_main_call0_v8 A ix0) (Ideal.ofBits .f32 0x00000000#32) = 1#1
  rw [denom1, Ideal.ofBits_zero_f32]
  have h : (0 : EReal) < ((50000 : ℝ) : EReal) := EReal.coe_pos.mpr (by norm_num)
  show BitVec.ofBool (decide ((0 : EReal) < ((50000 : ℝ) : EReal))) = 1#1
  rw [decide_eq_true h]
  rfl

/-- The mean of each column: the column's sum divided by the row count. -/
theorem mean1_eq (A : Args Ideal) :
    r_main_v90 A = fun j : S64.Idx =>
      Ideal.div (∑ r : Fin 50000, r_main_v75 A (ix2 r (j 0))) (Ideal.ofBits .f32 0x47435000#32) := by
  funext j
  show r_main_v90 A j = Ideal.div (∑ r : Fin 50000, r_main_v75 A (ix2 r (j 0))) (Ideal.ofBits .f32 0x47435000#32)
  unfold r_main_v90
  refine (hostDivf_apply _ _ j).trans (congrArg₂ Ideal.div ?_ ?_)
  · unfold r_main_v88
    refine (hostReduceAdd_apply _ _ _ _ j).trans ?_
    refine (colsum_apply _ _ _ j).trans ?_
    unfold r_main_cst_14
    rw [constant_apply, Ideal.ofBits_zero_f32, zero_add]
  · unfold r_main_v89
    refine (broadcastInDim_scalar_apply _ _ j).trans ?_
    rfl

/-- The deviation of an entry from its column's mean, as the reference's variance routine forms it. -/
theorem dev1 (A : Args Ideal) (r : Fin 50000) (c : Fin 64) :
    r_main_call0_v5 A (ix2 r c)
      = r_main_v75 A (ix2 r c) - Ideal.div (∑ k : Fin 50000, r_main_v75 A (ix2 k c)) ((50000 : ℝ) : EReal) := by
  unfold r_main_call0_v5
  refine (subf_apply _ _ _).trans (congrArg (r_main_v75 A (ix2 r c) - ·) ?_)
  unfold r_main_call0_v4
  refine (rows_apply _ _ r c).trans ?_
  unfold r_main_call0_v3
  refine (hostDivf_apply _ _ _).trans (congrArg₂ Ideal.div ?_ ?_)
  · unfold r_main_call0_v1
    refine (row_apply _ _ 0 c).trans ?_
    unfold r_main_call0_v0
    refine (hostReduceAdd_apply _ _ _ _ _).trans ?_
    refine (colsum_apply _ _ _ _).trans ?_
    unfold r_main_call0_cst
    rw [constant_apply, Ideal.ofBits_zero_f32, zero_add]
  · unfold r_main_call0_v2
    refine (broadcastInDim_scalar_apply _ _ _).trans ?_
    unfold r_main_call0_cst_0
    exact (constant_apply _ _).trans ofBits_50000

/-- The variance of each column, which the reference takes as the mean of the squared deviations, is the mean of the
    squares minus the square of the mean, the entries being real numbers. -/
theorem var1_eq (A : Args Ideal) (hX : ∀ i, ∃ x : ℝ, r_main_v75 A i = (x : EReal)) :
    r_main_v91 A = fun j : S64.Idx =>
      Ideal.div (∑ r : Fin 50000, r_main_v75 A (ix2 r (j 0)) * r_main_v75 A (ix2 r (j 0))) (Ideal.ofBits .f32 0x47435000#32)
        - Ideal.div (∑ r : Fin 50000, r_main_v75 A (ix2 r (j 0))) (Ideal.ofBits .f32 0x47435000#32)
          * Ideal.div (∑ r : Fin 50000, r_main_v75 A (ix2 r (j 0))) (Ideal.ofBits .f32 0x47435000#32) := by
  funext j
  show r_main_v91 A j = Ideal.div (∑ r : Fin 50000, r_main_v75 A (ix2 r (j 0)) * r_main_v75 A (ix2 r (j 0))) (Ideal.ofBits .f32 0x47435000#32)
        - Ideal.div (∑ r : Fin 50000, r_main_v75 A (ix2 r (j 0))) (Ideal.ofBits .f32 0x47435000#32)
          * Ideal.div (∑ r : Fin 50000, r_main_v75 A (ix2 r (j 0))) (Ideal.ofBits .f32 0x47435000#32)
  have hden : r_main_call0_v10 A j = ((50000 : ℝ) : EReal) := by
    unfold r_main_call0_v10
    exact (broadcastInDim_scalar_apply _ _ j).trans (denom1 A)
  have hnum : r_main_call0_v9 A j = ∑ r : Fin 50000,
      (r_main_v75 A (ix2 r (j 0)) - Ideal.div (∑ k : Fin 50000, r_main_v75 A (ix2 k (j 0))) ((50000 : ℝ) : EReal))
        * (r_main_v75 A (ix2 r (j 0)) - Ideal.div (∑ k : Fin 50000, r_main_v75 A (ix2 k (j 0))) ((50000 : ℝ) : EReal)) := by
    unfold r_main_call0_v9
    refine (hostReduceAdd_apply _ _ _ _ j).trans ?_
    refine (colsum_apply _ _ _ j).trans ?_
    unfold r_main_call0_cst_2
    rw [constant_apply, Ideal.ofBits_zero_f32, zero_add]
    refine Finset.sum_congr rfl fun r _ => ?_
    unfold r_main_call0_v6
    refine (mulf_apply _ _ _).trans ?_
    exact congrArg₂ (· * ·) (dev1 A r (j 0)) (dev1 A r (j 0))
  unfold r_main_v91
  refine (select_apply _ _ _ j).trans ?_
  rw [broadcastInDim_scalar_apply, guard1, select_one]
  unfold r_main_call0_v11
  refine (hostDivf_apply _ _ j).trans ?_
  rw [hnum, hden, ofBits_50000]
  exact var_law (fun r : Fin 50000 => r_main_v75 A (ix2 r (j 0))) (fun r => hX (ix2 r (j 0))) 50000 (by norm_num) (by simp)

/-! ## The second normalization: of the `[800000, 64]` array `r_main_v44` -/

/-- The row count less the correction (an integer zero, converted) is the real 800000. -/
theorem denom2 (A : Args Ideal) : r_main_call2_v8 A ix0 = ((800000 : ℝ) : EReal) := by
  unfold r_main_call2_v8
  refine (subf_apply _ _ ix0).trans ?_
  unfold r_main_call2_cst_1 r_main_call2_v7 r_main_c_20
  show Ideal.ofBits .f32 0x49435000#32 - (((0#32 : BitVec 32).toInt : ℝ) : EReal) = _
  rw [ofBits_800000]
  simp

/-- The guard of the variance's quotient, "the row count less the correction is positive", holds. -/
theorem guard2 (A : Args Ideal) : r_main_call2_v12 A ix0 = 1#1 := by
  unfold r_main_call2_v12
  refine (cmpf_apply _ _ _ ix0).trans ?_
  unfold r_main_call2_cst_3
  show Ideal.cmp .ogt (r_main_call2_v8 A ix0) (Ideal.ofBits .f32 0x00000000#32) = 1#1
  rw [denom2, Ideal.ofBits_zero_f32]
  have h : (0 : EReal) < ((800000 : ℝ) : EReal) := EReal.coe_pos.mpr (by norm_num)
  show BitVec.ofBool (decide ((0 : EReal) < ((800000 : ℝ) : EReal))) = 1#1
  rw [decide_eq_true h]
  rfl

/-- The mean of each column: the column's sum divided by the row count. -/
theorem mean2_eq (A : Args Ideal) :
    r_main_v110 A = fun j : S64.Idx =>
      Ideal.div (∑ r : Fin 800000, r_main_v44 A (ix2 r (j 0))) (Ideal.ofBits .f32 0x49435000#32) := by
  funext j
  show r_main_v110 A j = Ideal.div (∑ r : Fin 800000, r_main_v44 A (ix2 r (j 0))) (Ideal.ofBits .f32 0x49435000#32)
  unfold r_main_v110
  refine (hostDivf_apply _ _ j).trans (congrArg₂ Ideal.div ?_ ?_)
  · unfold r_main_v108
    refine (hostReduceAdd_apply _ _ _ _ j).trans ?_
    refine (colsum_apply _ _ _ j).trans ?_
    unfold r_main_cst_18
    rw [constant_apply, Ideal.ofBits_zero_f32, zero_add]
  · unfold r_main_v109
    refine (broadcastInDim_scalar_apply _ _ j).trans ?_
    rfl

/-- The deviation of an entry from its column's mean, as the reference's variance routine forms it. -/
theorem dev2 (A : Args Ideal) (r : Fin 800000) (c : Fin 64) :
    r_main_call2_v5 A (ix2 r c)
      = r_main_v44 A (ix2 r c) - Ideal.div (∑ k : Fin 800000, r_main_v44 A (ix2 k c)) ((800000 : ℝ) : EReal) := by
  unfold r_main_call2_v5
  refine (subf_apply _ _ _).trans (congrArg (r_main_v44 A (ix2 r c) - ·) ?_)
  unfold r_main_call2_v4
  refine (rows_apply _ _ r c).trans ?_
  unfold r_main_call2_v3
  refine (hostDivf_apply _ _ _).trans (congrArg₂ Ideal.div ?_ ?_)
  · unfold r_main_call2_v1
    refine (row_apply _ _ 0 c).trans ?_
    unfold r_main_call2_v0
    refine (hostReduceAdd_apply _ _ _ _ _).trans ?_
    refine (colsum_apply _ _ _ _).trans ?_
    unfold r_main_call2_cst
    rw [constant_apply, Ideal.ofBits_zero_f32, zero_add]
  · unfold r_main_call2_v2
    refine (broadcastInDim_scalar_apply _ _ _).trans ?_
    unfold r_main_call2_cst_0
    exact (constant_apply _ _).trans ofBits_800000

/-- The variance of each column, which the reference takes as the mean of the squared deviations, is the mean of the
    squares minus the square of the mean, the entries being real numbers. -/
theorem var2_eq (A : Args Ideal) (hX : ∀ i, ∃ x : ℝ, r_main_v44 A i = (x : EReal)) :
    r_main_v111 A = fun j : S64.Idx =>
      Ideal.div (∑ r : Fin 800000, r_main_v44 A (ix2 r (j 0)) * r_main_v44 A (ix2 r (j 0))) (Ideal.ofBits .f32 0x49435000#32)
        - Ideal.div (∑ r : Fin 800000, r_main_v44 A (ix2 r (j 0))) (Ideal.ofBits .f32 0x49435000#32)
          * Ideal.div (∑ r : Fin 800000, r_main_v44 A (ix2 r (j 0))) (Ideal.ofBits .f32 0x49435000#32) := by
  funext j
  show r_main_v111 A j = Ideal.div (∑ r : Fin 800000, r_main_v44 A (ix2 r (j 0)) * r_main_v44 A (ix2 r (j 0))) (Ideal.ofBits .f32 0x49435000#32)
        - Ideal.div (∑ r : Fin 800000, r_main_v44 A (ix2 r (j 0))) (Ideal.ofBits .f32 0x49435000#32)
          * Ideal.div (∑ r : Fin 800000, r_main_v44 A (ix2 r (j 0))) (Ideal.ofBits .f32 0x49435000#32)
  have hden : r_main_call2_v10 A j = ((800000 : ℝ) : EReal) := by
    unfold r_main_call2_v10
    exact (broadcastInDim_scalar_apply _ _ j).trans (denom2 A)
  have hnum : r_main_call2_v9 A j = ∑ r : Fin 800000,
      (r_main_v44 A (ix2 r (j 0)) - Ideal.div (∑ k : Fin 800000, r_main_v44 A (ix2 k (j 0))) ((800000 : ℝ) : EReal))
        * (r_main_v44 A (ix2 r (j 0)) - Ideal.div (∑ k : Fin 800000, r_main_v44 A (ix2 k (j 0))) ((800000 : ℝ) : EReal)) := by
    unfold r_main_call2_v9
    refine (hostReduceAdd_apply _ _ _ _ j).trans ?_
    refine (colsum_apply _ _ _ j).trans ?_
    unfold r_main_call2_cst_2
    rw [constant_apply, Ideal.ofBits_zero_f32, zero_add]
    refine Finset.sum_congr rfl fun r _ => ?_
    unfold r_main_call2_v6
    refine (mulf_apply _ _ _).trans ?_
    exact congrArg₂ (· * ·) (dev2 A r (j 0)) (dev2 A r (j 0))
  unfold r_main_v111
  refine (select_apply _ _ _ j).trans ?_
  rw [broadcastInDim_scalar_apply, guard2, select_one]
  unfold r_main_call2_v11
  refine (hostDivf_apply _ _ j).trans ?_
  rw [hnum, hden, ofBits_800000]
  exact var_law (fun r : Fin 800000 => r_main_v44 A (ix2 r (j 0))) (fun r => hX (ix2 r (j 0))) 800000 (by norm_num) (by simp)

end Cert.ReferenceIdeal.RefVar

end
-- ==== Proof.RMatch.lean ====
/-
  The reference's stages element by element, in the forms the kernel's regions take: a product of two matrices plus a
  bias repeated down the rows is the linear layer; the sum of two gathered arrays and a linear layer is the gate, and the
  quotient 1 / (1 + exp(−x)) its logistic; gate / (gathered sum + a small literal) times a gathered array; the hyperbolic tangent;
  and scale·(x − mean)·rsqrt(variance + a small literal) + shift cut at zero, the mean, variance, scale and shift repeated down the rows.
-/
import proofs.«146130_j46961172414535_2_alg».proof.Proof.RefSpec
import proofs.«146130_j46961172414535_2_alg».proof.Proof.KLin
import proofs.«146130_j46961172414535_2_alg».proof.Proof.KDefs
import proofs.«146130_j46961172414535_2_alg».proof.Proof.LibPlainDot
import proofs.«146130_j46961172414535_2_alg».proof.Proof.RefVar
import Idealize.ShloMosaic.Lib.IdealHost

noncomputable section

namespace Cert.ReferenceIdeal.RMatch

open Cert.ReferenceIdeal Cert.ReferenceIdeal.Gen Cert.ReferenceIdeal.RefSpec
open Idealize.ShloMosaic Idealize.ShloMosaic.ValueIdx
open Cert.KernelIdeal.KReg Cert.KernelIdeal.KElem

/-- A `[b]` vector placed as one row and then repeated down `a` rows reads, at `i`, the vector at `i`'s column. -/
theorem bias_apply {α : Type} {a b : ℕ} (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (i : (⟨2, ![a, b]⟩ : Shape).Idx) :
    broadcastInDim ⟨2, ![a, b]⟩ ![0, 1] h2 (broadcastInDim ⟨2, ![1, b]⟩ ![1] h1 v) i = v (ix1 (i 1)) := by
  obtain ⟨p, q, rfl⟩ : ∃ (p : Fin a) (q : Fin b), i = ix2 p q := ⟨i 0, i 1, eq_ix2 i⟩
  exact (RefVar.rows_apply _ h2 p q).trans (RefVar.row_apply v h1 0 q)

/-- A plain matrix product plus a bias repeated down the rows is the linear layer. -/
theorem lin_apply {M K N : ℕ} (x : FVec Ideal ⟨2, ![M, K]⟩ .f32) (w : FVec Ideal ⟨2, ![K, N]⟩ .f32)
    (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral (DotDims.plain M K N) none x w)
        (broadcastInDim ⟨2, ![M, N]⟩ ![0, 1] h2 (broadcastInDim ⟨2, ![1, N]⟩ ![1] h1 b))
      = linI x w b := by
  funext i
  refine (addf_apply _ _ i).trans (congrArg₂ (· + ·) ?_ (bias_apply b h1 h2 i))
  exact Cert.Lib.PlainDot.dotGeneral_apply M K N none _ x w i

variable (A : Args Ideal)

/-! ## The seven linear layers -/

theorem lin_v4 : r_main_v4 A = linI (r_main_v0 A) A.a5 A.a6 := by
  unfold r_main_v4 r_main_v3 r_main_v2 r_main_v1
  exact lin_apply (r_main_v0 A) A.a5 A.a6 _ _

theorem lin_v8 : r_main_v8 A = linI (r_main_v0 A) A.a7 A.a8 := by
  unfold r_main_v8 r_main_v7 r_main_v6 r_main_v5
  exact lin_apply (r_main_v0 A) A.a7 A.a8 _ _

theorem lin_v12 : r_main_v12 A = linI A.a0 A.a9 A.a10 := by
  unfold r_main_v12 r_main_v11 r_main_v10 r_main_v9
  exact lin_apply A.a0 A.a9 A.a10 _ _

theorem lin_v16 : r_main_v16 A = linI A.a0 A.a11 A.a12 := by
  unfold r_main_v16 r_main_v15 r_main_v14 r_main_v13
  exact lin_apply A.a0 A.a11 A.a12 _ _

theorem lin_v20 : r_main_v20 A = linI A.a2 A.a15 A.a16 := by
  unfold r_main_v20 r_main_v19 r_main_v18 r_main_v17
  exact lin_apply A.a2 A.a15 A.a16 _ _

theorem lin_v24 : r_main_v24 A = linI A.a2 A.a17 A.a18 := by
  unfold r_main_v24 r_main_v23 r_main_v22 r_main_v21
  exact lin_apply A.a2 A.a17 A.a18 _ _

/-- The projected edge feature inside the gate. -/
theorem lin_v43 : r_main_v43 A = linI A.a1 A.a13 A.a14 := by
  unfold r_main_v43 r_main_v42 r_main_v41 r_main_v40
  exact lin_apply A.a1 A.a13 A.a14 _ _

/-! ## The gate and its logistic -/

theorem gate_v44 : r_main_v44 A = gateI A.a1 (r_main_v31 A) (r_main_v38 A) A.a13 A.a14 := by
  funext i
  unfold r_main_v44
  refine (addf_apply _ _ i).trans ?_
  rw [lin_v43]
  unfold r_main_v39
  rfl

/-- The reference spells the logistic as 1 / (1 + exp(−x)) with the literal one, which denotes the real one. -/
theorem sig_v50 : r_main_v50 A = gateSigI A.a1 (r_main_v31 A) (r_main_v38 A) A.a13 A.a14 := by
  funext i
  have e49 : r_main_v49 A i = 1 := by
    unfold r_main_v49 r_main_cst_3
    exact (broadcastInDim_scalar_apply _ _ i).trans Ideal.ofBits_one_f32
  have e47 : r_main_v47 A i = 1 := by
    unfold r_main_v47 r_main_cst
    exact (broadcastInDim_scalar_apply _ _ i).trans Ideal.ofBits_one_f32
  have e48 : r_main_v48 A i = 1 + Ideal.exp (-(r_main_v44 A i)) := by
    unfold r_main_v48
    refine (addf_apply _ _ i).trans (congrArg₂ (· + ·) e47 ?_)
    unfold r_main_v46 r_main_v45
    rfl
  unfold r_main_v50
  refine (hostDivf_apply _ _ i).trans ?_
  rw [e49, e48, gate_v44]
  rfl

/-! ## The normalized gate times a gathered array -/

theorem eta_v71 : r_main_v71 A = etaMulI (r_main_v50 A) (r_main_v60 A) (r_main_v70 A) := by
  funext i
  unfold etaMulI
  unfold r_main_v71
  refine (mulf_apply _ _ i).trans (congrArg₂ (· * ·) ?_ rfl)
  unfold r_main_v63
  refine (hostDivf_apply _ _ i).trans (congrArg₂ Ideal.div rfl ?_)
  unfold r_main_v62
  refine (addf_apply _ _ i).trans (congrArg₂ (· + ·) rfl ?_)
  unfold r_main_v61 r_main_cst_7
  exact (broadcastInDim_scalar_apply _ _ i).trans (constant_apply _ _)

theorem eta_v83 : r_main_v83 A = etaMulI (r_main_v50 A) (r_main_v60 A) (r_main_v82 A) := by
  funext i
  unfold etaMulI
  unfold r_main_v83
  refine (mulf_apply _ _ i).trans (congrArg₂ (· * ·) ?_ rfl)
  unfold r_main_v63
  refine (hostDivf_apply _ _ i).trans (congrArg₂ Ideal.div rfl ?_)
  unfold r_main_v62
  refine (addf_apply _ _ i).trans (congrArg₂ (· + ·) rfl ?_)
  unfold r_main_v61 r_main_cst_7
  exact (broadcastInDim_scalar_apply _ _ i).trans (constant_apply _ _)

/-! ## The hyperbolic tangent -/

theorem tanh_v128 : r_main_v128 A = tanhI (r_main_v87 A) := by
  funext i
  unfold r_main_v128
  rfl

/-! ## The two normalizations cut at zero -/

theorem norm_v107 : r_main_v107 A = normI (r_main_v75 A) (fun i => r_main_v90 A (ix1 (i 1))) (fun i => r_main_v91 A (ix1 (i 1))) A.a19 A.a20 := by
  funext i
  unfold normI
  unfold r_main_v107
  refine (maximumf_apply _ _ i).trans (congrArg₂ max ?_ ?_)
  · unfold r_main_v106
    refine (addf_apply _ _ i).trans (congrArg₂ (· + ·) ?_ ?_)
    · unfold r_main_v103
      refine (mulf_apply _ _ i).trans (congrArg₂ (· * ·) ?_ ?_)
      · unfold r_main_v97
        refine (mulf_apply _ _ i).trans (congrArg₂ (· * ·) ?_ ?_)
        · unfold r_main_v96 r_main_v95
          exact bias_apply A.a19 _ _ i
        · unfold r_main_v94
          refine (subf_apply _ _ i).trans (congrArg₂ (· - ·) rfl ?_)
          unfold r_main_v93 r_main_v92
          exact bias_apply (r_main_v90 A) _ _ i
      · unfold r_main_v102 r_main_v101
        refine (bias_apply (r_main_v100 A) _ _ i).trans ?_
        unfold r_main_v100 r_main_v99 r_main_v98 r_main_cst_17
        rfl
    · unfold r_main_v105 r_main_v104
      exact bias_apply A.a20 _ _ i
  · unfold r_main_call1_v0 r_main_call1_cst
    rfl

theorem norm_v127 : r_main_v127 A = normI (r_main_v44 A) (fun i => r_main_v110 A (ix1 (i 1))) (fun i => r_main_v111 A (ix1 (i 1))) A.a21 A.a22 := by
  funext i
  unfold normI
  unfold r_main_v127
  refine (maximumf_apply _ _ i).trans (congrArg₂ max ?_ ?_)
  · unfold r_main_v126
    refine (addf_apply _ _ i).trans (congrArg₂ (· + ·) ?_ ?_)
    · unfold r_main_v123
      refine (mulf_apply _ _ i).trans (congrArg₂ (· * ·) ?_ ?_)
      · unfold r_main_v117
        refine (mulf_apply _ _ i).trans (congrArg₂ (· * ·) ?_ ?_)
        · unfold r_main_v116 r_main_v115
          exact bias_apply A.a21 _ _ i
        · unfold r_main_v114
          refine (subf_apply _ _ i).trans (congrArg₂ (· - ·) rfl ?_)
          unfold r_main_v113 r_main_v112
          exact bias_apply (r_main_v110 A) _ _ i
      · unfold r_main_v122 r_main_v121
        refine (bias_apply (r_main_v120 A) _ _ i).trans ?_
        unfold r_main_v120 r_main_v119 r_main_v118 r_main_cst_21
        rfl
    · unfold r_main_v125 r_main_v124
      exact bias_apply A.a22 _ _ i
  · unfold r_main_call3_v0 r_main_call3_cst
    rfl

end Cert.ReferenceIdeal.RMatch

end
-- ==== Proof.KChainA.lean ====
/-
  The idealized kernel's buffers at each boundary of its run, as the reference's stages of the launch arguments: the
  concatenation; the six linear layers; the gathered rows; the edge gate and its logistic; the gate sums gathered back;
  the normalized gate times the gathered rows; the two aggregated sums added to their linear layers; the hyperbolic tangent
  of the second. A buffer no later segment writes keeps its value to the end.
-/
import proofs.«146130_j46961172414535_2_alg».proof.Proof.Gen.KernelIdeal.Frame
import proofs.«146130_j46961172414535_2_alg».proof.Proof.KKeep
import proofs.«146130_j46961172414535_2_alg».proof.Proof.KLin
import proofs.«146130_j46961172414535_2_alg».proof.Proof.KElem
import proofs.«146130_j46961172414535_2_alg».proof.Proof.RefSpec
import proofs.«146130_j46961172414535_2_alg».proof.Proof.RMatch
import Idealize.ShloMosaic.Lib.StableHlo.Run

set_option maxRecDepth 16384

noncomputable section

namespace Cert.KernelIdeal.KChain

open Cert.KernelIdeal Cert.KernelIdeal.Gen Cert.KernelIdeal.KReg Cert.KernelIdeal.KElem
open Cert.ReferenceIdeal.RefSpec Cert.ReferenceIdeal.RMatch
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The kernel's argument arrays as launched, bundled as the reference's definitions take them. -/
def argsK (c : Dev nD) : Cert.ReferenceIdeal.RefSpec.Args Ideal :=
  ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12), m ((c : Thread nD τ).loc main_arg13), m ((c : Thread nD τ).loc main_arg14), m ((c : Thread nD τ).loc main_arg15), m ((c : Thread nD τ).loc main_arg16), m ((c : Thread nD τ).loc main_arg17), m ((c : Thread nD τ).loc main_arg18), m ((c : Thread nD τ).loc main_arg19), m ((c : Thread nD τ).loc main_arg20), m ((c : Thread nD τ).loc main_arg21), m ((c : Thread nD τ).loc main_arg22)⟩

theorem arg0_0 (c : Dev nD) : W0 m ρ c (Proc.devRef .tc main_arg0) = (argsK m c).a0 :=
  rfl

theorem arg0_2 (c : Dev nD) : W0 m ρ c (Proc.devRef .tc main_arg2) = (argsK m c).a2 :=
  rfl

set_option maxHeartbeats 4000000 in
theorem at1_v0 (c : Dev nD) : W1 m ρ c (Proc.devRef .tc main_v0) = r_main_v0 (argsK m c) := by
  show StableHlo.after hostOps0 (W0 m ρ c) (Proc.devRef .tc main_v0) = _
  after_results
  rw [arg0_0, arg0_2]
  rfl

theorem arg1_5 (c : Dev nD) : W1 m ρ c (Proc.devRef .tc main_arg5) = (argsK m c).a5 :=
  ((KB.keep0 (W0 m ρ c) main_arg5 (by decide))).trans rfl

theorem arg1_6 (c : Dev nD) : W1 m ρ c (Proc.devRef .tc main_arg6) = (argsK m c).a6 :=
  ((KB.keep0 (W0 m ρ c) main_arg6 (by decide))).trans rfl

set_option maxHeartbeats 4000000 in
theorem at2_v1 (c : Dev nD) : W2 m ρ c (Proc.devRef .tc main_v1) = r_main_v4 (argsK m c) := by
  refine (W2_arr m ρ c 3).trans ((final0 (V1 m ρ) c).trans ?_)
  show linI (W1 m ρ c (Proc.devRef .tc main_v0)) (W1 m ρ c (Proc.devRef .tc main_arg5)) (W1 m ρ c (Proc.devRef .tc main_arg6)) = _
  rw [at1_v0, arg1_5, arg1_6]
  exact (lin_v4 _).symm

theorem at2_v0 (c : Dev nD) : W2 m ρ c (Proc.devRef .tc main_v0) = r_main_v0 (argsK m c) :=
  (((W2_arr m ρ c 0).trans (((dat0 (V1 m ρ) c).arrAt_in 0 rfl _).trans (A_eq0 (V1 m ρ) c 0)))).trans (at1_v0 m ρ c)

theorem arg2_7 (c : Dev nD) : W2 m ρ c (Proc.devRef .tc main_arg7) = (argsK m c).a7 :=
  (((W2_of_ne m ρ c main_arg7 (by decide))).trans (KB.keep0 (W0 m ρ c) main_arg7 (by decide))).trans rfl

theorem arg2_8 (c : Dev nD) : W2 m ρ c (Proc.devRef .tc main_arg8) = (argsK m c).a8 :=
  (((W2_of_ne m ρ c main_arg8 (by decide))).trans (KB.keep0 (W0 m ρ c) main_arg8 (by decide))).trans rfl

set_option maxHeartbeats 4000000 in
theorem at3_v2 (c : Dev nD) : W3 m ρ c (Proc.devRef .tc main_v2) = r_main_v8 (argsK m c) := by
  refine (W3_arr m ρ c 3).trans ((final1 (V2 m ρ) c).trans ?_)
  show linI (W2 m ρ c (Proc.devRef .tc main_v0)) (W2 m ρ c (Proc.devRef .tc main_arg7)) (W2 m ρ c (Proc.devRef .tc main_arg8)) = _
  rw [at2_v0, arg2_7, arg2_8]
  exact (lin_v8 _).symm

theorem arg3_0 (c : Dev nD) : W3 m ρ c (Proc.devRef .tc main_arg0) = (argsK m c).a0 :=
  ((((W3_of_ne m ρ c main_arg0 (by decide))).trans (W2_of_ne m ρ c main_arg0 (by decide))).trans (KB.keep0 (W0 m ρ c) main_arg0 (by decide))).trans rfl

theorem arg3_9 (c : Dev nD) : W3 m ρ c (Proc.devRef .tc main_arg9) = (argsK m c).a9 :=
  ((((W3_of_ne m ρ c main_arg9 (by decide))).trans (W2_of_ne m ρ c main_arg9 (by decide))).trans (KB.keep0 (W0 m ρ c) main_arg9 (by decide))).trans rfl

theorem arg3_10 (c : Dev nD) : W3 m ρ c (Proc.devRef .tc main_arg10) = (argsK m c).a10 :=
  ((((W3_of_ne m ρ c main_arg10 (by decide))).trans (W2_of_ne m ρ c main_arg10 (by decide))).trans (KB.keep0 (W0 m ρ c) main_arg10 (by decide))).trans rfl

set_option maxHeartbeats 4000000 in
theorem at4_v3 (c : Dev nD) : W4 m ρ c (Proc.devRef .tc main_v3) = r_main_v12 (argsK m c) := by
  refine (W4_arr m ρ c 3).trans ((final2 (V3 m ρ) c).trans ?_)
  show linI (W3 m ρ c (Proc.devRef .tc main_arg0)) (W3 m ρ c (Proc.devRef .tc main_arg9)) (W3 m ρ c (Proc.devRef .tc main_arg10)) = _
  rw [arg3_0, arg3_9, arg3_10]
  exact (lin_v12 _).symm

theorem arg4_0 (c : Dev nD) : W4 m ρ c (Proc.devRef .tc main_arg0) = (argsK m c).a0 :=
  ((((((W4_arr m ρ c 0).trans (((dat2 (V3 m ρ) c).arrAt_in 0 rfl _).trans (A_eq2 (V3 m ρ) c 0)))).trans (W3_of_ne m ρ c main_arg0 (by decide))).trans (W2_of_ne m ρ c main_arg0 (by decide))).trans (KB.keep0 (W0 m ρ c) main_arg0 (by decide))).trans rfl

theorem arg4_11 (c : Dev nD) : W4 m ρ c (Proc.devRef .tc main_arg11) = (argsK m c).a11 :=
  (((((W4_of_ne m ρ c main_arg11 (by decide))).trans (W3_of_ne m ρ c main_arg11 (by decide))).trans (W2_of_ne m ρ c main_arg11 (by decide))).trans (KB.keep0 (W0 m ρ c) main_arg11 (by decide))).trans rfl

theorem arg4_12 (c : Dev nD) : W4 m ρ c (Proc.devRef .tc main_arg12) = (argsK m c).a12 :=
  (((((W4_of_ne m ρ c main_arg12 (by decide))).trans (W3_of_ne m ρ c main_arg12 (by decide))).trans (W2_of_ne m ρ c main_arg12 (by decide))).trans (KB.keep0 (W0 m ρ c) main_arg12 (by decide))).trans rfl

set_option maxHeartbeats 4000000 in
theorem at5_v4 (c : Dev nD) : W5 m ρ c (Proc.devRef .tc main_v4) = r_main_v16 (argsK m c) := by
  refine (W5_arr m ρ c 3).trans ((final3 (V4 m ρ) c).trans ?_)
  show linI (W4 m ρ c (Proc.devRef .tc main_arg0)) (W4 m ρ c (Proc.devRef .tc main_arg11)) (W4 m ρ c (Proc.devRef .tc main_arg12)) = _
  rw [arg4_0, arg4_11, arg4_12]
  exact (lin_v16 _).symm

theorem arg5_2 (c : Dev nD) : W5 m ρ c (Proc.devRef .tc main_arg2) = (argsK m c).a2 :=
  ((((((W5_of_ne m ρ c main_arg2 (by decide))).trans (W4_of_ne m ρ c main_arg2 (by decide))).trans (W3_of_ne m ρ c main_arg2 (by decide))).trans (W2_of_ne m ρ c main_arg2 (by decide))).trans (KB.keep0 (W0 m ρ c) main_arg2 (by decide))).trans rfl

theorem arg5_15 (c : Dev nD) : W5 m ρ c (Proc.devRef .tc main_arg15) = (argsK m c).a15 :=
  ((((((W5_of_ne m ρ c main_arg15 (by decide))).trans (W4_of_ne m ρ c main_arg15 (by decide))).trans (W3_of_ne m ρ c main_arg15 (by decide))).trans (W2_of_ne m ρ c main_arg15 (by decide))).trans (KB.keep0 (W0 m ρ c) main_arg15 (by decide))).trans rfl

theorem arg5_16 (c : Dev nD) : W5 m ρ c (Proc.devRef .tc main_arg16) = (argsK m c).a16 :=
  ((((((W5_of_ne m ρ c main_arg16 (by decide))).trans (W4_of_ne m ρ c main_arg16 (by decide))).trans (W3_of_ne m ρ c main_arg16 (by decide))).trans (W2_of_ne m ρ c main_arg16 (by decide))).trans (KB.keep0 (W0 m ρ c) main_arg16 (by decide))).trans rfl

set_option maxHeartbeats 4000000 in
theorem at6_v5 (c : Dev nD) : W6 m ρ c (Proc.devRef .tc main_v5) = r_main_v20 (argsK m c) := by
  refine (W6_arr m ρ c 3).trans ((final4 (V5 m ρ) c).trans ?_)
  show linI (W5 m ρ c (Proc.devRef .tc main_arg2)) (W5 m ρ c (Proc.devRef .tc main_arg15)) (W5 m ρ c (Proc.devRef .tc main_arg16)) = _
  rw [arg5_2, arg5_15, arg5_16]
  exact (lin_v20 _).symm

theorem arg6_2 (c : Dev nD) : W6 m ρ c (Proc.devRef .tc main_arg2) = (argsK m c).a2 :=
  ((((((((W6_arr m ρ c 0).trans (((dat4 (V5 m ρ) c).arrAt_in 0 rfl _).trans (A_eq4 (V5 m ρ) c 0)))).trans (W5_of_ne m ρ c main_arg2 (by decide))).trans (W4_of_ne m ρ c main_arg2 (by decide))).trans (W3_of_ne m ρ c main_arg2 (by decide))).trans (W2_of_ne m ρ c main_arg2 (by decide))).trans (KB.keep0 (W0 m ρ c) main_arg2 (by decide))).trans rfl

theorem arg6_17 (c : Dev nD) : W6 m ρ c (Proc.devRef .tc main_arg17) = (argsK m c).a17 :=
  (((((((W6_of_ne m ρ c main_arg17 (by decide))).trans (W5_of_ne m ρ c main_arg17 (by decide))).trans (W4_of_ne m ρ c main_arg17 (by decide))).trans (W3_of_ne m ρ c main_arg17 (by decide))).trans (W2_of_ne m ρ c main_arg17 (by decide))).trans (KB.keep0 (W0 m ρ c) main_arg17 (by decide))).trans rfl

theorem arg6_18 (c : Dev nD) : W6 m ρ c (Proc.devRef .tc main_arg18) = (argsK m c).a18 :=
  (((((((W6_of_ne m ρ c main_arg18 (by decide))).trans (W5_of_ne m ρ c main_arg18 (by decide))).trans (W4_of_ne m ρ c main_arg18 (by decide))).trans (W3_of_ne m ρ c main_arg18 (by decide))).trans (W2_of_ne m ρ c main_arg18 (by decide))).trans (KB.keep0 (W0 m ρ c) main_arg18 (by decide))).trans rfl

set_option maxHeartbeats 4000000 in
theorem at7_v6 (c : Dev nD) : W7 m ρ c (Proc.devRef .tc main_v6) = r_main_v24 (argsK m c) := by
  refine (W7_arr m ρ c 3).trans ((final5 (V6 m ρ) c).trans ?_)
  show linI (W6 m ρ c (Proc.devRef .tc main_arg2)) (W6 m ρ c (Proc.devRef .tc main_arg17)) (W6 m ρ c (Proc.devRef .tc main_arg18)) = _
  rw [arg6_2, arg6_17, arg6_18]
  exact (lin_v24 _).symm

theorem at7_v3 (c : Dev nD) : W7 m ρ c (Proc.devRef .tc main_v3) = r_main_v12 (argsK m c) :=
  ((((W7_of_ne m ρ c main_v3 (by decide))).trans (W6_of_ne m ρ c main_v3 (by decide))).trans (W5_of_ne m ρ c main_v3 (by decide))).trans (at4_v3 m ρ c)

theorem arg7_3 (c : Dev nD) : W7 m ρ c (Proc.devRef .tc main_arg3) = (argsK m c).a3 :=
  ((((((((W7_of_ne m ρ c main_arg3 (by decide))).trans (W6_of_ne m ρ c main_arg3 (by decide))).trans (W5_of_ne m ρ c main_arg3 (by decide))).trans (W4_of_ne m ρ c main_arg3 (by decide))).trans (W3_of_ne m ρ c main_arg3 (by decide))).trans (W2_of_ne m ρ c main_arg3 (by decide))).trans (KB.keep0 (W0 m ρ c) main_arg3 (by decide))).trans rfl

set_option maxHeartbeats 4000000 in
theorem at8_v13 (c : Dev nD) : W8 m ρ c (Proc.devRef .tc main_v13) = r_main_v31 (argsK m c) := by
  show StableHlo.after hostOps6 (W7 m ρ c) (Proc.devRef .tc main_v13) = _
  after_results
  rw [at7_v3, arg7_3]
  rfl

theorem at7_v4 (c : Dev nD) : W7 m ρ c (Proc.devRef .tc main_v4) = r_main_v16 (argsK m c) :=
  (((W7_of_ne m ρ c main_v4 (by decide))).trans (W6_of_ne m ρ c main_v4 (by decide))).trans (at5_v4 m ρ c)

theorem arg7_4 (c : Dev nD) : W7 m ρ c (Proc.devRef .tc main_arg4) = (argsK m c).a4 :=
  ((((((((W7_of_ne m ρ c main_arg4 (by decide))).trans (W6_of_ne m ρ c main_arg4 (by decide))).trans (W5_of_ne m ρ c main_arg4 (by decide))).trans (W4_of_ne m ρ c main_arg4 (by decide))).trans (W3_of_ne m ρ c main_arg4 (by decide))).trans (W2_of_ne m ρ c main_arg4 (by decide))).trans (KB.keep0 (W0 m ρ c) main_arg4 (by decide))).trans rfl

set_option maxHeartbeats 4000000 in
theorem at8_v20 (c : Dev nD) : W8 m ρ c (Proc.devRef .tc main_v20) = r_main_v38 (argsK m c) := by
  show StableHlo.after hostOps6 (W7 m ρ c) (Proc.devRef .tc main_v20) = _
  after_results
  rw [at7_v4, arg7_4]
  rfl

theorem arg8_1 (c : Dev nD) : W8 m ρ c (Proc.devRef .tc main_arg1) = (argsK m c).a1 :=
  (((((((((KB.keep6 (W7 m ρ c) main_arg1 (by decide))).trans (W7_of_ne m ρ c main_arg1 (by decide))).trans (W6_of_ne m ρ c main_arg1 (by decide))).trans (W5_of_ne m ρ c main_arg1 (by decide))).trans (W4_of_ne m ρ c main_arg1 (by decide))).trans (W3_of_ne m ρ c main_arg1 (by decide))).trans (W2_of_ne m ρ c main_arg1 (by decide))).trans (KB.keep0 (W0 m ρ c) main_arg1 (by decide))).trans rfl

theorem arg8_13 (c : Dev nD) : W8 m ρ c (Proc.devRef .tc main_arg13) = (argsK m c).a13 :=
  (((((((((KB.keep6 (W7 m ρ c) main_arg13 (by decide))).trans (W7_of_ne m ρ c main_arg13 (by decide))).trans (W6_of_ne m ρ c main_arg13 (by decide))).trans (W5_of_ne m ρ c main_arg13 (by decide))).trans (W4_of_ne m ρ c main_arg13 (by decide))).trans (W3_of_ne m ρ c main_arg13 (by decide))).trans (W2_of_ne m ρ c main_arg13 (by decide))).trans (KB.keep0 (W0 m ρ c) main_arg13 (by decide))).trans rfl

theorem arg8_14 (c : Dev nD) : W8 m ρ c (Proc.devRef .tc main_arg14) = (argsK m c).a14 :=
  (((((((((KB.keep6 (W7 m ρ c) main_arg14 (by decide))).trans (W7_of_ne m ρ c main_arg14 (by decide))).trans (W6_of_ne m ρ c main_arg14 (by decide))).trans (W5_of_ne m ρ c main_arg14 (by decide))).trans (W4_of_ne m ρ c main_arg14 (by decide))).trans (W3_of_ne m ρ c main_arg14 (by decide))).trans (W2_of_ne m ρ c main_arg14 (by decide))).trans (KB.keep0 (W0 m ρ c) main_arg14 (by decide))).trans rfl

set_option maxHeartbeats 4000000 in
theorem at9_v21_0 (c : Dev nD) : W9 m ρ c (Proc.devRef .tc main_v21_0) = r_main_v44 (argsK m c) := by
  refine (W9_arr m ρ c 5).trans ((final6_5 (V8 m ρ) c).trans ?_)
  show gateI (W8 m ρ c (Proc.devRef .tc main_arg1)) (W8 m ρ c (Proc.devRef .tc main_v13)) (W8 m ρ c (Proc.devRef .tc main_v20)) (W8 m ρ c (Proc.devRef .tc main_arg13)) (W8 m ρ c (Proc.devRef .tc main_arg14)) = _
  rw [arg8_1, at8_v13, at8_v20, arg8_13, arg8_14]
  exact (gate_v44 _).symm

set_option maxHeartbeats 4000000 in
theorem at9_v21_1 (c : Dev nD) : W9 m ρ c (Proc.devRef .tc main_v21_1) = r_main_v50 (argsK m c) := by
  refine (W9_arr m ρ c 6).trans ((final6_6 (V8 m ρ) c).trans ?_)
  show gateSigI (W8 m ρ c (Proc.devRef .tc main_arg1)) (W8 m ρ c (Proc.devRef .tc main_v13)) (W8 m ρ c (Proc.devRef .tc main_v20)) (W8 m ρ c (Proc.devRef .tc main_arg13)) (W8 m ρ c (Proc.devRef .tc main_arg14)) = _
  rw [arg8_1, at8_v13, at8_v20, arg8_13, arg8_14]
  exact (sig_v50 _).symm

theorem arg9_4 (c : Dev nD) : W9 m ρ c (Proc.devRef .tc main_arg4) = (argsK m c).a4 :=
  ((((((((((W9_of_ne m ρ c main_arg4 (by decide))).trans (KB.keep6 (W7 m ρ c) main_arg4 (by decide))).trans (W7_of_ne m ρ c main_arg4 (by decide))).trans (W6_of_ne m ρ c main_arg4 (by decide))).trans (W5_of_ne m ρ c main_arg4 (by decide))).trans (W4_of_ne m ρ c main_arg4 (by decide))).trans (W3_of_ne m ρ c main_arg4 (by decide))).trans (W2_of_ne m ρ c main_arg4 (by decide))).trans (KB.keep0 (W0 m ρ c) main_arg4 (by decide))).trans rfl

set_option maxHeartbeats 4000000 in
theorem at10_v31 (c : Dev nD) : W10 m ρ c (Proc.devRef .tc main_v31) = r_main_v60 (argsK m c) := by
  show StableHlo.after hostOps7 (W9 m ρ c) (Proc.devRef .tc main_v31) = _
  after_results
  rw [at9_v21_1, arg9_4]
  rfl

theorem at9_v2 (c : Dev nD) : W9 m ρ c (Proc.devRef .tc main_v2) = r_main_v8 (argsK m c) :=
  (((((((W9_of_ne m ρ c main_v2 (by decide))).trans (KB.keep6 (W7 m ρ c) main_v2 (by decide))).trans (W7_of_ne m ρ c main_v2 (by decide))).trans (W6_of_ne m ρ c main_v2 (by decide))).trans (W5_of_ne m ρ c main_v2 (by decide))).trans (W4_of_ne m ρ c main_v2 (by decide))).trans (at3_v2 m ρ c)

theorem arg9_3 (c : Dev nD) : W9 m ρ c (Proc.devRef .tc main_arg3) = (argsK m c).a3 :=
  ((((((((((W9_of_ne m ρ c main_arg3 (by decide))).trans (KB.keep6 (W7 m ρ c) main_arg3 (by decide))).trans (W7_of_ne m ρ c main_arg3 (by decide))).trans (W6_of_ne m ρ c main_arg3 (by decide))).trans (W5_of_ne m ρ c main_arg3 (by decide))).trans (W4_of_ne m ρ c main_arg3 (by decide))).trans (W3_of_ne m ρ c main_arg3 (by decide))).trans (W2_of_ne m ρ c main_arg3 (by decide))).trans (KB.keep0 (W0 m ρ c) main_arg3 (by decide))).trans rfl

set_option maxHeartbeats 4000000 in
theorem at10_v38 (c : Dev nD) : W10 m ρ c (Proc.devRef .tc main_v38) = r_main_v70 (argsK m c) := by
  show StableHlo.after hostOps7 (W9 m ρ c) (Proc.devRef .tc main_v38) = _
  after_results
  rw [at9_v2, arg9_3]
  rfl

theorem at9_v6 (c : Dev nD) : W9 m ρ c (Proc.devRef .tc main_v6) = r_main_v24 (argsK m c) :=
  (((W9_of_ne m ρ c main_v6 (by decide))).trans (KB.keep6 (W7 m ρ c) main_v6 (by decide))).trans (at7_v6 m ρ c)

set_option maxHeartbeats 4000000 in
theorem at10_v45 (c : Dev nD) : W10 m ρ c (Proc.devRef .tc main_v45) = r_main_v82 (argsK m c) := by
  show StableHlo.after hostOps7 (W9 m ρ c) (Proc.devRef .tc main_v45) = _
  after_results
  rw [at9_v6, arg9_3]
  rfl

theorem at10_v21_1 (c : Dev nD) : W10 m ρ c (Proc.devRef .tc main_v21_1) = r_main_v50 (argsK m c) :=
  ((KB.keep7 (W9 m ρ c) main_v21_1 (by decide))).trans (at9_v21_1 m ρ c)

set_option maxHeartbeats 4000000 in
theorem at11_v46_0 (c : Dev nD) : W11 m ρ c (Proc.devRef .tc main_v46_0) = r_main_v71 (argsK m c) := by
  refine (W11_arr m ρ c 4).trans ((final7_4 (V10 m ρ) c).trans ?_)
  show etaMulI (W10 m ρ c (Proc.devRef .tc main_v21_1)) (W10 m ρ c (Proc.devRef .tc main_v31)) (W10 m ρ c (Proc.devRef .tc main_v38)) = _
  rw [at10_v21_1, at10_v31, at10_v38]
  exact (eta_v71 _).symm

set_option maxHeartbeats 4000000 in
theorem at11_v46_1 (c : Dev nD) : W11 m ρ c (Proc.devRef .tc main_v46_1) = r_main_v83 (argsK m c) := by
  refine (W11_arr m ρ c 5).trans ((final7_5 (V10 m ρ) c).trans ?_)
  show etaMulI (W10 m ρ c (Proc.devRef .tc main_v21_1)) (W10 m ρ c (Proc.devRef .tc main_v31)) (W10 m ρ c (Proc.devRef .tc main_v45)) = _
  rw [at10_v21_1, at10_v31, at10_v45]
  exact (eta_v83 _).symm

theorem arg11_4 (c : Dev nD) : W11 m ρ c (Proc.devRef .tc main_arg4) = (argsK m c).a4 :=
  ((((((((((((W11_of_ne m ρ c main_arg4 (by decide))).trans (KB.keep7 (W9 m ρ c) main_arg4 (by decide))).trans (W9_of_ne m ρ c main_arg4 (by decide))).trans (KB.keep6 (W7 m ρ c) main_arg4 (by decide))).trans (W7_of_ne m ρ c main_arg4 (by decide))).trans (W6_of_ne m ρ c main_arg4 (by decide))).trans (W5_of_ne m ρ c main_arg4 (by decide))).trans (W4_of_ne m ρ c main_arg4 (by decide))).trans (W3_of_ne m ρ c main_arg4 (by decide))).trans (W2_of_ne m ρ c main_arg4 (by decide))).trans (KB.keep0 (W0 m ρ c) main_arg4 (by decide))).trans rfl

theorem at11_v1 (c : Dev nD) : W11 m ρ c (Proc.devRef .tc main_v1) = r_main_v4 (argsK m c) :=
  ((((((((((W11_of_ne m ρ c main_v1 (by decide))).trans (KB.keep7 (W9 m ρ c) main_v1 (by decide))).trans (W9_of_ne m ρ c main_v1 (by decide))).trans (KB.keep6 (W7 m ρ c) main_v1 (by decide))).trans (W7_of_ne m ρ c main_v1 (by decide))).trans (W6_of_ne m ρ c main_v1 (by decide))).trans (W5_of_ne m ρ c main_v1 (by decide))).trans (W4_of_ne m ρ c main_v1 (by decide))).trans (W3_of_ne m ρ c main_v1 (by decide))).trans (at2_v1 m ρ c)

set_option maxHeartbeats 4000000 in
theorem at12_v53 (c : Dev nD) : W12 m ρ c (Proc.devRef .tc main_v53) = r_main_v75 (argsK m c) := by
  show StableHlo.after hostOps8 (W11 m ρ c) (Proc.devRef .tc main_v53) = _
  after_results
  rw [at11_v46_0, arg11_4, at11_v1]
  rfl

theorem at11_v5 (c : Dev nD) : W11 m ρ c (Proc.devRef .tc main_v5) = r_main_v20 (argsK m c) :=
  ((((((W11_of_ne m ρ c main_v5 (by decide))).trans (KB.keep7 (W9 m ρ c) main_v5 (by decide))).trans (W9_of_ne m ρ c main_v5 (by decide))).trans (KB.keep6 (W7 m ρ c) main_v5 (by decide))).trans (W7_of_ne m ρ c main_v5 (by decide))).trans (at6_v5 m ρ c)

set_option maxHeartbeats 4000000 in
theorem at12_v54 (c : Dev nD) : W12 m ρ c (Proc.devRef .tc main_v54) = r_main_v87 (argsK m c) := by
  show StableHlo.after hostOps8 (W11 m ρ c) (Proc.devRef .tc main_v54) = _
  after_results
  rw [at11_v46_1, arg11_4, at11_v5]
  rfl

theorem at18_v54 (c : Dev nD) : W18 m ρ c (Proc.devRef .tc main_v54) = r_main_v87 (argsK m c) :=
  (((((((W18_of_ne m ρ c main_v54 (by decide))).trans (KB.keep11 (W16 m ρ c) main_v54 (by decide))).trans (W16_of_ne m ρ c main_v54 (by decide))).trans (W15_of_ne m ρ c main_v54 (by decide))).trans (KB.keep9 (W13 m ρ c) main_v54 (by decide))).trans (W13_of_ne m ρ c main_v54 (by decide))).trans (at12_v54 m ρ c)

set_option maxHeartbeats 4000000 in
theorem at19_v71 (c : Dev nD) : W19 m ρ c (Proc.devRef .tc main_v71) = r_main_v128 (argsK m c) := by
  refine (W19_arr m ρ c 1).trans ((final12_1 (V18 m ρ) c).trans ?_)
  show tanhI (W18 m ρ c (Proc.devRef .tc main_v54)) = _
  rw [at18_v54]
  exact (tanh_v128 _).symm

end Cert.KernelIdeal.KChain

end
-- ==== Proof.RefRun.lean ====
/-
  The reference program as one straight line of host operations: the body of each outlined function
  (the two variances with their guarded quotient, the two positive parts) written out at its call over the call's own
  buffers, and the run read back — every weakly fair execution ends with each buffer at the fold of the
  operations' results over the launch contents.
-/
import proofs.«146130_j46961172414535_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The reference's 199 host operations, in order, calls written out. -/
abbrev ops : List (HloOp τ sig (Elt F)) :=
  [
    StableHlo.binary main_arg0 main_arg2 main_v0 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)),
    StableHlo.binary main_v0 main_arg5 main_v1 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg6 main_v2 (broadcastInDim S1x64 ![1] bcast_S64_S1x64_1 : (⟨S64, .f32⟩ : BufTy).Contents (Elt F) → (⟨S1x64, .f32⟩ : BufTy).Contents (Elt F)),
    StableHlo.unary main_v2 main_v3 (broadcastInDim S50000x64 ![0, 1] bcast_S1x64_S50000x64_0_1 : (⟨S1x64, .f32⟩ : BufTy).Contents (Elt F) → (⟨S50000x64, .f32⟩ : BufTy).Contents (Elt F)),
    StableHlo.binary main_v1 main_v3 main_v4 (addf : (⟨S50000x64, .f32⟩ : BufTy).Contents (Elt F) → (⟨S50000x64, .f32⟩ : BufTy).Contents (Elt F) → (⟨S50000x64, .f32⟩ : BufTy).Contents (Elt F)),
    StableHlo.binary main_v0 main_arg7 main_v5 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg8 main_v6 (broadcastInDim S1x64 ![1] bcast_S64_S1x64_1 : (⟨S64, .f32⟩ : BufTy).Contents (Elt F) → (⟨S1x64, .f32⟩ : BufTy).Contents (Elt F)),
    StableHlo.unary main_v6 main_v7 (broadcastInDim S50000x64 ![0, 1] bcast_S1x64_S50000x64_0_1 : (⟨S1x64, .f32⟩ : BufTy).Contents (Elt F) → (⟨S50000x64, .f32⟩ : BufTy).Contents (Elt F)),
    StableHlo.binary main_v5 main_v7 main_v8 (addf : (⟨S50000x64, .f32⟩ : BufTy).Contents (Elt F) → (⟨S50000x64, .f32⟩ : BufTy).Contents (Elt F) → (⟨S50000x64, .f32⟩ : BufTy).Contents (Elt F)),
    StableHlo.binary main_arg0 main_arg9 main_v9 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg10 main_v10 (broadcastInDim S1x64 ![1] bcast_S64_S1x64_1 : (⟨S64, .f32⟩ : BufTy).Contents (Elt F) → (⟨S1x64, .f32⟩ : BufTy).Contents (Elt F)),
    StableHlo.unary main_v10 main_v11 (broadcastInDim S50000x64 ![0, 1] bcast_S1x64_S50000x64_0_1 : (⟨S1x64, .f32⟩ : BufTy).Contents (Elt F) → (⟨S50000x64, .f32⟩ : BufTy).Contents (Elt F)),
    StableHlo.binary main_v9 main_v11 main_v12 (addf : (⟨S50000x64, .f32⟩ : BufTy).Contents (Elt F) → (⟨S50000x64, .f32⟩ : BufTy).Contents (Elt F) → (⟨S50000x64, .f32⟩ : BufTy).Contents (Elt F)),
    StableHlo.binary main_arg0 main_arg11 main_v13 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg12 main_v14 (broadcastInDim S1x64 ![1] bcast_S64_S1x64_1 : (⟨S64, .f32⟩ : BufTy).Contents (Elt F) → (⟨S1x64, .f32⟩ : BufTy).Contents (Elt F)),
    StableHlo.unary main_v14 main_v15 (broadcastInDim S50000x64 ![0, 1] bcast_S1x64_S50000x64_0_1 : (⟨S1x64, .f32⟩ : BufTy).Contents (Elt F) → (⟨S50000x64, .f32⟩ : BufTy).Contents (Elt F)),
    StableHlo.binary main_v13 main_v15 main_v16 (addf : (⟨S50000x64, .f32⟩ : BufTy).Contents (Elt F) → (⟨S50000x64, .f32⟩ : BufTy).Contents (Elt F) → (⟨S50000x64, .f32⟩ : BufTy).Contents (Elt F)),
    StableHlo.binary main_arg2 main_arg15 main_v17 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg16 main_v18 (broadcastInDim S1x64 ![1] bcast_S64_S1x64_1 : (⟨S64, .f32⟩ : BufTy).Contents (Elt F) → (⟨S1x64, .f32⟩ : BufTy).Contents (Elt F)),
    StableHlo.unary main_v18 main_v19 (broadcastInDim S50000x64 ![0, 1] bcast_S1x64_S50000x64_0_1 : (⟨S1x64, .f32⟩ : BufTy).Contents (Elt F) → (⟨S50000x64, .f32⟩ : BufTy).Contents (Elt F)),
    StableHlo.binary main_v17 main_v19 main_v20 (addf : (⟨S50000x64, .f32⟩ : BufTy).Contents (Elt F) → (⟨S50000x64, .f32⟩ : BufTy).Contents (Elt F) → (⟨S50000x64, .f32⟩ : BufTy).Contents (Elt F)),
    StableHlo.binary main_arg2 main_arg17 main_v21 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg18 main_v22 (broadcastInDim S1x64 ![1] bcast_S64_S1x64_1 : (⟨S64, .f32⟩ : BufTy).Contents (Elt F) → (⟨S1x64, .f32⟩ : BufTy).Contents (Elt F)),
    StableHlo.unary main_v22 main_v23 (broadcastInDim S50000x64 ![0, 1] bcast_S1x64_S50000x64_0_1 : (⟨S1x64, .f32⟩ : BufTy).Contents (Elt F) → (⟨S50000x64, .f32⟩ : BufTy).Contents (Elt F)),
    StableHlo.binary main_v21 main_v23 main_v24 (addf : (⟨S50000x64, .f32⟩ : BufTy).Contents (Elt F) → (⟨S50000x64, .f32⟩ : BufTy).Contents (Elt F) → (⟨S50000x64, .f32⟩ : BufTy).Contents (Elt F)),
    StableHlo.nullary main_c (constantI S_ 32 0#32),
    StableHlo.unary main_c main_v25 (broadcastInDim S800000 ![] bcast_S_S800000 : (⟨S_, .i32⟩ : BufTy).Contents (Elt F) → (⟨S800000, .i32⟩ : BufTy).Contents (Elt F)),
    StableHlo.binary main_arg3 main_v25 main_v26 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v27 (broadcastInDim S800000 ![] bcast_S_S800000 : (⟨S_, .i32⟩ : BufTy).Contents (Elt F) → (⟨S800000, .i32⟩ : BufTy).Contents (Elt F)),
    StableHlo.binary main_arg3 main_v27 main_v28 (addi : (⟨S800000, .i32⟩ : BufTy).Contents (Elt F) → (⟨S800000, .i32⟩ : BufTy).Contents (Elt F) → (⟨S800000, .i32⟩ : BufTy).Contents (Elt F)),
    StableHlo.ternary main_v26 main_v28 main_arg3 main_v29 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v29 main_v30 (broadcastInDim S800000x1 ![0] bcast_S800000_S800000x1_0 : (⟨S800000, .i32⟩ : BufTy).Contents (Elt F) → (⟨S800000x1, .i32⟩ : BufTy).Contents (Elt F)),
    StableHlo.binary main_v12 main_v30 main_v31 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_c_1 (constantI S_ 32 0#32),
    StableHlo.unary main_c_1 main_v32 (broadcastInDim S800000 ![] bcast_S_S800000 : (⟨S_, .i32⟩ : BufTy).Contents (Elt F) → (⟨S800000, .i32⟩ : BufTy).Contents (Elt F)),
    StableHlo.binary main_arg4 main_v32 main_v33 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 50000#32),
    StableHlo.unary main_c_2 main_v34 (broadcastInDim S800000 ![] bcast_S_S800000 : (⟨S_, .i32⟩ : BufTy).Contents (Elt F) → (⟨S800000, .i32⟩ : BufTy).Contents (Elt F)),
    StableHlo.binary main_arg4 main_v34 main_v35 (addi : (⟨S800000, .i32⟩ : BufTy).Contents (Elt F) → (⟨S800000, .i32⟩ : BufTy).Contents (Elt F) → (⟨S800000, .i32⟩ : BufTy).Contents (Elt F)),
    StableHlo.ternary main_v33 main_v35 main_arg4 main_v36 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v36 main_v37 (broadcastInDim S800000x1 ![0] bcast_S800000_S800000x1_0 : (⟨S800000, .i32⟩ : BufTy).Contents (Elt F) → (⟨S800000x1, .i32⟩ : BufTy).Contents (Elt F)),
    StableHlo.binary main_v16 main_v37 main_v38 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.binary main_v31 main_v38 main_v39 (addf : (⟨S800000x64, .f32⟩ : BufTy).Contents (Elt F) → (⟨S800000x64, .f32⟩ : BufTy).Contents (Elt F) → (⟨S800000x64, .f32⟩ : BufTy).Contents (Elt F)),
    StableHlo.binary main_arg1 main_arg13 main_v40 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    StableHlo.unary main_arg14 main_v41 (broadcastInDim S1x64 ![1] bcast_S64_S1x64_1 : (⟨S64, .f32⟩ : BufTy).Contents (Elt F) → (⟨S1x64, .f32⟩ : BufTy).Contents (Elt F)),
    StableHlo.unary main_v41 main_v42 (broadcastInDim S800000x64 ![0, 1] bcast_S1x64_S800000x64_0_1 : (⟨S1x64, .f32⟩ : BufTy).Contents (Elt F) → (⟨S800000x64, .f32⟩ : BufTy).Contents (Elt F)),
    StableHlo.binary main_v40 main_v42 main_v43 (addf : (⟨S800000x64, .f32⟩ : BufTy).Contents (Elt F) → (⟨S800000x64, .f32⟩ : BufTy).Contents (Elt F) → (⟨S800000x64, .f32⟩ : BufTy).Contents (Elt F)),
    StableHlo.binary main_v39 main_v43 main_v44 (addf : (⟨S800000x64, .f32⟩ : BufTy).Contents (Elt F) → (⟨S800000x64, .f32⟩ : BufTy).Contents (Elt F) → (⟨S800000x64, .f32⟩ : BufTy).Contents (Elt F)),
    StableHlo.unary main_v44 main_v45 (Host.negf : (⟨S800000x64, .f32⟩ : BufTy).Contents (Elt F) → (⟨S800000x64, .f32⟩ : BufTy).Contents (Elt F)),
    StableHlo.unary main_v45 main_v46 (Host.exp : (⟨S800000x64, .f32⟩ : BufTy).Contents (Elt F) → (⟨S800000x64, .f32⟩ : BufTy).Contents (Elt F)),
    StableHlo.nullary main_cst (constant S_ .f32 0x3F800000#32),
    StableHlo.unary main_cst main_v47 (broadcastInDim S800000x64 ![] bcast_S_S800000x64 : (⟨S_, .f32⟩ : BufTy).Contents (Elt F) → (⟨S800000x64, .f32⟩ : BufTy).Contents (Elt F)),
    StableHlo.binary main_v47 main_v46 main_v48 (addf : (⟨S800000x64, .f32⟩ : BufTy).Contents (Elt F) → (⟨S800000x64, .f32⟩ : BufTy).Contents (Elt F) → (⟨S800000x64, .f32⟩ : BufTy).Contents (Elt F)),
    StableHlo.nullary main_cst_3 (constant S_ .f32 0x3F800000#32),
    StableHlo.unary main_cst_3 main_v49 (broadcastInDim S800000x64 ![] bcast_S_S800000x64 : (⟨S_, .f32⟩ : BufTy).Contents (Elt F) → (⟨S800000x64, .f32⟩ : BufTy).Contents (Elt F)),
    StableHlo.binary main_v49 main_v48 main_v50 (Host.divf : (⟨S800000x64, .f32⟩ : BufTy).Contents (Elt F) → (⟨S800000x64, .f32⟩ : BufTy).Contents (Elt F) → (⟨S800000x64, .f32⟩ : BufTy).Contents (Elt F)),
    StableHlo.nullary main_cst_4 (constant S_ .f32 0x00000000#32),
    StableHlo.unary main_cst_4 main_v51 (broadcastInDim S50000x64 ![] bcast_S_S50000x64 : (⟨S_, .f32⟩ : BufTy).Contents (Elt F) → (⟨S50000x64, .f32⟩ : BufTy).Contents (Elt F)),
    StableHlo.unary main_arg4 main_v52 (broadcastInDim S800000x1 ![0] bcast_S800000_S800000x1_0 : (⟨S800000, .i32⟩ : BufTy).Contents (Elt F) → (⟨S800000x1, .i32⟩ : BufTy).Contents (Elt F)),
    StableHlo.ternary main_v51 main_v52 main_v50 main_v53 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.nullary main_c_5 (constantI S_ 32 0#32),
    StableHlo.unary main_c_5 main_v54 (broadcastInDim S800000 ![] bcast_S_S800000 : (⟨S_, .i32⟩ : BufTy).Contents (Elt F) → (⟨S800000, .i32⟩ : BufTy).Contents (Elt F)),
    StableHlo.binary main_arg4 main_v54 main_v55 (cmpi .slt : (⟨S800000, .i32⟩ : BufTy).Contents (Elt F) → (⟨S800000, .i32⟩ : BufTy).Contents (Elt F) → (⟨S800000, .i1⟩ : BufTy).Contents (Elt F)),
    StableHlo.nullary main_c_6 (constantI S_ 32 50000#32),
    StableHlo.unary main_c_6 main_v56 (broadcastInDim S800000 ![] bcast_S_S800000 : (⟨S_, .i32⟩ : BufTy).Contents (Elt F) → (⟨S800000, .i32⟩ : BufTy).Contents (Elt F)),
    StableHlo.binary main_arg4 main_v56 main_v57 (addi : (⟨S800000, .i32⟩ : BufTy).Contents (Elt F) → (⟨S800000, .i32⟩ : BufTy).Contents (Elt F) → (⟨S800000, .i32⟩ : BufTy).Contents (Elt F)),
    StableHlo.ternary main_v55 main_v57 main_arg4 main_v58 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v58 main_v59 (broadcastInDim S800000x1 ![0] bcast_S800000_S800000x1_0 : (⟨S800000, .i32⟩ : BufTy).Contents (Elt F) → (⟨S800000x1, .i32⟩ : BufTy).Contents (Elt F)),
    StableHlo.binary main_v53 main_v59 main_v60 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_cst_7 (constant S_ .f32 0x358637BD#32),
    StableHlo.unary main_cst_7 main_v61 (broadcastInDim S800000x64 ![] bcast_S_S800000x64 : (⟨S_, .f32⟩ : BufTy).Contents (Elt F) → (⟨S800000x64, .f32⟩ : BufTy).Contents (Elt F)),
    StableHlo.binary main_v60 main_v61 main_v62 (addf : (⟨S800000x64, .f32⟩ : BufTy).Contents (Elt F) → (⟨S800000x64, .f32⟩ : BufTy).Contents (Elt F) → (⟨S800000x64, .f32⟩ : BufTy).Contents (Elt F)),
    StableHlo.binary main_v50 main_v62 main_v63 (Host.divf : (⟨S800000x64, .f32⟩ : BufTy).Contents (Elt F) → (⟨S800000x64, .f32⟩ : BufTy).Contents (Elt F) → (⟨S800000x64, .f32⟩ : BufTy).Contents (Elt F)),
    StableHlo.nullary main_c_8 (constantI S_ 32 0#32),
    StableHlo.unary main_c_8 main_v64 (broadcastInDim S800000 ![] bcast_S_S800000 : (⟨S_, .i32⟩ : BufTy).Contents (Elt F) → (⟨S800000, .i32⟩ : BufTy).Contents (Elt F)),
    StableHlo.binary main_arg3 main_v64 main_v65 (cmpi .slt : (⟨S800000, .i32⟩ : BufTy).Contents (Elt F) → (⟨S800000, .i32⟩ : BufTy).Contents (Elt F) → (⟨S800000, .i1⟩ : BufTy).Contents (Elt F)),
    StableHlo.nullary main_c_9 (constantI S_ 32 50000#32),
    StableHlo.unary main_c_9 main_v66 (broadcastInDim S800000 ![] bcast_S_S800000 : (⟨S_, .i32⟩ : BufTy).Contents (Elt F) → (⟨S800000, .i32⟩ : BufTy).Contents (Elt F)),
    StableHlo.binary main_arg3 main_v66 main_v67 (addi : (⟨S800000, .i32⟩ : BufTy).Contents (Elt F) → (⟨S800000, .i32⟩ : BufTy).Contents (Elt F) → (⟨S800000, .i32⟩ : BufTy).Contents (Elt F)),
    StableHlo.ternary main_v65 main_v67 main_arg3 main_v68 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v68 main_v69 (broadcastInDim S800000x1 ![0] bcast_S800000_S800000x1_0 : (⟨S800000, .i32⟩ : BufTy).Contents (Elt F) → (⟨S800000x1, .i32⟩ : BufTy).Contents (Elt F)),
    StableHlo.binary main_v8 main_v69 main_v70 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.binary main_v63 main_v70 main_v71 (mulf : (⟨S800000x64, .f32⟩ : BufTy).Contents (Elt F) → (⟨S800000x64, .f32⟩ : BufTy).Contents (Elt F) → (⟨S800000x64, .f32⟩ : BufTy).Contents (Elt F)),
    StableHlo.nullary main_cst_10 (constant S_ .f32 0x00000000#32),
    StableHlo.unary main_cst_10 main_v72 (broadcastInDim S50000x64 ![] bcast_S_S50000x64 : (⟨S_, .f32⟩ : BufTy).Contents (Elt F) → (⟨S50000x64, .f32⟩ : BufTy).Contents (Elt F)),
    StableHlo.unary main_arg4 main_v73 (broadcastInDim S800000x1 ![0] bcast_S800000_S800000x1_0 : (⟨S800000, .i32⟩ : BufTy).Contents (Elt F) → (⟨S800000x1, .i32⟩ : BufTy).Contents (Elt F)),
    StableHlo.ternary main_v72 main_v73 main_v71 main_v74 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.binary main_v4 main_v74 main_v75 (addf : (⟨S50000x64, .f32⟩ : BufTy).Contents (Elt F) → (⟨S50000x64, .f32⟩ : BufTy).Contents (Elt F) → (⟨S50000x64, .f32⟩ : BufTy).Contents (Elt F)),
    StableHlo.nullary main_c_11 (constantI S_ 32 0#32),
    StableHlo.unary main_c_11 main_v76 (broadcastInDim S800000 ![] bcast_S_S800000 : (⟨S_, .i32⟩ : BufTy).Contents (Elt F) → (⟨S800000, .i32⟩ : BufTy).Contents (Elt F)),
    StableHlo.binary main_arg3 main_v76 main_v77 (cmpi .slt : (⟨S800000, .i32⟩ : BufTy).Contents (Elt F) → (⟨S800000, .i32⟩ : BufTy).Contents (Elt F) → (⟨S800000, .i1⟩ : BufTy).Contents (Elt F)),
    StableHlo.nullary main_c_12 (constantI S_ 32 50000#32),
    StableHlo.unary main_c_12 main_v78 (broadcastInDim S800000 ![] bcast_S_S800000 : (⟨S_, .i32⟩ : BufTy).Contents (Elt F) → (⟨S800000, .i32⟩ : BufTy).Contents (Elt F)),
    StableHlo.binary main_arg3 main_v78 main_v79 (addi : (⟨S800000, .i32⟩ : BufTy).Contents (Elt F) → (⟨S800000, .i32⟩ : BufTy).Contents (Elt F) → (⟨S800000, .i32⟩ : BufTy).Contents (Elt F)),
    StableHlo.ternary main_v77 main_v79 main_arg3 main_v80 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v80 main_v81 (broadcastInDim S800000x1 ![0] bcast_S800000_S800000x1_0 : (⟨S800000, .i32⟩ : BufTy).Contents (Elt F) → (⟨S800000x1, .i32⟩ : BufTy).Contents (Elt F)),
    StableHlo.binary main_v24 main_v81 main_v82 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.binary main_v63 main_v82 main_v83 (mulf : (⟨S800000x64, .f32⟩ : BufTy).Contents (Elt F) → (⟨S800000x64, .f32⟩ : BufTy).Contents (Elt F) → (⟨S800000x64, .f32⟩ : BufTy).Contents (Elt F)),
    StableHlo.nullary main_cst_13 (constant S_ .f32 0x00000000#32),
    StableHlo.unary main_cst_13 main_v84 (broadcastInDim S50000x64 ![] bcast_S_S50000x64 : (⟨S_, .f32⟩ : BufTy).Contents (Elt F) → (⟨S50000x64, .f32⟩ : BufTy).Contents (Elt F)),
    StableHlo.unary main_arg4 main_v85 (broadcastInDim S800000x1 ![0] bcast_S800000_S800000x1_0 : (⟨S800000, .i32⟩ : BufTy).Contents (Elt F) → (⟨S800000x1, .i32⟩ : BufTy).Contents (Elt F)),
    StableHlo.ternary main_v84 main_v85 main_v83 main_v86 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.binary main_v20 main_v86 main_v87 (addf : (⟨S50000x64, .f32⟩ : BufTy).Contents (Elt F) → (⟨S50000x64, .f32⟩ : BufTy).Contents (Elt F) → (⟨S50000x64, .f32⟩ : BufTy).Contents (Elt F)),
    StableHlo.nullary main_cst_14 (constant S_ .f32 0x00000000#32),
    StableHlo.binary main_v75 main_cst_14 main_v88 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_15 (constant S_ .f32 0x47435000#32),
    StableHlo.unary main_cst_15 main_v89 (broadcastInDim S64 ![] bcast_S_S64 : (⟨S_, .f32⟩ : BufTy).Contents (Elt F) → (⟨S64, .f32⟩ : BufTy).Contents (Elt F)),
    StableHlo.binary main_v88 main_v89 main_v90 (Host.divf : (⟨S64, .f32⟩ : BufTy).Contents (Elt F) → (⟨S64, .f32⟩ : BufTy).Contents (Elt F) → (⟨S64, .f32⟩ : BufTy).Contents (Elt F)),
    StableHlo.nullary main_c_16 (constantI S_ 32 0#32),
    StableHlo.TRef.nullary main_call0.cst (constant S_ .f32 0x00000000#32),
    StableHlo.TRef.binary (.of main_v75) main_call0.cst main_call0.v0 (fun x v => Host.reduceAdd x v reducesTo_S50000x64_S64_d0 h_S_),
    StableHlo.TRef.unary main_call0.v0 main_call0.v1 (broadcastInDim S1x64 ![1] bcast_S64_S1x64_1),
    StableHlo.TRef.nullary main_call0.cst_0 (constant S_ .f32 0x47435000#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S50000x64 ![0, 1] bcast_S1x64_S50000x64_0_1),
    StableHlo.TRef.binary (.of main_v75) main_call0.v4 main_call0.v5 subf,
    StableHlo.TRef.binary main_call0.v5 main_call0.v5 main_call0.v6 mulf,
    StableHlo.TRef.unary (.of main_c_16) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x64_S64_d0 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64 ![] bcast_S_S64),
    StableHlo.TRef.ternary main_call0.v12 main_call0.v11 main_call0.call0.v1 main_call0.call0.v2 (fun p a b => select (broadcastInDim S64 ![] bcast_S_S64 p) a b),
    StableHlo.unary main_v90 main_v92 (broadcastInDim S1x64 ![1] bcast_S64_S1x64_1 : (⟨S64, .f32⟩ : BufTy).Contents (Elt F) → (⟨S1x64, .f32⟩ : BufTy).Contents (Elt F)),
    StableHlo.unary main_v92 main_v93 (broadcastInDim S50000x64 ![0, 1] bcast_S1x64_S50000x64_0_1 : (⟨S1x64, .f32⟩ : BufTy).Contents (Elt F) → (⟨S50000x64, .f32⟩ : BufTy).Contents (Elt F)),
    StableHlo.binary main_v75 main_v93 main_v94 (subf : (⟨S50000x64, .f32⟩ : BufTy).Contents (Elt F) → (⟨S50000x64, .f32⟩ : BufTy).Contents (Elt F) → (⟨S50000x64, .f32⟩ : BufTy).Contents (Elt F)),
    StableHlo.unary main_arg19 main_v95 (broadcastInDim S1x64 ![1] bcast_S64_S1x64_1 : (⟨S64, .f32⟩ : BufTy).Contents (Elt F) → (⟨S1x64, .f32⟩ : BufTy).Contents (Elt F)),
    StableHlo.unary main_v95 main_v96 (broadcastInDim S50000x64 ![0, 1] bcast_S1x64_S50000x64_0_1 : (⟨S1x64, .f32⟩ : BufTy).Contents (Elt F) → (⟨S50000x64, .f32⟩ : BufTy).Contents (Elt F)),
    StableHlo.binary main_v96 main_v94 main_v97 (mulf : (⟨S50000x64, .f32⟩ : BufTy).Contents (Elt F) → (⟨S50000x64, .f32⟩ : BufTy).Contents (Elt F) → (⟨S50000x64, .f32⟩ : BufTy).Contents (Elt F)),
    StableHlo.nullary main_cst_17 (constant S_ .f32 0x3727C5AC#32),
    StableHlo.unary main_cst_17 main_v98 (broadcastInDim S64 ![] bcast_S_S64 : (⟨S_, .f32⟩ : BufTy).Contents (Elt F) → (⟨S64, .f32⟩ : BufTy).Contents (Elt F)),
    StableHlo.binary main_v91 main_v98 main_v99 (addf : (⟨S64, .f32⟩ : BufTy).Contents (Elt F) → (⟨S64, .f32⟩ : BufTy).Contents (Elt F) → (⟨S64, .f32⟩ : BufTy).Contents (Elt F)),
    StableHlo.unary main_v99 main_v100 (Host.rsqrt : (⟨S64, .f32⟩ : BufTy).Contents (Elt F) → (⟨S64, .f32⟩ : BufTy).Contents (Elt F)),
    StableHlo.unary main_v100 main_v101 (broadcastInDim S1x64 ![1] bcast_S64_S1x64_1 : (⟨S64, .f32⟩ : BufTy).Contents (Elt F) → (⟨S1x64, .f32⟩ : BufTy).Contents (Elt F)),
    StableHlo.unary main_v101 main_v102 (broadcastInDim S50000x64 ![0, 1] bcast_S1x64_S50000x64_0_1 : (⟨S1x64, .f32⟩ : BufTy).Contents (Elt F) → (⟨S50000x64, .f32⟩ : BufTy).Contents (Elt F)),
    StableHlo.binary main_v97 main_v102 main_v103 (mulf : (⟨S50000x64, .f32⟩ : BufTy).Contents (Elt F) → (⟨S50000x64, .f32⟩ : BufTy).Contents (Elt F) → (⟨S50000x64, .f32⟩ : BufTy).Contents (Elt F)),
    StableHlo.unary main_arg20 main_v104 (broadcastInDim S1x64 ![1] bcast_S64_S1x64_1 : (⟨S64, .f32⟩ : BufTy).Contents (Elt F) → (⟨S1x64, .f32⟩ : BufTy).Contents (Elt F)),
    StableHlo.unary main_v104 main_v105 (broadcastInDim S50000x64 ![0, 1] bcast_S1x64_S50000x64_0_1 : (⟨S1x64, .f32⟩ : BufTy).Contents (Elt F) → (⟨S50000x64, .f32⟩ : BufTy).Contents (Elt F)),
    StableHlo.binary main_v103 main_v105 main_v106 (addf : (⟨S50000x64, .f32⟩ : BufTy).Contents (Elt F) → (⟨S50000x64, .f32⟩ : BufTy).Contents (Elt F) → (⟨S50000x64, .f32⟩ : BufTy).Contents (Elt F)),
    StableHlo.TRef.nullary main_call1.cst (constant S_ .f32 0x00000000#32),
    StableHlo.TRef.unary main_call1.cst main_call1.v0 (broadcastInDim S50000x64 ![] bcast_S_S50000x64),
    StableHlo.TRef.binary (.of main_v106) main_call1.v0 main_call1.v1 maximumf,
    StableHlo.nullary main_cst_18 (constant S_ .f32 0x00000000#32),
    StableHlo.binary main_v44 main_cst_18 main_v108 ((fun x v => Host.reduceAdd x v reducesTo_S800000x64_S64_d0 h_S_) : (⟨S800000x64, .f32⟩ : BufTy).Contents (Elt F) → (⟨S_, .f32⟩ : BufTy).Contents (Elt F) → (⟨S64, .f32⟩ : BufTy).Contents (Elt F)),
    StableHlo.nullary main_cst_19 (constant S_ .f32 0x49435000#32),
    StableHlo.unary main_cst_19 main_v109 (broadcastInDim S64 ![] bcast_S_S64 : (⟨S_, .f32⟩ : BufTy).Contents (Elt F) → (⟨S64, .f32⟩ : BufTy).Contents (Elt F)),
    StableHlo.binary main_v108 main_v109 main_v110 (Host.divf : (⟨S64, .f32⟩ : BufTy).Contents (Elt F) → (⟨S64, .f32⟩ : BufTy).Contents (Elt F) → (⟨S64, .f32⟩ : BufTy).Contents (Elt F)),
    StableHlo.nullary main_c_20 (constantI S_ 32 0#32),
    StableHlo.TRef.nullary main_call2.cst (constant S_ .f32 0x00000000#32),
    StableHlo.TRef.binary (.of main_v44) main_call2.cst main_call2.v0 (fun x v => Host.reduceAdd x v reducesTo_S800000x64_S64_d0 h_S_),
    StableHlo.TRef.unary main_call2.v0 main_call2.v1 (broadcastInDim S1x64 ![1] bcast_S64_S1x64_1),
    StableHlo.TRef.nullary main_call2.cst_0 (constant S_ .f32 0x49435000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S800000x64 ![0, 1] bcast_S1x64_S800000x64_0_1),
    StableHlo.TRef.binary (.of main_v44) main_call2.v4 main_call2.v5 subf,
    StableHlo.TRef.binary main_call2.v5 main_call2.v5 main_call2.v6 mulf,
    StableHlo.TRef.unary (.of main_c_20) main_call2.v7 (sitofp .f32),
    StableHlo.TRef.nullary main_call2.cst_1 (constant S_ .f32 0x49435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S800000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b),
    StableHlo.unary main_v110 main_v112 (broadcastInDim S1x64 ![1] bcast_S64_S1x64_1 : (⟨S64, .f32⟩ : BufTy).Contents (Elt F) → (⟨S1x64, .f32⟩ : BufTy).Contents (Elt F)),
    StableHlo.unary main_v112 main_v113 (broadcastInDim S800000x64 ![0, 1] bcast_S1x64_S800000x64_0_1 : (⟨S1x64, .f32⟩ : BufTy).Contents (Elt F) → (⟨S800000x64, .f32⟩ : BufTy).Contents (Elt F)),
    StableHlo.binary main_v44 main_v113 main_v114 (subf : (⟨S800000x64, .f32⟩ : BufTy).Contents (Elt F) → (⟨S800000x64, .f32⟩ : BufTy).Contents (Elt F) → (⟨S800000x64, .f32⟩ : BufTy).Contents (Elt F)),
    StableHlo.unary main_arg21 main_v115 (broadcastInDim S1x64 ![1] bcast_S64_S1x64_1 : (⟨S64, .f32⟩ : BufTy).Contents (Elt F) → (⟨S1x64, .f32⟩ : BufTy).Contents (Elt F)),
    StableHlo.unary main_v115 main_v116 (broadcastInDim S800000x64 ![0, 1] bcast_S1x64_S800000x64_0_1 : (⟨S1x64, .f32⟩ : BufTy).Contents (Elt F) → (⟨S800000x64, .f32⟩ : BufTy).Contents (Elt F)),
    StableHlo.binary main_v116 main_v114 main_v117 (mulf : (⟨S800000x64, .f32⟩ : BufTy).Contents (Elt F) → (⟨S800000x64, .f32⟩ : BufTy).Contents (Elt F) → (⟨S800000x64, .f32⟩ : BufTy).Contents (Elt F)),
    StableHlo.nullary main_cst_21 (constant S_ .f32 0x3727C5AC#32),
    StableHlo.unary main_cst_21 main_v118 (broadcastInDim S64 ![] bcast_S_S64 : (⟨S_, .f32⟩ : BufTy).Contents (Elt F) → (⟨S64, .f32⟩ : BufTy).Contents (Elt F)),
    StableHlo.binary main_v111 main_v118 main_v119 (addf : (⟨S64, .f32⟩ : BufTy).Contents (Elt F) → (⟨S64, .f32⟩ : BufTy).Contents (Elt F) → (⟨S64, .f32⟩ : BufTy).Contents (Elt F)),
    StableHlo.unary main_v119 main_v120 (Host.rsqrt : (⟨S64, .f32⟩ : BufTy).Contents (Elt F) → (⟨S64, .f32⟩ : BufTy).Contents (Elt F)),
    StableHlo.unary main_v120 main_v121 (broadcastInDim S1x64 ![1] bcast_S64_S1x64_1 : (⟨S64, .f32⟩ : BufTy).Contents (Elt F) → (⟨S1x64, .f32⟩ : BufTy).Contents (Elt F)),
    StableHlo.unary main_v121 main_v122 (broadcastInDim S800000x64 ![0, 1] bcast_S1x64_S800000x64_0_1 : (⟨S1x64, .f32⟩ : BufTy).Contents (Elt F) → (⟨S800000x64, .f32⟩ : BufTy).Contents (Elt F)),
    StableHlo.binary main_v117 main_v122 main_v123 (mulf : (⟨S800000x64, .f32⟩ : BufTy).Contents (Elt F) → (⟨S800000x64, .f32⟩ : BufTy).Contents (Elt F) → (⟨S800000x64, .f32⟩ : BufTy).Contents (Elt F)),
    StableHlo.unary main_arg22 main_v124 (broadcastInDim S1x64 ![1] bcast_S64_S1x64_1 : (⟨S64, .f32⟩ : BufTy).Contents (Elt F) → (⟨S1x64, .f32⟩ : BufTy).Contents (Elt F)),
    StableHlo.unary main_v124 main_v125 (broadcastInDim S800000x64 ![0, 1] bcast_S1x64_S800000x64_0_1 : (⟨S1x64, .f32⟩ : BufTy).Contents (Elt F) → (⟨S800000x64, .f32⟩ : BufTy).Contents (Elt F)),
    StableHlo.binary main_v123 main_v125 main_v126 (addf : (⟨S800000x64, .f32⟩ : BufTy).Contents (Elt F) → (⟨S800000x64, .f32⟩ : BufTy).Contents (Elt F) → (⟨S800000x64, .f32⟩ : BufTy).Contents (Elt F)),
    StableHlo.TRef.nullary main_call3.cst (constant S_ .f32 0x00000000#32),
    StableHlo.TRef.unary main_call3.cst main_call3.v0 (broadcastInDim S800000x64 ![] bcast_S_S800000x64),
    StableHlo.TRef.binary (.of main_v126) main_call3.v0 main_call3.v1 maximumf,
    StableHlo.unary main_v87 main_v128 (Host.tanh : (⟨S50000x64, .f32⟩ : BufTy).Contents (Elt F) → (⟨S50000x64, .f32⟩ : BufTy).Contents (Elt F)) ]

set_option maxRecDepth 8192 in
set_option maxHeartbeats 4000000 in
/-- The reference is that straight line: the outlined functions unfolded at their calls, sequencing reassociated. -/
theorem main_eq (c : Dev nD) : main (F := F) c = seq ops := by
  simp only [main, main_part0, main_part1, main_part2, fn_var.body, fn_var_0.body, fn_where.body, fn_relu.body, fn_relu_1.body,
    seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., unary_bufs_sub ..⟩

set_option maxRecDepth 8192 in
set_option maxHeartbeats 4000000 in
/-- Every weakly fair execution of the reference terminates, and every final state has each buffer at the
    operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefOut.lean ====
/-
  The reference's run read at its three results and at its arguments: each result buffer ends at its definition's value
  of the argument arrays, and no operation writes an argument.
-/
import proofs.«146130_j46961172414535_2_alg».proof.Proof.RefRun
import proofs.«146130_j46961172414535_2_alg».proof.Proof.RefSpec
import proofs.«146130_j46961172414535_2_alg».proof.Proof.Gen.Pre_finite_inputs
import proofs.«146130_j46961172414535_2_alg».proof.Defs

set_option maxRecDepth 16384

noncomputable section

namespace Cert.ReferenceIdeal.RefOut

open Cert.ReferenceIdeal Cert.ReferenceIdeal.Gen Cert.ReferenceIdeal.RefRun Cert.ReferenceIdeal.RefSpec
open Idealize.ShloMosaic Idealize.ShloMosaic.TcCoe Idealize.SL.Sem Idealize.ShloMosaic.StableHlo

variable {F : FTy → Type} [FloatOps F]

/-! ## The three results -/

set_option maxHeartbeats 4000000 in
/-- The buffer of result v107 ends at its definition's value of the argument arrays. -/
theorem out_v107 (V : Valuation τ sig (Elt F)) : after ops V (main_v107 : DevRef τ sig) = r_main_v107 (argsOf V) := by
  after_results_simp
  rfl

set_option maxHeartbeats 4000000 in
/-- The buffer of result v127 ends at its definition's value of the argument arrays. -/
theorem out_v127 (V : Valuation τ sig (Elt F)) : after ops V (main_v127 : DevRef τ sig) = r_main_v127 (argsOf V) := by
  after_results_simp
  rfl

set_option maxHeartbeats 4000000 in
/-- The buffer of result v128 ends at its definition's value of the argument arrays. -/
theorem out_v128 (V : Valuation τ sig (Elt F)) : after ops V (main_v128 : DevRef τ sig) = r_main_v128 (argsOf V) := by
  after_results_simp
  rfl

/-! ## The arguments are kept -/

/-- The buffers the reference's operations write, one per operation, in order. -/
noncomputable def written : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_c, main_v25, main_v26, main_c_0, main_v27, main_v28, main_v29, main_v30, main_v31, main_c_1, main_v32, main_v33, main_c_2, main_v34, main_v35, main_v36, main_v37, main_v38, main_v39, main_v40, main_v41, main_v42, main_v43, main_v44, main_v45, main_v46, main_cst, main_v47, main_v48, main_cst_3, main_v49, main_v50, main_cst_4, main_v51, main_v52, main_v53, main_c_5, main_v54, main_v55, main_c_6, main_v56, main_v57, main_v58, main_v59, main_v60, main_cst_7, main_v61, main_v62, main_v63, main_c_8, main_v64, main_v65, main_c_9, main_v66, main_v67, main_v68, main_v69, main_v70, main_v71, main_cst_10, main_v72, main_v73, main_v74, main_v75, main_c_11, main_v76, main_v77, main_c_12, main_v78, main_v79, main_v80, main_v81, main_v82, main_v83, main_cst_13, main_v84, main_v85, main_v86, main_v87, main_cst_14, main_v88, main_cst_15, main_v89, main_v90, main_c_16, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v91, main_v92, main_v93, main_v94, main_v95, main_v96, main_v97, main_cst_17, main_v98, main_v99, main_v100, main_v101, main_v102, main_v103, main_v104, main_v105, main_v106, main_call1_cst, main_call1_v0, main_v107, main_cst_18, main_v108, main_cst_19, main_v109, main_v110, main_c_20, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v111, main_v112, main_v113, main_v114, main_v115, main_v116, main_v117, main_cst_21, main_v118, main_v119, main_v120, main_v121, main_v122, main_v123, main_v124, main_v125, main_v126, main_call3_cst, main_call3_v0, main_v127, main_v128]

set_option maxHeartbeats 4000000 in
/-- Every operation writes only its own result buffer, which is in the list. -/
theorem hW : (ops : List (HloOp τ sig (Elt F))).Forall fun op => op.writes ⊆ (written.map (Proc.devRef (τ := τ) .tc)).toFinset := by
  simp only [ops, List.Forall, StableHlo.nullary_writes, StableHlo.unary_writes, StableHlo.binary_writes, StableHlo.ternary_writes, Finset.singleton_subset_iff]
  repeat' apply And.intro
  all_goals exact List.mem_toFinset.mpr (List.mem_map.mpr ⟨_, by decide, rfl⟩)

/-- A buffer no operation writes holds after the run what it held before. -/
theorem kept (V : Valuation τ sig (Elt F)) (r : Ref sig .tc) (hr : r ∉ written) :
    after ops V (Proc.devRef .tc r) = V (Proc.devRef .tc r) :=
  after_of_writes_sub ops V hW hr

theorem kept_arg0 (V : Valuation τ sig (Elt F)) : after ops V (main_arg0 : DevRef τ sig) = V (main_arg0 : DevRef τ sig) :=
  kept V main_arg0 (by decide)
theorem kept_arg1 (V : Valuation τ sig (Elt F)) : after ops V (main_arg1 : DevRef τ sig) = V (main_arg1 : DevRef τ sig) :=
  kept V main_arg1 (by decide)
theorem kept_arg2 (V : Valuation τ sig (Elt F)) : after ops V (main_arg2 : DevRef τ sig) = V (main_arg2 : DevRef τ sig) :=
  kept V main_arg2 (by decide)
theorem kept_arg3 (V : Valuation τ sig (Elt F)) : after ops V (main_arg3 : DevRef τ sig) = V (main_arg3 : DevRef τ sig) :=
  kept V main_arg3 (by decide)
theorem kept_arg4 (V : Valuation τ sig (Elt F)) : after ops V (main_arg4 : DevRef τ sig) = V (main_arg4 : DevRef τ sig) :=
  kept V main_arg4 (by decide)
theorem kept_arg5 (V : Valuation τ sig (Elt F)) : after ops V (main_arg5 : DevRef τ sig) = V (main_arg5 : DevRef τ sig) :=
  kept V main_arg5 (by decide)
theorem kept_arg6 (V : Valuation τ sig (Elt F)) : after ops V (main_arg6 : DevRef τ sig) = V (main_arg6 : DevRef τ sig) :=
  kept V main_arg6 (by decide)
theorem kept_arg7 (V : Valuation τ sig (Elt F)) : after ops V (main_arg7 : DevRef τ sig) = V (main_arg7 : DevRef τ sig) :=
  kept V main_arg7 (by decide)
theorem kept_arg8 (V : Valuation τ sig (Elt F)) : after ops V (main_arg8 : DevRef τ sig) = V (main_arg8 : DevRef τ sig) :=
  kept V main_arg8 (by decide)
theorem kept_arg9 (V : Valuation τ sig (Elt F)) : after ops V (main_arg9 : DevRef τ sig) = V (main_arg9 : DevRef τ sig) :=
  kept V main_arg9 (by decide)
theorem kept_arg10 (V : Valuation τ sig (Elt F)) : after ops V (main_arg10 : DevRef τ sig) = V (main_arg10 : DevRef τ sig) :=
  kept V main_arg10 (by decide)
theorem kept_arg11 (V : Valuation τ sig (Elt F)) : after ops V (main_arg11 : DevRef τ sig) = V (main_arg11 : DevRef τ sig) :=
  kept V main_arg11 (by decide)
theorem kept_arg12 (V : Valuation τ sig (Elt F)) : after ops V (main_arg12 : DevRef τ sig) = V (main_arg12 : DevRef τ sig) :=
  kept V main_arg12 (by decide)
theorem kept_arg13 (V : Valuation τ sig (Elt F)) : after ops V (main_arg13 : DevRef τ sig) = V (main_arg13 : DevRef τ sig) :=
  kept V main_arg13 (by decide)
theorem kept_arg14 (V : Valuation τ sig (Elt F)) : after ops V (main_arg14 : DevRef τ sig) = V (main_arg14 : DevRef τ sig) :=
  kept V main_arg14 (by decide)
theorem kept_arg15 (V : Valuation τ sig (Elt F)) : after ops V (main_arg15 : DevRef τ sig) = V (main_arg15 : DevRef τ sig) :=
  kept V main_arg15 (by decide)
theorem kept_arg16 (V : Valuation τ sig (Elt F)) : after ops V (main_arg16 : DevRef τ sig) = V (main_arg16 : DevRef τ sig) :=
  kept V main_arg16 (by decide)
theorem kept_arg17 (V : Valuation τ sig (Elt F)) : after ops V (main_arg17 : DevRef τ sig) = V (main_arg17 : DevRef τ sig) :=
  kept V main_arg17 (by decide)
theorem kept_arg18 (V : Valuation τ sig (Elt F)) : after ops V (main_arg18 : DevRef τ sig) = V (main_arg18 : DevRef τ sig) :=
  kept V main_arg18 (by decide)
theorem kept_arg19 (V : Valuation τ sig (Elt F)) : after ops V (main_arg19 : DevRef τ sig) = V (main_arg19 : DevRef τ sig) :=
  kept V main_arg19 (by decide)
theorem kept_arg20 (V : Valuation τ sig (Elt F)) : after ops V (main_arg20 : DevRef τ sig) = V (main_arg20 : DevRef τ sig) :=
  kept V main_arg20 (by decide)
theorem kept_arg21 (V : Valuation τ sig (Elt F)) : after ops V (main_arg21 : DevRef τ sig) = V (main_arg21 : DevRef τ sig) :=
  kept V main_arg21 (by decide)
theorem kept_arg22 (V : Valuation τ sig (Elt F)) : after ops V (main_arg22 : DevRef τ sig) = V (main_arg22 : DevRef τ sig) :=
  kept V main_arg22 (by decide)

/-! ## The run read at the results and the arguments -/

/-- Every weakly fair execution of the reference terminates with the three results at their definitions' values of the
    launch contents of the arguments, and with the arguments unchanged. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v107) = r_main_v107 (argsOf (launchContents m c))
      ∧ r.2.mem ((c.tc : Thread nD τ).loc main_v127) = r_main_v127 (argsOf (launchContents m c))
      ∧ r.2.mem ((c.tc : Thread nD τ).loc main_v128) = r_main_v128 (argsOf (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  (θ_run defs _ _).mono (fun _ h c =>
    ⟨(h c main_v107).trans (out_v107 _), (h c main_v127).trans (out_v127 _), (h c main_v128).trans (out_v128 _),
     (h c main_arg0).trans (kept_arg0 _),
     (h c main_arg1).trans (kept_arg1 _),
     (h c main_arg2).trans (kept_arg2 _),
     (h c main_arg3).trans (kept_arg3 _),
     (h c main_arg4).trans (kept_arg4 _),
     (h c main_arg5).trans (kept_arg5 _),
     (h c main_arg6).trans (kept_arg6 _),
     (h c main_arg7).trans (kept_arg7 _),
     (h c main_arg8).trans (kept_arg8 _),
     (h c main_arg9).trans (kept_arg9 _),
     (h c main_arg10).trans (kept_arg10 _),
     (h c main_arg11).trans (kept_arg11 _),
     (h c main_arg12).trans (kept_arg12 _),
     (h c main_arg13).trans (kept_arg13 _),
     (h c main_arg14).trans (kept_arg14 _),
     (h c main_arg15).trans (kept_arg15 _),
     (h c main_arg16).trans (kept_arg16 _),
     (h c main_arg17).trans (kept_arg17 _),
     (h c main_arg18).trans (kept_arg18 _),
     (h c main_arg19).trans (kept_arg19 _),
     (h c main_arg20).trans (kept_arg20 _),
     (h c main_arg21).trans (kept_arg21 _),
     (h c main_arg22).trans (kept_arg22 _)⟩) (run_main m ρ)

/-- The reference's frame: it runs, and its argument arrays end unchanged. -/
theorem frame_ri : @Cert.frame_ReferenceIdeal Cert.ReferenceIdeal.Gen.facts Cert.Pre_finite_inputs.Gen.facts :=
  fun m ρ _ => (θ_run Cert.ReferenceIdeal.defs _ _).mono (fun _ h c =>
    ⟨(h c main_arg0).trans (kept_arg0 _),
     (h c main_arg1).trans (kept_arg1 _),
     (h c main_arg2).trans (kept_arg2 _),
     (h c main_arg3).trans (kept_arg3 _),
     (h c main_arg4).trans (kept_arg4 _),
     (h c main_arg5).trans (kept_arg5 _),
     (h c main_arg6).trans (kept_arg6 _),
     (h c main_arg7).trans (kept_arg7 _),
     (h c main_arg8).trans (kept_arg8 _),
     (h c main_arg9).trans (kept_arg9 _),
     (h c main_arg10).trans (kept_arg10 _),
     (h c main_arg11).trans (kept_arg11 _),
     (h c main_arg12).trans (kept_arg12 _),
     (h c main_arg13).trans (kept_arg13 _),
     (h c main_arg14).trans (kept_arg14 _),
     (h c main_arg15).trans (kept_arg15 _),
     (h c main_arg16).trans (kept_arg16 _),
     (h c main_arg17).trans (kept_arg17 _),
     (h c main_arg18).trans (kept_arg18 _),
     (h c main_arg19).trans (kept_arg19 _),
     (h c main_arg20).trans (kept_arg20 _),
     (h c main_arg21).trans (kept_arg21 _),
     (h c main_arg22).trans (kept_arg22 _)⟩) (run_main (F := Ideal) m ρ)

end Cert.ReferenceIdeal.RefOut

end
-- ==== Proof.Assemble.lean ====
/-
  The assembly: from the idealized kernel's run, with its three result arrays identified with the reference's three result
  functions of the launch arguments, and the reference's run, whose results are those functions of its own arguments,
  the two programs started from memories that agree on the arguments end with equal results. Also the two kernel frames,
  which are the generated ones, and the idealization's ledger, which is empty.
-/
import proofs.«146130_j46961172414535_2_alg».proof.Defs
import proofs.«146130_j46961172414535_2_alg».proof.Proof.Gen.Kernel.Frame
import proofs.«146130_j46961172414535_2_alg».proof.Proof.Gen.KernelIdeal.Frame
import proofs.«146130_j46961172414535_2_alg».proof.Proof.KRun
import proofs.«146130_j46961172414535_2_alg».proof.Proof.RefSpec
import proofs.«146130_j46961172414535_2_alg».proof.Proof.RefFinite
import proofs.«146130_j46961172414535_2_alg».proof.Proof.KChainA
import proofs.«146130_j46961172414535_2_alg».proof.Proof.RefOut

noncomputable section

namespace Cert.Proof.Assemble

open Idealize.ShloMosaic Idealize.ShloMosaic.TcCoe Idealize.SL.Sem Idealize.ShloMosaic.StableHlo
open Cert.ReferenceIdeal.RefSpec Cert.ReferenceIdeal.RefFinite Cert.KernelIdeal.KChain

/-- The fifth conjunct, from the kernel's three result arrays as the reference's result functions of the launch arguments. -/
theorem algebraic_of
    (hh : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
      Args.Real (argsK m c) → Cert.KernelIdeal.Gen.W19 m ρ c (Proc.devRef .tc Cert.KernelIdeal.main_v62) = r_main_v107 (argsK m c))
    (he : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
      Args.Real (argsK m c) → Cert.KernelIdeal.Gen.W19 m ρ c (Proc.devRef .tc Cert.KernelIdeal.main_v70) = r_main_v127 (argsK m c))
    (hp : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
      Cert.KernelIdeal.Gen.W19 m ρ c (Proc.devRef .tc Cert.KernelIdeal.main_v71) = r_main_v128 (argsK m c)) :
    Cert.algebraic_KernelIdeal_ReferenceIdeal (hKernelIdeal := Cert.KernelIdeal.Gen.facts) (hReferenceIdeal := Cert.ReferenceIdeal.Gen.facts)
      (hPre_finite_inputs := Cert.Pre_finite_inputs.Gen.facts) := by
  intro m ρ m' ρ' hpre hagree
  have hreal : ∀ c : Dev Cert.KernelIdeal.nD, Args.Real (argsK m c) := fun c => real_of_pre (argsK m c) (hpre c)
  have hargs : ∀ c : Dev Cert.KernelIdeal.nD, argsOf (F := Ideal) (launchContents m' c) = argsK m c := fun c => by
    unfold argsOf argsK
    rw [Args.mk.injEq]
    exact hagree c
  refine ⟨fun c => r_main_v107 (argsK m c), fun c => r_main_v127 (argsK m c), fun c => r_main_v128 (argsK m c), ?_, ?_⟩
  · refine (θ_run Cert.KernelIdeal.defs _ _).mono (fun r h c => ?_) (Cert.KernelIdeal.KRun.run (F := Ideal) m ρ)
    obtain ⟨h62, h70, h71, hrest⟩ := h c
    exact ⟨h62.trans (hh m ρ c (hreal c)), h70.trans (he m ρ c (hreal c)), h71.trans (hp m ρ c), hrest⟩
  · refine (θ_run Cert.ReferenceIdeal.defs _ _).mono (fun r h c => ?_) (Cert.ReferenceIdeal.RefOut.run_out (F := Ideal) m' ρ')
    obtain ⟨h107, h127, h128, hrest⟩ := h c
    exact ⟨h107.trans (congrArg r_main_v107 (hargs c)), h127.trans (congrArg r_main_v127 (hargs c)),
      h128.trans (congrArg r_main_v128 (hargs c)), hrest⟩

/-- The kernel's frame is the generated one. -/
theorem frame_k : Cert.frame_Kernel (hKernel := Cert.Kernel.Gen.facts) (hPre_finite_inputs := Cert.Pre_finite_inputs.Gen.facts) :=
  fun m ρ _ => Cert.Kernel.Gen.frame m ρ

/-- The idealized kernel's frame is the generated one. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The idealization rewrote no operation: nothing to preserve. -/
theorem preserves : Cert.preserves_Kernel_KernelIdeal := trivial

end Cert.Proof.Assemble

end
-- ==== Proof.KStats.lean ====
/-
  The two batch-statistics regions. Each walks its input array — 50000 rows of 64 columns in region 8, 800000 rows in
  region 10 — in blocks of 10000 rows, one block per grid point, and keeps two one-row arrays of running totals: at the
  first point the totals are set to zero and the block's column sums, and column sums of squares, are added; at every
  later point the block's sums are added to what the point before left; the totals are written back once, after the last
  point. So after point n the totals hold the sums over blocks 0 … n (induction on the point), after the last point the
  sums over every block, and consecutive blocks of 10000 rows make one sum over all rows: the first output array is, at
  column q, the sum over all rows r of x(r, q), and the second the sum over all rows of x(r, q)², over the extended reals.
-/
import proofs.«146130_j46961172414535_2_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.KStats

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem hz2 : (![0, 0] : Fin 2 → Nat) = fun _ => 0 := funext fun a => by fin_cases a <;> rfl

/-! ## Sums: consecutive blocks make one sum; the column sums of a matrix -/

/-- Consecutive blocks of b terms, a of them, make one sum of a·b terms. -/
theorem sum_blocks {M : Type*} [AddCommMonoid M] (g : ℕ → M) (b : ℕ) (a N : ℕ) (hN : a * b = N) :
    ∑ s ∈ Finset.range a, ∑ p : Fin b, g (s * b + p.val) = ∑ r : Fin N, g r.val := by
  subst hN
  rw [Fin.sum_univ_eq_sum_range g (a * b)]
  induction a with
  | zero => simp
  | succ a ih =>
    rw [Finset.sum_range_succ, ih, Nat.succ_mul, Finset.sum_range_add]
    exact congrArg (_ + ·) (Fin.sum_univ_eq_sum_range (fun x => g (a * b + x)) b)

/-- The column sums of a matrix, as a one-row matrix: at column q the sum over all rows r of x(r, q). -/
def colSum {R N : ℕ} (x : (⟨2, ![R, N]⟩ : Shape).Idx → EReal) : (⟨2, ![1, N]⟩ : Shape).Idx → EReal :=
  fun i => ∑ r : Fin R, x (ix2 r (i 1))

/-- The column sums of the squares: at column q the sum over all rows r of x(r, q)². -/
def colSumSq {R N : ℕ} (x : (⟨2, ![R, N]⟩ : Shape).Idx → EReal) : (⟨2, ![1, N]⟩ : Shape).Idx → EReal :=
  fun i => ∑ r : Fin R, x (ix2 r (i 1)) * x (ix2 r (i 1))

theorem colSum_eq {R N : ℕ} (x : (⟨2, ![R, N]⟩ : Shape).Idx → EReal) :
    colSum x = fun i => ∑ r : Fin R, x (ix2 r (i 1)) := rfl
theorem colSumSq_eq {R N : ℕ} (x : (⟨2, ![R, N]⟩ : Shape).Idx → EReal) :
    colSumSq x = fun i => ∑ r : Fin R, x (ix2 r (i 1)) * x (ix2 r (i 1)) := rfl
theorem colSum_apply {R N : ℕ} (x : (⟨2, ![R, N]⟩ : Shape).Idx → EReal) (u : Fin 1) (q : Fin N) :
    colSum x (ix2 u q) = ∑ r : Fin R, x (ix2 r q) := rfl
theorem colSumSq_apply {R N : ℕ} (x : (⟨2, ![R, N]⟩ : Shape).Idx → EReal) (u : Fin 1) (q : Fin N) :
    colSumSq x (ix2 u q) = ∑ r : Fin R, x (ix2 r q) * x (ix2 r q) := rfl

/-- Entry (r, q) of a matrix of R rows, for any natural r (zero past the last row, never read). -/
def entN {R : ℕ} (x : (⟨2, ![R, 64]⟩ : Shape).Idx → EReal) (r : ℕ) (q : Fin 64) : EReal :=
  if h : r < R then x (ix2 (⟨r, h⟩ : Fin R) q) else 0

/-- The column sum at column q of block s — rows 10000·s … 10000·s + 9999 — and its column sum of squares. -/
def blkSum {R : ℕ} (x : (⟨2, ![R, 64]⟩ : Shape).Idx → EReal) (s : ℕ) (q : Fin 64) : EReal :=
  ∑ p : Fin 10000, entN x (s * 10000 + p.val) q
def blkSq {R : ℕ} (x : (⟨2, ![R, 64]⟩ : Shape).Idx → EReal) (s : ℕ) (q : Fin 64) : EReal :=
  ∑ p : Fin 10000, entN x (s * 10000 + p.val) q * entN x (s * 10000 + p.val) q

/-- The blocks' column sums add up to the column sum over all rows, -/
theorem total_sum {R : ℕ} (x : (⟨2, ![R, 64]⟩ : Shape).Idx → EReal) (a : ℕ) (hR : a * 10000 = R) (q : Fin 64) :
    ∑ s ∈ Finset.range a, blkSum x s q = ∑ r : Fin R, x (ix2 r q) := by
  unfold blkSum
  refine (sum_blocks (fun r => entN x r q) 10000 a R hR).trans ?_
  refine Finset.sum_congr rfl fun r _ => ?_
  show entN x r.val q = _
  unfold entN
  rw [dif_pos r.isLt]

/-- and likewise the sums of squares. -/
theorem total_sq {R : ℕ} (x : (⟨2, ![R, 64]⟩ : Shape).Idx → EReal) (a : ℕ) (hR : a * 10000 = R) (q : Fin 64) :
    ∑ s ∈ Finset.range a, blkSq x s q = ∑ r : Fin R, x (ix2 r q) * x (ix2 r q) := by
  unfold blkSq
  refine (sum_blocks (fun r => entN x r q * entN x r q) 10000 a R hR).trans ?_
  refine Finset.sum_congr rfl fun r _ => ?_
  show entN x r.val q * entN x r.val q = _
  unfold entN
  rw [dif_pos r.isLt]

/-! ## The body's arithmetic at a column -/

/-- The sum along the rows of a block of 10000 rows, read at column q: the sum over the rows of the entries of that column. -/
theorem rowsum_apply (x : FVec Ideal S10000x64 .f32) (hacc : (0x00000000#32 : BitVec 32) = 0x00000000#32) (u : Fin 1) (q : Fin 64) :
    shapeCast S1x64 (multiReduction .add [0] S64 x 0x00000000#32 reduces_S10000x64_S64 (.inl rfl) hacc) shapeCasts_S64_S1x64 (ix2 u q)
      = ∑ r : Fin 10000, x (ix2 r q) := by
  refine (shapeCast_a_1a_apply _ _ u q).trans ?_
  refine (Ideal.multiReduction_add_single x 0x00000000#32 reduces_S10000x64_S64 (.inl rfl) hacc (ix1 q)).trans ?_
  refine Finset.sum_congr rfl fun r _ => congrArg x ?_
  funext a
  match a with
  | ⟨0, _⟩ => rfl
  | ⟨1, _⟩ => rfl

/-! # Region 8: the column sums and column sums of squares of a [50000, 64] array, over 5 blocks of 10000 rows -/

/-- The zero row the first point stores. -/
theorem zero8_1_apply (u : Fin 1) (q : Fin 64) : k8_pay1 (F := Ideal) (ix2 u q) = 0 := by
  unfold k8_pay1
  exact Ideal.ofBits_zero_f32

theorem zero8_2_apply (u : Fin 1) (q : Fin 64) : k8_pay2 (F := Ideal) (ix2 u q) = 0 := by
  unfold k8_pay2
  exact Ideal.ofBits_zero_f32

/-- A block's column sums added to the running totals, at column q. -/
theorem colsum8_apply (x0 : Vec Ideal S10000x64 .f32) (acc : Vec Ideal S1x64 .f32) (u : Fin 1) (q : Fin 64) :
    k8_pay4 (F := Ideal) x0 acc (ix2 u q) = acc (ix2 u q) + ∑ r : Fin 10000, x0 (ix2 r q) := by
  unfold k8_pay4 k8_pay3
  refine (addf_apply _ _ _).trans ?_
  refine congrArg₂ (· + ·) ?_ ?_
  · exact congrFun (shapeCast_self acc _) _
  · refine (rowsum_apply _ rfl u q).trans ?_
    refine Finset.sum_congr rfl fun r _ => ?_
    exact congrFun (shapeCast_self x0 _) _

/-- A block's column sums of squares added to the running totals, at column q. -/
theorem colsumsq8_apply (x0 : Vec Ideal S10000x64 .f32) (acc : Vec Ideal S1x64 .f32) (u : Fin 1) (q : Fin 64) :
    k8_pay5 (F := Ideal) x0 acc (ix2 u q) = acc (ix2 u q) + ∑ r : Fin 10000, x0 (ix2 r q) * x0 (ix2 r q) := by
  unfold k8_pay5 k8_pay3
  refine (addf_apply _ _ _).trans ?_
  refine congrArg₂ (· + ·) ?_ ?_
  · exact congrFun (shapeCast_self acc _) _
  · refine (rowsum_apply _ rfl u q).trans ?_
    refine Finset.sum_congr rfl fun r _ => ?_
    refine (mulf_apply _ _ _).trans ?_
    have e : shapeCast S10000x64 x0 shapeCasts_S10000x64_S10000x64 (ix2 r q) = x0 (ix2 r q) := congrFun (shapeCast_self x0 _) _
    exact congrArg₂ (· * ·) e e

section Pieces8
variable {F : FTy → Type} [FloatOps F]

/-- At a later point the first output's buffer, holding the running totals, is left at the totals plus the block's column sums. -/
theorem out8_B_1_eq (c : Dev nD) (i : grid8.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : ¬cond8_0 i) (x0 : Vec F S10000x64 .f32) (xo1 xo2 : Vec F S1x64 .f32) :
    out8_B_1 c i a1 h1 a2 h2 a3 h3 hc x0 xo1 xo2 = k8_pay4 x0 xo1 := by
  unfold out8_B_1
  rw [View.read_writes_eq_canon _ _ _ (cover8_B_1 c i a1 h1 a2 h2 a3 h3 hc x0 xo1 xo2)]
  unfold kernelRun8_B
  dsimp only
  rw [View.canon_unit_zero hz2]
  simp only [View.readAt_eq_ld, h1.read_unread, h2.read_unread, View.ld_unit_zero (S := S10000x64) hz2, View.ld_unit_zero (S := S1x64) hz2]

/-- and the second output's at its totals plus the block's column sums of squares. -/
theorem out8_B_2_eq (c : Dev nD) (i : grid8.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : ¬cond8_0 i) (x0 : Vec F S10000x64 .f32) (xo1 xo2 : Vec F S1x64 .f32) :
    out8_B_2 c i a1 h1 a2 h2 a3 h3 hc x0 xo1 xo2 = k8_pay5 x0 xo2 := by
  unfold out8_B_2
  rw [View.read_writes_eq_canon _ _ _ (cover8_B_2 c i a1 h1 a2 h2 a3 h3 hc x0 xo1 xo2)]
  unfold kernelRun8_B
  dsimp only
  rw [View.canon_unit_zero hz2]
  simp only [View.readAt_eq_ld, h1.read_unread, h3.read_unread, View.ld_unit_zero (S := S10000x64) hz2, View.ld_unit_zero (S := S1x64) hz2]

/-- At the first point the first output's buffer is zeroed and then left at zero plus the block's column sums. -/
theorem out8_A_1_eq (c : Dev nD) (i : grid8.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : cond8_0 i) (x0 : Vec F S10000x64 .f32) :
    out8_A_1 c i a1 h1 a2 h2 a3 h3 hc x0 = k8_pay4 x0 k8_pay1 := by
  unfold out8_A_1
  rw [View.read_writes_eq_canon _ _ _ (cover8_A_1 c i a1 h1 a2 h2 a3 h3 hc x0)]
  unfold kernelRun8_A
  dsimp only
  sl_unfold_words
  rw [View.canon_cons_unit_zero (S := S1x64) hz2, View.readCov_unit_zero (S := S1x64) _ hz2]
  simp only [View.readAt_eq_ld, h1.read_unread, View.ld_unit_zero (S := S10000x64) hz2]

/-- and the second output's at zero plus the block's column sums of squares. -/
theorem out8_A_2_eq (c : Dev nD) (i : grid8.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : cond8_0 i) (x0 : Vec F S10000x64 .f32) :
    out8_A_2 c i a1 h1 a2 h2 a3 h3 hc x0 = k8_pay5 x0 k8_pay2 := by
  unfold out8_A_2
  rw [View.read_writes_eq_canon _ _ _ (cover8_A_2 c i a1 h1 a2 h2 a3 h3 hc x0)]
  unfold kernelRun8_A
  dsimp only
  sl_unfold_words
  rw [View.canon_cons_unit_zero (S := S1x64) hz2, View.readCov_unit_zero (S := S1x64) _ hz2]
  simp only [View.readAt_eq_ld, h1.read_unread, View.ld_unit_zero (S := S10000x64) hz2]

end Pieces8

section Region8
variable (V : (c : Dev nD) → (b : Ref sig .tc) → Buf (Elt Ideal) ((c : Thread nD τ).loc b))

/-- The index maps over the grid: the input's block at point t is block t of rows; both outputs' block never moves. -/
theorem idx_facts8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0 :=
  (by decide +kernel : ∀ t : Fin grid8.N, _)

/-- The input's block at point t, as a block of 10000 rows of 64 entries. -/
abbrev xblk8 (c : Dev nD) (t : Fin cfg8.N) : Vec Ideal S10000x64 .f32 := iblk8 V c 0 t

/-- The input's block at point t, at (p, q): row 10000·t + p of the array. -/
theorem blk8_apply (c : Dev nD) (t : Fin cfg8.N) (p : Fin 10000) (q : Fin 64) :
    xblk8 V c t (ix2 p q) = entN (V c main_v53) (t.val * 10000 + p.val) q := by
  have hN : t.val < 5 := lt_of_lt_of_eq t.isLt (show cfg8.N = 5 from N_8)
  have hp : p.val < 10000 := p.isLt
  obtain ⟨e0, e1, -⟩ := idx_facts8 t
  unfold entN
  rw [dif_pos (by omega)]
  show V c main_v53 (((cfg8.win 0).blk t).view.emb (ix2 p q)) = _
  refine congrArg (V c main_v53) (funext fun a => Fin.ext ?_)
  match a with
  | ⟨0, _⟩ => show win8_0.index t (0 : Fin 2) * 10000 + 1 * p.val = t.val * 10000 + p.val; omega
  | ⟨1, _⟩ => show win8_0.index t (1 : Fin 2) * 64 + 1 * q.val = q.val; omega

/-- The column sums of the input's block at point t are block t's. -/
theorem blk8sum_eq (c : Dev nD) (t : Fin cfg8.N) (q : Fin 64) :
    ∑ p : Fin 10000, xblk8 V c t (ix2 p q) = blkSum (V c main_v53) t.val q :=
  Finset.sum_congr rfl fun p _ => blk8_apply V c t p q

theorem blk8sq_eq (c : Dev nD) (t : Fin cfg8.N) (q : Fin 64) :
    ∑ p : Fin 10000, xblk8 V c t (ix2 p q) * xblk8 V c t (ix2 p q)
      = blkSq (V c main_v53) t.val q :=
  Finset.sum_congr rfl fun p _ => congrArg₂ (· * ·) (blk8_apply V c t p q) (blk8_apply V c t p q)

/-- At the first point the two outputs' buffers are left at that block's column sums and column sums of squares. -/
theorem outsAt8_first (c : Dev nD) (t : Fin cfg8.N) (h0 : t.val % 5 = 0) (u : Fin 1) (q : Fin 64) :
    (outsAt8 V c t.val t.isLt).1 (ix2 u q) = blkSum (V c main_v53) t.val q
    ∧ (outsAt8 V c t.val t.isLt).2 (ix2 u q) = blkSq (V c main_v53) t.val q := by
  rw [outsAt8_A V c t h0]
  dsimp only
  constructor
  · refine (congrFun (out8_A_1_eq (F := Ideal) c (grid8.coords t) (ms8_0 t) (hs8_0 t) (ms8_1 t) (hs8_1 t) (ms8_2 t) (hs8_2 t)
      ((hcond8_0 t).mpr h0) (iblk8 V c 0 t)) (ix2 u q)).trans ?_
    refine (colsum8_apply (xblk8 V c t) (k8_pay1 (F := Ideal)) u q).trans ?_
    rw [zero8_1_apply, zero_add]
    exact blk8sum_eq V c t q
  · refine (congrFun (out8_A_2_eq (F := Ideal) c (grid8.coords t) (ms8_0 t) (hs8_0 t) (ms8_1 t) (hs8_1 t) (ms8_2 t) (hs8_2 t)
      ((hcond8_0 t).mpr h0) (iblk8 V c 0 t)) (ix2 u q)).trans ?_
    refine (colsumsq8_apply (xblk8 V c t) (k8_pay2 (F := Ideal)) u q).trans ?_
    rw [zero8_2_apply, zero_add]
    exact blk8sq_eq V c t q

/-- At a later point each is what the point before left plus that block's sums. -/
theorem outsAt8_step (c : Dev nD) (t : Fin cfg8.N) (h0 : ¬t.val % 5 = 0) (u : Fin 1) (q : Fin 64) :
    (outsAt8 V c t.val t.isLt).1 (ix2 u q)
      = (outsAt8 V c (t.val - 1) (Nat.lt_of_le_of_lt (Nat.sub_le _ _) t.isLt)).1 (ix2 u q) + blkSum (V c main_v53) t.val q
    ∧ (outsAt8 V c t.val t.isLt).2 (ix2 u q)
      = (outsAt8 V c (t.val - 1) (Nat.lt_of_le_of_lt (Nat.sub_le _ _) t.isLt)).2 (ix2 u q) + blkSq (V c main_v53) t.val q := by
  rw [outsAt8_B V c t h0]
  dsimp only
  constructor
  · refine (congrFun (out8_B_1_eq (F := Ideal) c (grid8.coords t) (ms8_0 t) (hs8_0 t) (ms8_1 t) (hs8_1 t) (ms8_2 t) (hs8_2 t)
      (fun h => h0 ((hcond8_0 t).mp h)) (iblk8 V c 0 t)
      (outsAt8 V c (t.val - 1) (Nat.lt_of_le_of_lt (Nat.sub_le _ _) t.isLt)).1
      (outsAt8 V c (t.val - 1) (Nat.lt_of_le_of_lt (Nat.sub_le _ _) t.isLt)).2) (ix2 u q)).trans ?_
    refine (colsum8_apply (xblk8 V c t) _ u q).trans ?_
    exact congrArg (_ + ·) (blk8sum_eq V c t q)
  · refine (congrFun (out8_B_2_eq (F := Ideal) c (grid8.coords t) (ms8_0 t) (hs8_0 t) (ms8_1 t) (hs8_1 t) (ms8_2 t) (hs8_2 t)
      (fun h => h0 ((hcond8_0 t).mp h)) (iblk8 V c 0 t)
      (outsAt8 V c (t.val - 1) (Nat.lt_of_le_of_lt (Nat.sub_le _ _) t.isLt)).1
      (outsAt8 V c (t.val - 1) (Nat.lt_of_le_of_lt (Nat.sub_le _ _) t.isLt)).2) (ix2 u q)).trans ?_
    refine (colsumsq8_apply (xblk8 V c t) _ u q).trans ?_
    exact congrArg (_ + ·) (blk8sq_eq V c t q)

/-- So after point n the buffers hold the sums over blocks 0 … n: by induction on the point. -/
theorem outsAt8_eq (c : Dev nD) : ∀ (n : ℕ) (h : n < cfg8.N) (u : Fin 1) (q : Fin 64),
    (outsAt8 V c n h).1 (ix2 u q) = ∑ s ∈ Finset.range (n + 1), blkSum (V c main_v53) s q
    ∧ (outsAt8 V c n h).2 (ix2 u q) = ∑ s ∈ Finset.range (n + 1), blkSq (V c main_v53) s q
  | 0, h, u, q => by
    have e := outsAt8_first V c ⟨0, h⟩ rfl u q
    rw [Finset.sum_range_one, Finset.sum_range_one]
    exact e
  | n + 1, h, u, q => by
    have hN : cfg8.N = 5 := N_8
    have hB : ¬(⟨n + 1, h⟩ : Fin cfg8.N).val % 5 = 0 := by dsimp only; omega
    have e := outsAt8_step V c ⟨n + 1, h⟩ hB u q
    have ih := outsAt8_eq c n (Nat.lt_of_succ_lt h) u q
    rw [Finset.sum_range_succ _ (n + 1), Finset.sum_range_succ _ (n + 1), ← ih.1, ← ih.2]
    exact e

/-- Each output's block at any point is the whole one-row array: an index of the block is the same index of the array. -/
theorem emb8_1 (t : Fin cfg8.N) (u : Fin 1) (q : Fin 64) : ((cfg8.win 1).blk t).view.emb (ix2 u q) = ix2 u q := by
  obtain ⟨-, -, e2, e3, -, -⟩ := idx_facts8 t
  have hu : u.val = 0 := by omega
  refine funext fun a => Fin.ext ?_
  match a with
  | ⟨0, _⟩ => show win8_1.index t (0 : Fin 2) * 1 + 1 * u.val = u.val; omega
  | ⟨1, _⟩ => show win8_1.index t (1 : Fin 2) * 64 + 1 * q.val = q.val; omega

theorem emb8_2 (t : Fin cfg8.N) (u : Fin 1) (q : Fin 64) : ((cfg8.win 2).blk t).view.emb (ix2 u q) = ix2 u q := by
  obtain ⟨-, -, -, -, e4, e5⟩ := idx_facts8 t
  have hu : u.val = 0 := by omega
  refine funext fun a => Fin.ext ?_
  match a with
  | ⟨0, _⟩ => show win8_2.index t (0 : Fin 2) * 1 + 1 * u.val = u.val; omega
  | ⟨1, _⟩ => show win8_2.index t (1 : Fin 2) * 64 + 1 * q.val = q.val; omega

/-- Reading any one-row array through an output's block reads the array itself. -/
theorem read_blk8_1 (t : Fin cfg8.N) (G : S1x64.Idx → EReal) (u : Fin 1) (q : Fin 64) :
    ((cfg8.win 1).blk t).view.read (Elt Ideal) G (ix2 u q) = G (ix2 u q) := by
  show G (((cfg8.win 1).blk t).view.emb (ix2 u q)) = _
  rw [emb8_1]

theorem read_blk8_2 (t : Fin cfg8.N) (G : S1x64.Idx → EReal) (u : Fin 1) (q : Fin 64) :
    ((cfg8.win 2).blk t).view.read (Elt Ideal) G (ix2 u q) = G (ix2 u q) := by
  show G (((cfg8.win 2).blk t).view.emb (ix2 u q)) = _
  rw [emb8_2]

/-- The one write-back of the first output, at the last point, writes the column sums over all rows. -/
theorem flushed8_1 (c : Dev nD) (t : Fin cfg8.N) (hf : (cfg8.win 1).flush t = true) :
    (dat8 V c).flushed 1 t = ((cfg8.win 1).blk t).view.read (Elt Ideal) (colSum (V c main_v53)) := by
  have hN : cfg8.N = 5 := N_8
  have hl : t.val = 4 := by have := (flush8_1 t).mp hf; have := t.isLt; omega
  show (cfg8.win 1).cut (grid8.coords t) ((dat8 V c).after 1 t) = _
  rw [after8_1]
  funext j
  obtain ⟨u, q, rfl⟩ : ∃ (u : Fin 1) (q : Fin 64), j = ix2 u q := ⟨j 0, j 1, eq_ix2 j⟩
  show (outsAt8 V c t.val t.isLt).1 (ix2 u q) = _
  refine Eq.trans ?_ (read_blk8_1 t (colSum (V c main_v53)) u q).symm
  rw [colSum_apply, (outsAt8_eq V c t.val t.isLt u q).1, hl]
  exact total_sum (V c main_v53) 5 rfl q

/-- The one write-back of the second output writes the column sums of squares over all rows. -/
theorem flushed8_2 (c : Dev nD) (t : Fin cfg8.N) (hf : (cfg8.win 2).flush t = true) :
    (dat8 V c).flushed 2 t = ((cfg8.win 2).blk t).view.read (Elt Ideal) (colSumSq (V c main_v53)) := by
  have hN : cfg8.N = 5 := N_8
  have hl : t.val = 4 := by have := (flush8_2 t).mp hf; have := t.isLt; omega
  show (cfg8.win 2).cut (grid8.coords t) ((dat8 V c).after 2 t) = _
  rw [after8_2]
  funext j
  obtain ⟨u, q, rfl⟩ : ∃ (u : Fin 1) (q : Fin 64), j = ix2 u q := ⟨j 0, j 1, eq_ix2 j⟩
  show (outsAt8 V c t.val t.isLt).2 (ix2 u q) = _
  refine Eq.trans ?_ (read_blk8_2 t (colSumSq (V c main_v53)) u q).symm
  rw [colSumSq_apply, (outsAt8_eq V c t.val t.isLt u q).2, hl]
  exact total_sq (V c main_v53) 5 rfl q

/-- Membership in an output's one block, by coordinates. -/
theorem mem_blk8_1 (t : Fin cfg8.N) (i : S1x64.Idx) :
    i ∈ ((cfg8.win 1).blk t).view.set ↔ ∀ a : Fin 2, win8_1.index t a * S1x64.size a ≤ (i a).val ∧ (i a).val < win8_1.index t a * S1x64.size a + S1x64.size a := by
  show i ∈ ((View.whole main_v55_0).slice (win8_1.rect t)).set ↔ _
  rw [View.set_slice_whole, Rect.mem_set_unit]
  exact Iff.rfl

theorem mem_blk8_2 (t : Fin cfg8.N) (i : S1x64.Idx) :
    i ∈ ((cfg8.win 2).blk t).view.set ↔ ∀ a : Fin 2, win8_2.index t a * S1x64.size a ≤ (i a).val ∧ (i a).val < win8_2.index t a * S1x64.size a + S1x64.size a := by
  show i ∈ ((View.whole main_v55_1).slice (win8_2.rect t)).set ↔ _
  rw [View.set_slice_whole, Rect.mem_set_unit]
  exact Iff.rfl

/-- The last point of the grid. -/
def last8 : Fin cfg8.N := ⟨4, by have : cfg8.N = 5 := N_8; omega⟩

/-- The block written back at the last point is the whole one-row array. -/
theorem cover8_1 (i : S1x64.Idx) : ∃ t : Fin cfg8.N, (cfg8.win 1).flush t = true ∧ i ∈ ((cfg8.win 1).blk t).view.set := by
  have hi0 : (i 0).val < 1 := (i 0).isLt
  have hi1 : (i 1).val < 64 := (i 1).isLt
  obtain ⟨-, -, e2, e3, -, -⟩ := idx_facts8 last8
  refine ⟨last8, (flush8_1 last8).mpr rfl, ?_⟩
  rw [mem_blk8_1]
  intro a
  match a with
  | ⟨0, _⟩ => show win8_1.index last8 (0 : Fin 2) * 1 ≤ (i 0).val ∧ (i 0).val < win8_1.index last8 (0 : Fin 2) * 1 + 1; omega
  | ⟨1, _⟩ => show win8_1.index last8 (1 : Fin 2) * 64 ≤ (i 1).val ∧ (i 1).val < win8_1.index last8 (1 : Fin 2) * 64 + 64; omega

theorem cover8_2 (i : S1x64.Idx) : ∃ t : Fin cfg8.N, (cfg8.win 2).flush t = true ∧ i ∈ ((cfg8.win 2).blk t).view.set := by
  have hi0 : (i 0).val < 1 := (i 0).isLt
  have hi1 : (i 1).val < 64 := (i 1).isLt
  obtain ⟨-, -, -, -, e4, e5⟩ := idx_facts8 last8
  refine ⟨last8, (flush8_2 last8).mpr rfl, ?_⟩
  rw [mem_blk8_2]
  intro a
  match a with
  | ⟨0, _⟩ => show win8_2.index last8 (0 : Fin 2) * 1 ≤ (i 0).val ∧ (i 0).val < win8_2.index last8 (0 : Fin 2) * 1 + 1; omega
  | ⟨1, _⟩ => show win8_2.index last8 (1 : Fin 2) * 64 ≤ (i 1).val ∧ (i 1).val < win8_2.index last8 (1 : Fin 2) * 64 + 64; omega

/-- Region 8's first output array: at column q, the sum over all 50000 rows of the input's column q. -/
theorem final8_1 (c : Dev nD) : (dat8 V c).arrAt 1 cfg8.N = colSum (V c main_v53) :=
  (dat8 V c).arrAt_eq_of_cover 1 _ (fun t hf => flushed8_1 V c t hf) cover8_1

/-- Region 8's second output array: at column q, the sum over all 50000 rows of the squares of the input's column q. -/
theorem final8_2 (c : Dev nD) : (dat8 V c).arrAt 2 cfg8.N = colSumSq (V c main_v53) :=
  (dat8 V c).arrAt_eq_of_cover 2 _ (fun t hf => flushed8_2 V c t hf) cover8_2

end Region8

/-! # Region 10: the column sums and column sums of squares of a [800000, 64] array, over 80 blocks of 10000 rows -/

/-- The zero row the first point stores. -/
theorem zero10_1_apply (u : Fin 1) (q : Fin 64) : k10_pay1 (F := Ideal) (ix2 u q) = 0 := by
  unfold k10_pay1
  exact Ideal.ofBits_zero_f32

theorem zero10_2_apply (u : Fin 1) (q : Fin 64) : k10_pay2 (F := Ideal) (ix2 u q) = 0 := by
  unfold k10_pay2
  exact Ideal.ofBits_zero_f32

/-- A block's column sums added to the running totals, at column q. -/
theorem colsum10_apply (x0 : Vec Ideal S10000x64 .f32) (acc : Vec Ideal S1x64 .f32) (u : Fin 1) (q : Fin 64) :
    k10_pay4 (F := Ideal) x0 acc (ix2 u q) = acc (ix2 u q) + ∑ r : Fin 10000, x0 (ix2 r q) := by
  unfold k10_pay4 k10_pay3
  refine (addf_apply _ _ _).trans ?_
  refine congrArg₂ (· + ·) ?_ ?_
  · exact congrFun (shapeCast_self acc _) _
  · refine (rowsum_apply _ rfl u q).trans ?_
    refine Finset.sum_congr rfl fun r _ => ?_
    exact congrFun (shapeCast_self x0 _) _

/-- A block's column sums of squares added to the running totals, at column q. -/
theorem colsumsq10_apply (x0 : Vec Ideal S10000x64 .f32) (acc : Vec Ideal S1x64 .f32) (u : Fin 1) (q : Fin 64) :
    k10_pay5 (F := Ideal) x0 acc (ix2 u q) = acc (ix2 u q) + ∑ r : Fin 10000, x0 (ix2 r q) * x0 (ix2 r q) := by
  unfold k10_pay5 k10_pay3
  refine (addf_apply _ _ _).trans ?_
  refine congrArg₂ (· + ·) ?_ ?_
  · exact congrFun (shapeCast_self acc _) _
  · refine (rowsum_apply _ rfl u q).trans ?_
    refine Finset.sum_congr rfl fun r _ => ?_
    refine (mulf_apply _ _ _).trans ?_
    have e : shapeCast S10000x64 x0 shapeCasts_S10000x64_S10000x64 (ix2 r q) = x0 (ix2 r q) := congrFun (shapeCast_self x0 _) _
    exact congrArg₂ (· * ·) e e

section Pieces10
variable {F : FTy → Type} [FloatOps F]

/-- At a later point the first output's buffer, holding the running totals, is left at the totals plus the block's column sums. -/
theorem out10_B_1_eq (c : Dev nD) (i : grid10.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : ¬cond10_0 i) (x0 : Vec F S10000x64 .f32) (xo1 xo2 : Vec F S1x64 .f32) :
    out10_B_1 c i a1 h1 a2 h2 a3 h3 hc x0 xo1 xo2 = k10_pay4 x0 xo1 := by
  unfold out10_B_1
  rw [View.read_writes_eq_canon _ _ _ (cover10_B_1 c i a1 h1 a2 h2 a3 h3 hc x0 xo1 xo2)]
  unfold kernelRun10_B
  dsimp only
  rw [View.canon_unit_zero hz2]
  simp only [View.readAt_eq_ld, h1.read_unread, h2.read_unread, View.ld_unit_zero (S := S10000x64) hz2, View.ld_unit_zero (S := S1x64) hz2]

/-- and the second output's at its totals plus the block's column sums of squares. -/
theorem out10_B_2_eq (c : Dev nD) (i : grid10.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : ¬cond10_0 i) (x0 : Vec F S10000x64 .f32) (xo1 xo2 : Vec F S1x64 .f32) :
    out10_B_2 c i a1 h1 a2 h2 a3 h3 hc x0 xo1 xo2 = k10_pay5 x0 xo2 := by
  unfold out10_B_2
  rw [View.read_writes_eq_canon _ _ _ (cover10_B_2 c i a1 h1 a2 h2 a3 h3 hc x0 xo1 xo2)]
  unfold kernelRun10_B
  dsimp only
  rw [View.canon_unit_zero hz2]
  simp only [View.readAt_eq_ld, h1.read_unread, h3.read_unread, View.ld_unit_zero (S := S10000x64) hz2, View.ld_unit_zero (S := S1x64) hz2]

/-- At the first point the first output's buffer is zeroed and then left at zero plus the block's column sums. -/
theorem out10_A_1_eq (c : Dev nD) (i : grid10.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : cond10_0 i) (x0 : Vec F S10000x64 .f32) :
    out10_A_1 c i a1 h1 a2 h2 a3 h3 hc x0 = k10_pay4 x0 k10_pay1 := by
  unfold out10_A_1
  rw [View.read_writes_eq_canon _ _ _ (cover10_A_1 c i a1 h1 a2 h2 a3 h3 hc x0)]
  unfold kernelRun10_A
  dsimp only
  sl_unfold_words
  rw [View.canon_cons_unit_zero (S := S1x64) hz2, View.readCov_unit_zero (S := S1x64) _ hz2]
  simp only [View.readAt_eq_ld, h1.read_unread, View.ld_unit_zero (S := S10000x64) hz2]

/-- and the second output's at zero plus the block's column sums of squares. -/
theorem out10_A_2_eq (c : Dev nD) (i : grid10.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : cond10_0 i) (x0 : Vec F S10000x64 .f32) :
    out10_A_2 c i a1 h1 a2 h2 a3 h3 hc x0 = k10_pay5 x0 k10_pay2 := by
  unfold out10_A_2
  rw [View.read_writes_eq_canon _ _ _ (cover10_A_2 c i a1 h1 a2 h2 a3 h3 hc x0)]
  unfold kernelRun10_A
  dsimp only
  sl_unfold_words
  rw [View.canon_cons_unit_zero (S := S1x64) hz2, View.readCov_unit_zero (S := S1x64) _ hz2]
  simp only [View.readAt_eq_ld, h1.read_unread, View.ld_unit_zero (S := S10000x64) hz2]

end Pieces10

section Region10
variable (V : (c : Dev nD) → (b : Ref sig .tc) → Buf (Elt Ideal) ((c : Thread nD τ).loc b))

/-- The index maps over the grid: the input's block at point t is block t of rows; both outputs' block never moves. -/
theorem idx_facts10 : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0 :=
  (by decide +kernel : ∀ t : Fin grid10.N, _)

/-- The input's block at point t, as a block of 10000 rows of 64 entries. -/
abbrev xblk10 (c : Dev nD) (t : Fin cfg10.N) : Vec Ideal S10000x64 .f32 := iblk10 V c 0 t

/-- The input's block at point t, at (p, q): row 10000·t + p of the array. -/
theorem blk10_apply (c : Dev nD) (t : Fin cfg10.N) (p : Fin 10000) (q : Fin 64) :
    xblk10 V c t (ix2 p q) = entN (V c main_v21_0) (t.val * 10000 + p.val) q := by
  have hN : t.val < 80 := lt_of_lt_of_eq t.isLt (show cfg10.N = 80 from N_10)
  have hp : p.val < 10000 := p.isLt
  obtain ⟨e0, e1, -⟩ := idx_facts10 t
  unfold entN
  rw [dif_pos (by omega)]
  show V c main_v21_0 (((cfg10.win 0).blk t).view.emb (ix2 p q)) = _
  refine congrArg (V c main_v21_0) (funext fun a => Fin.ext ?_)
  match a with
  | ⟨0, _⟩ => show win10_0.index t (0 : Fin 2) * 10000 + 1 * p.val = t.val * 10000 + p.val; omega
  | ⟨1, _⟩ => show win10_0.index t (1 : Fin 2) * 64 + 1 * q.val = q.val; omega

/-- The column sums of the input's block at point t are block t's. -/
theorem blk10sum_eq (c : Dev nD) (t : Fin cfg10.N) (q : Fin 64) :
    ∑ p : Fin 10000, xblk10 V c t (ix2 p q) = blkSum (V c main_v21_0) t.val q :=
  Finset.sum_congr rfl fun p _ => blk10_apply V c t p q

theorem blk10sq_eq (c : Dev nD) (t : Fin cfg10.N) (q : Fin 64) :
    ∑ p : Fin 10000, xblk10 V c t (ix2 p q) * xblk10 V c t (ix2 p q)
      = blkSq (V c main_v21_0) t.val q :=
  Finset.sum_congr rfl fun p _ => congrArg₂ (· * ·) (blk10_apply V c t p q) (blk10_apply V c t p q)

/-- At the first point the two outputs' buffers are left at that block's column sums and column sums of squares. -/
theorem outsAt10_first (c : Dev nD) (t : Fin cfg10.N) (h0 : t.val % 80 = 0) (u : Fin 1) (q : Fin 64) :
    (outsAt10 V c t.val t.isLt).1 (ix2 u q) = blkSum (V c main_v21_0) t.val q
    ∧ (outsAt10 V c t.val t.isLt).2 (ix2 u q) = blkSq (V c main_v21_0) t.val q := by
  rw [outsAt10_A V c t h0]
  dsimp only
  constructor
  · refine (congrFun (out10_A_1_eq (F := Ideal) c (grid10.coords t) (ms10_0 t) (hs10_0 t) (ms10_1 t) (hs10_1 t) (ms10_2 t) (hs10_2 t)
      ((hcond10_0 t).mpr h0) (iblk10 V c 0 t)) (ix2 u q)).trans ?_
    refine (colsum10_apply (xblk10 V c t) (k10_pay1 (F := Ideal)) u q).trans ?_
    rw [zero10_1_apply, zero_add]
    exact blk10sum_eq V c t q
  · refine (congrFun (out10_A_2_eq (F := Ideal) c (grid10.coords t) (ms10_0 t) (hs10_0 t) (ms10_1 t) (hs10_1 t) (ms10_2 t) (hs10_2 t)
      ((hcond10_0 t).mpr h0) (iblk10 V c 0 t)) (ix2 u q)).trans ?_
    refine (colsumsq10_apply (xblk10 V c t) (k10_pay2 (F := Ideal)) u q).trans ?_
    rw [zero10_2_apply, zero_add]
    exact blk10sq_eq V c t q

/-- At a later point each is what the point before left plus that block's sums. -/
theorem outsAt10_step (c : Dev nD) (t : Fin cfg10.N) (h0 : ¬t.val % 80 = 0) (u : Fin 1) (q : Fin 64) :
    (outsAt10 V c t.val t.isLt).1 (ix2 u q)
      = (outsAt10 V c (t.val - 1) (Nat.lt_of_le_of_lt (Nat.sub_le _ _) t.isLt)).1 (ix2 u q) + blkSum (V c main_v21_0) t.val q
    ∧ (outsAt10 V c t.val t.isLt).2 (ix2 u q)
      = (outsAt10 V c (t.val - 1) (Nat.lt_of_le_of_lt (Nat.sub_le _ _) t.isLt)).2 (ix2 u q) + blkSq (V c main_v21_0) t.val q := by
  rw [outsAt10_B V c t h0]
  dsimp only
  constructor
  · refine (congrFun (out10_B_1_eq (F := Ideal) c (grid10.coords t) (ms10_0 t) (hs10_0 t) (ms10_1 t) (hs10_1 t) (ms10_2 t) (hs10_2 t)
      (fun h => h0 ((hcond10_0 t).mp h)) (iblk10 V c 0 t)
      (outsAt10 V c (t.val - 1) (Nat.lt_of_le_of_lt (Nat.sub_le _ _) t.isLt)).1
      (outsAt10 V c (t.val - 1) (Nat.lt_of_le_of_lt (Nat.sub_le _ _) t.isLt)).2) (ix2 u q)).trans ?_
    refine (colsum10_apply (xblk10 V c t) _ u q).trans ?_
    exact congrArg (_ + ·) (blk10sum_eq V c t q)
  · refine (congrFun (out10_B_2_eq (F := Ideal) c (grid10.coords t) (ms10_0 t) (hs10_0 t) (ms10_1 t) (hs10_1 t) (ms10_2 t) (hs10_2 t)
      (fun h => h0 ((hcond10_0 t).mp h)) (iblk10 V c 0 t)
      (outsAt10 V c (t.val - 1) (Nat.lt_of_le_of_lt (Nat.sub_le _ _) t.isLt)).1
      (outsAt10 V c (t.val - 1) (Nat.lt_of_le_of_lt (Nat.sub_le _ _) t.isLt)).2) (ix2 u q)).trans ?_
    refine (colsumsq10_apply (xblk10 V c t) _ u q).trans ?_
    exact congrArg (_ + ·) (blk10sq_eq V c t q)

/-- So after point n the buffers hold the sums over blocks 0 … n: by induction on the point. -/
theorem outsAt10_eq (c : Dev nD) : ∀ (n : ℕ) (h : n < cfg10.N) (u : Fin 1) (q : Fin 64),
    (outsAt10 V c n h).1 (ix2 u q) = ∑ s ∈ Finset.range (n + 1), blkSum (V c main_v21_0) s q
    ∧ (outsAt10 V c n h).2 (ix2 u q) = ∑ s ∈ Finset.range (n + 1), blkSq (V c main_v21_0) s q
  | 0, h, u, q => by
    have e := outsAt10_first V c ⟨0, h⟩ rfl u q
    rw [Finset.sum_range_one, Finset.sum_range_one]
    exact e
  | n + 1, h, u, q => by
    have hN : cfg10.N = 80 := N_10
    have hB : ¬(⟨n + 1, h⟩ : Fin cfg10.N).val % 80 = 0 := by dsimp only; omega
    have e := outsAt10_step V c ⟨n + 1, h⟩ hB u q
    have ih := outsAt10_eq c n (Nat.lt_of_succ_lt h) u q
    rw [Finset.sum_range_succ _ (n + 1), Finset.sum_range_succ _ (n + 1), ← ih.1, ← ih.2]
    exact e

/-- Each output's block at any point is the whole one-row array: an index of the block is the same index of the array. -/
theorem emb10_1 (t : Fin cfg10.N) (u : Fin 1) (q : Fin 64) : ((cfg10.win 1).blk t).view.emb (ix2 u q) = ix2 u q := by
  obtain ⟨-, -, e2, e3, -, -⟩ := idx_facts10 t
  have hu : u.val = 0 := by omega
  refine funext fun a => Fin.ext ?_
  match a with
  | ⟨0, _⟩ => show win10_1.index t (0 : Fin 2) * 1 + 1 * u.val = u.val; omega
  | ⟨1, _⟩ => show win10_1.index t (1 : Fin 2) * 64 + 1 * q.val = q.val; omega

theorem emb10_2 (t : Fin cfg10.N) (u : Fin 1) (q : Fin 64) : ((cfg10.win 2).blk t).view.emb (ix2 u q) = ix2 u q := by
  obtain ⟨-, -, -, -, e4, e5⟩ := idx_facts10 t
  have hu : u.val = 0 := by omega
  refine funext fun a => Fin.ext ?_
  match a with
  | ⟨0, _⟩ => show win10_2.index t (0 : Fin 2) * 1 + 1 * u.val = u.val; omega
  | ⟨1, _⟩ => show win10_2.index t (1 : Fin 2) * 64 + 1 * q.val = q.val; omega

/-- Reading any one-row array through an output's block reads the array itself. -/
theorem read_blk10_1 (t : Fin cfg10.N) (G : S1x64.Idx → EReal) (u : Fin 1) (q : Fin 64) :
    ((cfg10.win 1).blk t).view.read (Elt Ideal) G (ix2 u q) = G (ix2 u q) := by
  show G (((cfg10.win 1).blk t).view.emb (ix2 u q)) = _
  rw [emb10_1]

theorem read_blk10_2 (t : Fin cfg10.N) (G : S1x64.Idx → EReal) (u : Fin 1) (q : Fin 64) :
    ((cfg10.win 2).blk t).view.read (Elt Ideal) G (ix2 u q) = G (ix2 u q) := by
  show G (((cfg10.win 2).blk t).view.emb (ix2 u q)) = _
  rw [emb10_2]

/-- The one write-back of the first output, at the last point, writes the column sums over all rows. -/
theorem flushed10_1 (c : Dev nD) (t : Fin cfg10.N) (hf : (cfg10.win 1).flush t = true) :
    (dat10 V c).flushed 1 t = ((cfg10.win 1).blk t).view.read (Elt Ideal) (colSum (V c main_v21_0)) := by
  have hN : cfg10.N = 80 := N_10
  have hl : t.val = 79 := by have := (flush10_1 t).mp hf; have := t.isLt; omega
  show (cfg10.win 1).cut (grid10.coords t) ((dat10 V c).after 1 t) = _
  rw [after10_1]
  funext j
  obtain ⟨u, q, rfl⟩ : ∃ (u : Fin 1) (q : Fin 64), j = ix2 u q := ⟨j 0, j 1, eq_ix2 j⟩
  show (outsAt10 V c t.val t.isLt).1 (ix2 u q) = _
  refine Eq.trans ?_ (read_blk10_1 t (colSum (V c main_v21_0)) u q).symm
  rw [colSum_apply, (outsAt10_eq V c t.val t.isLt u q).1, hl]
  exact total_sum (V c main_v21_0) 80 rfl q

/-- The one write-back of the second output writes the column sums of squares over all rows. -/
theorem flushed10_2 (c : Dev nD) (t : Fin cfg10.N) (hf : (cfg10.win 2).flush t = true) :
    (dat10 V c).flushed 2 t = ((cfg10.win 2).blk t).view.read (Elt Ideal) (colSumSq (V c main_v21_0)) := by
  have hN : cfg10.N = 80 := N_10
  have hl : t.val = 79 := by have := (flush10_2 t).mp hf; have := t.isLt; omega
  show (cfg10.win 2).cut (grid10.coords t) ((dat10 V c).after 2 t) = _
  rw [after10_2]
  funext j
  obtain ⟨u, q, rfl⟩ : ∃ (u : Fin 1) (q : Fin 64), j = ix2 u q := ⟨j 0, j 1, eq_ix2 j⟩
  show (outsAt10 V c t.val t.isLt).2 (ix2 u q) = _
  refine Eq.trans ?_ (read_blk10_2 t (colSumSq (V c main_v21_0)) u q).symm
  rw [colSumSq_apply, (outsAt10_eq V c t.val t.isLt u q).2, hl]
  exact total_sq (V c main_v21_0) 80 rfl q

/-- Membership in an output's one block, by coordinates. -/
theorem mem_blk10_1 (t : Fin cfg10.N) (i : S1x64.Idx) :
    i ∈ ((cfg10.win 1).blk t).view.set ↔ ∀ a : Fin 2, win10_1.index t a * S1x64.size a ≤ (i a).val ∧ (i a).val < win10_1.index t a * S1x64.size a + S1x64.size a := by
  show i ∈ ((View.whole main_v63_0).slice (win10_1.rect t)).set ↔ _
  rw [View.set_slice_whole, Rect.mem_set_unit]
  exact Iff.rfl

theorem mem_blk10_2 (t : Fin cfg10.N) (i : S1x64.Idx) :
    i ∈ ((cfg10.win 2).blk t).view.set ↔ ∀ a : Fin 2, win10_2.index t a * S1x64.size a ≤ (i a).val ∧ (i a).val < win10_2.index t a * S1x64.size a + S1x64.size a := by
  show i ∈ ((View.whole main_v63_1).slice (win10_2.rect t)).set ↔ _
  rw [View.set_slice_whole, Rect.mem_set_unit]
  exact Iff.rfl

/-- The last point of the grid. -/
def last10 : Fin cfg10.N := ⟨79, by have : cfg10.N = 80 := N_10; omega⟩

/-- The block written back at the last point is the whole one-row array. -/
theorem cover10_1 (i : S1x64.Idx) : ∃ t : Fin cfg10.N, (cfg10.win 1).flush t = true ∧ i ∈ ((cfg10.win 1).blk t).view.set := by
  have hi0 : (i 0).val < 1 := (i 0).isLt
  have hi1 : (i 1).val < 64 := (i 1).isLt
  obtain ⟨-, -, e2, e3, -, -⟩ := idx_facts10 last10
  refine ⟨last10, (flush10_1 last10).mpr rfl, ?_⟩
  rw [mem_blk10_1]
  intro a
  match a with
  | ⟨0, _⟩ => show win10_1.index last10 (0 : Fin 2) * 1 ≤ (i 0).val ∧ (i 0).val < win10_1.index last10 (0 : Fin 2) * 1 + 1; omega
  | ⟨1, _⟩ => show win10_1.index last10 (1 : Fin 2) * 64 ≤ (i 1).val ∧ (i 1).val < win10_1.index last10 (1 : Fin 2) * 64 + 64; omega

theorem cover10_2 (i : S1x64.Idx) : ∃ t : Fin cfg10.N, (cfg10.win 2).flush t = true ∧ i ∈ ((cfg10.win 2).blk t).view.set := by
  have hi0 : (i 0).val < 1 := (i 0).isLt
  have hi1 : (i 1).val < 64 := (i 1).isLt
  obtain ⟨-, -, -, -, e4, e5⟩ := idx_facts10 last10
  refine ⟨last10, (flush10_2 last10).mpr rfl, ?_⟩
  rw [mem_blk10_2]
  intro a
  match a with
  | ⟨0, _⟩ => show win10_2.index last10 (0 : Fin 2) * 1 ≤ (i 0).val ∧ (i 0).val < win10_2.index last10 (0 : Fin 2) * 1 + 1; omega
  | ⟨1, _⟩ => show win10_2.index last10 (1 : Fin 2) * 64 ≤ (i 1).val ∧ (i 1).val < win10_2.index last10 (1 : Fin 2) * 64 + 64; omega

/-- Region 10's first output array: at column q, the sum over all 800000 rows of the input's column q. -/
theorem final10_1 (c : Dev nD) : (dat10 V c).arrAt 1 cfg10.N = colSum (V c main_v21_0) :=
  (dat10 V c).arrAt_eq_of_cover 1 _ (fun t hf => flushed10_1 V c t hf) cover10_1

/-- Region 10's second output array: at column q, the sum over all 800000 rows of the squares of the input's column q. -/
theorem final10_2 (c : Dev nD) : (dat10 V c).arrAt 2 cfg10.N = colSumSq (V c main_v21_0) :=
  (dat10 V c).arrAt_eq_of_cover 2 _ (fun t hf => flushed10_2 V c t hf) cover10_2

end Region10

end Cert.KernelIdeal.KStats

end
-- ==== Proof.KChainB.lean ====
/-
  The two batch normalizations of the idealized kernel, as the reference's: the statistics regions leave the column sums of
  the entries and of their squares; the host forms mean = sum / N and variance = sumsq / N − mean²; the normalization
  regions apply them. The reference takes the variance as the mean of the squared deviations: the two agree because
  every entry is a real number when the inputs are finite.
-/
import proofs.«146130_j46961172414535_2_alg».proof.Proof.Gen.KernelIdeal.Frame
import proofs.«146130_j46961172414535_2_alg».proof.Proof.KKeep
import proofs.«146130_j46961172414535_2_alg».proof.Proof.KLin
import proofs.«146130_j46961172414535_2_alg».proof.Proof.KElem
import proofs.«146130_j46961172414535_2_alg».proof.Proof.KStats
import proofs.«146130_j46961172414535_2_alg».proof.Proof.RefSpec
import proofs.«146130_j46961172414535_2_alg».proof.Proof.RMatch
import proofs.«146130_j46961172414535_2_alg».proof.Proof.RefVar
import proofs.«146130_j46961172414535_2_alg».proof.Proof.RefFinite
import proofs.«146130_j46961172414535_2_alg».proof.Proof.KChainA
import Idealize.ShloMosaic.Lib.StableHlo.Run

set_option maxRecDepth 16384

noncomputable section

namespace Cert.KernelIdeal.KChain

open Cert.KernelIdeal Cert.KernelIdeal.Gen Cert.KernelIdeal.KReg Cert.KernelIdeal.KElem
open Cert.ReferenceIdeal.RefSpec Cert.ReferenceIdeal.RMatch Cert.ReferenceIdeal.RefFinite
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The mean row the host forms from the column sums. -/
def muK (N : ℕ) (cN : EReal) (X : (⟨2, ![N, 64]⟩ : Shape).Idx → EReal) : (⟨2, ![1, 64]⟩ : Shape).Idx → EReal :=
  fun i => Ideal.div (∑ r : Fin N, X (ix2 r (i 1))) cN

/-- The variance row the host forms: the mean of the squares minus the square of the mean. -/
def vaK (N : ℕ) (cN : EReal) (X : (⟨2, ![N, 64]⟩ : Shape).Idx → EReal) : (⟨2, ![1, 64]⟩ : Shape).Idx → EReal :=
  fun i => Ideal.div (∑ r : Fin N, X (ix2 r (i 1)) * X (ix2 r (i 1))) cN - muK N cN X i * muK N cN X i

theorem at13_v55_0 (c : Dev nD) : W13 m ρ c (Proc.devRef .tc main_v55_0) = KStats.colSum (r_main_v75 (argsK m c)) := by
  refine (W13_arr m ρ c 1).trans ((KStats.final8_1 (V12 m ρ) c).trans ?_)
  show KStats.colSum (W12 m ρ c (Proc.devRef .tc main_v53)) = _
  rw [at12_v53]

theorem at13_v55_1 (c : Dev nD) : W13 m ρ c (Proc.devRef .tc main_v55_1) = KStats.colSumSq (r_main_v75 (argsK m c)) := by
  refine (W13_arr m ρ c 2).trans ((KStats.final8_2 (V12 m ρ) c).trans ?_)
  show KStats.colSumSq (W12 m ρ c (Proc.devRef .tc main_v53)) = _
  rw [at12_v53]

set_option maxHeartbeats 4000000 in
theorem at14_v57 (c : Dev nD) : W14 m ρ c (Proc.devRef .tc main_v57) = muK 50000 (Ideal.ofBits .f32 0x47435000#32) (r_main_v75 (argsK m c)) := by
  show StableHlo.after hostOps9 (W13 m ρ c) (Proc.devRef .tc main_v57) = _
  after_results
  rw [at13_v55_0]
  funext i; rfl

set_option maxHeartbeats 4000000 in
theorem at14_v61 (c : Dev nD) : W14 m ρ c (Proc.devRef .tc main_v61) = vaK 50000 (Ideal.ofBits .f32 0x47435000#32) (r_main_v75 (argsK m c)) := by
  show StableHlo.after hostOps9 (W13 m ρ c) (Proc.devRef .tc main_v61) = _
  after_results
  rw [at13_v55_1, at13_v55_0]
  funext i; rfl

theorem at14_v53 (c : Dev nD) : W14 m ρ c (Proc.devRef .tc main_v53) = r_main_v75 (argsK m c) :=
  (((KB.keep9 (W13 m ρ c) main_v53 (by decide))).trans ((W13_arr m ρ c 0).trans (((dat8 (V12 m ρ) c).arrAt_in 0 rfl _).trans (A_eq8 (V12 m ρ) c 0)))).trans (at12_v53 m ρ c)

theorem arg14_19 (c : Dev nD) : W14 m ρ c (Proc.devRef .tc main_arg19) = (argsK m c).a19 :=
  (((((((((((((((KB.keep9 (W13 m ρ c) main_arg19 (by decide))).trans (W13_of_ne m ρ c main_arg19 (by decide))).trans (KB.keep8 (W11 m ρ c) main_arg19 (by decide))).trans (W11_of_ne m ρ c main_arg19 (by decide))).trans (KB.keep7 (W9 m ρ c) main_arg19 (by decide))).trans (W9_of_ne m ρ c main_arg19 (by decide))).trans (KB.keep6 (W7 m ρ c) main_arg19 (by decide))).trans (W7_of_ne m ρ c main_arg19 (by decide))).trans (W6_of_ne m ρ c main_arg19 (by decide))).trans (W5_of_ne m ρ c main_arg19 (by decide))).trans (W4_of_ne m ρ c main_arg19 (by decide))).trans (W3_of_ne m ρ c main_arg19 (by decide))).trans (W2_of_ne m ρ c main_arg19 (by decide))).trans (KB.keep0 (W0 m ρ c) main_arg19 (by decide))).trans rfl

theorem arg14_20 (c : Dev nD) : W14 m ρ c (Proc.devRef .tc main_arg20) = (argsK m c).a20 :=
  (((((((((((((((KB.keep9 (W13 m ρ c) main_arg20 (by decide))).trans (W13_of_ne m ρ c main_arg20 (by decide))).trans (KB.keep8 (W11 m ρ c) main_arg20 (by decide))).trans (W11_of_ne m ρ c main_arg20 (by decide))).trans (KB.keep7 (W9 m ρ c) main_arg20 (by decide))).trans (W9_of_ne m ρ c main_arg20 (by decide))).trans (KB.keep6 (W7 m ρ c) main_arg20 (by decide))).trans (W7_of_ne m ρ c main_arg20 (by decide))).trans (W6_of_ne m ρ c main_arg20 (by decide))).trans (W5_of_ne m ρ c main_arg20 (by decide))).trans (W4_of_ne m ρ c main_arg20 (by decide))).trans (W3_of_ne m ρ c main_arg20 (by decide))).trans (W2_of_ne m ρ c main_arg20 (by decide))).trans (KB.keep0 (W0 m ρ c) main_arg20 (by decide))).trans rfl

set_option maxHeartbeats 4000000 in
theorem at15_v62 (c : Dev nD) (hA : Args.Real (argsK m c)) : W15 m ρ c (Proc.devRef .tc main_v62) = r_main_v107 (argsK m c) := by
  refine (W15_arr m ρ c 5).trans ((final9_5 (V14 m ρ) c).trans ?_)
  show normI (W14 m ρ c (Proc.devRef .tc main_v53)) (W14 m ρ c (Proc.devRef .tc main_v57)) (W14 m ρ c (Proc.devRef .tc main_v61)) (W14 m ρ c (Proc.devRef .tc main_arg19)) (W14 m ρ c (Proc.devRef .tc main_arg20)) = _
  rw [at14_v53, at14_v57, at14_v61, arg14_19, arg14_20]
  rw [norm_v107, Cert.ReferenceIdeal.RefVar.mean1_eq, Cert.ReferenceIdeal.RefVar.var1_eq _ (Cert.ReferenceIdeal.RefFinite.hNew_real _ hA)]
  rfl

theorem at19_v62 (c : Dev nD) (hA : Args.Real (argsK m c)) : W19 m ρ c (Proc.devRef .tc main_v62) = r_main_v107 (argsK m c) :=
  (((((W19_of_ne m ρ c main_v62 (by decide))).trans (W18_of_ne m ρ c main_v62 (by decide))).trans (KB.keep11 (W16 m ρ c) main_v62 (by decide))).trans (W16_of_ne m ρ c main_v62 (by decide))).trans (at15_v62 m ρ c hA)

theorem at15_v21_0 (c : Dev nD) : W15 m ρ c (Proc.devRef .tc main_v21_0) = r_main_v44 (argsK m c) :=
  (((((((W15_of_ne m ρ c main_v21_0 (by decide))).trans (KB.keep9 (W13 m ρ c) main_v21_0 (by decide))).trans (W13_of_ne m ρ c main_v21_0 (by decide))).trans (KB.keep8 (W11 m ρ c) main_v21_0 (by decide))).trans (W11_of_ne m ρ c main_v21_0 (by decide))).trans (KB.keep7 (W9 m ρ c) main_v21_0 (by decide))).trans (at9_v21_0 m ρ c)

theorem at16_v63_0 (c : Dev nD) : W16 m ρ c (Proc.devRef .tc main_v63_0) = KStats.colSum (r_main_v44 (argsK m c)) := by
  refine (W16_arr m ρ c 1).trans ((KStats.final10_1 (V15 m ρ) c).trans ?_)
  show KStats.colSum (W15 m ρ c (Proc.devRef .tc main_v21_0)) = _
  rw [at15_v21_0]

theorem at16_v63_1 (c : Dev nD) : W16 m ρ c (Proc.devRef .tc main_v63_1) = KStats.colSumSq (r_main_v44 (argsK m c)) := by
  refine (W16_arr m ρ c 2).trans ((KStats.final10_2 (V15 m ρ) c).trans ?_)
  show KStats.colSumSq (W15 m ρ c (Proc.devRef .tc main_v21_0)) = _
  rw [at15_v21_0]

set_option maxHeartbeats 4000000 in
theorem at17_v65 (c : Dev nD) : W17 m ρ c (Proc.devRef .tc main_v65) = muK 800000 (Ideal.ofBits .f32 0x49435000#32) (r_main_v44 (argsK m c)) := by
  show StableHlo.after hostOps11 (W16 m ρ c) (Proc.devRef .tc main_v65) = _
  after_results
  rw [at16_v63_0]
  funext i; rfl

set_option maxHeartbeats 4000000 in
theorem at17_v69 (c : Dev nD) : W17 m ρ c (Proc.devRef .tc main_v69) = vaK 800000 (Ideal.ofBits .f32 0x49435000#32) (r_main_v44 (argsK m c)) := by
  show StableHlo.after hostOps11 (W16 m ρ c) (Proc.devRef .tc main_v69) = _
  after_results
  rw [at16_v63_1, at16_v63_0]
  funext i; rfl

theorem at17_v21_0 (c : Dev nD) : W17 m ρ c (Proc.devRef .tc main_v21_0) = r_main_v44 (argsK m c) :=
  (((((((((KB.keep11 (W16 m ρ c) main_v21_0 (by decide))).trans ((W16_arr m ρ c 0).trans (((dat10 (V15 m ρ) c).arrAt_in 0 rfl _).trans (A_eq10 (V15 m ρ) c 0)))).trans (W15_of_ne m ρ c main_v21_0 (by decide))).trans (KB.keep9 (W13 m ρ c) main_v21_0 (by decide))).trans (W13_of_ne m ρ c main_v21_0 (by decide))).trans (KB.keep8 (W11 m ρ c) main_v21_0 (by decide))).trans (W11_of_ne m ρ c main_v21_0 (by decide))).trans (KB.keep7 (W9 m ρ c) main_v21_0 (by decide))).trans (at9_v21_0 m ρ c)

theorem arg17_21 (c : Dev nD) : W17 m ρ c (Proc.devRef .tc main_arg21) = (argsK m c).a21 :=
  ((((((((((((((((((KB.keep11 (W16 m ρ c) main_arg21 (by decide))).trans (W16_of_ne m ρ c main_arg21 (by decide))).trans (W15_of_ne m ρ c main_arg21 (by decide))).trans (KB.keep9 (W13 m ρ c) main_arg21 (by decide))).trans (W13_of_ne m ρ c main_arg21 (by decide))).trans (KB.keep8 (W11 m ρ c) main_arg21 (by decide))).trans (W11_of_ne m ρ c main_arg21 (by decide))).trans (KB.keep7 (W9 m ρ c) main_arg21 (by decide))).trans (W9_of_ne m ρ c main_arg21 (by decide))).trans (KB.keep6 (W7 m ρ c) main_arg21 (by decide))).trans (W7_of_ne m ρ c main_arg21 (by decide))).trans (W6_of_ne m ρ c main_arg21 (by decide))).trans (W5_of_ne m ρ c main_arg21 (by decide))).trans (W4_of_ne m ρ c main_arg21 (by decide))).trans (W3_of_ne m ρ c main_arg21 (by decide))).trans (W2_of_ne m ρ c main_arg21 (by decide))).trans (KB.keep0 (W0 m ρ c) main_arg21 (by decide))).trans rfl

theorem arg17_22 (c : Dev nD) : W17 m ρ c (Proc.devRef .tc main_arg22) = (argsK m c).a22 :=
  ((((((((((((((((((KB.keep11 (W16 m ρ c) main_arg22 (by decide))).trans (W16_of_ne m ρ c main_arg22 (by decide))).trans (W15_of_ne m ρ c main_arg22 (by decide))).trans (KB.keep9 (W13 m ρ c) main_arg22 (by decide))).trans (W13_of_ne m ρ c main_arg22 (by decide))).trans (KB.keep8 (W11 m ρ c) main_arg22 (by decide))).trans (W11_of_ne m ρ c main_arg22 (by decide))).trans (KB.keep7 (W9 m ρ c) main_arg22 (by decide))).trans (W9_of_ne m ρ c main_arg22 (by decide))).trans (KB.keep6 (W7 m ρ c) main_arg22 (by decide))).trans (W7_of_ne m ρ c main_arg22 (by decide))).trans (W6_of_ne m ρ c main_arg22 (by decide))).trans (W5_of_ne m ρ c main_arg22 (by decide))).trans (W4_of_ne m ρ c main_arg22 (by decide))).trans (W3_of_ne m ρ c main_arg22 (by decide))).trans (W2_of_ne m ρ c main_arg22 (by decide))).trans (KB.keep0 (W0 m ρ c) main_arg22 (by decide))).trans rfl

set_option maxHeartbeats 4000000 in
theorem at18_v70 (c : Dev nD) (hA : Args.Real (argsK m c)) : W18 m ρ c (Proc.devRef .tc main_v70) = r_main_v127 (argsK m c) := by
  refine (W18_arr m ρ c 5).trans ((final11_5 (V17 m ρ) c).trans ?_)
  show normI (W17 m ρ c (Proc.devRef .tc main_v21_0)) (W17 m ρ c (Proc.devRef .tc main_v65)) (W17 m ρ c (Proc.devRef .tc main_v69)) (W17 m ρ c (Proc.devRef .tc main_arg21)) (W17 m ρ c (Proc.devRef .tc main_arg22)) = _
  rw [at17_v21_0, at17_v65, at17_v69, arg17_21, arg17_22]
  rw [norm_v127, Cert.ReferenceIdeal.RefVar.mean2_eq, Cert.ReferenceIdeal.RefVar.var2_eq _ (Cert.ReferenceIdeal.RefFinite.hatEta_real _ hA)]
  rfl

theorem at19_v70 (c : Dev nD) (hA : Args.Real (argsK m c)) : W19 m ρ c (Proc.devRef .tc main_v70) = r_main_v127 (argsK m c) :=
  ((W19_of_ne m ρ c main_v70 (by decide))).trans (at18_v70 m ρ c hA)

end Cert.KernelIdeal.KChain

end
-- ==== Proof.lean ====
/-
  The certificate of a gated graph-convolution layer with positional features: 50000 nodes, 800000 edges, 64 features.

  Both programs compute, from node features h, edge features e, positional features p and the two endpoint tables:
  six linear layers of [h | p], h and p; the edge gate  B1h[src] + B2h[dst] + (e·W + b)  and its logistic; the gate sums
  per destination node, gathered back along the edges; the normalized gate  sigma / (sum + 1e-6)  times the gathered
  rows, summed per destination node and added to two of the linear layers; then a batch normalization cut at zero of the
  first sum and of the edge gate, and the hyperbolic tangent of the second sum.

  The kernel runs the linear layers, the gate, the normalized products, the statistics and the normalizations as thirteen
  pipelined regions over blocks of rows, with the gathers and per-node sums between them on the host, exactly as the
  reference spells them. Over the extended reals each region's output array is one element-by-element function of its
  input arrays (a narrowing to sixteen bits is the identity, a blockwise matrix product is the whole one, the logistic
  is 1 / (1 + exp(−x)) on both sides), so every buffer of the kernel is, boundary by boundary, a stage of the reference.
  The one law that is not a respelling is the variance: the kernel takes the mean of the squares minus the square of the
  mean, the reference the mean of the squared deviations from the mean. They agree when every entry is a real number,
  which holds because the inputs are finite: sums and products of reals are real, a gathered entry is an entry, the
  logistic of a real is a positive real, and the gate's denominator is a sum of positive reals plus a positive literal,
  hence not zero.

  The three frames are the generated frame runs of the two kernel programs and the reference's straight line of host
  operations read back; the ideal pass rewrote nothing, so the fourth conjunct is trivial.
-/
import proofs.«146130_j46961172414535_2_alg».proof.Defs
import proofs.«146130_j46961172414535_2_alg».proof.Proof.Gen.Kernel
import proofs.«146130_j46961172414535_2_alg».proof.Proof.Gen.Kernel.Skeleton
import proofs.«146130_j46961172414535_2_alg».proof.Proof.Gen.Kernel.Launch
import proofs.«146130_j46961172414535_2_alg».proof.Proof.Gen.Kernel.Points
import proofs.«146130_j46961172414535_2_alg».proof.Proof.Gen.Kernel.Frame
import proofs.«146130_j46961172414535_2_alg».proof.Proof.Gen.KernelIdeal
import proofs.«146130_j46961172414535_2_alg».proof.Proof.Gen.KernelIdeal.Skeleton
import proofs.«146130_j46961172414535_2_alg».proof.Proof.Gen.KernelIdeal.Launch
import proofs.«146130_j46961172414535_2_alg».proof.Proof.Gen.KernelIdeal.Points
import proofs.«146130_j46961172414535_2_alg».proof.Proof.Gen.KernelIdeal.Frame
import proofs.«146130_j46961172414535_2_alg».proof.Proof.Gen.ReferenceIdeal
import proofs.«146130_j46961172414535_2_alg».proof.Proof.Gen.Pre_finite_inputs
import proofs.«146130_j46961172414535_2_alg».proof.Proof.Assemble
import proofs.«146130_j46961172414535_2_alg».proof.Proof.KChainB
import proofs.«146130_j46961172414535_2_alg».proof.Proof.RefOut
import Idealize.ShloMosaic.Adequacy
import Idealize.ShloMosaic.Init

noncomputable section

namespace Cert.Proof

open Idealize.ShloMosaic Idealize.SL.Sem

/-- The five conjuncts: the two kernel frames, the reference's frame, the empty ledger, and the equality of the three
    results over the extended reals from the kernel's buffers read boundary by boundary. -/
theorem claim : Cert.Claim := ⟨Cert.Kernel.Gen.facts, Cert.KernelIdeal.Gen.facts, Cert.ReferenceIdeal.Gen.facts, Cert.Pre_finite_inputs.Gen.facts,
  Cert.Proof.Assemble.frame_k, Cert.Proof.Assemble.frame_ki, Cert.ReferenceIdeal.RefOut.frame_ri, Cert.Proof.Assemble.preserves,
  Cert.Proof.Assemble.algebraic_of
    (fun m ρ c hA => Cert.KernelIdeal.KChain.at19_v62 m ρ c hA)
    (fun m ρ c hA => Cert.KernelIdeal.KChain.at19_v70 m ρ c hA)
    (fun m ρ c => Cert.KernelIdeal.KChain.at19_v71 m ρ c)⟩

end Cert.Proof

end
